-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x64x64 : Shape := ⟨4, ![4, 128, 64, 64]⟩
abbrev S128x128 : Shape := ⟨2, ![128, 128]⟩
abbrev S128 : Shape := ⟨1, ![128]⟩
abbrev S_ : Shape := ⟨0, ![]⟩

class Facts : Prop where
  bcast_S_S4x128x64x64 : S_.BroadcastsInDim S4x128x64x64 (![] : Fin 0 → Fin S4x128x64x64.rank)
  reducesTo_S4x128x64x64_S_d0_1_2_3 : S4x128x64x64.ReducesTo [0, 1, 2, 3] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S4x128x64x64 .f32) (main_arg1 : FVec F S128x128 .f32) (main_arg2 : FVec F S128 .f32) (main_arg3 : FVec F S128 .f32) (main_arg4 : FVec F S128 .f32) : IVec S_ 1 :=
  let main_v0 : FVec F S4x128x64x64 .f32 := Host.absf main_arg0
  let main_cst : FVec F S_ .f32 := constant S_ .f32 0x7F800000#32
  let main_v1 : FVec F S4x128x64x64 .f32 := broadcastInDim S4x128x64x64 ![] bcast_S_S4x128x64x64 main_cst
  let main_v2 : IVec S4x128x64x64 1 := cmpf .olt main_v0 main_v1
  let main_c : IVec S_ 1 := constantI S_ 1 1#1
  let main_v3 : IVec S_ 1 := (fun x v => Host.reduce IntOp.andi x v reducesTo_S4x128x64x64_S_d0_1_2_3 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S4x128x64x64 : Shape := ⟨4, ![4, 128, 64, 64]⟩
abbrev S128x128 : Shape := ⟨2, ![128, 128]⟩
abbrev S128 : Shape := ⟨1, ![128]⟩
abbrev S4x128x4096 : Shape := ⟨3, ![4, 128, 4096]⟩
abbrev S4x4096x128 : Shape := ⟨3, ![4, 4096, 128]⟩
abbrev S1x128 : Shape := ⟨2, ![1, 128]⟩
abbrev S1x4096x128 : Shape := ⟨3, ![1, 4096, 128]⟩
abbrev S1x128x128 : Shape := ⟨3, ![1, 128, 128]⟩
abbrev S4096x1 : Shape := ⟨2, ![4096, 1]⟩
abbrev S4096x128 : Shape := ⟨2, ![4096, 128]⟩
abbrev S4096 : Shape := ⟨1, ![4096]⟩
abbrev S128x1 : Shape := ⟨2, ![128, 1]⟩
abbrev S4x1x128 : Shape := ⟨3, ![4, 1, 128]⟩
abbrev S1x1x128 : Shape := ⟨3, ![1, 1, 128]⟩
abbrev S_ : Shape := ⟨0, ![]⟩
abbrev S1x128x1x1 : Shape := ⟨4, ![1, 128, 1, 1]⟩

abbrev nBuf : Space → Nat
  | .hbm => 53
  | .vmem => 20
  | .smem => 0
  | _ => 0

abbrev bufTy : (tb : Table) → Fin (tcTables nBuf tb) → BufTy
  | .hbm, ⟨0, _⟩ => ⟨S4x128x64x64, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S4x128x4096, .f32⟩
  | .hbm, ⟨6, _⟩ => ⟨S4x4096x128, .f32⟩
  | .hbm, ⟨7, _⟩ => ⟨S1x128, .f32⟩
  | .hbm, ⟨8, _⟩ => ⟨S4x4096x128, .f32⟩
  | .hbm, ⟨9, _⟩ => ⟨S4x4096x128, .f32⟩
  | .hbm, ⟨10, _⟩ => ⟨S4x1x128, .f32⟩
  | .hbm, ⟨11, _⟩ => ⟨S4x1x128, .f32⟩
  | .hbm, ⟨12, _⟩ => ⟨S_, .f32⟩
  | .hbm, ⟨13, _⟩ => ⟨S1x128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S_, .f32⟩
  | .hbm, ⟨19, _⟩ => ⟨S1x128, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S4x128x4096, .f32⟩
  | .hbm, ⟨27, _⟩ => ⟨S4x128x64x64, .f32⟩
  | .hbm, ⟨28, _⟩ => ⟨S1x128x1x1, .f32⟩
  | .hbm, ⟨29, _⟩ => ⟨S4x128x64x64, .f32⟩
  | .hbm, ⟨30, _⟩ => ⟨S4x128x64x64, .f32⟩
  | .hbm, ⟨31, _⟩ => ⟨S1x128x1x1, .f32⟩
  | .hbm, ⟨32, _⟩ => ⟨S_, .f32⟩
  | .hbm, ⟨33, _⟩ => ⟨S1x128x1x1, .f32⟩
  | .hbm, ⟨34, _⟩ => ⟨S1x128x1x1, .f32⟩
  | .hbm, ⟨35, _⟩ => ⟨S1x128x1x1, .f32⟩
  | .hbm, ⟨36, _⟩ => ⟨S4x128x64x64, .f32⟩
  | .hbm, ⟨37, _⟩ => ⟨S4x128x64x64, .f32⟩
  | .hbm, ⟨38, _⟩ => ⟨S1x128x1x1, .f32⟩
  | .hbm, ⟨39, _⟩ => ⟨S4x128x64x64, .f32⟩
  | .hbm, ⟨40, _⟩ => ⟨S4x128x64x64, .f32⟩
  | .hbm, ⟨41, _⟩ => ⟨S1x128x1x1, .f32⟩
  | .hbm, ⟨42, _⟩ => ⟨S4x128x64x64, .f32⟩
  | .hbm, ⟨43, _⟩ => ⟨S4x128x64x64, .f32⟩
  | .hbm, ⟨44, _⟩ => ⟨S4x128x64x64, .f32⟩
  | .hbm, ⟨45, _⟩ => ⟨S4x128x64x64, .f32⟩
  | .hbm, ⟨46, _⟩ => ⟨S_, .f32⟩
  | .hbm, ⟨47, _⟩ => ⟨S4x128x64x64, .f32⟩
  | .hbm, ⟨48, _⟩ => ⟨S4x128x64x64, .f32⟩
  | .hbm, ⟨49, _⟩ => ⟨S_, .f32⟩
  | .hbm, ⟨50, _⟩ => ⟨S4x128x64x64, .f32⟩
  | .hbm, ⟨51, _⟩ => ⟨S4x128x64x64, .f32⟩
  | .hbm, ⟨52, _⟩ => ⟨S4x128x64x64, .f32⟩
  | .local _ .vmem, ⟨0, _⟩ => ⟨S1x4096x128, .f32⟩
  | .local _ .vmem, ⟨1, _⟩ => ⟨S1x128x128, .f32⟩
  | .local _ .vmem, ⟨2, _⟩ => ⟨S1x128x128, .f32⟩
  | .local _ .vmem, ⟨3, _⟩ => ⟨S128x128, .f32⟩
  | .local _ .vmem, ⟨4, _⟩ => ⟨S1x128, .f32⟩
  | .local _ .vmem, ⟨5, _⟩ => ⟨S1x4096x128, .f32⟩
  | .local _ .vmem, ⟨6, _⟩ => ⟨S1x4096x128, .f32⟩
  | .local _ .vmem, ⟨7, _⟩ => ⟨S4096x1, .f32⟩
  | .local _ .vmem, ⟨8, _⟩ => ⟨S1x4096x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x4096x128, .f32⟩
  | .local _ .vmem, ⟨14, _⟩ => ⟨S1x4096x128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S4096x1, .f32⟩
  | _, _ => ⟨S4x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 32], ![false, false]⟩

def k1_cond2 (i : grid1.Coords) : BitVec 1 :=
  let arg1 : BitVec 32 := BitVec.ofNat 32 (i 1).val
  let c31_i32 : BitVec 32 := 31#32
  let v44 : BitVec 1 := Scalar.cmpi .eq arg1 c31_i32
  let v45 : BitVec 32 := Scalar.extui v44
  let c0_i32_25 : BitVec 32 := 0#32
  let v46 : BitVec 1 := Scalar.cmpi .ne v45 c0_i32_25
  v46

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S1x4096x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  shapeCasts_S4x128x64x64_S4x128x4096 : S4x128x64x64.ShapeCasts S4x128x4096
  transposes_S4x128x4096_S4x4096x128_0_2_1 : S4x128x4096.Transposes [0, 2, 1] S4x4096x128
  shapeCasts_S128_S1x128 : S128.ShapeCasts S1x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  shapeCasts_S4096x128_S1x4096x128 : S4096x128.ShapeCasts S1x4096x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  reduces_S4096x128_S4096 : S4096x128.Reduces [1] S4096
  shapeCasts_S4096_S4096x1 : S4096.ShapeCasts S4096x1
  reduces_S128x128_S128 : S128x128.Reduces [1] S128
  shapeCasts_S128_S128x1 : S128.ShapeCasts S128x1
  transposes_S128x128_p1_0_S128x128 : S128x128.Transposes [1, 0] S128x128
  transposes_S128x1_p1_0_S1x128 : S128x1.Transposes [1, 0] S1x128
  broadcasts_S4096x1_S4096x128 : S4096x1.Broadcasts S4096x128
  broadcasts_S1x128_S4096x128 : S1x128.Broadcasts S4096x128
  natLt_1_32 : 1 < 32
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  reduces_S4096x128_S128 : S4096x128.Reduces [0] S128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  reducesTo_S4x1x128_S1x128_d0 : S4x1x128.ReducesTo [0] S1x128
  h_S_ : 0 < S_.numel
  shapeCasts_S1x128_S128 : S1x128.ShapeCasts S128
  bcast_S_S128 : S_.BroadcastsInDim S128 (![] : Fin 0 → Fin S128.rank)
  transposes_S4x4096x128_S4x128x4096_0_2_1 : S4x4096x128.Transposes [0, 2, 1] S4x128x4096
  shapeCasts_S4x128x4096_S4x128x64x64 : S4x128x4096.ShapeCasts S4x128x64x64
  bcast_S128_S1x128x1x1_1 : S128.BroadcastsInDim S1x128x1x1 (![1] : Fin 1 → Fin S1x128x1x1.rank)
  bcast_S1x128x1x1_S4x128x64x64_0_1_2_3 : S1x128x1x1.BroadcastsInDim S4x128x64x64 (![0, 1, 2, 3] : Fin 4 → Fin S4x128x64x64.rank)
  bcast_S_S1x128x1x1 : S_.BroadcastsInDim S1x128x1x1 (![] : Fin 0 → Fin S1x128x1x1.rank)
  bcast_S_S4x128x64x64 : S_.BroadcastsInDim S4x128x64x64 (![] : Fin 0 → Fin S4x128x64x64.rank)
  dot_S4096x128_S128x128_S4096x128_1_0_0_1_n_n_wf : DotDims.WF S4096x128 S128x128 S4096x128 [1] [0] [0] [1] [] []
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S4x4096x128.size a
  hwx0_0 : ∀ i : grid0.Coords, EltTy.bits .f32 = 32 ∨ (Rect.block (s := S4x4096x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S4x4096x128.size a
  hwx0_1 : ∀ i : grid0.Coords, EltTy.bits .f32 = 32 ∨ (Rect.block (s := S4x4096x128) S1x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096x128.size a ≤ S4x4096x128.size a
  hwx0_4 : ∀ i : grid0.Coords, EltTy.bits .f32 = 32 ∨ (Rect.block (s := S4x4096x128) S1x4096x128.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x4096x128.size a ≤ S4x4096x128.size a
  hwx1_0 : ∀ i : grid1.Coords, EltTy.bits .f32 = 32 ∨ (Rect.block (s := S4x4096x128) S1x4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x128.size a ≤ S4x4096x128.size a
  hwx1_1 : ∀ i : grid1.Coords, EltTy.bits .f32 = 32 ∨ (Rect.block (s := S4x4096x128) S1x128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x128.size a ≤ S4x4096x128.size a
  hwx1_2 : ∀ i : grid1.Coords, EltTy.bits .f32 = 32 ∨ (Rect.block (s := S4x4096x128) S1x128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4096x128.size a ≤ S4x4096x128.size a
  hwx1_3 : ∀ i : grid1.Coords, EltTy.bits .f32 = 32 ∨ (Rect.block (s := S4x4096x128) S1x4096x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x128.size a ≤ S4x1x128.size a
  hwx1_4 : ∀ i : grid1.Coords, EltTy.bits .f32 = 32 ∨ (Rect.block (s := S4x1x128) S1x1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x128.size a ≤ S4x1x128.size a
  hwx1_5 : ∀ i : grid1.Coords, EltTy.bits .f32 = 32 ∨ (Rect.block (s := S4x1x128) S1x1x128.size (cc1_transform_5 i) (hinb1_5 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_v1) S1x4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S1x4096x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4_0) S1x4096x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4_1) S1x1x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4_2) S1x1x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x128x64x64 : Shape := ⟨4, ![4, 128, 64, 64]⟩
abbrev S128x128 : Shape := ⟨2, ![128, 128]⟩
abbrev S128 : Shape := ⟨1, ![128]⟩
abbrev S4x128x4096 : Shape := ⟨3, ![4, 128, 4096]⟩
abbrev S4x4096x128 : Shape := ⟨3, ![4, 4096, 128]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S1x1x128 : Shape := ⟨3, ![1, 1, 128]⟩
abbrev S1x128x1x1 : Shape := ⟨4, ![1, 128, 1, 1]⟩

abbrev nBuf : Space → Nat
  | .hbm => 120
  | .vmem => 0
  | .smem => 0
  | _ => 0

abbrev bufTy : (tb : Table) → Fin (tcTables nBuf tb) → BufTy
  | .hbm, ⟨0, _⟩ => ⟨S4x128x64x64, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S4x128x4096, .f32⟩
  | .hbm, ⟨6, _⟩ => ⟨S4x4096x128, .f32⟩
  | .hbm, ⟨7, _⟩ => ⟨S4x4096x128, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S4x1x4096, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S_, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096x4096, .f32⟩
  | .hbm, ⟨22, _⟩ => ⟨S4x4096x4096, .f32⟩
  | .hbm, ⟨23, _⟩ => ⟨S4x4096x4096, .f32⟩
  | .hbm, ⟨24, _⟩ => ⟨S_, .f32⟩
  | .hbm, ⟨25, _⟩ => ⟨S4x4096x4096, .f32⟩
  | .hbm, ⟨26, _⟩ => ⟨S4x4096x4096, .i1⟩
  | .hbm, ⟨27, _⟩ => ⟨S4x4096x4096, .f32⟩
  | .hbm, ⟨28, _⟩ => ⟨S4x4096x128, .f32⟩
  | .hbm, ⟨29, _⟩ => ⟨S1x1x128, .f32⟩
  | .hbm, ⟨30, _⟩ => ⟨S4x4096x128, .f32⟩
  | .hbm, ⟨31, _⟩ => ⟨S4x4096x128, .f32⟩
  | .hbm, ⟨32, _⟩ => ⟨S_, .f32⟩
  | .hbm, ⟨33, _⟩ => ⟨S4x4096, .f32⟩
  | .hbm, ⟨34, _⟩ => ⟨S4x4096x128, .f32⟩
  | .hbm, ⟨35, _⟩ => ⟨S_, .f32⟩
  | .hbm, ⟨36, _⟩ => ⟨S4x4096, .f32⟩
  | .hbm, ⟨37, _⟩ => ⟨S4x4096, .i1⟩
  | .hbm, ⟨38, _⟩ => ⟨S_, .f32⟩
  | .hbm, ⟨39, _⟩ => ⟨S4x4096, .f32⟩
  | .hbm, ⟨40, _⟩ => ⟨S4x4096, .f32⟩
  | .hbm, ⟨41, _⟩ => ⟨S_, .f32⟩
  | .hbm, ⟨42, _⟩ => ⟨S_, .f32⟩
  | .hbm, ⟨43, _⟩ => ⟨S4x4096, .f32⟩
  | .hbm, ⟨44, _⟩ => ⟨S4x4096, .f32⟩
  | .hbm, ⟨45, _⟩ => ⟨S4x4096x1, .f32⟩
  | .hbm, ⟨46, _⟩ => ⟨S4x4096x128, .f32⟩
  | .hbm, ⟨47, _⟩ => ⟨S4x4096x128, .f32⟩
  | .hbm, ⟨48, _⟩ => ⟨S_, .f32⟩
  | .hbm, ⟨49, _⟩ => ⟨S4x4096, .f32⟩
  | .hbm, ⟨50, _⟩ => ⟨S4x4096x128, .f32⟩
  | .hbm, ⟨51, _⟩ => ⟨S_, .f32⟩
  | .hbm, ⟨52, _⟩ => ⟨S4x4096, .f32⟩
  | .hbm, ⟨53, _⟩ => ⟨S4x4096, .i1⟩
  | .hbm, ⟨54, _⟩ => ⟨S_, .f32⟩
  | .hbm, ⟨55, _⟩ => ⟨S4x4096, .f32⟩
  | .hbm, ⟨56, _⟩ => ⟨S4x4096, .f32⟩
  | .hbm, ⟨57, _⟩ => ⟨S_, .f32⟩
  | .hbm, ⟨58, _⟩ => ⟨S_, .f32⟩
  | .hbm, ⟨59, _⟩ => ⟨S4x4096, .f32⟩
  | .hbm, ⟨60, _⟩ => ⟨S4x4096, .f32⟩
  | .hbm, ⟨61, _⟩ => ⟨S4x4096x1, .f32⟩
  | .hbm, ⟨62, _⟩ => ⟨S4x4096x128, .f32⟩
  | .hbm, ⟨63, _⟩ => ⟨S4x4096x128, .f32⟩
  | .hbm, ⟨64, _⟩ => ⟨S4x4096x128, .f32⟩
  | .hbm, ⟨65, _⟩ => ⟨S4x128x4096, .f32⟩
  | .hbm, ⟨66, _⟩ => ⟨S4x128x64x64, .f32⟩
  | .hbm, ⟨67, _⟩ => ⟨S_, .f32⟩
  | .hbm, ⟨68, _⟩ => ⟨S128, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S_, .i32⟩
  | .hbm, ⟨73, _⟩ => ⟨S_, .f32⟩
  | .hbm, ⟨74, _⟩ => ⟨S128, .f32⟩
  | .hbm, ⟨75, _⟩ => ⟨S1x128x1x1, .f32⟩
  | .hbm, ⟨76, _⟩ => ⟨S_, .f32⟩
  | .hbm, ⟨77, _⟩ => ⟨S1x128x1x1, .f32⟩
  | .hbm, ⟨78, _⟩ => ⟨S1x128x1x1, .f32⟩
  | .hbm, ⟨79, _⟩ => ⟨S4x128x64x64, .f32⟩
  | .hbm, ⟨80, _⟩ => ⟨S4x128x64x64, .f32⟩
  | .hbm, ⟨81, _⟩ => ⟨S4x128x64x64, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S128, .f32⟩
  | .hbm, ⟨89, _⟩ => ⟨S_, .f32⟩
  | .hbm, ⟨90, _⟩ => ⟨S_, .i1⟩
  | .hbm, ⟨91, _⟩ => ⟨S_, .f32⟩
  | .hbm, ⟨92, _⟩ => ⟨S_, .f32⟩
  | .hbm, ⟨93, _⟩ => ⟨S128, .f32⟩
  | .hbm, ⟨94, _⟩ => ⟨S128, .f32⟩
  | .hbm, ⟨95, _⟩ => ⟨S1x128x1x1, .f32⟩
  | .hbm, ⟨96, _⟩ => ⟨S4x128x64x64, .f32⟩
  | .hbm, ⟨97, _⟩ => ⟨S4x128x64x64, .f32⟩
  | .hbm, ⟨98, _⟩ => ⟨S1x128x1x1, .f32⟩
  | .hbm, ⟨99, _⟩ => ⟨S_, .f32⟩
  | .hbm, ⟨100, _⟩ => ⟨S1x128x1x1, .f32⟩
  | .hbm, ⟨101, _⟩ => ⟨S1x128x1x1, .f32⟩
  | .hbm, ⟨102, _⟩ => ⟨S1x128x1x1, .f32⟩
  | .hbm, ⟨103, _⟩ => ⟨S4x128x64x64, .f32⟩
  | .hbm, ⟨104, _⟩ => ⟨S4x128x64x64, .f32⟩
  | .hbm, ⟨105, _⟩ => ⟨S1x128x1x1, .f32⟩
  | .hbm, ⟨106, _⟩ => ⟨S4x128x64x64, .f32⟩
  | .hbm, ⟨107, _⟩ => ⟨S4x128x64x64, .f32⟩
  | .hbm, ⟨108, _⟩ => ⟨S1x128x1x1, .f32⟩
  | .hbm, ⟨109, _⟩ => ⟨S4x128x64x64, .f32⟩
  | .hbm, ⟨110, _⟩ => ⟨S4x128x64x64, .f32⟩
  | .hbm, ⟨111, _⟩ => ⟨S4x128x64x64, .f32⟩
  | .hbm, ⟨112, _⟩ => ⟨S4x128x64x64, .f32⟩
  | .hbm, ⟨113, _⟩ => ⟨S_, .f32⟩
  | .hbm, ⟨114, _⟩ => ⟨S4x128x64x64, .f32⟩
  | .hbm, ⟨115, _⟩ => ⟨S4x128x64x64, .f32⟩
  | .hbm, ⟨116, _⟩ => ⟨S_, .f32⟩
  | .hbm, ⟨117, _⟩ => ⟨S4x128x64x64, .f32⟩
  | .hbm, ⟨118, _⟩ => ⟨S4x128x64x64, .f32⟩
  | .hbm, ⟨119, _⟩ => ⟨S4x128x64x64, .f32⟩
  | _, _ => ⟨S4x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_call0_v0 : Ref sig .tc := ⟨.hbm, 42, rfl⟩
abbrev main_call0_v1 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_call1_v0 : Ref sig .tc := ⟨.hbm, 58, rfl⟩
abbrev main_call1_v1 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_cst_12 : Ref sig .tc := ⟨.hbm, 69, rfl⟩
abbrev main_v47 : Ref sig .tc := ⟨.hbm, 70, rfl⟩
abbrev main_v48 : Ref sig .tc := ⟨.hbm, 71, rfl⟩
abbrev main_c : Ref sig .tc := ⟨.hbm, 72, rfl⟩
abbrev main_call2_cst : Ref sig .tc := ⟨.hbm, 73, rfl⟩
abbrev main_call2_v0 : Ref sig .tc := ⟨.hbm, 74, rfl⟩
abbrev main_call2_v1 : Ref sig .tc := ⟨.hbm, 75, rfl⟩
abbrev main_call2_cst_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_cst_1 : Ref sig .tc := ⟨.hbm, 83, rfl⟩
abbrev main_call2_v8 : Ref sig .tc := ⟨.hbm, 84, rfl⟩
abbrev main_call2_cst_2 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_cst_3 : Ref sig .tc := ⟨.hbm, 89, rfl⟩
abbrev main_call2_v12 : Ref sig .tc := ⟨.hbm, 90, rfl⟩
abbrev main_call2_cst_4 : Ref sig .tc := ⟨.hbm, 91, rfl⟩
abbrev main_call2_call0_v0 : Ref sig .tc := ⟨.hbm, 92, rfl⟩
abbrev main_call2_call0_v1 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_cst_13 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_cst_14 : Ref sig .tc := ⟨.hbm, 113, rfl⟩
abbrev main_v67 : Ref sig .tc := ⟨.hbm, 114, rfl⟩
abbrev main_v68 : Ref sig .tc := ⟨.hbm, 115, rfl⟩
abbrev main_cst_15 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩

abbrev nD : Nat := 1
abbrev τ : Topo := Topo.v7x

variable {F : FTy → Type} [FloatOps F]

class Facts₀ : Prop where
  shapeCasts_S4x128x64x64_S4x128x4096 : S4x128x64x64.ShapeCasts S4x128x4096
  transposes_S4x128x4096_S4x4096x128_0_2_1 : S4x128x4096.Transposes [0, 2, 1] S4x4096x128
  reducesTo_S4x4096x128_S4x4096_d2 : S4x4096x128.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  bcast_S128_S1x1x128_2 : S128.BroadcastsInDim S1x1x128 (![2] : Fin 1 → Fin S1x1x128.rank)
  bcast_S1x1x128_S4x4096x128_0_1_2 : S1x1x128.BroadcastsInDim S4x4096x128 (![0, 1, 2] : Fin 3 → Fin S4x4096x128.rank)
  reducesTo_S4x4096x4096_S4x4096_d1 : S4x4096x4096.ReducesTo [1] S4x4096
  bcast_S_S4x4096 : S_.BroadcastsInDim S4x4096 (![] : Fin 0 → Fin S4x4096.rank)
  bcast_S4x4096x1_S4x4096x128_0_1_2 : S4x4096x1.BroadcastsInDim S4x4096x128 (![0, 1, 2] : Fin 3 → Fin S4x4096x128.rank)
  reducesTo_S4x4096x4096_S4x4096_d2 : S4x4096x4096.ReducesTo [2] S4x4096
  transposes_S4x4096x128_S4x128x4096_0_2_1 : S4x4096x128.Transposes [0, 2, 1] S4x128x4096
  shapeCasts_S4x128x4096_S4x128x64x64 : S4x128x4096.ShapeCasts S4x128x64x64
  reducesTo_S4x128x64x64_S128_d0_2_3 : S4x128x64x64.ReducesTo [0, 2, 3] S128
  bcast_S_S128 : S_.BroadcastsInDim S128 (![] : Fin 0 → Fin S128.rank)
  bcast_S128_S1x128x1x1_1 : S128.BroadcastsInDim S1x128x1x1 (![1] : Fin 1 → Fin S1x128x1x1.rank)
  bcast_S_S1x128x1x1 : S_.BroadcastsInDim S1x128x1x1 (![] : Fin 0 → Fin S1x128x1x1.rank)
  bcast_S1x128x1x1_S4x128x64x64_0_1_2_3 : S1x128x1x1.BroadcastsInDim S4x128x64x64 (![0, 1, 2, 3] : Fin 4 → Fin S4x128x64x64.rank)
  bcast_S_S4x128x64x64 : S_.BroadcastsInDim S4x128x64x64 (![] : Fin 0 → Fin S4x128x64x64.rank)
  dot_S4x4096x128_S4x4096x128_S4x4096x4096_2_2_1_1_0_0_wf : DotDims.WF S4x4096x128 S4x4096x128 S4x4096x4096 [2] [2] [1] [1] [0] [0]
  dot_S4x4096x128_S128x128_S4x4096x128_2_1_01_0_n_n_wf : DotDims.WF S4x4096x128 S128x128 S4x4096x128 [2] [1] [0, 1] [0] [] []
  dot_S4x4096x4096_S4x4096x128_S4x4096x128_1_1_2_2_0_0_wf : DotDims.WF S4x4096x4096 S4x4096x128 S4x4096x128 [1] [1] [2] [2] [0] [0]
  dot_S4x4096x4096_S4x4096x128_S4x4096x128_2_1_1_2_0_0_wf : DotDims.WF S4x4096x4096 S4x4096x128 S4x4096x128 [2] [1] [1] [2] [0] [0]

variable [Facts₀]

def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x128_S128x128_S4x4096x128_2_1_01_0_n_n : DotDims S4x4096x128 S128x128 S4x4096x128 where
  lhsContracting := [2]
  rhsContracting := [1]
  lhsNonContracting := [0, 1]
  rhsNonContracting := [0]
  lhsBatch := []
  rhsBatch := []
  wf := dot_S4x4096x128_S128x128_S4x4096x128_2_1_01_0_n_n_wf
def dot_S4x4096x4096_S4x4096x128_S4x4096x128_1_1_2_2_0_0 : DotDims S4x4096x4096 S4x4096x128 S4x4096x128 where
  lhsContracting := [1]
  rhsContracting := [1]
  lhsNonContracting := [2]
  rhsNonContracting := [2]
  lhsBatch := [0]
  rhsBatch := [0]
  wf := dot_S4x4096x4096_S4x4096x128_S4x4096x128_1_1_2_2_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.WEdgeSetup.lean ====
/-
  The edge pass (first kernel region): vertex-to-hyperedge aggregation. Grid point (b, j) handles batch b and the
  j-th tile of 128 columns of the incidence matrix. The body resets its two accumulators (the output block, one
  whole batch of 4096 x 128 sums, and a scratch column of 4096 row degrees) when j = 0, adds tile j's contribution
  at every j, and at j = 31 scales each row of the output block by the reciprocal of its degree.
  This module fixes what the three control cases are (first tile / inner tile / last tile) as closed forms over the
  linear point number, names the staging memrefs the pipeline passes at a point, and splits the scratch column out
  of the region's scoped rest.
-/
import proofs.«147048_j80771154968988_2_alg».proof.Proof.Gen.Kernel.Launch
import proofs.«147048_j80771154968988_2_alg».proof.Proof.Gen.Kernel.Skeleton
import proofs.«147048_j80771154968988_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the column-tile coordinate -/

/-- The reset branch's condition: the column-tile coordinate is 0. -/
abbrev isFirst (i : grid0.Coords) : Prop :=
  (Scalar.cmpi .ne (Scalar.extui (Scalar.cmpi .eq (BitVec.ofNat 32 (i 1).val) 0#32)) 0#32) = 1#1
/-- The normalising branch's condition: the column-tile coordinate is 31, the last. -/
abbrev isLast (i : grid0.Coords) : Prop :=
  (Scalar.cmpi .ne (Scalar.extui (Scalar.cmpi .eq (BitVec.ofNat 32 (i 1).val) 31#32)) 0#32) = 1#1

/-- Point t = 32 b + j resets exactly when j = 0. -/
theorem isFirst_iff : ∀ t : Fin cfg0.N, isFirst (grid0.coords t) ↔ t.val % 32 = 0 :=
  (by decide +kernel : ∀ t : Fin grid0.N, isFirst (grid0.coords t) ↔ t.val % 32 = 0)
/-- Point t = 32 b + j normalises exactly when j = 31. -/
theorem isLast_iff : ∀ t : Fin cfg0.N, isLast (grid0.coords t) ↔ t.val % 32 = 31 :=
  (by decide +kernel : ∀ t : Fin grid0.N, isLast (grid0.coords t) ↔ t.val % 32 = 31)

/-! ## The memrefs the body is called with at a point -/

abbrev mRow (t : Fin cfg0.N) : Memref sig .tc .vmem S1x4096x128 .f32 := win0_0.stage (cfg0.slots t 0)
abbrev hRow (t : Fin cfg0.N) : (mRow t).IsWhole := hstage0_0 ((cfg0.slots t 0).cast nbuf0_0)
abbrev mCol (t : Fin cfg0.N) : Memref sig .tc .vmem S1x128x128 .f32 := win0_1.stage (cfg0.slots t 1)
abbrev hCol (t : Fin cfg0.N) : (mCol t).IsWhole := hstage0_1 ((cfg0.slots t 1).cast nbuf0_1)
abbrev mW (t : Fin cfg0.N) : Memref sig .tc .vmem S128x128 .f32 := win0_2.stage (cfg0.slots t 2)
abbrev hW (t : Fin cfg0.N) : (mW t).IsWhole := hstage0_2 ((cfg0.slots t 2).cast nbuf0_2)
abbrev mBias (t : Fin cfg0.N) : Memref sig .tc .vmem S1x128 .f32 := win0_3.stage (cfg0.slots t 3)
abbrev hBias (t : Fin cfg0.N) : (mBias t).IsWhole := hstage0_3 ((cfg0.slots t 3).cast nbuf0_3)
abbrev mOut (t : Fin cfg0.N) : Memref sig .tc .vmem S1x4096x128 .f32 := win0_4.stage (cfg0.slots t 4)
abbrev hOut (t : Fin cfg0.N) : (mOut t).IsWhole := hstage0_4 ((cfg0.slots t 4).cast nbuf0_4)
/-- The degree column: a scoped buffer of the kernel's own, kept from one point to the next. -/
abbrev mDeg : Memref sig .tc .vmem S4096x1 .f32 := Memref.whole cc0_scratch0
abbrev hDeg : (mDeg).IsWhole := Memref.isWhole_whole _

/-! ## The degree column among the region's scoped rest -/

/-- The scoped buffers that are neither a staging buffer of this region nor the degree column, each whole at some
    contents: they ride through the region untouched. -/
def otherScoped (c : Dev nD) : sProp 𝕄 :=
  bigSep (((Finset.univ.filter fun b : Ref sig .tc => b.isScoped) \ Finset.univ.image (Pipeline.stageRef spec0)).erase cc0_scratch0)
    fun b => iprop(∃ f : Buf (Elt F) ((c.tc : Thread nD τ).loc b), ((c.tc : Thread nD τ).loc b) ↦{fullShare} f)

theorem scratch_mem : cc0_scratch0 ∈ ((Finset.univ.filter fun b : Ref sig .tc => b.isScoped) \ Finset.univ.image (Pipeline.stageRef spec0)) := by decide

/-- The region's scoped rest is the degree column at some contents beside the others. -/
theorem scopedRest_split (c : Dev nD) :
    (Pipeline.scopedRest (Ix := Unit) (Name := ℕ) (U := UR sig nD τ) (Lvl := ℕ) (Val := Elt F) spec0 c : sProp 𝕄)
      = iprop((∃ d, owns (c : Thread nD τ) mDeg fullShare d) ∗ otherScoped c) := by
  unfold Pipeline.scopedRest otherScoped
  rw [BI.bigSep_erase scratch_mem]
  simp only [mDeg, owns_whole]
  rfl

end Cert.Kernel.Edge

end
-- ==== Proof.WEdgeRunFirst.lean ====
/-
  The edge kernel's body at a FIRST column tile (j = 0): both accumulators are reset before tile 0's contribution is
  added, so what the output block and the degree column held before does not matter. The run is by symbolic
  execution of the body's skeleton; the pieces each buffer ends with are what that execution finds.
-/
import proofs.«147048_j80771154968988_2_alg».proof.Proof.WEdgeSetup

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the output block and in the degree column at a first tile (last store first), with
    the body's triple: inputs at their blocks, both accumulators at anything. -/
noncomputable def runFirst (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : isFirst i) (hl : ¬ isLast i)
    (x0 : Vec F S1x4096x128 .f32) (x1 : Vec F S1x128x128 .f32) (x2 : Vec F S128x128 .f32) (x3 : Vec F S1x128 .f32) :
    Σ' (LOut : List (View.Piece (Elt F) S1x4096x128 .f32)), { LDeg : List (View.Piece (Elt F) S4096x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LOut)
                ∗ (∃ f, arg7.view.loc (c : Thread nD τ) ↦[arg7.view.set]{fullShare} arg7.view.writes (Elt F) f LDeg)) -∗ K ⟨⟩))
          ⊢ wp frame (wpE (defs₀ (F := F)) Variants.none c none) E (cc0__edge_kernel i arg2 harg2 arg3 harg3 arg4 harg4 arg5 harg5 arg6 harg6 arg7 harg7) K } := by
  refine ⟨?_, ?_, fun E K => ?run⟩
  case run =>
    simp only [cc0__edge_kernel_eq_skeleton]; unfold cc0__edge_kernel_skel
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; iexact H6
    iexists _; iexact H7

end Cert.Kernel.Edge

end
-- ==== Proof.WEdgeRunMid.lean ====
/-
  The edge kernel's body at an INNER column tile (0 < j < 31): neither branch is taken; tile j's contribution is added to
  the running sums in the output block and to the running degrees in the scratch column.
-/
import proofs.«147048_j80771154968988_2_alg».proof.Proof.WEdgeRunFirst

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the output block and in the degree column at an inner tile (last store first), with the
    body's triple: inputs at their blocks, the output block at the running sums `a` and the degree column at the
    running degrees `s` the point before left. -/
noncomputable def runMid (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : ¬ isFirst i) (hl : ¬ isLast i)
    (x0 : Vec F S1x4096x128 .f32) (x1 : Vec F S1x128x128 .f32) (x2 : Vec F S128x128 .f32) (x3 : Vec F S1x128 .f32)
    (a : Vec F S1x4096x128 .f32) (s : Vec F S4096x1 .f32) :
    Σ' (LOut : List (View.Piece (Elt F) S1x4096x128 .f32)), { LDeg : List (View.Piece (Elt F) S4096x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare a ∗ owns (c : Thread nD τ) arg7 fullShare s
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LOut)
                ∗ (∃ f, arg7.view.loc (c : Thread nD τ) ↦[arg7.view.set]{fullShare} arg7.view.writes (Elt F) f LDeg)) -∗ K ⟨⟩))
          ⊢ wp frame (wpE (defs₀ (F := F)) Variants.none c none) E (cc0__edge_kernel i arg2 harg2 arg3 harg3 arg4 harg4 arg5 harg5 arg6 harg6 arg7 harg7) K } := by
  refine ⟨?_, ?_, fun E K => ?run⟩
  case run =>
    simp only [cc0__edge_kernel_eq_skeleton]; unfold cc0__edge_kernel_skel
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3
    obtain rfl := harg6.eq_unread hf6; obtain rfl := harg7.eq_unread hf7
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; iexact H6
    iexists _; iexact H7

end Cert.Kernel.Edge

end
-- ==== Proof.WEdgeRunLast.lean ====
/-
  The edge kernel's body at the LAST column tile (j = 31): tile 31's contribution is added and then every row of the
  output block is scaled by the reciprocal of that row's degree (zero where the degree is zero).
-/
import proofs.«147048_j80771154968988_2_alg».proof.Proof.WEdgeRunMid

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the output block and in the degree column at the last tile (last store first), with the
    body's triple: inputs at their blocks, the output block at the running sums `a` and the degree column at the
    running degrees `s` the point before left. -/
noncomputable def runLast (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : ¬ isFirst i) (hl : isLast i)
    (x0 : Vec F S1x4096x128 .f32) (x1 : Vec F S1x128x128 .f32) (x2 : Vec F S128x128 .f32) (x3 : Vec F S1x128 .f32)
    (a : Vec F S1x4096x128 .f32) (s : Vec F S4096x1 .f32) :
    Σ' (LOut : List (View.Piece (Elt F) S1x4096x128 .f32)), { LDeg : List (View.Piece (Elt F) S4096x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare a ∗ owns (c : Thread nD τ) arg7 fullShare s
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LOut)
                ∗ (∃ f, arg7.view.loc (c : Thread nD τ) ↦[arg7.view.set]{fullShare} arg7.view.writes (Elt F) f LDeg)) -∗ K ⟨⟩))
          ⊢ wp frame (wpE (defs₀ (F := F)) Variants.none c none) E (cc0__edge_kernel i arg2 harg2 arg3 harg3 arg4 harg4 arg5 harg5 arg6 harg6 arg7 harg7) K } := by
  refine ⟨?_, ?_, fun E K => ?run⟩
  case run =>
    simp only [cc0__edge_kernel_eq_skeleton]; unfold cc0__edge_kernel_skel
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3
    obtain rfl := harg6.eq_unread hf6; obtain rfl := harg7.eq_unread hf7
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; iexact H6
    iexists _; iexact H7

end Cert.Kernel.Edge

end
-- ==== Proof.WEdgePieces.lean ====
/-
  What the edge kernel's body leaves in its two accumulators, case by case, as the body's own arithmetic applied to
  the blocks it was handed: the degree column is always "old degrees + row sums of tile j's incidence block"
  (from zero at a first tile), the output block "old sums + incidence block times the tile's projected features"
  (from zero at a first tile), scaled row by row by the reciprocal degrees at the last tile. Each lemma reads the
  stores a run found back through the buffer: every such list ends with a store of the whole buffer, so the last
  store's value is what the buffer holds, and a load of a buffer just stored whole reads the stored value.
-/
import proofs.«147048_j80771154968988_2_alg».proof.Proof.WEdgeRunLast
import Idealize.ShloMosaic.Lib.Pipeline.Value

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz3 : (![0, 0, 0] : Fin 3 → ℕ) = fun _ => 0 := by funext a; fin_cases a <;> rfl
theorem hz2 : (![0, 0] : Fin 2 → ℕ) = fun _ => 0 := by funext a; fin_cases a <;> rfl

/-! ## One point's arithmetic -/

/-- The output block reset: all zeros. -/
def zeroAcc : Vec F S1x4096x128 .f32 := k0_pay3 (F := F)
/-- The degree column reset: all zeros. -/
def zeroDeg : Vec F S4096x1 .f32 := k0_pay4 (F := F)
/-- The degree column after a tile: the old degrees plus the row sums of the tile's incidence block (rows: the batch's
    4096 vertices `x0`; columns: the tile's 128 vertices `x1`). -/
def degStep (x0 : Vec F S1x4096x128 .f32) (x1 : Vec F S1x128x128 .f32) (s : Vec F S4096x1 .f32) : Vec F S4096x1 .f32 :=
  k0_pay7 x0 x1 s
/-- The output block after a tile: the old sums plus the tile's incidence block times the tile's projected features
    (`x1` through the linear layer `x2`, `x3`). -/
def accStep (x0 : Vec F S1x4096x128 .f32) (x1 : Vec F S1x128x128 .f32) (x2 : Vec F S128x128 .f32) (x3 : Vec F S1x128 .f32) (a : Vec F S1x4096x128 .f32) : Vec F S1x4096x128 .f32 :=
  k0_pay1 (k0_pay6 x0 x1) (k0_pay8 x2) (k0_pay9 x1) x3 a
/-- The last tile's scaling: each row of the sums times the reciprocal of its degree, zero where the degree is zero. -/
def normalise (s : Vec F S4096x1 .f32) (a : Vec F S1x4096x128 .f32) : Vec F S1x4096x128 .f32 := k0_pay2 s a

/-! ## The accumulators after each case -/

theorem first_deg_cover (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : isFirst i) (hl : ¬ isLast i) (x0 : Vec F S1x4096x128 .f32) (x1 : Vec F S1x128x128 .f32) (x2 : Vec F S128x128 .f32) (x3 : Vec F S1x128 .f32)  (y : S4096x1.Idx) :
    ∃ pc ∈ (runFirst c i arg2 harg2 arg3 harg3 arg4 harg4 arg5 harg5 arg6 harg6 arg7 harg7 hf hl x0 x1 x2 x3 ).2.1, y ∈ pc.1.set :=
  View.cover_of_tiledL _ S4096x1.size (by sl_kernel_rfl) y

/-- At a first tile the degree column ends at tile 0's row sums added to zero. -/
theorem first_deg (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : isFirst i) (hl : ¬ isLast i) (x0 : Vec F S1x4096x128 .f32) (x1 : Vec F S1x128x128 .f32) (x2 : Vec F S128x128 .f32) (x3 : Vec F S1x128 .f32)
    (v : View sig .tc .vmem S4096x1 .f32) (f : v.ty.Contents (Elt F)) :
    v.read (Elt F) (v.writes (Elt F) f (runFirst c i arg2 harg2 arg3 harg3 arg4 harg4 arg5 harg5 arg6 harg6 arg7 harg7 hf hl x0 x1 x2 x3 ).2.1)
      = degStep x0 x1 (zeroDeg (F := F)) := by
  rw [View.read_writes_eq_canon _ _ _ (first_deg_cover c i arg2 harg2 arg3 harg3 arg4 harg4 arg5 harg5 arg6 harg6 arg7 harg7 hf hl x0 x1 x2 x3 )]
  unfold runFirst; dsimp only
  sl_unfold_words
  simp only [View.readAt_eq_ld, harg2.read_unread, harg3.read_unread, harg4.read_unread, harg5.read_unread, harg6.read_unread, harg7.read_unread,
    View.ld_unit_zero (S := S1x4096x128) hz3, View.ld_unit_zero (S := S1x128x128) hz3, View.ld_unit_zero (S := S128x128) hz2,
    View.ld_unit_zero (S := S1x128) hz2, View.ld_unit_zero (S := S4096x1) hz2,
    View.readCov_unit_zero (S := S4096x1) _ hz2, View.readCov_unit_zero (S := S1x4096x128) _ hz3,
    View.canon_cons_unit_zero (S := S4096x1) hz2, View.canon_cons_unit_zero (S := S1x4096x128) hz3]
  rfl

theorem first_out_cover (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : isFirst i) (hl : ¬ isLast i) (x0 : Vec F S1x4096x128 .f32) (x1 : Vec F S1x128x128 .f32) (x2 : Vec F S128x128 .f32) (x3 : Vec F S1x128 .f32)  (y : S1x4096x128.Idx) :
    ∃ pc ∈ (runFirst c i arg2 harg2 arg3 harg3 arg4 harg4 arg5 harg5 arg6 harg6 arg7 harg7 hf hl x0 x1 x2 x3 ).1, y ∈ pc.1.set :=
  View.cover_of_tiledL _ S1x4096x128.size (by sl_kernel_rfl) y

/-- At a first tile the output block ends at tile 0's contribution added to zero. -/
theorem first_out (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : isFirst i) (hl : ¬ isLast i) (x0 : Vec F S1x4096x128 .f32) (x1 : Vec F S1x128x128 .f32) (x2 : Vec F S128x128 .f32) (x3 : Vec F S1x128 .f32)
    (v : View sig .tc .vmem S1x4096x128 .f32) (f : v.ty.Contents (Elt F)) :
    v.read (Elt F) (v.writes (Elt F) f (runFirst c i arg2 harg2 arg3 harg3 arg4 harg4 arg5 harg5 arg6 harg6 arg7 harg7 hf hl x0 x1 x2 x3 ).1)
      = accStep x0 x1 x2 x3 (zeroAcc (F := F)) := by
  rw [View.read_writes_eq_canon _ _ _ (first_out_cover c i arg2 harg2 arg3 harg3 arg4 harg4 arg5 harg5 arg6 harg6 arg7 harg7 hf hl x0 x1 x2 x3 )]
  unfold runFirst; dsimp only
  sl_unfold_words
  simp only [View.readAt_eq_ld, harg2.read_unread, harg3.read_unread, harg4.read_unread, harg5.read_unread, harg6.read_unread, harg7.read_unread,
    View.ld_unit_zero (S := S1x4096x128) hz3, View.ld_unit_zero (S := S1x128x128) hz3, View.ld_unit_zero (S := S128x128) hz2,
    View.ld_unit_zero (S := S1x128) hz2, View.ld_unit_zero (S := S4096x1) hz2,
    View.readCov_unit_zero (S := S4096x1) _ hz2, View.readCov_unit_zero (S := S1x4096x128) _ hz3,
    View.canon_cons_unit_zero (S := S4096x1) hz2, View.canon_cons_unit_zero (S := S1x4096x128) hz3]
  rfl

theorem mid_deg_cover (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : ¬ isFirst i) (hl : ¬ isLast i) (x0 : Vec F S1x4096x128 .f32) (x1 : Vec F S1x128x128 .f32) (x2 : Vec F S128x128 .f32) (x3 : Vec F S1x128 .f32) (a : Vec F S1x4096x128 .f32) (s : Vec F S4096x1 .f32) (y : S4096x1.Idx) :
    ∃ pc ∈ (runMid c i arg2 harg2 arg3 harg3 arg4 harg4 arg5 harg5 arg6 harg6 arg7 harg7 hf hl x0 x1 x2 x3 a s).2.1, y ∈ pc.1.set :=
  View.cover_of_tiledL _ S4096x1.size (by sl_kernel_rfl) y

/-- At an inner tile the degree column ends at the tile's row sums added to what it held. -/
theorem mid_deg (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : ¬ isFirst i) (hl : ¬ isLast i) (x0 : Vec F S1x4096x128 .f32) (x1 : Vec F S1x128x128 .f32) (x2 : Vec F S128x128 .f32) (x3 : Vec F S1x128 .f32) (a : Vec F S1x4096x128 .f32) (s : Vec F S4096x1 .f32)
    (v : View sig .tc .vmem S4096x1 .f32) (f : v.ty.Contents (Elt F)) :
    v.read (Elt F) (v.writes (Elt F) f (runMid c i arg2 harg2 arg3 harg3 arg4 harg4 arg5 harg5 arg6 harg6 arg7 harg7 hf hl x0 x1 x2 x3 a s).2.1)
      = degStep x0 x1 s := by
  rw [View.read_writes_eq_canon _ _ _ (mid_deg_cover c i arg2 harg2 arg3 harg3 arg4 harg4 arg5 harg5 arg6 harg6 arg7 harg7 hf hl x0 x1 x2 x3 a s)]
  unfold runMid; dsimp only
  sl_unfold_words
  simp only [View.readAt_eq_ld, harg2.read_unread, harg3.read_unread, harg4.read_unread, harg5.read_unread, harg6.read_unread, harg7.read_unread,
    View.ld_unit_zero (S := S1x4096x128) hz3, View.ld_unit_zero (S := S1x128x128) hz3, View.ld_unit_zero (S := S128x128) hz2,
    View.ld_unit_zero (S := S1x128) hz2, View.ld_unit_zero (S := S4096x1) hz2,
    View.readCov_unit_zero (S := S4096x1) _ hz2, View.readCov_unit_zero (S := S1x4096x128) _ hz3,
    View.canon_cons_unit_zero (S := S4096x1) hz2, View.canon_cons_unit_zero (S := S1x4096x128) hz3]
  rfl

theorem mid_out_cover (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : ¬ isFirst i) (hl : ¬ isLast i) (x0 : Vec F S1x4096x128 .f32) (x1 : Vec F S1x128x128 .f32) (x2 : Vec F S128x128 .f32) (x3 : Vec F S1x128 .f32) (a : Vec F S1x4096x128 .f32) (s : Vec F S4096x1 .f32) (y : S1x4096x128.Idx) :
    ∃ pc ∈ (runMid c i arg2 harg2 arg3 harg3 arg4 harg4 arg5 harg5 arg6 harg6 arg7 harg7 hf hl x0 x1 x2 x3 a s).1, y ∈ pc.1.set :=
  View.cover_of_tiledL _ S1x4096x128.size (by sl_kernel_rfl) y

/-- At an inner tile the output block ends at the tile's contribution added to what it held. -/
theorem mid_out (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : ¬ isFirst i) (hl : ¬ isLast i) (x0 : Vec F S1x4096x128 .f32) (x1 : Vec F S1x128x128 .f32) (x2 : Vec F S128x128 .f32) (x3 : Vec F S1x128 .f32) (a : Vec F S1x4096x128 .f32) (s : Vec F S4096x1 .f32)
    (v : View sig .tc .vmem S1x4096x128 .f32) (f : v.ty.Contents (Elt F)) :
    v.read (Elt F) (v.writes (Elt F) f (runMid c i arg2 harg2 arg3 harg3 arg4 harg4 arg5 harg5 arg6 harg6 arg7 harg7 hf hl x0 x1 x2 x3 a s).1)
      = accStep x0 x1 x2 x3 a := by
  rw [View.read_writes_eq_canon _ _ _ (mid_out_cover c i arg2 harg2 arg3 harg3 arg4 harg4 arg5 harg5 arg6 harg6 arg7 harg7 hf hl x0 x1 x2 x3 a s)]
  unfold runMid; dsimp only
  sl_unfold_words
  simp only [View.readAt_eq_ld, harg2.read_unread, harg3.read_unread, harg4.read_unread, harg5.read_unread, harg6.read_unread, harg7.read_unread,
    View.ld_unit_zero (S := S1x4096x128) hz3, View.ld_unit_zero (S := S1x128x128) hz3, View.ld_unit_zero (S := S128x128) hz2,
    View.ld_unit_zero (S := S1x128) hz2, View.ld_unit_zero (S := S4096x1) hz2,
    View.readCov_unit_zero (S := S4096x1) _ hz2, View.readCov_unit_zero (S := S1x4096x128) _ hz3,
    View.canon_cons_unit_zero (S := S4096x1) hz2, View.canon_cons_unit_zero (S := S1x4096x128) hz3]
  rfl

theorem last_deg_cover (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : ¬ isFirst i) (hl : isLast i) (x0 : Vec F S1x4096x128 .f32) (x1 : Vec F S1x128x128 .f32) (x2 : Vec F S128x128 .f32) (x3 : Vec F S1x128 .f32) (a : Vec F S1x4096x128 .f32) (s : Vec F S4096x1 .f32) (y : S4096x1.Idx) :
    ∃ pc ∈ (runLast c i arg2 harg2 arg3 harg3 arg4 harg4 arg5 harg5 arg6 harg6 arg7 harg7 hf hl x0 x1 x2 x3 a s).2.1, y ∈ pc.1.set :=
  View.cover_of_tiledL _ S4096x1.size (by sl_kernel_rfl) y

/-- At the last tile the degree column ends at the tile's row sums added to what it held: the full degrees. -/
theorem last_deg (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : ¬ isFirst i) (hl : isLast i) (x0 : Vec F S1x4096x128 .f32) (x1 : Vec F S1x128x128 .f32) (x2 : Vec F S128x128 .f32) (x3 : Vec F S1x128 .f32) (a : Vec F S1x4096x128 .f32) (s : Vec F S4096x1 .f32)
    (v : View sig .tc .vmem S4096x1 .f32) (f : v.ty.Contents (Elt F)) :
    v.read (Elt F) (v.writes (Elt F) f (runLast c i arg2 harg2 arg3 harg3 arg4 harg4 arg5 harg5 arg6 harg6 arg7 harg7 hf hl x0 x1 x2 x3 a s).2.1)
      = degStep x0 x1 s := by
  rw [View.read_writes_eq_canon _ _ _ (last_deg_cover c i arg2 harg2 arg3 harg3 arg4 harg4 arg5 harg5 arg6 harg6 arg7 harg7 hf hl x0 x1 x2 x3 a s)]
  unfold runLast; dsimp only
  sl_unfold_words
  simp only [View.readAt_eq_ld, harg2.read_unread, harg3.read_unread, harg4.read_unread, harg5.read_unread, harg6.read_unread, harg7.read_unread,
    View.ld_unit_zero (S := S1x4096x128) hz3, View.ld_unit_zero (S := S1x128x128) hz3, View.ld_unit_zero (S := S128x128) hz2,
    View.ld_unit_zero (S := S1x128) hz2, View.ld_unit_zero (S := S4096x1) hz2,
    View.readCov_unit_zero (S := S4096x1) _ hz2, View.readCov_unit_zero (S := S1x4096x128) _ hz3,
    View.canon_cons_unit_zero (S := S4096x1) hz2, View.canon_cons_unit_zero (S := S1x4096x128) hz3]
  rfl

theorem last_out_cover (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : ¬ isFirst i) (hl : isLast i) (x0 : Vec F S1x4096x128 .f32) (x1 : Vec F S1x128x128 .f32) (x2 : Vec F S128x128 .f32) (x3 : Vec F S1x128 .f32) (a : Vec F S1x4096x128 .f32) (s : Vec F S4096x1 .f32) (y : S1x4096x128.Idx) :
    ∃ pc ∈ (runLast c i arg2 harg2 arg3 harg3 arg4 harg4 arg5 harg5 arg6 harg6 arg7 harg7 hf hl x0 x1 x2 x3 a s).1, y ∈ pc.1.set :=
  View.cover_of_tiledL _ S1x4096x128.size (by sl_kernel_rfl) y

/-- At the last tile the output block ends at the completed sums, each row scaled by its reciprocal degree. -/
theorem last_out (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : ¬ isFirst i) (hl : isLast i) (x0 : Vec F S1x4096x128 .f32) (x1 : Vec F S1x128x128 .f32) (x2 : Vec F S128x128 .f32) (x3 : Vec F S1x128 .f32) (a : Vec F S1x4096x128 .f32) (s : Vec F S4096x1 .f32)
    (v : View sig .tc .vmem S1x4096x128 .f32) (f : v.ty.Contents (Elt F)) :
    v.read (Elt F) (v.writes (Elt F) f (runLast c i arg2 harg2 arg3 harg3 arg4 harg4 arg5 harg5 arg6 harg6 arg7 harg7 hf hl x0 x1 x2 x3 a s).1)
      = normalise (degStep x0 x1 s) (accStep x0 x1 x2 x3 a) := by
  rw [View.read_writes_eq_canon _ _ _ (last_out_cover c i arg2 harg2 arg3 harg3 arg4 harg4 arg5 harg5 arg6 harg6 arg7 harg7 hf hl x0 x1 x2 x3 a s)]
  unfold runLast; dsimp only
  sl_unfold_words
  simp only [View.readAt_eq_ld, harg2.read_unread, harg3.read_unread, harg4.read_unread, harg5.read_unread, harg6.read_unread, harg7.read_unread,
    View.ld_unit_zero (S := S1x4096x128) hz3, View.ld_unit_zero (S := S1x128x128) hz3, View.ld_unit_zero (S := S128x128) hz2,
    View.ld_unit_zero (S := S1x128) hz2, View.ld_unit_zero (S := S4096x1) hz2,
    View.readCov_unit_zero (S := S4096x1) _ hz2, View.readCov_unit_zero (S := S1x4096x128) _ hz3,
    View.canon_cons_unit_zero (S := S4096x1) hz2, View.canon_cons_unit_zero (S := S1x4096x128) hz3]
  rfl

end Cert.Kernel.Edge

end
-- ==== Proof.WEdgeData.lean ====
/-
  The edge region's proof data. At linear point t = 32 b + j the two accumulators hold, after the body,
    sums(t)    = tile j's contribution added to sums(t-1)    (to zero when j = 0),
    degrees(t) = tile j's row sums added to degrees(t-1)     (to zero when j = 0),
  and the output block's staging buffer holds sums(t), except at j = 31 where it holds the rows of sums(t) scaled
  by the reciprocals of degrees(t) — the block the pipeline then writes back as batch b of the result. The degree
  column lives in a scoped buffer of the kernel's own, so its contents are carried by the region's invariant from
  one point to the next; the output block is handed to the next point untouched because the pipeline writes it
  back only after j = 31. The body obligation is the case's run (first / inner / last tile) at the point's
  memrefs and blocks.
-/
import proofs.«147048_j80771154968988_2_alg».proof.Proof.WEdgePieces

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The accumulators, point by point -/

/-- One point's step on the pair (sums, degrees). -/
def step (c : Dev nD) (t : Fin cfg0.N) (p : Vec F S1x4096x128 .f32 × Vec F S4096x1 .f32) : Vec F S1x4096x128 .f32 × Vec F S4096x1 .f32 :=
  (accStep (iblk V c 0 t) (iblk V c 1 t) (iblk V c 2 t) (iblk V c 3 t) p.1, degStep (iblk V c 0 t) (iblk V c 1 t) p.2)

/-- (sums, degrees) after the body at point `n`: restarted from zero at every first tile. -/
def stAt (c : Dev nD) : (n : ℕ) → n < cfg0.N → Vec F S1x4096x128 .f32 × Vec F S4096x1 .f32
  | 0, hn => step V c ⟨0, hn⟩ (zeroAcc, zeroDeg)
  | n + 1, hn => step V c ⟨n + 1, hn⟩ (if (n + 1) % 32 = 0 then (zeroAcc, zeroDeg) else stAt c n (Nat.lt_of_succ_lt hn))

theorem stAt_first (c : Dev nD) (t : Fin cfg0.N) (h : t.val % 32 = 0) :
    stAt V c t.val t.isLt = step V c t (zeroAcc, zeroDeg) := by
  obtain ⟨n, hn⟩ := t
  cases n with
  | zero => rfl
  | succ n => show step V c ⟨n + 1, hn⟩ (if (n + 1) % 32 = 0 then _ else _) = _; rw [if_pos h]

theorem stAt_next (c : Dev nD) (t : Fin cfg0.N) (h : ¬ t.val % 32 = 0) :
    stAt V c t.val t.isLt = step V c t (stAt V c (t.val - 1) (Nat.lt_of_le_of_lt (Nat.sub_le _ _) t.isLt)) := by
  obtain ⟨n, hn⟩ := t
  cases n with
  | zero => exact absurd (Nat.zero_mod _) h
  | succ n => show step V c ⟨n + 1, hn⟩ (if (n + 1) % 32 = 0 then _ else _) = _; rw [if_neg h]; rfl

/-- What the output block's staging buffer holds after the body at point `t`: the running sums, scaled by the reciprocal
    degrees at a last tile. -/
def outAfter (c : Dev nD) (t : Fin cfg0.N) : Vec F S1x4096x128 .f32 :=
  if t.val % 32 = 31 then normalise (stAt V c t.val t.isLt).2 (stAt V c t.val t.isLt).1 else (stAt V c t.val t.isLt).1

/-! ## The region's invariant: the degree column carried between points -/

/-- Before the first point the class's invariant (every scoped buffer at anything); after point `n` the degree column at
    `degrees(n)`, the other scoped buffers at anything, the generator register at some state. -/
def PhiE (c : Dev nD) : (n : ℕ) → n ≤ cfg0.N → sProp 𝕄
  | 0, _ => Pipeline.ΦA spec0 c
  | n + 1, hn => iprop(owns (c : Thread nD τ) mDeg fullShare (stAt V c n hn).2 ∗ otherScoped c ∗ ∃ r, prngReg c r)

theorem PhiE_pos (c : Dev nD) (n : ℕ) (h : n ≤ cfg0.N) (hz : n ≠ 0) :
    PhiE V c n h = iprop(owns (c : Thread nD τ) mDeg fullShare (stAt V c (n - 1) (by omega)).2 ∗ otherScoped c ∗ ∃ r, prngReg c r) := by
  cases n with
  | zero => exact absurd rfl hz
  | succ n => rfl

/-- At any point the invariant holds the degree column at SOME contents. -/
theorem PhiE_some (c : Dev nD) (n : ℕ) (h : n ≤ cfg0.N) :
    PhiE V c n h ⊢ iprop((∃ d, owns (c : Thread nD τ) mDeg fullShare d) ∗ otherScoped c ∗ ∃ r, prngReg c r) := by
  cases n with
  | zero =>
    show Pipeline.ΦA spec0 c ⊢ _
    unfold Pipeline.ΦA; rw [scopedRest_split]
    iintro ⟨⟨HS, HO⟩, Hg⟩
    isplitl [HS]; · iexact HS
    isplitl [HO]; · iexact HO
    iexact Hg
  | succ n =>
    show iprop(owns (c : Thread nD τ) mDeg fullShare (stAt V c n h).2 ∗ otherScoped c ∗ ∃ r, prngReg c r) ⊢ _
    iintro ⟨HS, HO, Hg⟩
    isplitl [HS]; · iexists _; iexact HS
    isplitl [HO]; · iexact HO
    iexact Hg

/-! ## The proof data -/

/-- The edge region's proof data on core `c`: the arrays as the region finds them; each input's buffer left at its
    block, the output block's at `outAfter`; the invariant `PhiE`; nothing owed. The batch's feature rows are read by
    two windows (all 4096 rows, and the tile's 128 rows): they hold the two halves of that array's share. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAfter V c t
  Φ t := PhiE V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat V c).A w = V c (Pipeline.arrRef spec0 w) := by dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = outAfter V c t := by dsimp only [dat]

theorem Phi_castSucc (c : Dev nD) (t : Fin cfg0.N) : (dat V c).Φ t.castSucc = PhiE V c t.val (Nat.le_of_lt t.isLt) := by
  dsimp only [dat]; simp only [Fin.coe_castSucc]

/-- An input's current staging buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- After a first tile the output block's buffer holds the running sums the point before left: it is written back only
    after a last tile, and the point before a tile that is not first is not a last tile. -/
theorem before_4_next (c : Dev nD) (t : Fin cfg0.N) (h : ¬ t.val % 32 = 0) (d) :
    (dat V c).before 4 t d = (stAt V c (t.val - 1) (Nat.lt_of_le_of_lt (Nat.sub_le _ _) t.isLt)).1 := by
  rw [Dat.before_out_kept _ 4 rfl t (by omega) (Bool.eq_false_iff.mpr fun hf => by have := (flush0_4 _).mp hf; dsimp only at this; omega)
    (fun _ => rfl) (fun _ _ => rfl)]
  rw [after_4]; unfold outAfter; dsimp only
  rw [if_neg (by omega)]

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

set_option maxHeartbeats 2000000 in
/-- The body at any point: which of the three cases the point is in is read off `t % 32`; the inputs' memrefs hold their
    blocks; at a first tile both accumulators are handed over at anything, at a later tile at what the point before
    left; the case's run applies and its stores, read back, are this point's `sums` and `degrees`. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl,
    show (dat V c).Φ t.succ = PhiE V c (t.val + 1) t.isLt from rfl,
    show PhiE V c (t.val + 1) t.isLt = iprop(owns (c : Thread nD τ) mDeg fullShare (stAt V c t.val t.isLt).2 ∗ otherScoped c ∗ ∃ r, prngReg c r) from rfl,
    after_0, after_1, after_2, after_3, after_4, Phi_castSucc]
  by_cases hfirst : t.val % 32 = 0
  · -- a first tile
    have hnl : ¬ t.val % 32 = 31 := by omega
    have hf : isFirst (grid0.coords t) := (isFirst_iff t).mpr hfirst
    have hl : ¬ isLast (grid0.coords t) := fun h => hnl ((isLast_iff t).mp h)
    unfold outAfter; rw [if_neg hnl, stAt_first V c t hfirst]; unfold step; dsimp only
    iintro ⟨HΦ, Ho, ⟨%d0, H0⟩, ⟨%d1, H1⟩, ⟨%d2, H2⟩, ⟨%d3, H3⟩, ⟨%d4, H4⟩⟩
    ihave HΦ' := (PhiE_some V c t.val (Nat.le_of_lt t.isLt)) $$ HΦ
    icases HΦ' with ⟨HS, HO, Hg⟩
    iapply ((runFirst c (grid0.coords t) (mRow t) (hRow t) (mCol t) (hCol t) (mW t) (hW t) (mBias t) (hBias t) (mOut t) (hOut t) mDeg hDeg hf hl (iblk V c 0 t) (iblk V c 1 t) (iblk V c 2 t) (iblk V c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%g4, H4⟩, ⟨%gs, HS⟩⟩
    isplitl [HS HO Hg]
    · isplitl [HS]
      · unfold owns; iexists _; isplitr
        swap; · iexact HS
        ipureintro; exact first_deg c (grid0.coords t) (mRow t) (hRow t) (mCol t) (hCol t) (mW t) (hW t) (mBias t) (hBias t) (mOut t) (hOut t) mDeg hDeg hf hl (iblk V c 0 t) (iblk V c 1 t) (iblk V c 2 t) (iblk V c 3 t) _ _
      isplitl [HO]; · iexact HO
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact first_out c (grid0.coords t) (mRow t) (hRow t) (mCol t) (hCol t) (mW t) (hW t) (mBias t) (hBias t) (mOut t) (hOut t) mDeg hDeg hf hl (iblk V c 0 t) (iblk V c 1 t) (iblk V c 2 t) (iblk V c 3 t) _ _
  · have hz : t.val ≠ 0 := fun h => hfirst (by rw [h])
    have hf : ¬ isFirst (grid0.coords t) := fun h => hfirst ((isFirst_iff t).mp h)
    rw [PhiE_pos V c _ _ hz]
    simp only [before_4_next V c t hfirst]
    by_cases hlast : t.val % 32 = 31
    · -- the last tile
      have hl : isLast (grid0.coords t) := (isLast_iff t).mpr hlast
      unfold outAfter; rw [if_pos hlast, stAt_next V c t hfirst]; unfold step; dsimp only
      iintro ⟨⟨HS, HO, Hg⟩, Ho, ⟨%d0, H0⟩, ⟨%d1, H1⟩, ⟨%d2, H2⟩, ⟨%d3, H3⟩, ⟨%d4, H4⟩⟩
      iapply ((runLast c (grid0.coords t) (mRow t) (hRow t) (mCol t) (hCol t) (mW t) (hW t) (mBias t) (hBias t) (mOut t) (hOut t) mDeg hDeg hf hl (iblk V c 0 t) (iblk V c 1 t) (iblk V c 2 t) (iblk V c 3 t) _ _).2.2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, ⟨%g4, H4⟩, ⟨%gs, HS⟩⟩
      isplitl [HS HO Hg]
      · isplitl [HS]
        · unfold owns; iexists _; isplitr
          swap; · iexact HS
          ipureintro; exact last_deg c (grid0.coords t) (mRow t) (hRow t) (mCol t) (hCol t) (mW t) (hW t) (mBias t) (hBias t) (mOut t) (hOut t) mDeg hDeg hf hl (iblk V c 0 t) (iblk V c 1 t) (iblk V c 2 t) (iblk V c 3 t) _ _ _ _
        isplitl [HO]; · iexact HO
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact last_out c (grid0.coords t) (mRow t) (hRow t) (mCol t) (hCol t) (mW t) (hW t) (mBias t) (hBias t) (mOut t) (hOut t) mDeg hDeg hf hl (iblk V c 0 t) (iblk V c 1 t) (iblk V c 2 t) (iblk V c 3 t) _ _ _ _
    · -- an inner tile
      have hl : ¬ isLast (grid0.coords t) := fun h => hlast ((isLast_iff t).mp h)
      unfold outAfter; rw [if_neg hlast, stAt_next V c t hfirst]; unfold step; dsimp only
      iintro ⟨⟨HS, HO, Hg⟩, Ho, ⟨%d0, H0⟩, ⟨%d1, H1⟩, ⟨%d2, H2⟩, ⟨%d3, H3⟩, ⟨%d4, H4⟩⟩
      iapply ((runMid c (grid0.coords t) (mRow t) (hRow t) (mCol t) (hCol t) (mW t) (hW t) (mBias t) (hBias t) (mOut t) (hOut t) mDeg hDeg hf hl (iblk V c 0 t) (iblk V c 1 t) (iblk V c 2 t) (iblk V c 3 t) _ _).2.2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, ⟨%g4, H4⟩, ⟨%gs, HS⟩⟩
      isplitl [HS HO Hg]
      · isplitl [HS]
        · unfold owns; iexists _; isplitr
          swap; · iexact HS
          ipureintro; exact mid_deg c (grid0.coords t) (mRow t) (hRow t) (mCol t) (hCol t) (mW t) (hW t) (mBias t) (hBias t) (mOut t) (hOut t) mDeg hDeg hf hl (iblk V c 0 t) (iblk V c 1 t) (iblk V c 2 t) (iblk V c 3 t) _ _ _ _
        isplitl [HO]; · iexact HO
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact mid_out c (grid0.coords t) (mRow t) (hRow t) (mCol t) (hCol t) (mW t) (hW t) (mBias t) (hBias t) (mOut t) (hOut t) mDeg hDeg hf hl (iblk V c 0 t) (iblk V c 1 t) (iblk V c 2 t) (iblk V c 3 t) _ _ _ _

/-- The library's body obligation, at every point. -/
theorem body_obligation (c : Dev nD) : BodyObligation (dat (F := F) V c) (defs₀ (F := F)) Variants.none () Set.univ := fun t => by
  rw [bigSep_W0, bigSep_W0]
  exact sound_body V c t

/-! ## The invariant at the region's two ends -/

theorem Phi_first (c : Dev nD) : (dat V c).Φ 0 = Pipeline.ΦA spec0 c := rfl

/-- After the last point the invariant gives the class's back: the degree column's contents are forgotten. -/
theorem Phi_last (c : Dev nD) : (dat V c).Φ (Fin.last cfg0.N) ⊢ Pipeline.ΦA spec0 c := by
  rw [show (dat V c).Φ (Fin.last cfg0.N) = PhiE V c (Fin.last cfg0.N).val (Nat.le_of_lt_succ (Fin.last cfg0.N).isLt) from rfl]
  refine (PhiE_some V c _ _).trans ?_
  unfold Pipeline.ΦA; rw [scopedRest_split]
  iintro ⟨HS, HO, Hg⟩
  isplitl [HS HO]
  · isplitl [HS]; · iexact HS
    iexact HO
  iexact Hg

end Cert.Kernel.Edge

end
-- ==== Proof.WEdgeRegion.lean ====
/-
  The edge region's arrays at its two ends. The region reads four distinct buffers — the feature rows (through two
  windows: all 4096 rows of a batch, and one tile of 128), the weight matrix, the bias row — and writes one, the
  aggregated edge features. At entry the core's unscoped buffers are split into these five windows' arrays (the
  feature rows' buffer dealt in two halves of its share, one per window) and the rest; at exit the halves are joined
  again, the inputs are as they were, and the output buffer holds what the region's write-backs left.
-/
import proofs.«147048_j80771154968988_2_alg».proof.Proof.WEdgeData
import Idealize.ShloMosaic.Lib.Pipeline.Kit
import Idealize.ShloMosaic.Lib.Pipeline.Regions

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the region's five windows, one by one. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v1) ↦{fullShare} W main_v1) ∗ (((c.tc : Thread nD τ).loc main_arg1) ↦{fullShare} W main_arg1)
          ∗ (((c.tc : Thread nD τ).loc main_v2) ↦{fullShare} W main_v2) ∗ (((c.tc : Thread nD τ).loc main_v3) ↦{fullShare} W main_v3)) := by
  unfold Pipeline.arrBufs
  rw [BI.bigSep_eq_bigSepL_of_eq [main_v1, main_arg1, main_v2, main_v3] (by decide) (by decide)]
  rfl

/-- The proof data's arrays, window by window, each whole at its share. -/
theorem arrays_eq (c : Dev nD) (G : (w : Fin cfg0.W) → Buf (Elt F) ((cfg0.win w).arr.view.loc (c.tc : Thread nD τ))) :
    ((dat V c).arrays G : sProp 𝕄)
      = iprop((((c.tc : Thread nD τ).loc main_v1) ↦{fullShare.left} G 0) ∗ (((c.tc : Thread nD τ).loc main_v1) ↦{fullShare.right} G 1)
          ∗ (((c.tc : Thread nD τ).loc main_arg1) ↦{fullShare} G 2) ∗ (((c.tc : Thread nD τ).loc main_v2) ↦{fullShare} G 3)
          ∗ (((c.tc : Thread nD τ).loc main_v3) ↦{fullShare} G 4)) := by
  unfold Dat.arrays
  rw [bigSep_W0]
  rw [(arr_whole0 0).set_eq_univ, (arr_whole0 2).set_eq_univ, (arr_whole0 3).set_eq_univ, (arr_whole0 4).set_eq_univ]
  rfl

/-- ENTRY. The core's unscoped buffers at the region-entry contents are the five windows' arrays at those contents
    (the feature rows' buffer in two halves) and the unscoped buffers no window stages. -/
theorem entry_arrays (c : Dev nD) :
    (unscopedBufs c (V c) : sProp 𝕄) ⊢ iprop((dat V c).arrays ((dat V c).arrAt · 0)
      ∗ Pipeline.unscopedRest (Ix := Unit) (Name := ℕ) (U := UR sig nD τ) (Lvl := ℕ) spec0 c (V c)) := by
  rw [Pipeline.unscopedBufs_split₀ (Ix := Unit) (Name := ℕ) (U := UR sig nD τ) (Lvl := ℕ) cfgs (0 : Fin 2) winFacts₀0.arr_unscoped c (V c)]
  show iprop(Pipeline.arrBufs spec0 c (V c) ∗ Pipeline.unscopedRest spec0 c (V c)) ⊢ _
  rw [arrBufs_eq, arrays_eq]
  have hhalves : ((((c.tc : Thread nD τ).loc main_v1) ↦{fullShare} V c main_v1) : sProp 𝕄)
      ⊢ iprop((((c.tc : Thread nD τ).loc main_v1) ↦{fullShare.left} V c main_v1) ∗ (((c.tc : Thread nD τ).loc main_v1) ↦{fullShare.right} V c main_v1)) :=
    (pointsTo_share (PosShare.mem_left_op_right fullShare)).1
  show _ ⊢ iprop((((((c.tc : Thread nD τ).loc main_v1) ↦{fullShare.left} V c main_v1) ∗ (((c.tc : Thread nD τ).loc main_v1) ↦{fullShare.right} V c main_v1)
      ∗ (((c.tc : Thread nD τ).loc main_arg1) ↦{fullShare} V c main_arg1) ∗ (((c.tc : Thread nD τ).loc main_v2) ↦{fullShare} V c main_v2)
      ∗ (((c.tc : Thread nD τ).loc main_v3) ↦{fullShare} V c main_v3)) : sProp 𝕄) ∗ _)
  iintro ⟨⟨Hx, Hw, Hb, Ho⟩, Hrest⟩
  ihave Hx' := hhalves $$ Hx
  icases Hx' with ⟨Hxl, Hxr⟩
  isplitr [Hrest]
  · isplitl [Hxl]; · iexact Hxl
    isplitl [Hxr]; · iexact Hxr
    isplitl [Hw]; · iexact Hw
    isplitl [Hb]; · iexact Hb
    iexact Ho
  iexact Hrest

/-- EXIT. The five arrays after the region's write-backs, beside the unscoped buffers no window stages, are the core's
    unscoped buffers at any contents `W` that keep every buffer but the output's as the region found it and hold, in the
    output's, what the write-backs left. -/
theorem exit_arrays (c : Dev nD) (W : (b : Ref sig .tc) → Buf (Elt F) ((c.tc : Thread nD τ).loc b))
    (hout : W main_v3 = (dat V c).arrAt 4 cfg0.N) (hrest : ∀ b : Ref sig .tc, b ≠ main_v3 → W b = V c b) :
    iprop((dat V c).arrays ((dat V c).arrAt · cfg0.N)
      ∗ Pipeline.unscopedRest (Ix := Unit) (Name := ℕ) (U := UR sig nD τ) (Lvl := ℕ) spec0 c (V c)) ⊢ (unscopedBufs c W : sProp 𝕄) := by
  rw [Pipeline.unscopedBufs_split₀ (Ix := Unit) (Name := ℕ) (U := UR sig nD τ) (Lvl := ℕ) cfgs (0 : Fin 2) winFacts₀0.arr_unscoped c W]
  show _ ⊢ iprop(Pipeline.arrBufs spec0 c W ∗ Pipeline.unscopedRest spec0 c W)
  rw [arrBufs_eq, arrays_eq]
  rw [(dat V c).arrAt_in 0 rfl, (dat V c).arrAt_in 1 rfl, (dat V c).arrAt_in 2 rfl, (dat V c).arrAt_in 3 rfl, ← hout,
    hrest main_v1 (by decide), hrest main_arg1 (by decide), hrest main_v2 (by decide)]
  have hR : (Pipeline.unscopedRest (Ix := Unit) (Name := ℕ) (U := UR sig nD τ) (Lvl := ℕ) spec0 c W : sProp 𝕄)
      = Pipeline.unscopedRest (Ix := Unit) (Name := ℕ) (U := UR sig nD τ) (Lvl := ℕ) spec0 c (V c) := by
    unfold Pipeline.unscopedRest
    refine bigSep_congr fun b hb => ?_
    rw [hrest b (fun h => (Finset.mem_sdiff.mp hb).2 (h ▸ Finset.mem_image.mpr ⟨4, Finset.mem_univ _, rfl⟩))]
  rw [hR]
  have hjoin : (iprop((((c.tc : Thread nD τ).loc main_v1) ↦{fullShare.left} V c main_v1) ∗ (((c.tc : Thread nD τ).loc main_v1) ↦{fullShare.right} V c main_v1)) : sProp 𝕄)
      ⊢ (((c.tc : Thread nD τ).loc main_v1) ↦{fullShare} V c main_v1) :=
    (pointsTo_share (PosShare.mem_left_op_right fullShare)).2
  iintro ⟨⟨Hxl, Hxr, Hw, Hb, Ho⟩, Hrest⟩
  isplitr [Hrest]
  · isplitl [Hxl Hxr]
    · iapply hjoin
      isplitl [Hxl]; · iexact Hxl
      iexact Hxr
    isplitl [Hw]; · iexact Hw
    isplitl [Hb]; · iexact Hb
    iexact Ho
  iexact Hrest

end Cert.Kernel.Edge

end
-- ==== Proof.WVertexSetup.lean ====
/-
  The vertex pass (second kernel region): hyperedge-to-vertex aggregation with a residual, and the two channel
  statistics of the result. Grid point (b, j) handles batch b and the j-th tile of 128 hyperedges. The body keeps two
  accumulators: the output block (one whole batch of 4096 x 128 running sums) and a scratch column of 4096 row
  degrees. Both are reset when j = 0; at every j the tile's incidence block (4096 vertices against the tile's 128
  centres) is formed, its row sums are added to the degrees and its product with the tile's 128 rows of the edge
  pass's result is added to the sums. At j = 31 each row of the sums is scaled by the reciprocal of its degree (zero
  where the degree is zero), the batch's own feature rows are added, and the per-channel sums of that finished
  block and of its square are stored in two small outputs, which no other point touches.
  This module fixes the three control cases (first tile / inner tile / last tile) as closed forms over the linear
  point number, says where the two small outputs are idle, names the staging memrefs the pipeline passes at a point,
  and splits the degree column out of the region's scoped rest.
-/
import proofs.«147048_j80771154968988_2_alg».proof.Proof.Gen.Kernel.Launch
import proofs.«147048_j80771154968988_2_alg».proof.Proof.Gen.Kernel.Skeleton
import proofs.«147048_j80771154968988_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Vertex

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the hyperedge-tile coordinate -/

/-- The reset branch's condition: the tile coordinate is 0. -/
abbrev isFirst (i : grid1.Coords) : Prop :=
  (Scalar.cmpi .ne (Scalar.extui (Scalar.cmpi .eq (BitVec.ofNat 32 (i 1).val) 0#32)) 0#32) = 1#1
/-- The finishing branch's condition: the tile coordinate is 31, the last. -/
abbrev isLast (i : grid1.Coords) : Prop := k1_cond2 i = 1#1

/-- Point t = 32 b + j resets exactly when j = 0. -/
theorem isFirst_iff : ∀ t : Fin cfg1.N, isFirst (grid1.coords t) ↔ t.val % 32 = 0 :=
  (by decide +kernel : ∀ t : Fin grid1.N, isFirst (grid1.coords t) ↔ t.val % 32 = 0)
/-- Point t = 32 b + j finishes its batch exactly when j = 31. -/
theorem isLast_iff : ∀ t : Fin cfg1.N, isLast (grid1.coords t) ↔ t.val % 32 = 31 :=
  (by decide +kernel : ∀ t : Fin grid1.N, isLast (grid1.coords t) ↔ t.val % 32 = 31)

/-! ## Where the windows are idle

The three inputs and the running-sums output are stored into (or only read) at every point. The two channel
statistics are stored only at a last tile: elsewhere they are idle and not written back, so the body hands their
buffers back as it found them. -/

theorem live_0 : ∀ i : grid1.Coords, cfg1.idle 0 i = false := fun _ => rfl
theorem live_1 : ∀ i : grid1.Coords, cfg1.idle 1 i = false := fun _ => rfl
theorem live_2 : ∀ i : grid1.Coords, cfg1.idle 2 i = false := fun _ => rfl
theorem live_3 : ∀ i : grid1.Coords, cfg1.idle 3 i = false := fun _ => rfl

/-- Before the last tile the channel-sum output is idle, -/
theorem idle_4 : ∀ t : Fin cfg1.N, ¬ t.val % 32 = 31 → cfg1.idle 4 (grid1.coords t) = true :=
  (by decide +kernel : ∀ t : Fin grid1.N, ¬ t.val % 32 = 31 → idle1 4 (grid1.coords t) = true)
/-- and so is the channel-square-sum output; -/
theorem idle_5 : ∀ t : Fin cfg1.N, ¬ t.val % 32 = 31 → cfg1.idle 5 (grid1.coords t) = true :=
  (by decide +kernel : ∀ t : Fin grid1.N, ¬ t.val % 32 = 31 → idle1 5 (grid1.coords t) = true)
/-- neither is written back there. -/
theorem noFlush_4 : ∀ t : Fin cfg1.N, ¬ t.val % 32 = 31 → (cfg1.win 4).flush t = false :=
  (by decide +kernel : ∀ t : Fin grid1.N, ¬ t.val % 32 = 31 → win1_4.flush t = false)
theorem noFlush_5 : ∀ t : Fin cfg1.N, ¬ t.val % 32 = 31 → (cfg1.win 5).flush t = false :=
  (by decide +kernel : ∀ t : Fin grid1.N, ¬ t.val % 32 = 31 → win1_5.flush t = false)
/-- At the last tile both are live. -/
theorem live_4 : ∀ t : Fin cfg1.N, t.val % 32 = 31 → cfg1.idle 4 (grid1.coords t) = false :=
  (by decide +kernel : ∀ t : Fin grid1.N, t.val % 32 = 31 → idle1 4 (grid1.coords t) = false)
theorem live_5 : ∀ t : Fin cfg1.N, t.val % 32 = 31 → cfg1.idle 5 (grid1.coords t) = false :=
  (by decide +kernel : ∀ t : Fin grid1.N, t.val % 32 = 31 → idle1 5 (grid1.coords t) = false)

/-! ## The memrefs the body is called with at a point -/

/-- All 4096 feature rows of the batch. -/
abbrev mAll (t : Fin cfg1.N) : Memref sig .tc .vmem S1x4096x128 .f32 := win1_0.stage (cfg1.slots t 0)
abbrev hAll (t : Fin cfg1.N) : (mAll t).IsWhole := hstage1_0 ((cfg1.slots t 0).cast nbuf1_0)
/-- The tile's 128 feature rows: the hyperedge centres. -/
abbrev mCtr (t : Fin cfg1.N) : Memref sig .tc .vmem S1x128x128 .f32 := win1_1.stage (cfg1.slots t 1)
abbrev hCtr (t : Fin cfg1.N) : (mCtr t).IsWhole := hstage1_1 ((cfg1.slots t 1).cast nbuf1_1)
/-- The tile's 128 rows of the edge pass's result. -/
abbrev mEdge (t : Fin cfg1.N) : Memref sig .tc .vmem S1x128x128 .f32 := win1_2.stage (cfg1.slots t 2)
abbrev hEdge (t : Fin cfg1.N) : (mEdge t).IsWhole := hstage1_2 ((cfg1.slots t 2).cast nbuf1_2)
/-- The batch's running sums, the finished block at the last tile. -/
abbrev mOut (t : Fin cfg1.N) : Memref sig .tc .vmem S1x4096x128 .f32 := win1_3.stage (cfg1.slots t 3)
abbrev hOut (t : Fin cfg1.N) : (mOut t).IsWhole := hstage1_3 ((cfg1.slots t 3).cast nbuf1_3)
/-- The channel sums of the finished block. -/
abbrev mSum (t : Fin cfg1.N) : Memref sig .tc .vmem S1x1x128 .f32 := win1_4.stage (cfg1.slots t 4)
abbrev hSum (t : Fin cfg1.N) : (mSum t).IsWhole := hstage1_4 ((cfg1.slots t 4).cast nbuf1_4)
/-- The channel sums of the finished block's square. -/
abbrev mSq (t : Fin cfg1.N) : Memref sig .tc .vmem S1x1x128 .f32 := win1_5.stage (cfg1.slots t 5)
abbrev hSq (t : Fin cfg1.N) : (mSq t).IsWhole := hstage1_5 ((cfg1.slots t 5).cast nbuf1_5)
/-- The degree column: a scoped buffer of the kernel's own, kept from one point to the next. -/
abbrev mDeg : Memref sig .tc .vmem S4096x1 .f32 := Memref.whole cc1_scratch0
abbrev hDeg : (mDeg).IsWhole := Memref.isWhole_whole _

/-! ## The degree column among the region's scoped rest -/

/-- The scoped buffers that are neither a staging buffer of this region nor the degree column, each whole at some
    contents: they ride through the region untouched. -/
def otherScoped (c : Dev nD) : sProp 𝕄 :=
  bigSep (((Finset.univ.filter fun b : Ref sig .tc => b.isScoped) \ Finset.univ.image (Pipeline.stageRef spec1)).erase cc1_scratch0)
    fun b => iprop(∃ f : Buf (Elt F) ((c.tc : Thread nD τ).loc b), ((c.tc : Thread nD τ).loc b) ↦{fullShare} f)

theorem scratch_mem : cc1_scratch0 ∈ ((Finset.univ.filter fun b : Ref sig .tc => b.isScoped) \ Finset.univ.image (Pipeline.stageRef spec1)) := by decide

/-- The region's scoped rest is the degree column at some contents beside the others. -/
theorem scopedRest_split (c : Dev nD) :
    (Pipeline.scopedRest (Ix := Unit) (Name := ℕ) (U := UR sig nD τ) (Lvl := ℕ) (Val := Elt F) spec1 c : sProp 𝕄)
      = iprop((∃ d, owns (c : Thread nD τ) mDeg fullShare d) ∗ otherScoped c) := by
  unfold Pipeline.scopedRest otherScoped
  rw [BI.bigSep_erase scratch_mem]
  simp only [mDeg, owns_whole]
  rfl

end Cert.Kernel.Vertex

end
-- ==== Proof.WVertexRunFirst.lean ====
/-
  The vertex kernel's body at a FIRST hyperedge tile (j = 0): both accumulators are reset before tile 0's
  contribution is added, so what the output block and the degree column held before does not matter; the two
  channel statistics are not touched. The run is by symbolic execution of the body's skeleton; the pieces each
  accumulator ends with are what that execution finds.
-/
import proofs.«147048_j80771154968988_2_alg».proof.Proof.WVertexSetup

set_option maxRecDepth 16384

noncomputable section

namespace Cert.Kernel.Vertex

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the output block and in the degree column at a first tile (last store first), with
    the body's triple: inputs at their blocks, both accumulators at anything, the two channel statistics at whatever
    they hold (`xi4`, `xi5`) and handed back so. -/
noncomputable def runFirst (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : isFirst i) (hl : ¬ isLast i)
    (x0 : Vec F S1x4096x128 .f32) (x1 : Vec F S1x128x128 .f32) (x2 : Vec F S1x128x128 .f32) :
    Σ' (LOut : List (View.Piece (Elt F) S1x4096x128 .f32)), { LDeg : List (View.Piece (Elt F) S4096x1 .f32) //
      ∀ (xi4 xi5 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xi4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LOut)
                ∗ owns (c : Thread nD τ) arg6 fullShare xi4 ∗ owns (c : Thread nD τ) arg7 fullShare xi5
                ∗ (∃ f, arg8.view.loc (c : Thread nD τ) ↦[arg8.view.set]{fullShare} arg8.view.writes (Elt F) f LDeg)) -∗ K ⟨⟩))
          ⊢ wp frame (wpE (defs₀ (F := F)) Variants.none c none) E (cc1__vertex_kernel i arg2 harg2 arg3 harg3 arg4 harg4 arg5 harg5 arg6 harg6 arg7 harg7 arg8 harg8) K } := by
  refine ⟨?_, ?_, fun xi4 xi5 E K => ?run⟩
  case run =>
    simp only [cc1__vertex_kernel_eq_skeleton]; unfold cc1__vertex_kernel_skel
    unfold owns
    iintro ⟨⟨%f0, %hf0, H0⟩, ⟨%f1, %hf1, H1⟩, ⟨%f2, %hf2, H2⟩, ⟨%d5, %f5, -, H5⟩, ⟨%f6, %hf6, H6⟩, ⟨%f7, %hf7, H7⟩, ⟨%d8, %f8, -, H8⟩, Hk⟩
    obtain rfl := harg2.eq_unread hf0; obtain rfl := harg3.eq_unread hf1; obtain rfl := harg4.eq_unread hf2
    obtain rfl := harg6.eq_unread hf6; obtain rfl := harg7.eq_unread hf7
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; isplitr; · ipureintro; exact harg6.read_unread _
      iexact H6
    isplitl [H7]
    · iexists _; isplitr; · ipureintro; exact harg7.read_unread _
      iexact H7
    iexists _; iexact H8

end Cert.Kernel.Vertex

end
-- ==== Proof.WVertexRunMid.lean ====
/-
  The vertex kernel's body at an INNER hyperedge tile (0 < j < 31): neither branch is taken; tile j's contribution is
  added to the running sums in the output block and to the running degrees in the scratch column; the two channel
  statistics are not touched.
-/
import proofs.«147048_j80771154968988_2_alg».proof.Proof.WVertexRunFirst

set_option maxRecDepth 16384

noncomputable section

namespace Cert.Kernel.Vertex

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the output block and in the degree column at an inner tile (last store first), with
    the body's triple: inputs at their blocks, the output block at the running sums `a` and the degree column at the
    running degrees `s` the point before left, the two channel statistics at whatever they hold and handed back so. -/
noncomputable def runMid (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : ¬ isFirst i) (hl : ¬ isLast i)
    (x0 : Vec F S1x4096x128 .f32) (x1 : Vec F S1x128x128 .f32) (x2 : Vec F S1x128x128 .f32)
    (a : Vec F S1x4096x128 .f32) (s : Vec F S4096x1 .f32) :
    Σ' (LOut : List (View.Piece (Elt F) S1x4096x128 .f32)), { LDeg : List (View.Piece (Elt F) S4096x1 .f32) //
      ∀ (xi4 xi5 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare a ∗ owns (c : Thread nD τ) arg6 fullShare xi4 ∗ owns (c : Thread nD τ) arg7 fullShare xi5 ∗ owns (c : Thread nD τ) arg8 fullShare s
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LOut)
                ∗ owns (c : Thread nD τ) arg6 fullShare xi4 ∗ owns (c : Thread nD τ) arg7 fullShare xi5
                ∗ (∃ f, arg8.view.loc (c : Thread nD τ) ↦[arg8.view.set]{fullShare} arg8.view.writes (Elt F) f LDeg)) -∗ K ⟨⟩))
          ⊢ wp frame (wpE (defs₀ (F := F)) Variants.none c none) E (cc1__vertex_kernel i arg2 harg2 arg3 harg3 arg4 harg4 arg5 harg5 arg6 harg6 arg7 harg7 arg8 harg8) K } := by
  refine ⟨?_, ?_, fun xi4 xi5 E K => ?run⟩
  case run =>
    simp only [cc1__vertex_kernel_eq_skeleton]; unfold cc1__vertex_kernel_skel
    unfold owns
    iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2
    obtain rfl := harg5.eq_unread hf5; obtain rfl := harg6.eq_unread hf6; obtain rfl := harg7.eq_unread hf7; obtain rfl := harg8.eq_unread hf8
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; isplitr; · ipureintro; exact harg6.read_unread _
      iexact H6
    isplitl [H7]
    · iexists _; isplitr; · ipureintro; exact harg7.read_unread _
      iexact H7
    iexists _; iexact H8

end Cert.Kernel.Vertex

end
-- ==== Proof.WVertexRunLast.lean ====
/-
  The vertex kernel's body at the LAST hyperedge tile (j = 31): tile 31's contribution is added; then every row of
  the sums is scaled by the reciprocal of that row's degree (zero where the degree is zero) and the batch's own
  feature rows are added, which is the finished block; its per-channel sums and the per-channel sums of its square
  are stored in the two small outputs, whatever those held.
-/
import proofs.«147048_j80771154968988_2_alg».proof.Proof.WVertexRunMid

set_option maxRecDepth 16384

noncomputable section

namespace Cert.Kernel.Vertex

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the output block, in the two channel statistics and in the degree column at the last
    tile (last store first), with the body's triple: inputs at their blocks, the output block at the running sums
    `a` and the degree column at the running degrees `s` the point before left, the two statistics at anything. -/
noncomputable def runLast (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : ¬ isFirst i) (hl : isLast i)
    (x0 : Vec F S1x4096x128 .f32) (x1 : Vec F S1x128x128 .f32) (x2 : Vec F S1x128x128 .f32)
    (a : Vec F S1x4096x128 .f32) (s : Vec F S4096x1 .f32) :
    Σ' (LOut : List (View.Piece (Elt F) S1x4096x128 .f32)) (LSum : List (View.Piece (Elt F) S1x1x128 .f32)) (LSq : List (View.Piece (Elt F) S1x1x128 .f32)),
      { LDeg : List (View.Piece (Elt F) S4096x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare a ∗ (∃ d, owns (c : Thread nD τ) arg6 fullShare d) ∗ (∃ d, owns (c : Thread nD τ) arg7 fullShare d) ∗ owns (c : Thread nD τ) arg8 fullShare s
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LOut)
                ∗ (∃ f, arg6.view.loc (c : Thread nD τ) ↦[arg6.view.set]{fullShare} arg6.view.writes (Elt F) f LSum)
                ∗ (∃ f, arg7.view.loc (c : Thread nD τ) ↦[arg7.view.set]{fullShare} arg7.view.writes (Elt F) f LSq)
                ∗ (∃ f, arg8.view.loc (c : Thread nD τ) ↦[arg8.view.set]{fullShare} arg8.view.writes (Elt F) f LDeg)) -∗ K ⟨⟩))
          ⊢ wp frame (wpE (defs₀ (F := F)) Variants.none c none) E (cc1__vertex_kernel i arg2 harg2 arg3 harg3 arg4 harg4 arg5 harg5 arg6 harg6 arg7 harg7 arg8 harg8) K } := by
  refine ⟨?_, ?_, ?_, ?_, fun E K => ?run⟩
  case run =>
    simp only [cc1__vertex_kernel_eq_skeleton]; unfold cc1__vertex_kernel_skel
    unfold owns
    iintro ⟨⟨%f0, %hf0, H0⟩, ⟨%f1, %hf1, H1⟩, ⟨%f2, %hf2, H2⟩, ⟨%f5, %hf5, H5⟩, ⟨%d6, %f6, -, H6⟩, ⟨%d7, %f7, -, H7⟩, ⟨%f8, %hf8, H8⟩, Hk⟩
    obtain rfl := harg2.eq_unread hf0; obtain rfl := harg3.eq_unread hf1; obtain rfl := harg4.eq_unread hf2
    obtain rfl := harg5.eq_unread hf5; obtain rfl := harg8.eq_unread hf8
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; iexact H6
    isplitl [H7]
    · iexists _; iexact H7
    iexists _; iexact H8

end Cert.Kernel.Vertex

end
-- ==== Proof.WVertexPieces.lean ====
/-
  What the vertex kernel's body leaves in the buffers it stores into, case by case, as the body's own arithmetic
  applied to the blocks it was handed. The degree column is always "old degrees + row sums of tile j's incidence
  block" (from zero at a first tile); the output block is "old sums + incidence block times the tile's rows of the
  edge pass's result" (from zero at a first tile), and at the last tile that, scaled row by row by the reciprocal
  degrees, plus the batch's own feature rows; the two channel statistics are, at the last tile, the column sums of
  that finished block and of its square. Each lemma reads the stores a run found back through the buffer: every
  such list ends with a store of the whole buffer, so the last store's value is what the buffer holds, and a load
  of a buffer just stored whole reads the stored value.
-/
import proofs.«147048_j80771154968988_2_alg».proof.Proof.WVertexRunLast
import Idealize.ShloMosaic.Lib.Pipeline.Value

set_option maxRecDepth 16384

noncomputable section

namespace Cert.Kernel.Vertex

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz3 : (![0, 0, 0] : Fin 3 → ℕ) = fun _ => 0 := by funext a; fin_cases a <;> rfl
theorem hz2 : (![0, 0] : Fin 2 → ℕ) = fun _ => 0 := by funext a; fin_cases a <;> rfl

/-! ## One point's arithmetic -/

/-- The output block reset: all zeros. -/
def zeroAcc : Vec F S1x4096x128 .f32 := k1_pay6 (F := F)
/-- The degree column reset: all zeros. -/
def zeroDeg : Vec F S4096x1 .f32 := k1_pay7 (F := F)
/-- The tile's incidence block: entry (r, e) is 1 when vertex r of the batch (`x0`'s row r) lies within squared
    distance 256 of the tile's centre e (`x1`'s row e), else 0. -/
def incidence (x0 : Vec F S1x4096x128 .f32) (x1 : Vec F S1x128x128 .f32) : Vec F S4096x128 .f32 := k1_pay9 x0 x1
/-- The degree column after a tile: the old degrees plus the row sums of the tile's incidence block. -/
def degStep (x0 : Vec F S1x4096x128 .f32) (x1 : Vec F S1x128x128 .f32) (s : Vec F S4096x1 .f32) : Vec F S4096x1 .f32 :=
  k1_pay10 x0 x1 s
/-- The output block after a tile: the old sums plus the tile's incidence block times the tile's 128 rows `x2` of the
    edge pass's result. -/
def accStep (x0 : Vec F S1x4096x128 .f32) (x1 : Vec F S1x128x128 .f32) (x2 : Vec F S1x128x128 .f32) (a : Vec F S1x4096x128 .f32) : Vec F S1x4096x128 .f32 :=
  k1_pay1 (k1_pay9 x0 x1) (k1_pay11 x2) a
/-- The finished block: each row of the sums `a` times the reciprocal of its degree in `s` (zero where the degree is
    zero), plus the batch's own feature rows `x0`. -/
def finish (x0 : Vec F S1x4096x128 .f32) (s : Vec F S4096x1 .f32) (a : Vec F S1x4096x128 .f32) : Vec F S1x4096x128 .f32 :=
  k1_pay3 (k1_pay8 x0) s a
/-- The finished block's per-channel sums over its 4096 rows. -/
def chanSum (x0 : Vec F S1x4096x128 .f32) (s : Vec F S4096x1 .f32) (a : Vec F S1x4096x128 .f32) : Vec F S1x1x128 .f32 :=
  k1_pay4 (k1_pay8 x0) s a
/-- The per-channel sums, over the 4096 rows, of the finished block's square. -/
def chanSq (x0 : Vec F S1x4096x128 .f32) (s : Vec F S4096x1 .f32) (a : Vec F S1x4096x128 .f32) : Vec F S1x1x128 .f32 :=
  k1_pay5 (k1_pay8 x0) s a

/-! ## The buffers after each case -/

theorem first_deg_cover (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : isFirst i) (hl : ¬ isLast i) (x0 : Vec F S1x4096x128 .f32) (x1 : Vec F S1x128x128 .f32) (x2 : Vec F S1x128x128 .f32) (y : S4096x1.Idx) :
    ∃ pc ∈ (runFirst c i arg2 harg2 arg3 harg3 arg4 harg4 arg5 harg5 arg6 harg6 arg7 harg7 arg8 harg8 hf hl x0 x1 x2).2.1, y ∈ pc.1.set :=
  View.cover_of_tiledL _ S4096x1.size (by sl_kernel_rfl) y

/-- At a first tile the degree column ends at tile 0's row sums added to zero. -/
theorem first_deg (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : isFirst i) (hl : ¬ isLast i) (x0 : Vec F S1x4096x128 .f32) (x1 : Vec F S1x128x128 .f32) (x2 : Vec F S1x128x128 .f32)
    (v : View sig .tc .vmem S4096x1 .f32) (f : v.ty.Contents (Elt F)) :
    v.read (Elt F) (v.writes (Elt F) f (runFirst c i arg2 harg2 arg3 harg3 arg4 harg4 arg5 harg5 arg6 harg6 arg7 harg7 arg8 harg8 hf hl x0 x1 x2).2.1)
      = degStep x0 x1 (zeroDeg (F := F)) := by
  rw [View.read_writes_eq_canon _ _ _ (first_deg_cover c i arg2 harg2 arg3 harg3 arg4 harg4 arg5 harg5 arg6 harg6 arg7 harg7 arg8 harg8 hf hl x0 x1 x2)]
  unfold runFirst; dsimp only
  sl_unfold_words
  simp only [View.readAt_eq_ld, harg2.read_unread, harg3.read_unread, harg4.read_unread, harg5.read_unread, harg6.read_unread, harg7.read_unread, harg8.read_unread,
    View.ld_unit_zero (S := S1x4096x128) hz3, View.ld_unit_zero (S := S1x128x128) hz3, View.ld_unit_zero (S := S1x1x128) hz3, View.ld_unit_zero (S := S4096x1) hz2,
    View.readCov_unit_zero (S := S4096x1) _ hz2, View.readCov_unit_zero (S := S1x4096x128) _ hz3, View.readCov_unit_zero (S := S1x1x128) _ hz3,
    View.canon_cons_unit_zero (S := S4096x1) hz2, View.canon_cons_unit_zero (S := S1x4096x128) hz3, View.canon_cons_unit_zero (S := S1x1x128) hz3]
  rfl

theorem first_out_cover (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : isFirst i) (hl : ¬ isLast i) (x0 : Vec F S1x4096x128 .f32) (x1 : Vec F S1x128x128 .f32) (x2 : Vec F S1x128x128 .f32) (y : S1x4096x128.Idx) :
    ∃ pc ∈ (runFirst c i arg2 harg2 arg3 harg3 arg4 harg4 arg5 harg5 arg6 harg6 arg7 harg7 arg8 harg8 hf hl x0 x1 x2).1, y ∈ pc.1.set :=
  View.cover_of_tiledL _ S1x4096x128.size (by sl_kernel_rfl) y

/-- At a first tile the output block ends at tile 0's contribution added to zero. -/
theorem first_out (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : isFirst i) (hl : ¬ isLast i) (x0 : Vec F S1x4096x128 .f32) (x1 : Vec F S1x128x128 .f32) (x2 : Vec F S1x128x128 .f32)
    (v : View sig .tc .vmem S1x4096x128 .f32) (f : v.ty.Contents (Elt F)) :
    v.read (Elt F) (v.writes (Elt F) f (runFirst c i arg2 harg2 arg3 harg3 arg4 harg4 arg5 harg5 arg6 harg6 arg7 harg7 arg8 harg8 hf hl x0 x1 x2).1)
      = accStep x0 x1 x2 (zeroAcc (F := F)) := by
  rw [View.read_writes_eq_canon _ _ _ (first_out_cover c i arg2 harg2 arg3 harg3 arg4 harg4 arg5 harg5 arg6 harg6 arg7 harg7 arg8 harg8 hf hl x0 x1 x2)]
  unfold runFirst; dsimp only
  sl_unfold_words
  simp only [View.readAt_eq_ld, harg2.read_unread, harg3.read_unread, harg4.read_unread, harg5.read_unread, harg6.read_unread, harg7.read_unread, harg8.read_unread,
    View.ld_unit_zero (S := S1x4096x128) hz3, View.ld_unit_zero (S := S1x128x128) hz3, View.ld_unit_zero (S := S1x1x128) hz3, View.ld_unit_zero (S := S4096x1) hz2,
    View.readCov_unit_zero (S := S4096x1) _ hz2, View.readCov_unit_zero (S := S1x4096x128) _ hz3, View.readCov_unit_zero (S := S1x1x128) _ hz3,
    View.canon_cons_unit_zero (S := S4096x1) hz2, View.canon_cons_unit_zero (S := S1x4096x128) hz3, View.canon_cons_unit_zero (S := S1x1x128) hz3]
  rfl

theorem mid_deg_cover (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : ¬ isFirst i) (hl : ¬ isLast i) (x0 : Vec F S1x4096x128 .f32) (x1 : Vec F S1x128x128 .f32) (x2 : Vec F S1x128x128 .f32) (a : Vec F S1x4096x128 .f32) (s : Vec F S4096x1 .f32) (y : S4096x1.Idx) :
    ∃ pc ∈ (runMid c i arg2 harg2 arg3 harg3 arg4 harg4 arg5 harg5 arg6 harg6 arg7 harg7 arg8 harg8 hf hl x0 x1 x2 a s).2.1, y ∈ pc.1.set :=
  View.cover_of_tiledL _ S4096x1.size (by sl_kernel_rfl) y

/-- At an inner tile the degree column ends at the tile's row sums added to what it held. -/
theorem mid_deg (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : ¬ isFirst i) (hl : ¬ isLast i) (x0 : Vec F S1x4096x128 .f32) (x1 : Vec F S1x128x128 .f32) (x2 : Vec F S1x128x128 .f32) (a : Vec F S1x4096x128 .f32) (s : Vec F S4096x1 .f32)
    (v : View sig .tc .vmem S4096x1 .f32) (f : v.ty.Contents (Elt F)) :
    v.read (Elt F) (v.writes (Elt F) f (runMid c i arg2 harg2 arg3 harg3 arg4 harg4 arg5 harg5 arg6 harg6 arg7 harg7 arg8 harg8 hf hl x0 x1 x2 a s).2.1)
      = degStep x0 x1 s := by
  rw [View.read_writes_eq_canon _ _ _ (mid_deg_cover c i arg2 harg2 arg3 harg3 arg4 harg4 arg5 harg5 arg6 harg6 arg7 harg7 arg8 harg8 hf hl x0 x1 x2 a s)]
  unfold runMid; dsimp only
  sl_unfold_words
  simp only [View.readAt_eq_ld, harg2.read_unread, harg3.read_unread, harg4.read_unread, harg5.read_unread, harg6.read_unread, harg7.read_unread, harg8.read_unread,
    View.ld_unit_zero (S := S1x4096x128) hz3, View.ld_unit_zero (S := S1x128x128) hz3, View.ld_unit_zero (S := S1x1x128) hz3, View.ld_unit_zero (S := S4096x1) hz2,
    View.readCov_unit_zero (S := S4096x1) _ hz2, View.readCov_unit_zero (S := S1x4096x128) _ hz3, View.readCov_unit_zero (S := S1x1x128) _ hz3,
    View.canon_cons_unit_zero (S := S4096x1) hz2, View.canon_cons_unit_zero (S := S1x4096x128) hz3, View.canon_cons_unit_zero (S := S1x1x128) hz3]
  rfl

theorem mid_out_cover (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : ¬ isFirst i) (hl : ¬ isLast i) (x0 : Vec F S1x4096x128 .f32) (x1 : Vec F S1x128x128 .f32) (x2 : Vec F S1x128x128 .f32) (a : Vec F S1x4096x128 .f32) (s : Vec F S4096x1 .f32) (y : S1x4096x128.Idx) :
    ∃ pc ∈ (runMid c i arg2 harg2 arg3 harg3 arg4 harg4 arg5 harg5 arg6 harg6 arg7 harg7 arg8 harg8 hf hl x0 x1 x2 a s).1, y ∈ pc.1.set :=
  View.cover_of_tiledL _ S1x4096x128.size (by sl_kernel_rfl) y

/-- At an inner tile the output block ends at the tile's contribution added to what it held. -/
theorem mid_out (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : ¬ isFirst i) (hl : ¬ isLast i) (x0 : Vec F S1x4096x128 .f32) (x1 : Vec F S1x128x128 .f32) (x2 : Vec F S1x128x128 .f32) (a : Vec F S1x4096x128 .f32) (s : Vec F S4096x1 .f32)
    (v : View sig .tc .vmem S1x4096x128 .f32) (f : v.ty.Contents (Elt F)) :
    v.read (Elt F) (v.writes (Elt F) f (runMid c i arg2 harg2 arg3 harg3 arg4 harg4 arg5 harg5 arg6 harg6 arg7 harg7 arg8 harg8 hf hl x0 x1 x2 a s).1)
      = accStep x0 x1 x2 a := by
  rw [View.read_writes_eq_canon _ _ _ (mid_out_cover c i arg2 harg2 arg3 harg3 arg4 harg4 arg5 harg5 arg6 harg6 arg7 harg7 arg8 harg8 hf hl x0 x1 x2 a s)]
  unfold runMid; dsimp only
  sl_unfold_words
  simp only [View.readAt_eq_ld, harg2.read_unread, harg3.read_unread, harg4.read_unread, harg5.read_unread, harg6.read_unread, harg7.read_unread, harg8.read_unread,
    View.ld_unit_zero (S := S1x4096x128) hz3, View.ld_unit_zero (S := S1x128x128) hz3, View.ld_unit_zero (S := S1x1x128) hz3, View.ld_unit_zero (S := S4096x1) hz2,
    View.readCov_unit_zero (S := S4096x1) _ hz2, View.readCov_unit_zero (S := S1x4096x128) _ hz3, View.readCov_unit_zero (S := S1x1x128) _ hz3,
    View.canon_cons_unit_zero (S := S4096x1) hz2, View.canon_cons_unit_zero (S := S1x4096x128) hz3, View.canon_cons_unit_zero (S := S1x1x128) hz3]
  rfl

theorem last_deg_cover (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : ¬ isFirst i) (hl : isLast i) (x0 : Vec F S1x4096x128 .f32) (x1 : Vec F S1x128x128 .f32) (x2 : Vec F S1x128x128 .f32) (a : Vec F S1x4096x128 .f32) (s : Vec F S4096x1 .f32) (y : S4096x1.Idx) :
    ∃ pc ∈ (runLast c i arg2 harg2 arg3 harg3 arg4 harg4 arg5 harg5 arg6 harg6 arg7 harg7 arg8 harg8 hf hl x0 x1 x2 a s).2.2.2.1, y ∈ pc.1.set :=
  View.cover_of_tiledL _ S4096x1.size (by sl_kernel_rfl) y

/-- At the last tile the degree column ends at the tile's row sums added to what it held: the full degrees. -/
theorem last_deg (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : ¬ isFirst i) (hl : isLast i) (x0 : Vec F S1x4096x128 .f32) (x1 : Vec F S1x128x128 .f32) (x2 : Vec F S1x128x128 .f32) (a : Vec F S1x4096x128 .f32) (s : Vec F S4096x1 .f32)
    (v : View sig .tc .vmem S4096x1 .f32) (f : v.ty.Contents (Elt F)) :
    v.read (Elt F) (v.writes (Elt F) f (runLast c i arg2 harg2 arg3 harg3 arg4 harg4 arg5 harg5 arg6 harg6 arg7 harg7 arg8 harg8 hf hl x0 x1 x2 a s).2.2.2.1)
      = degStep x0 x1 s := by
  rw [View.read_writes_eq_canon _ _ _ (last_deg_cover c i arg2 harg2 arg3 harg3 arg4 harg4 arg5 harg5 arg6 harg6 arg7 harg7 arg8 harg8 hf hl x0 x1 x2 a s)]
  unfold runLast; dsimp only
  sl_unfold_words
  simp only [View.readAt_eq_ld, harg2.read_unread, harg3.read_unread, harg4.read_unread, harg5.read_unread, harg6.read_unread, harg7.read_unread, harg8.read_unread,
    View.ld_unit_zero (S := S1x4096x128) hz3, View.ld_unit_zero (S := S1x128x128) hz3, View.ld_unit_zero (S := S1x1x128) hz3, View.ld_unit_zero (S := S4096x1) hz2,
    View.readCov_unit_zero (S := S4096x1) _ hz2, View.readCov_unit_zero (S := S1x4096x128) _ hz3, View.readCov_unit_zero (S := S1x1x128) _ hz3,
    View.canon_cons_unit_zero (S := S4096x1) hz2, View.canon_cons_unit_zero (S := S1x4096x128) hz3, View.canon_cons_unit_zero (S := S1x1x128) hz3]
  rfl

theorem last_out_cover (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : ¬ isFirst i) (hl : isLast i) (x0 : Vec F S1x4096x128 .f32) (x1 : Vec F S1x128x128 .f32) (x2 : Vec F S1x128x128 .f32) (a : Vec F S1x4096x128 .f32) (s : Vec F S4096x1 .f32) (y : S1x4096x128.Idx) :
    ∃ pc ∈ (runLast c i arg2 harg2 arg3 harg3 arg4 harg4 arg5 harg5 arg6 harg6 arg7 harg7 arg8 harg8 hf hl x0 x1 x2 a s).1, y ∈ pc.1.set :=
  View.cover_of_tiledL _ S1x4096x128.size (by sl_kernel_rfl) y

/-- At the last tile the output block ends at the finished block: the completed sums, each row scaled by its reciprocal degree, plus the batch's feature rows. -/
theorem last_out (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : ¬ isFirst i) (hl : isLast i) (x0 : Vec F S1x4096x128 .f32) (x1 : Vec F S1x128x128 .f32) (x2 : Vec F S1x128x128 .f32) (a : Vec F S1x4096x128 .f32) (s : Vec F S4096x1 .f32)
    (v : View sig .tc .vmem S1x4096x128 .f32) (f : v.ty.Contents (Elt F)) :
    v.read (Elt F) (v.writes (Elt F) f (runLast c i arg2 harg2 arg3 harg3 arg4 harg4 arg5 harg5 arg6 harg6 arg7 harg7 arg8 harg8 hf hl x0 x1 x2 a s).1)
      = finish x0 (degStep x0 x1 s) (accStep x0 x1 x2 a) := by
  rw [View.read_writes_eq_canon _ _ _ (last_out_cover c i arg2 harg2 arg3 harg3 arg4 harg4 arg5 harg5 arg6 harg6 arg7 harg7 arg8 harg8 hf hl x0 x1 x2 a s)]
  unfold runLast; dsimp only
  sl_unfold_words
  simp only [View.readAt_eq_ld, harg2.read_unread, harg3.read_unread, harg4.read_unread, harg5.read_unread, harg6.read_unread, harg7.read_unread, harg8.read_unread,
    View.ld_unit_zero (S := S1x4096x128) hz3, View.ld_unit_zero (S := S1x128x128) hz3, View.ld_unit_zero (S := S1x1x128) hz3, View.ld_unit_zero (S := S4096x1) hz2,
    View.readCov_unit_zero (S := S4096x1) _ hz2, View.readCov_unit_zero (S := S1x4096x128) _ hz3, View.readCov_unit_zero (S := S1x1x128) _ hz3,
    View.canon_cons_unit_zero (S := S4096x1) hz2, View.canon_cons_unit_zero (S := S1x4096x128) hz3, View.canon_cons_unit_zero (S := S1x1x128) hz3]
  rfl

theorem last_sum_cover (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : ¬ isFirst i) (hl : isLast i) (x0 : Vec F S1x4096x128 .f32) (x1 : Vec F S1x128x128 .f32) (x2 : Vec F S1x128x128 .f32) (a : Vec F S1x4096x128 .f32) (s : Vec F S4096x1 .f32) (y : S1x1x128.Idx) :
    ∃ pc ∈ (runLast c i arg2 harg2 arg3 harg3 arg4 harg4 arg5 harg5 arg6 harg6 arg7 harg7 arg8 harg8 hf hl x0 x1 x2 a s).2.1, y ∈ pc.1.set :=
  View.cover_of_tiledL _ S1x1x128.size (by sl_kernel_rfl) y

/-- At the last tile the first small output ends at the finished block's per-channel sums. -/
theorem last_sum (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : ¬ isFirst i) (hl : isLast i) (x0 : Vec F S1x4096x128 .f32) (x1 : Vec F S1x128x128 .f32) (x2 : Vec F S1x128x128 .f32) (a : Vec F S1x4096x128 .f32) (s : Vec F S4096x1 .f32)
    (v : View sig .tc .vmem S1x1x128 .f32) (f : v.ty.Contents (Elt F)) :
    v.read (Elt F) (v.writes (Elt F) f (runLast c i arg2 harg2 arg3 harg3 arg4 harg4 arg5 harg5 arg6 harg6 arg7 harg7 arg8 harg8 hf hl x0 x1 x2 a s).2.1)
      = chanSum x0 (degStep x0 x1 s) (accStep x0 x1 x2 a) := by
  rw [View.read_writes_eq_canon _ _ _ (last_sum_cover c i arg2 harg2 arg3 harg3 arg4 harg4 arg5 harg5 arg6 harg6 arg7 harg7 arg8 harg8 hf hl x0 x1 x2 a s)]
  unfold runLast; dsimp only
  sl_unfold_words
  simp only [View.readAt_eq_ld, harg2.read_unread, harg3.read_unread, harg4.read_unread, harg5.read_unread, harg6.read_unread, harg7.read_unread, harg8.read_unread,
    View.ld_unit_zero (S := S1x4096x128) hz3, View.ld_unit_zero (S := S1x128x128) hz3, View.ld_unit_zero (S := S1x1x128) hz3, View.ld_unit_zero (S := S4096x1) hz2,
    View.readCov_unit_zero (S := S4096x1) _ hz2, View.readCov_unit_zero (S := S1x4096x128) _ hz3, View.readCov_unit_zero (S := S1x1x128) _ hz3,
    View.canon_cons_unit_zero (S := S4096x1) hz2, View.canon_cons_unit_zero (S := S1x4096x128) hz3, View.canon_cons_unit_zero (S := S1x1x128) hz3]
  rfl

theorem last_sq_cover (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : ¬ isFirst i) (hl : isLast i) (x0 : Vec F S1x4096x128 .f32) (x1 : Vec F S1x128x128 .f32) (x2 : Vec F S1x128x128 .f32) (a : Vec F S1x4096x128 .f32) (s : Vec F S4096x1 .f32) (y : S1x1x128.Idx) :
    ∃ pc ∈ (runLast c i arg2 harg2 arg3 harg3 arg4 harg4 arg5 harg5 arg6 harg6 arg7 harg7 arg8 harg8 hf hl x0 x1 x2 a s).2.2.1, y ∈ pc.1.set :=
  View.cover_of_tiledL _ S1x1x128.size (by sl_kernel_rfl) y

/-- At the last tile the second small output ends at the per-channel sums of the finished block's square. -/
theorem last_sq (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : ¬ isFirst i) (hl : isLast i) (x0 : Vec F S1x4096x128 .f32) (x1 : Vec F S1x128x128 .f32) (x2 : Vec F S1x128x128 .f32) (a : Vec F S1x4096x128 .f32) (s : Vec F S4096x1 .f32)
    (v : View sig .tc .vmem S1x1x128 .f32) (f : v.ty.Contents (Elt F)) :
    v.read (Elt F) (v.writes (Elt F) f (runLast c i arg2 harg2 arg3 harg3 arg4 harg4 arg5 harg5 arg6 harg6 arg7 harg7 arg8 harg8 hf hl x0 x1 x2 a s).2.2.1)
      = chanSq x0 (degStep x0 x1 s) (accStep x0 x1 x2 a) := by
  rw [View.read_writes_eq_canon _ _ _ (last_sq_cover c i arg2 harg2 arg3 harg3 arg4 harg4 arg5 harg5 arg6 harg6 arg7 harg7 arg8 harg8 hf hl x0 x1 x2 a s)]
  unfold runLast; dsimp only
  sl_unfold_words
  simp only [View.readAt_eq_ld, harg2.read_unread, harg3.read_unread, harg4.read_unread, harg5.read_unread, harg6.read_unread, harg7.read_unread, harg8.read_unread,
    View.ld_unit_zero (S := S1x4096x128) hz3, View.ld_unit_zero (S := S1x128x128) hz3, View.ld_unit_zero (S := S1x1x128) hz3, View.ld_unit_zero (S := S4096x1) hz2,
    View.readCov_unit_zero (S := S4096x1) _ hz2, View.readCov_unit_zero (S := S1x4096x128) _ hz3, View.readCov_unit_zero (S := S1x1x128) _ hz3,
    View.canon_cons_unit_zero (S := S4096x1) hz2, View.canon_cons_unit_zero (S := S1x4096x128) hz3, View.canon_cons_unit_zero (S := S1x1x128) hz3]
  rfl

end Cert.Kernel.Vertex

end
-- ==== Proof.WVertexData.lean ====
/-
  The vertex region's proof data. At linear point t = 32 b + j the two accumulators hold, after the body,
    sums(t)    = tile j's contribution added to sums(t-1)    (to zero when j = 0),
    degrees(t) = tile j's row sums added to degrees(t-1)     (to zero when j = 0),
  and the output block's staging buffer holds sums(t), except at j = 31 where it holds the finished block: the
  rows of sums(t) scaled by the reciprocals of degrees(t), plus the batch's own feature rows, which the pipeline
  then writes back as batch b of the result. At j = 31 the two small outputs receive the finished block's
  per-channel sums and the per-channel sums of its square, and are written back too; at every other point they
  are idle, so the body hands them back as it found them and nothing need be said of what they hold. The degree
  column lives in a scoped buffer of the kernel's own, so its contents are carried by the region's invariant from
  one point to the next; the output block is handed to the next point untouched because the pipeline writes it
  back only after j = 31. The body obligation is the case's run (first / inner / last tile) at the point's
  memrefs and blocks.
-/
import proofs.«147048_j80771154968988_2_alg».proof.Proof.WVertexPieces

set_option maxRecDepth 16384

noncomputable section

namespace Cert.Kernel.Vertex

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulators, point by point -/

/-- One point's step on the pair (sums, degrees). -/
def step (c : Dev nD) (t : Fin cfg1.N) (p : Vec F S1x4096x128 .f32 × Vec F S4096x1 .f32) : Vec F S1x4096x128 .f32 × Vec F S4096x1 .f32 :=
  (accStep (iblk V c 0 t) (iblk V c 1 t) (iblk V c 2 t) p.1, degStep (iblk V c 0 t) (iblk V c 1 t) p.2)

/-- (sums, degrees) after the body at point `n`: restarted from zero at every first tile. -/
def stAt (c : Dev nD) : (n : ℕ) → n < cfg1.N → Vec F S1x4096x128 .f32 × Vec F S4096x1 .f32
  | 0, hn => step V c ⟨0, hn⟩ (zeroAcc, zeroDeg)
  | n + 1, hn => step V c ⟨n + 1, hn⟩ (if (n + 1) % 32 = 0 then (zeroAcc, zeroDeg) else stAt c n (Nat.lt_of_succ_lt hn))

theorem stAt_first (c : Dev nD) (t : Fin cfg1.N) (h : t.val % 32 = 0) :
    stAt V c t.val t.isLt = step V c t (zeroAcc, zeroDeg) := by
  obtain ⟨n, hn⟩ := t
  cases n with
  | zero => rfl
  | succ n => show step V c ⟨n + 1, hn⟩ (if (n + 1) % 32 = 0 then _ else _) = _; rw [if_pos h]

theorem stAt_next (c : Dev nD) (t : Fin cfg1.N) (h : ¬ t.val % 32 = 0) :
    stAt V c t.val t.isLt = step V c t (stAt V c (t.val - 1) (Nat.lt_of_le_of_lt (Nat.sub_le _ _) t.isLt)) := by
  obtain ⟨n, hn⟩ := t
  cases n with
  | zero => exact absurd (Nat.zero_mod _) h
  | succ n => show step V c ⟨n + 1, hn⟩ (if (n + 1) % 32 = 0 then _ else _) = _; rw [if_neg h]; rfl

/-- What the output block's staging buffer holds after the body at point `t`: the running sums, and at a last tile the
    finished block. -/
def outAfter (c : Dev nD) (t : Fin cfg1.N) : Vec F S1x4096x128 .f32 :=
  if t.val % 32 = 31 then finish (iblk V c 0 t) (stAt V c t.val t.isLt).2 (stAt V c t.val t.isLt).1 else (stAt V c t.val t.isLt).1

/-- What the channel-sum output's staging buffer holds after the body at a last tile `t`: the per-channel sums of the
    finished block. (At the other points the window is idle and this is not consulted.) -/
def sumAfter (c : Dev nD) (t : Fin cfg1.N) : Vec F S1x1x128 .f32 :=
  chanSum (iblk V c 0 t) (stAt V c t.val t.isLt).2 (stAt V c t.val t.isLt).1

/-- What the channel-square-sum output's staging buffer holds after the body at a last tile `t`: the per-channel sums of
    the finished block's square. (At the other points the window is idle and this is not consulted.) -/
def sqAfter (c : Dev nD) (t : Fin cfg1.N) : Vec F S1x1x128 .f32 :=
  chanSq (iblk V c 0 t) (stAt V c t.val t.isLt).2 (stAt V c t.val t.isLt).1

/-! ## The region's invariant: the degree column carried between points -/

/-- Before the first point the class's invariant (every scoped buffer at anything); after point `n` the degree column at
    `degrees(n)`, the other scoped buffers at anything, the generator register at some state. -/
def PhiV (c : Dev nD) : (n : ℕ) → n ≤ cfg1.N → sProp 𝕄
  | 0, _ => Pipeline.ΦA spec1 c
  | n + 1, hn => iprop(owns (c : Thread nD τ) mDeg fullShare (stAt V c n hn).2 ∗ otherScoped c ∗ ∃ r, prngReg c r)

theorem PhiV_pos (c : Dev nD) (n : ℕ) (h : n ≤ cfg1.N) (hz : n ≠ 0) :
    PhiV V c n h = iprop(owns (c : Thread nD τ) mDeg fullShare (stAt V c (n - 1) (by omega)).2 ∗ otherScoped c ∗ ∃ r, prngReg c r) := by
  cases n with
  | zero => exact absurd rfl hz
  | succ n => rfl

/-- At any point the invariant holds the degree column at SOME contents. -/
theorem PhiV_some (c : Dev nD) (n : ℕ) (h : n ≤ cfg1.N) :
    PhiV V c n h ⊢ iprop((∃ d, owns (c : Thread nD τ) mDeg fullShare d) ∗ otherScoped c ∗ ∃ r, prngReg c r) := by
  cases n with
  | zero =>
    show Pipeline.ΦA spec1 c ⊢ _
    unfold Pipeline.ΦA; rw [scopedRest_split]
    iintro ⟨⟨HS, HO⟩, Hg⟩
    isplitl [HS]; · iexact HS
    isplitl [HO]; · iexact HO
    iexact Hg
  | succ n =>
    show iprop(owns (c : Thread nD τ) mDeg fullShare (stAt V c n h).2 ∗ otherScoped c ∗ ∃ r, prngReg c r) ⊢ _
    iintro ⟨HS, HO, Hg⟩
    isplitl [HS]; · iexists _; iexact HS
    isplitl [HO]; · iexact HO
    iexact Hg

/-! ## The proof data -/

/-- The vertex region's proof data on core `c`: the arrays as the region finds them; each input's buffer left at its
    block, the output block's at `outAfter`, the two channel statistics' at `sumAfter` and `sqAfter`; the invariant
    `PhiV`; nothing owed. The feature rows are read by two windows (all 4096 rows of the batch, and the tile's 128
    rows): they hold the two halves of that array's share. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAfter V c t
    | ⟨4, _⟩ => sumAfter V c t
    | ⟨5, _⟩ => sqAfter V c t
  Φ t := PhiV V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg1.W) : (dat V c).A w = V c (Pipeline.arrRef spec1 w) := by dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = outAfter V c t := by dsimp only [dat]
theorem after_4 (c : Dev nD) (t : Fin cfg1.N) : (dat V c).after 4 t = sumAfter V c t := by dsimp only [dat]
theorem after_5 (c : Dev nD) (t : Fin cfg1.N) : (dat V c).after 5 t = sqAfter V c t := by dsimp only [dat]

theorem Phi_castSucc (c : Dev nD) (t : Fin cfg1.N) : (dat V c).Φ t.castSucc = PhiV V c t.val (Nat.le_of_lt t.isLt) := by
  dsimp only [dat]; simp only [Fin.coe_castSucc]

/-- An input's current staging buffer holds its block at every point, fetched there or not. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- After a first tile the output block's buffer holds the running sums the point before left: it is written back only
    after a last tile, and the point before a tile that is not first is not a last tile. -/
theorem before_3_next (c : Dev nD) (t : Fin cfg1.N) (h : ¬ t.val % 32 = 0) (d) :
    (dat V c).before 3 t d = (stAt V c (t.val - 1) (Nat.lt_of_le_of_lt (Nat.sub_le _ _) t.isLt)).1 := by
  rw [Dat.before_out_kept _ 3 rfl t (by omega) (Bool.eq_false_iff.mpr fun hf => by have := (flush1_3 _).mp hf; dsimp only at this; omega)
    (fun _ => rfl) (fun _ _ => rfl)]
  rw [after_3]; unfold outAfter; dsimp only
  rw [if_neg (by omega)]

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 2000000 in
/-- The body at any point: which of the three cases the point is in is read off `t % 32`; the inputs' memrefs hold their
    blocks; at a first tile both accumulators are handed over at anything, at a later tile at what the point before
    left; before the last tile the two channel statistics are handed over and taken back at what they hold, at the
    last tile handed over at anything and taken back at the finished block's statistics; the case's run applies and
    its stores, read back, are this point's `sums`, `degrees` and, at the last tile, finished block and statistics. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl,
    show (dat V c).Φ t.succ = PhiV V c (t.val + 1) t.isLt from rfl,
    show PhiV V c (t.val + 1) t.isLt = iprop(owns (c : Thread nD τ) mDeg fullShare (stAt V c t.val t.isLt).2 ∗ otherScoped c ∗ ∃ r, prngReg c r) from rfl,
    show (dat V c).leavesExact 0 t = owns (c : Thread nD τ) (st1_0 t) fullShare ((dat V c).after 0 t) from by
      unfold Dat.leavesExact; rw [live_0],
    show (dat V c).leavesExact 1 t = owns (c : Thread nD τ) (st1_1 t) fullShare ((dat V c).after 1 t) from by
      unfold Dat.leavesExact; rw [live_1],
    show (dat V c).leavesExact 2 t = owns (c : Thread nD τ) (st1_2 t) fullShare ((dat V c).after 2 t) from by
      unfold Dat.leavesExact; rw [live_2],
    show (dat V c).leavesExact 3 t = owns (c : Thread nD τ) (st1_3 t) fullShare ((dat V c).after 3 t) from by
      unfold Dat.leavesExact; rw [live_3],
    after_0, after_1, after_2, after_3, Phi_castSucc]
  by_cases hfirst : t.val % 32 = 0
  · -- a first tile
    have hnl : ¬ t.val % 32 = 31 := by omega
    have hf : isFirst (grid1.coords t) := (isFirst_iff t).mpr hfirst
    have hl : ¬ isLast (grid1.coords t) := fun h => hnl ((isLast_iff t).mp h)
    rw [Dat.leavesExact_idle (dat V c) 4 t (idle_4 t hnl) (noFlush_4 t hnl), Dat.leavesExact_idle (dat V c) 5 t (idle_5 t hnl) (noFlush_5 t hnl)]
    unfold outAfter; rw [if_neg hnl, stAt_first V c t hfirst]; unfold step; dsimp only
    iintro ⟨HΦ, Ho, ⟨%d0, H0⟩, ⟨%d1, H1⟩, ⟨%d2, H2⟩, ⟨%d3, H3⟩, ⟨%d4, H4⟩, ⟨%d5, H5⟩⟩
    ihave HΦ' := (PhiV_some V c t.val (Nat.le_of_lt t.isLt)) $$ HΦ
    icases HΦ' with ⟨HS, HO, Hg⟩
    iapply ((runFirst c (grid1.coords t) (mAll t) (hAll t) (mCtr t) (hCtr t) (mEdge t) (hEdge t) (mOut t) (hOut t) (mSum t) (hSum t) (mSq t) (hSq t) mDeg hDeg hf hl (iblk V c 0 t) (iblk V c 1 t) (iblk V c 2 t)).2.2 _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [HS]; · iexact HS
    iintro ⟨H0, H1, H2, ⟨%g3, H3⟩, H4, H5, ⟨%gs, HS⟩⟩
    isplitl [HS HO Hg]
    · isplitl [HS]
      · unfold owns; iexists _; isplitr
        swap; · iexact HS
        ipureintro; exact first_deg c (grid1.coords t) (mAll t) (hAll t) (mCtr t) (hCtr t) (mEdge t) (hEdge t) (mOut t) (hOut t) (mSum t) (hSum t) (mSq t) (hSq t) mDeg hDeg hf hl (iblk V c 0 t) (iblk V c 1 t) (iblk V c 2 t) _ _
      isplitl [HO]; · iexact HO
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact first_out c (grid1.coords t) (mAll t) (hAll t) (mCtr t) (hCtr t) (mEdge t) (hEdge t) (mOut t) (hOut t) (mSum t) (hSum t) (mSq t) (hSq t) mDeg hDeg hf hl (iblk V c 0 t) (iblk V c 1 t) (iblk V c 2 t) _ _
    isplitl [H4]; · iexists _; iexact H4
    iexists _; iexact H5
  · have hz : t.val ≠ 0 := fun h => hfirst (by rw [h])
    have hf : ¬ isFirst (grid1.coords t) := fun h => hfirst ((isFirst_iff t).mp h)
    rw [PhiV_pos V c _ _ hz]
    simp only [before_3_next V c t hfirst]
    by_cases hlast : t.val % 32 = 31
    · -- the last tile
      have hl : isLast (grid1.coords t) := (isLast_iff t).mpr hlast
      rw [show (dat V c).leavesExact 4 t = owns (c : Thread nD τ) (st1_4 t) fullShare ((dat V c).after 4 t) from by
          unfold Dat.leavesExact; rw [live_4 t hlast],
        show (dat V c).leavesExact 5 t = owns (c : Thread nD τ) (st1_5 t) fullShare ((dat V c).after 5 t) from by
          unfold Dat.leavesExact; rw [live_5 t hlast],
        after_4, after_5]
      unfold outAfter sumAfter sqAfter; rw [if_pos hlast, stAt_next V c t hfirst]; unfold step; dsimp only
      iintro ⟨⟨HS, HO, Hg⟩, Ho, ⟨%d0, H0⟩, ⟨%d1, H1⟩, ⟨%d2, H2⟩, ⟨%d3, H3⟩, ⟨%d4, H4⟩, ⟨%d5, H5⟩⟩
      iapply ((runLast c (grid1.coords t) (mAll t) (hAll t) (mCtr t) (hCtr t) (mEdge t) (hEdge t) (mOut t) (hOut t) (mSum t) (hSum t) (mSq t) (hSq t) mDeg hDeg hf hl (iblk V c 0 t) (iblk V c 1 t) (iblk V c 2 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, ⟨%g3, H3⟩, ⟨%g4, H4⟩, ⟨%g5, H5⟩, ⟨%gs, HS⟩⟩
      isplitl [HS HO Hg]
      · isplitl [HS]
        · unfold owns; iexists _; isplitr
          swap; · iexact HS
          ipureintro; exact last_deg c (grid1.coords t) (mAll t) (hAll t) (mCtr t) (hCtr t) (mEdge t) (hEdge t) (mOut t) (hOut t) (mSum t) (hSum t) (mSq t) (hSq t) mDeg hDeg hf hl (iblk V c 0 t) (iblk V c 1 t) (iblk V c 2 t) _ _ _ _
        isplitl [HO]; · iexact HO
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact last_out c (grid1.coords t) (mAll t) (hAll t) (mCtr t) (hCtr t) (mEdge t) (hEdge t) (mOut t) (hOut t) (mSum t) (hSum t) (mSq t) (hSq t) mDeg hDeg hf hl (iblk V c 0 t) (iblk V c 1 t) (iblk V c 2 t) _ _ _ _
      isplitl [H4]
      · unfold owns; iexists _; isplitr
        swap; · iexact H4
        ipureintro; exact last_sum c (grid1.coords t) (mAll t) (hAll t) (mCtr t) (hCtr t) (mEdge t) (hEdge t) (mOut t) (hOut t) (mSum t) (hSum t) (mSq t) (hSq t) mDeg hDeg hf hl (iblk V c 0 t) (iblk V c 1 t) (iblk V c 2 t) _ _ _ _
      unfold owns; iexists _; isplitr
      swap; · iexact H5
      ipureintro; exact last_sq c (grid1.coords t) (mAll t) (hAll t) (mCtr t) (hCtr t) (mEdge t) (hEdge t) (mOut t) (hOut t) (mSum t) (hSum t) (mSq t) (hSq t) mDeg hDeg hf hl (iblk V c 0 t) (iblk V c 1 t) (iblk V c 2 t) _ _ _ _
    · -- an inner tile
      have hl : ¬ isLast (grid1.coords t) := fun h => hlast ((isLast_iff t).mp h)
      rw [Dat.leavesExact_idle (dat V c) 4 t (idle_4 t hlast) (noFlush_4 t hlast), Dat.leavesExact_idle (dat V c) 5 t (idle_5 t hlast) (noFlush_5 t hlast)]
      unfold outAfter; rw [if_neg hlast, stAt_next V c t hfirst]; unfold step; dsimp only
      iintro ⟨⟨HS, HO, Hg⟩, Ho, ⟨%d0, H0⟩, ⟨%d1, H1⟩, ⟨%d2, H2⟩, ⟨%d3, H3⟩, ⟨%d4, H4⟩, ⟨%d5, H5⟩⟩
      iapply ((runMid c (grid1.coords t) (mAll t) (hAll t) (mCtr t) (hCtr t) (mEdge t) (hEdge t) (mOut t) (hOut t) (mSum t) (hSum t) (mSq t) (hSq t) mDeg hDeg hf hl (iblk V c 0 t) (iblk V c 1 t) (iblk V c 2 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, ⟨%g3, H3⟩, H4, H5, ⟨%gs, HS⟩⟩
      isplitl [HS HO Hg]
      · isplitl [HS]
        · unfold owns; iexists _; isplitr
          swap; · iexact HS
          ipureintro; exact mid_deg c (grid1.coords t) (mAll t) (hAll t) (mCtr t) (hCtr t) (mEdge t) (hEdge t) (mOut t) (hOut t) (mSum t) (hSum t) (mSq t) (hSq t) mDeg hDeg hf hl (iblk V c 0 t) (iblk V c 1 t) (iblk V c 2 t) _ _ _ _
        isplitl [HO]; · iexact HO
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact mid_out c (grid1.coords t) (mAll t) (hAll t) (mCtr t) (hCtr t) (mEdge t) (hEdge t) (mOut t) (hOut t) (mSum t) (hSum t) (mSq t) (hSq t) mDeg hDeg hf hl (iblk V c 0 t) (iblk V c 1 t) (iblk V c 2 t) _ _ _ _
      isplitl [H4]; · iexists _; iexact H4
      iexists _; iexact H5

/-- The library's body obligation, at every point. -/
theorem body_obligation (c : Dev nD) : BodyObligation (dat (F := F) V c) (defs₀ (F := F)) Variants.none () Set.univ := fun t => by
  rw [bigSep_W1, bigSep_W1]
  exact sound_body V c t

/-! ## The invariant at the region's two ends -/

theorem Phi_first (c : Dev nD) : (dat V c).Φ 0 = Pipeline.ΦA spec1 c := rfl

/-- After the last point the invariant gives the class's back: the degree column's contents are forgotten. -/
theorem Phi_last (c : Dev nD) : (dat V c).Φ (Fin.last cfg1.N) ⊢ Pipeline.ΦA spec1 c := by
  rw [show (dat V c).Φ (Fin.last cfg1.N) = PhiV V c (Fin.last cfg1.N).val (Nat.le_of_lt_succ (Fin.last cfg1.N).isLt) from rfl]
  refine (PhiV_some V c _ _).trans ?_
  unfold Pipeline.ΦA; rw [scopedRest_split]
  iintro ⟨HS, HO, Hg⟩
  isplitl [HS HO]
  · isplitl [HS]; · iexact HS
    iexact HO
  iexact Hg

end Cert.Kernel.Vertex

end
-- ==== Proof.WVertexRegion.lean ====
/-
  The vertex region's arrays at its two ends. The region reads two distinct buffers — the feature rows (through two
  windows: all 4096 rows of a batch, and one tile of 128) and the edge pass's result — and writes three: the
  aggregated vertex features and the two per-batch channel statistics. At entry the core's unscoped buffers are
  split into these six windows' arrays (the feature rows' buffer dealt in two halves of its share, one per window)
  and the rest; at exit the halves are joined again, the inputs are as they were, and each output buffer holds what
  the region's write-backs left in it.
-/
import proofs.«147048_j80771154968988_2_alg».proof.Proof.WVertexData
import Idealize.ShloMosaic.Lib.Pipeline.Kit
import Idealize.ShloMosaic.Lib.Pipeline.Regions

set_option maxRecDepth 16384

noncomputable section

namespace Cert.Kernel.Vertex

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the region's six windows, one by one. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec1 c W : sProp 𝕄)
      = iprop((((c.tc : Thread nD τ).loc main_v1) ↦{fullShare} W main_v1) ∗ (((c.tc : Thread nD τ).loc main_v3) ↦{fullShare} W main_v3)
          ∗ (((c.tc : Thread nD τ).loc main_v4_0) ↦{fullShare} W main_v4_0) ∗ (((c.tc : Thread nD τ).loc main_v4_1) ↦{fullShare} W main_v4_1)
          ∗ (((c.tc : Thread nD τ).loc main_v4_2) ↦{fullShare} W main_v4_2)) := by
  unfold Pipeline.arrBufs
  rw [BI.bigSep_eq_bigSepL_of_eq [main_v1, main_v3, main_v4_0, main_v4_1, main_v4_2] (by decide) (by decide)]
  rfl

/-- The proof data's arrays, window by window, each whole at its share. -/
theorem arrays_eq (c : Dev nD) (G : (w : Fin cfg1.W) → Buf (Elt F) ((cfg1.win w).arr.view.loc (c.tc : Thread nD τ))) :
    ((dat V c).arrays G : sProp 𝕄)
      = iprop((((c.tc : Thread nD τ).loc main_v1) ↦{fullShare.left} G 0) ∗ (((c.tc : Thread nD τ).loc main_v1) ↦{fullShare.right} G 1)
          ∗ (((c.tc : Thread nD τ).loc main_v3) ↦{fullShare} G 2) ∗ (((c.tc : Thread nD τ).loc main_v4_0) ↦{fullShare} G 3)
          ∗ (((c.tc : Thread nD τ).loc main_v4_1) ↦{fullShare} G 4) ∗ (((c.tc : Thread nD τ).loc main_v4_2) ↦{fullShare} G 5)) := by
  unfold Dat.arrays
  rw [bigSep_W1]
  rw [(arr_whole1 0).set_eq_univ, (arr_whole1 2).set_eq_univ, (arr_whole1 3).set_eq_univ, (arr_whole1 4).set_eq_univ, (arr_whole1 5).set_eq_univ]
  rfl

/-- ENTRY. The core's unscoped buffers at the region-entry contents are the six windows' arrays at those contents
    (the feature rows' buffer in two halves) and the unscoped buffers no window stages. -/
theorem entry_arrays (c : Dev nD) :
    (unscopedBufs c (V c) : sProp 𝕄) ⊢ iprop((dat V c).arrays ((dat V c).arrAt · 0)
      ∗ Pipeline.unscopedRest (Ix := Unit) (Name := ℕ) (U := UR sig nD τ) (Lvl := ℕ) spec1 c (V c)) := by
  rw [Pipeline.unscopedBufs_split₀ (Ix := Unit) (Name := ℕ) (U := UR sig nD τ) (Lvl := ℕ) cfgs (1 : Fin 2) winFacts₀1.arr_unscoped c (V c)]
  show iprop(Pipeline.arrBufs spec1 c (V c) ∗ Pipeline.unscopedRest spec1 c (V c)) ⊢ _
  rw [arrBufs_eq, arrays_eq]
  have hhalves : ((((c.tc : Thread nD τ).loc main_v1) ↦{fullShare} V c main_v1) : sProp 𝕄)
      ⊢ iprop((((c.tc : Thread nD τ).loc main_v1) ↦{fullShare.left} V c main_v1) ∗ (((c.tc : Thread nD τ).loc main_v1) ↦{fullShare.right} V c main_v1)) :=
    (pointsTo_share (PosShare.mem_left_op_right fullShare)).1
  show _ ⊢ iprop((((((c.tc : Thread nD τ).loc main_v1) ↦{fullShare.left} V c main_v1) ∗ (((c.tc : Thread nD τ).loc main_v1) ↦{fullShare.right} V c main_v1)
      ∗ (((c.tc : Thread nD τ).loc main_v3) ↦{fullShare} V c main_v3) ∗ (((c.tc : Thread nD τ).loc main_v4_0) ↦{fullShare} V c main_v4_0)
      ∗ (((c.tc : Thread nD τ).loc main_v4_1) ↦{fullShare} V c main_v4_1) ∗ (((c.tc : Thread nD τ).loc main_v4_2) ↦{fullShare} V c main_v4_2)) : sProp 𝕄) ∗ _)
  iintro ⟨⟨Hx, He, Ho, Hs, Hq⟩, Hrest⟩
  ihave Hx' := hhalves $$ Hx
  icases Hx' with ⟨Hxl, Hxr⟩
  isplitr [Hrest]
  · isplitl [Hxl]; · iexact Hxl
    isplitl [Hxr]; · iexact Hxr
    isplitl [He]; · iexact He
    isplitl [Ho]; · iexact Ho
    isplitl [Hs]; · iexact Hs
    iexact Hq
  iexact Hrest

/-- EXIT. The six arrays after the region's write-backs, beside the unscoped buffers no window stages, are the core's
    unscoped buffers at any contents `W` that keep every buffer but the three outputs' as the region found it and hold,
    in each output's, what the write-backs left there. -/
theorem exit_arrays (c : Dev nD) (W : (b : Ref sig .tc) → Buf (Elt F) ((c.tc : Thread nD τ).loc b))
    (h0 : W main_v4_0 = (dat V c).arrAt 3 cfg1.N) (h1 : W main_v4_1 = (dat V c).arrAt 4 cfg1.N) (h2 : W main_v4_2 = (dat V c).arrAt 5 cfg1.N)
    (hrest : ∀ b : Ref sig .tc, b ≠ main_v4_0 → b ≠ main_v4_1 → b ≠ main_v4_2 → W b = V c b) :
    iprop((dat V c).arrays ((dat V c).arrAt · cfg1.N)
      ∗ Pipeline.unscopedRest (Ix := Unit) (Name := ℕ) (U := UR sig nD τ) (Lvl := ℕ) spec1 c (V c)) ⊢ (unscopedBufs c W : sProp 𝕄) := by
  rw [Pipeline.unscopedBufs_split₀ (Ix := Unit) (Name := ℕ) (U := UR sig nD τ) (Lvl := ℕ) cfgs (1 : Fin 2) winFacts₀1.arr_unscoped c W]
  show _ ⊢ iprop(Pipeline.arrBufs spec1 c W ∗ Pipeline.unscopedRest spec1 c W)
  rw [arrBufs_eq, arrays_eq]
  rw [(dat V c).arrAt_in 0 rfl, (dat V c).arrAt_in 1 rfl, (dat V c).arrAt_in 2 rfl, ← h0, ← h1, ← h2,
    hrest main_v1 (by decide) (by decide) (by decide), hrest main_v3 (by decide) (by decide) (by decide)]
  have hR : (Pipeline.unscopedRest (Ix := Unit) (Name := ℕ) (U := UR sig nD τ) (Lvl := ℕ) spec1 c W : sProp 𝕄)
      = Pipeline.unscopedRest (Ix := Unit) (Name := ℕ) (U := UR sig nD τ) (Lvl := ℕ) spec1 c (V c) := by
    unfold Pipeline.unscopedRest
    refine bigSep_congr fun b hb => ?_
    rw [hrest b (fun h => (Finset.mem_sdiff.mp hb).2 (h ▸ Finset.mem_image.mpr ⟨3, Finset.mem_univ _, rfl⟩))
      (fun h => (Finset.mem_sdiff.mp hb).2 (h ▸ Finset.mem_image.mpr ⟨4, Finset.mem_univ _, rfl⟩))
      (fun h => (Finset.mem_sdiff.mp hb).2 (h ▸ Finset.mem_image.mpr ⟨5, Finset.mem_univ _, rfl⟩))]
  rw [hR]
  have hjoin : (iprop((((c.tc : Thread nD τ).loc main_v1) ↦{fullShare.left} V c main_v1) ∗ (((c.tc : Thread nD τ).loc main_v1) ↦{fullShare.right} V c main_v1)) : sProp 𝕄)
      ⊢ (((c.tc : Thread nD τ).loc main_v1) ↦{fullShare} V c main_v1) :=
    (pointsTo_share (PosShare.mem_left_op_right fullShare)).2
  iintro ⟨⟨Hxl, Hxr, He, Ho, Hs, Hq⟩, Hrest⟩
  isplitr [Hrest]
  · isplitl [Hxl Hxr]
    · iapply hjoin
      isplitl [Hxl]; · iexact Hxl
      iexact Hxr
    isplitl [He]; · iexact He
    isplitl [Ho]; · iexact Ho
    isplitl [Hs]; · iexact Hs
    iexact Hq
  iexact Hrest

end Cert.Kernel.Vertex

end
-- ==== Proof.WKernelRun.lean ====
/-
  The whole program: @main is a short host prefix (reshape and transpose of the feature map, the bias as a row), the
  edge region, the vertex region, and a host suffix (batch statistics, normalisation, the gated output). The two
  regions are run by the pipeline library as segments of @main; between two items each core holds every unscoped
  buffer whole at named contents beside its generator register and the fact that it owes no other core anything.
  What the regions leave in their output buffers is what their proof data computes (`arrAt`), so the final memory is
  the host suffix applied to those.
-/
import proofs.«147048_j80771154968988_2_alg».proof.Proof.WEdgeRegion
import proofs.«147048_j80771154968988_2_alg».proof.Proof.WVertexRegion
import proofs.«147048_j80771154968988_2_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- What the edge region finds: the launch contents after the host prefix. -/
abbrev In0 (c : Dev nD) (b : Ref sig .tc) : Buf (Elt F) ((c : Thread nD τ).loc b) := Gen.V1 m c b
/-- What the edge region leaves in its output buffer. -/
abbrev edgeOut (c : Dev nD) : Buf (Elt F) ((c : Thread nD τ).loc main_v3) := (Edge.dat (In0 m) c).arrAt 4 cfg0.N
/-- The contents after the edge region. -/
abbrev Mid (c : Dev nD) : Valuation τ sig (Elt F) := Function.update (Gen.V1 m c) main_v3 (edgeOut m c)
/-- What the vertex region finds. -/
abbrev In1 (c : Dev nD) (b : Ref sig .tc) : Buf (Elt F) ((c : Thread nD τ).loc b) := Mid m c b
/-- What the vertex region leaves in its three output buffers. -/
abbrev vertOut (c : Dev nD) : Buf (Elt F) ((c : Thread nD τ).loc main_v4_0) := (Vertex.dat (In1 m) c).arrAt 3 cfg1.N
abbrev vertSum (c : Dev nD) : Buf (Elt F) ((c : Thread nD τ).loc main_v4_1) := (Vertex.dat (In1 m) c).arrAt 4 cfg1.N
abbrev vertSq (c : Dev nD) : Buf (Elt F) ((c : Thread nD τ).loc main_v4_2) := (Vertex.dat (In1 m) c).arrAt 5 cfg1.N

/-- The regions' outputs as the family the generated valuations are written over. -/
def outs : Gen.Outs (F := F) := fun _ r c =>
  if h : r = main_v3 then h ▸ edgeOut m c
  else if h : r = main_v4_0 then h ▸ vertOut m c
  else if h : r = main_v4_1 then h ▸ vertSum m c
  else if h : r = main_v4_2 then h ▸ vertSq m c
  else m ((c : Thread nD τ).loc r)

theorem outs_v3 (J : ℕ) (c : Dev nD) : outs m J main_v3 c = edgeOut m c := by unfold outs; rw [dif_pos rfl]
theorem outs_v4_0 (J : ℕ) (c : Dev nD) : outs m J main_v4_0 c = vertOut m c := by
  unfold outs; rw [dif_neg (by decide), dif_pos rfl]
theorem outs_v4_1 (J : ℕ) (c : Dev nD) : outs m J main_v4_1 c = vertSum m c := by
  unfold outs; rw [dif_neg (by decide), dif_neg (by decide), dif_pos rfl]
theorem outs_v4_2 (J : ℕ) (c : Dev nD) : outs m J main_v4_2 c = vertSq m c := by
  unfold outs; rw [dif_neg (by decide), dif_neg (by decide), dif_neg (by decide), dif_pos rfl]

theorem V2_eq (c : Dev nD) : Gen.V2 m (outs m) c = Mid m c := by
  unfold Gen.V2 Mid; rw [outs_v3]

/-! ## The proof data family, and what rides beside the buffers -/

/-- Every pipeline's proof data, each at its region's entry contents. -/
def pdats : (p : Fin 2) → (c : Dev nD) → Dat τ (Elt F) Unit ℕ (UR sig nD τ) ℕ (cfgs p) c
  | ⟨0, _⟩ => fun c => Edge.dat (In0 m) c
  | ⟨1, _⟩ => fun c => Vertex.dat (In1 m) c

abbrev L : GSem nD τ sig → Finset Unit := fun _ => ∅
abbrev lv : GSem nD τ sig → Unit → ℕ := fun _ _ => 0

/-- Beside the buffers: the core's generator register at some state, and that it owes nothing. -/
abbrev Rest (c : Dev nD) : sProp 𝕄 := iprop((∃ r, prngReg c r) ∗ ∃ W, owes (c : Thread nD τ) (0 : CellTallies nD τ sig Unit) W)

/-! ## The edge region as a segment -/

set_option backward.isDefEq.respectTransparency.types false in
def reg0 : Pipeline.RegionSeg (pcfgs (F := F)) Gen.adm (pdats m) () defs₀ Variants.none L lv 0 where
  win := winFacts₀0
  block_pos := block_pos0
  stage_whole := stage_whole0
  K := PEmpty
  osem k := k.elim
  ho := Pipeline.OwnSemFacts.none _
  hbody c := (Edge.body_obligation (In0 m) c).loose
  hwaits := Pipeline.hwaits_of_owed_zero _ _ _ _ L lv 0 fun _ _ => rfl
  pre c := iprop(StableHlo.held (c : Thread nD τ) (Pipeline.ucRefs τ sig) (Gen.V1 m c) ∗ Rest c)
  post c := iprop(StableHlo.held (c : Thread nD τ) (Pipeline.ucRefs τ sig) (Gen.V2 m (outs m) c) ∗ Rest c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit := Edge.entry_arrays (In0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Edge.Phi_last (In0 m) c).trans ?_
    unfold Pipeline.ΦA
    iintro ⟨Hr, Hp⟩
    isplitl [Hp]; · iexact Hp
    isplitr; · iempintro
    iexact Hr
  hexit c := by
    have hjoin := Edge.exit_arrays (In0 m) c (fun b => Gen.V2 m (outs m) c b)
      (by show Gen.V2 m (outs m) c main_v3 = _; rw [V2_eq]; exact Function.update_self ..)
      (fun b hb => by
        show Gen.V2 m (outs m) c b = Gen.V1 m c b
        rw [V2_eq]; exact Function.update_of_ne (StableHlo.devRef_ne_of_ne hb) ..)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The vertex region as a segment -/

theorem V3_v4_0 (c : Dev nD) : Gen.V3 m (outs m) c main_v4_0 = vertOut m c := by
  unfold Gen.V3
  rw [Function.update_of_ne (StableHlo.devRef_ne_of_ne (by decide : main_v4_0 ≠ main_v4_2)),
    Function.update_of_ne (StableHlo.devRef_ne_of_ne (by decide : main_v4_0 ≠ main_v4_1)), Function.update_self, outs_v4_0]
theorem V3_v4_1 (c : Dev nD) : Gen.V3 m (outs m) c main_v4_1 = vertSum m c := by
  unfold Gen.V3
  rw [Function.update_of_ne (StableHlo.devRef_ne_of_ne (by decide : main_v4_1 ≠ main_v4_2)), Function.update_self, outs_v4_1]
theorem V3_v4_2 (c : Dev nD) : Gen.V3 m (outs m) c main_v4_2 = vertSq m c := by
  unfold Gen.V3
  rw [Function.update_self, outs_v4_2]

set_option backward.isDefEq.respectTransparency.types false in
def reg1 : Pipeline.RegionSeg (pcfgs (F := F)) Gen.adm (pdats m) () defs₀ Variants.none L lv 1 where
  win := winFacts₀1
  block_pos := block_pos1
  stage_whole := stage_whole1
  K := PEmpty
  osem k := k.elim
  ho := Pipeline.OwnSemFacts.none _
  hbody c := (Vertex.body_obligation (In1 m) c).loose
  hwaits := Pipeline.hwaits_of_owed_zero _ _ _ _ L lv 1 fun _ _ => rfl
  pre c := iprop(StableHlo.held (c : Thread nD τ) (Pipeline.ucRefs τ sig) (Gen.V2 m (outs m) c) ∗ Rest c)
  post c := iprop(StableHlo.held (c : Thread nD τ) (Pipeline.ucRefs τ sig) (Gen.V3 m (outs m) c) ∗ Rest c)
  X c := iprop(∃ r, prngReg c r)
  Y c := iprop(∃ r, prngReg c r)
  Z c := Pipeline.unscopedRest (Ix := Unit) (Name := ℕ) (U := UR sig nD τ) (Lvl := ℕ) spec1 c (In1 m c)
  hentry c := by
    rw [Pipeline.ownSems0_none, V2_eq]
    have hsplit := Vertex.entry_arrays (In1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Vertex.Phi_last (In1 m) c).trans ?_
    unfold Pipeline.ΦA
    iintro ⟨Hr, Hp⟩
    isplitl [Hp]; · iexact Hp
    isplitr; · iempintro
    iexact Hr
  hexit c := by
    have hjoin := Vertex.exit_arrays (In1 m) c (fun b => Gen.V3 m (outs m) c b)
      (V3_v4_0 m c) (V3_v4_1 m c) (V3_v4_2 m c)
      (fun b h0 h1 h2 => by
        show Gen.V3 m (outs m) c b = Mid m c b
        rw [Gen.V3_of m (outs m) c b (by simp only [List.mem_cons, List.not_mem_nil, or_false]; exact fun h => h.elim h0 (fun h => h.elim h1 h2)), V2_eq])
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main's run -/

/-- The rest states between the four items: the same on every core at every boundary. -/
abbrev Es : Fin 3 → Dev nD → sProp 𝕄 := fun _ c => Rest c

set_option backward.isDefEq.respectTransparency.types false in
/-- Every weakly fair execution of @main from memory `m` with zero counters terminates, and in every final memory each
    core's unscoped buffers hold the last boundary's contents: the launch contents through the host prefix, the two
    regions' outputs at what their proof data computes, and the host suffix over those. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V4 m (outs m) c b) := by
  refine Pipeline.θ_run_regions_kit_dev (pcfgs (F := F)) Gen.adm (pdats m) () cellOf_inj emb₁ defs₀ Variants.none L lv m ρ main
    (Gen.segs m (outs m) Variants.none L lv (Es (F := F)) () (pdats m) (reg0 m) (reg1 m))
    (fun c Q => by
      rewrite [main_chain c, Pipeline.Seg.run_eq_chain,
        show (Gen.segs m (outs m) Variants.none L lv (Es (F := F)) () (pdats m) (reg0 m) (reg1 m) c).map Pipeline.Seg.prog = [
          StableHlo.seq hostOps0,
          Prog.lift (.customCall (Pipeline.entry 0) ()),
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rest c))
    (Tₙ := fun c => StableHlo.held (c : Thread nD τ) (Pipeline.ucRefs τ sig) (Gen.V4 m (outs m) c))
    (hch := fun c => ⟨.rfl, .rfl, .rfl, .rfl, sep_mono .rfl (by iintro ⟨-, HO⟩; iexact HO)⟩)
    (hinit := ?_)
    (QY := fun c s => ∀ b ∈ Pipeline.ucRefs τ sig, s.mem (((c : Thread nD τ)).1, b) = Gen.V4 m (outs m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    imodintro
    iapply (pointsTo_read_all (Pipeline.ucRefs τ sig) (fun b => (((c : Thread nD τ)).1, b)) (Gen.V4 m (outs m) c) s')
    isplitl [Hh] <;> iassumption

/-! ## The frame -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every argument array ends as launched: no host operation and no region writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (Gen.V4_main_arg0 m (outs m) c),
     (h c _ (mem_uc main_arg1 (by decide))).trans (Gen.V4_main_arg1 m (outs m) c),
     (h c _ (mem_uc main_arg2 (by decide))).trans (Gen.V4_main_arg2 m (outs m) c),
     (h c _ (mem_uc main_arg3 (by decide))).trans (Gen.V4_main_arg3 m (outs m) c),
     (h c _ (mem_uc main_arg4 (by decide))).trans (Gen.V4_main_arg4 m (outs m) c)⟩) (run_all m ρ)

/-- The result array ends at the last boundary's contents, beside the unchanged arguments. -/
theorem run_result : θ_run defs (onTc (τ := τ) (main (F := F))) ⟨m, fun _ => 0, ρ⟩ (fun r => ∀ c : Dev nD,
      r.2.mem ((c.tc : Thread nD τ).loc main_v38) = Gen.V4 m (outs m) c main_v38
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v38 (by decide)),
     (h c _ (mem_uc main_arg0 (by decide))).trans (Gen.V4_main_arg0 m (outs m) c),
     (h c _ (mem_uc main_arg1 (by decide))).trans (Gen.V4_main_arg1 m (outs m) c),
     (h c _ (mem_uc main_arg2 (by decide))).trans (Gen.V4_main_arg2 m (outs m) c),
     (h c _ (mem_uc main_arg3 (by decide))).trans (Gen.V4_main_arg3 m (outs m) c),
     (h c _ (mem_uc main_arg4 (by decide))).trans (Gen.V4_main_arg4 m (outs m) c)⟩) (run_all m ρ)

end Cert.Kernel.Run

end
-- ==== Proof.EdgeSetup.lean ====
/-
  The edge pass (first kernel region): vertex-to-hyperedge aggregation. Grid point (b, j) handles batch b and the
  j-th tile of 128 columns of the incidence matrix. The body resets its two accumulators (the output block, one
  whole batch of 4096 x 128 sums, and a scratch column of 4096 row degrees) when j = 0, adds tile j's contribution
  at every j, and at j = 31 scales each row of the output block by the reciprocal of its degree.
  This module fixes what the three control cases are (first tile / inner tile / last tile) as closed forms over the
  linear point number, names the staging memrefs the pipeline passes at a point, and splits the scratch column out
  of the region's scoped rest.
-/
import proofs.«147048_j80771154968988_2_alg».proof.Proof.Gen.KernelIdeal.Launch
import proofs.«147048_j80771154968988_2_alg».proof.Proof.Gen.KernelIdeal.Skeleton
import proofs.«147048_j80771154968988_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the column-tile coordinate -/

/-- The reset branch's condition: the column-tile coordinate is 0. -/
abbrev isFirst (i : grid0.Coords) : Prop :=
  (Scalar.cmpi .ne (Scalar.extui (Scalar.cmpi .eq (BitVec.ofNat 32 (i 1).val) 0#32)) 0#32) = 1#1
/-- The normalising branch's condition: the column-tile coordinate is 31, the last. -/
abbrev isLast (i : grid0.Coords) : Prop :=
  (Scalar.cmpi .ne (Scalar.extui (Scalar.cmpi .eq (BitVec.ofNat 32 (i 1).val) 31#32)) 0#32) = 1#1

/-- Point t = 32 b + j resets exactly when j = 0. -/
theorem isFirst_iff : ∀ t : Fin cfg0.N, isFirst (grid0.coords t) ↔ t.val % 32 = 0 :=
  (by decide +kernel : ∀ t : Fin grid0.N, isFirst (grid0.coords t) ↔ t.val % 32 = 0)
/-- Point t = 32 b + j normalises exactly when j = 31. -/
theorem isLast_iff : ∀ t : Fin cfg0.N, isLast (grid0.coords t) ↔ t.val % 32 = 31 :=
  (by decide +kernel : ∀ t : Fin grid0.N, isLast (grid0.coords t) ↔ t.val % 32 = 31)

/-! ## The memrefs the body is called with at a point -/

abbrev mRow (t : Fin cfg0.N) : Memref sig .tc .vmem S1x4096x128 .f32 := win0_0.stage (cfg0.slots t 0)
abbrev hRow (t : Fin cfg0.N) : (mRow t).IsWhole := hstage0_0 ((cfg0.slots t 0).cast nbuf0_0)
abbrev mCol (t : Fin cfg0.N) : Memref sig .tc .vmem S1x128x128 .f32 := win0_1.stage (cfg0.slots t 1)
abbrev hCol (t : Fin cfg0.N) : (mCol t).IsWhole := hstage0_1 ((cfg0.slots t 1).cast nbuf0_1)
abbrev mW (t : Fin cfg0.N) : Memref sig .tc .vmem S128x128 .f32 := win0_2.stage (cfg0.slots t 2)
abbrev hW (t : Fin cfg0.N) : (mW t).IsWhole := hstage0_2 ((cfg0.slots t 2).cast nbuf0_2)
abbrev mBias (t : Fin cfg0.N) : Memref sig .tc .vmem S1x128 .f32 := win0_3.stage (cfg0.slots t 3)
abbrev hBias (t : Fin cfg0.N) : (mBias t).IsWhole := hstage0_3 ((cfg0.slots t 3).cast nbuf0_3)
abbrev mOut (t : Fin cfg0.N) : Memref sig .tc .vmem S1x4096x128 .f32 := win0_4.stage (cfg0.slots t 4)
abbrev hOut (t : Fin cfg0.N) : (mOut t).IsWhole := hstage0_4 ((cfg0.slots t 4).cast nbuf0_4)
/-- The degree column: a scoped buffer of the kernel's own, kept from one point to the next. -/
abbrev mDeg : Memref sig .tc .vmem S4096x1 .f32 := Memref.whole cc0_scratch0
abbrev hDeg : (mDeg).IsWhole := Memref.isWhole_whole _

/-! ## The degree column among the region's scoped rest -/

/-- The scoped buffers that are neither a staging buffer of this region nor the degree column, each whole at some
    contents: they ride through the region untouched. -/
def otherScoped (c : Dev nD) : sProp 𝕄 :=
  bigSep (((Finset.univ.filter fun b : Ref sig .tc => b.isScoped) \ Finset.univ.image (Pipeline.stageRef spec0)).erase cc0_scratch0)
    fun b => iprop(∃ f : Buf (Elt F) ((c.tc : Thread nD τ).loc b), ((c.tc : Thread nD τ).loc b) ↦{fullShare} f)

theorem scratch_mem : cc0_scratch0 ∈ ((Finset.univ.filter fun b : Ref sig .tc => b.isScoped) \ Finset.univ.image (Pipeline.stageRef spec0)) := by decide

/-- The region's scoped rest is the degree column at some contents beside the others. -/
theorem scopedRest_split (c : Dev nD) :
    (Pipeline.scopedRest (Ix := Unit) (Name := ℕ) (U := UR sig nD τ) (Lvl := ℕ) (Val := Elt F) spec0 c : sProp 𝕄)
      = iprop((∃ d, owns (c : Thread nD τ) mDeg fullShare d) ∗ otherScoped c) := by
  unfold Pipeline.scopedRest otherScoped
  rw [BI.bigSep_erase scratch_mem]
  simp only [mDeg, owns_whole]
  rfl

end Cert.KernelIdeal.Edge

end
-- ==== Proof.EdgeRunFirst.lean ====
/-
  The edge kernel's body at a FIRST column tile (j = 0): both accumulators are reset before tile 0's contribution is
  added, so what the output block and the degree column held before does not matter. The run is by symbolic
  execution of the body's skeleton; the pieces each buffer ends with are what that execution finds.
-/
import proofs.«147048_j80771154968988_2_alg».proof.Proof.EdgeSetup

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the output block and in the degree column at a first tile (last store first), with
    the body's triple: inputs at their blocks, both accumulators at anything. -/
noncomputable def runFirst (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : isFirst i) (hl : ¬ isLast i)
    (x0 : Vec F S1x4096x128 .f32) (x1 : Vec F S1x128x128 .f32) (x2 : Vec F S128x128 .f32) (x3 : Vec F S1x128 .f32) :
    Σ' (LOut : List (View.Piece (Elt F) S1x4096x128 .f32)), { LDeg : List (View.Piece (Elt F) S4096x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LOut)
                ∗ (∃ f, arg7.view.loc (c : Thread nD τ) ↦[arg7.view.set]{fullShare} arg7.view.writes (Elt F) f LDeg)) -∗ K ⟨⟩))
          ⊢ wp frame (wpE (defs₀ (F := F)) Variants.none c none) E (cc0__edge_kernel i arg2 harg2 arg3 harg3 arg4 harg4 arg5 harg5 arg6 harg6 arg7 harg7) K } := by
  refine ⟨?_, ?_, fun E K => ?run⟩
  case run =>
    simp only [cc0__edge_kernel_eq_skeleton]; unfold cc0__edge_kernel_skel
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; iexact H6
    iexists _; iexact H7

end Cert.KernelIdeal.Edge

end
-- ==== Proof.EdgeRunMid.lean ====
/-
  The edge kernel's body at an INNER column tile (0 < j < 31): neither branch is taken; tile j's contribution is added to
  the running sums in the output block and to the running degrees in the scratch column.
-/
import proofs.«147048_j80771154968988_2_alg».proof.Proof.EdgeRunFirst

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the output block and in the degree column at an inner tile (last store first), with the
    body's triple: inputs at their blocks, the output block at the running sums `a` and the degree column at the
    running degrees `s` the point before left. -/
noncomputable def runMid (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : ¬ isFirst i) (hl : ¬ isLast i)
    (x0 : Vec F S1x4096x128 .f32) (x1 : Vec F S1x128x128 .f32) (x2 : Vec F S128x128 .f32) (x3 : Vec F S1x128 .f32)
    (a : Vec F S1x4096x128 .f32) (s : Vec F S4096x1 .f32) :
    Σ' (LOut : List (View.Piece (Elt F) S1x4096x128 .f32)), { LDeg : List (View.Piece (Elt F) S4096x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare a ∗ owns (c : Thread nD τ) arg7 fullShare s
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LOut)
                ∗ (∃ f, arg7.view.loc (c : Thread nD τ) ↦[arg7.view.set]{fullShare} arg7.view.writes (Elt F) f LDeg)) -∗ K ⟨⟩))
          ⊢ wp frame (wpE (defs₀ (F := F)) Variants.none c none) E (cc0__edge_kernel i arg2 harg2 arg3 harg3 arg4 harg4 arg5 harg5 arg6 harg6 arg7 harg7) K } := by
  refine ⟨?_, ?_, fun E K => ?run⟩
  case run =>
    simp only [cc0__edge_kernel_eq_skeleton]; unfold cc0__edge_kernel_skel
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3
    obtain rfl := harg6.eq_unread hf6; obtain rfl := harg7.eq_unread hf7
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; iexact H6
    iexists _; iexact H7

end Cert.KernelIdeal.Edge

end
-- ==== Proof.EdgeRunLast.lean ====
/-
  The edge kernel's body at the LAST column tile (j = 31): tile 31's contribution is added and then every row of the
  output block is scaled by the reciprocal of that row's degree (zero where the degree is zero).
-/
import proofs.«147048_j80771154968988_2_alg».proof.Proof.EdgeRunMid

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the output block and in the degree column at the last tile (last store first), with the
    body's triple: inputs at their blocks, the output block at the running sums `a` and the degree column at the
    running degrees `s` the point before left. -/
noncomputable def runLast (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : ¬ isFirst i) (hl : isLast i)
    (x0 : Vec F S1x4096x128 .f32) (x1 : Vec F S1x128x128 .f32) (x2 : Vec F S128x128 .f32) (x3 : Vec F S1x128 .f32)
    (a : Vec F S1x4096x128 .f32) (s : Vec F S4096x1 .f32) :
    Σ' (LOut : List (View.Piece (Elt F) S1x4096x128 .f32)), { LDeg : List (View.Piece (Elt F) S4096x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare a ∗ owns (c : Thread nD τ) arg7 fullShare s
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LOut)
                ∗ (∃ f, arg7.view.loc (c : Thread nD τ) ↦[arg7.view.set]{fullShare} arg7.view.writes (Elt F) f LDeg)) -∗ K ⟨⟩))
          ⊢ wp frame (wpE (defs₀ (F := F)) Variants.none c none) E (cc0__edge_kernel i arg2 harg2 arg3 harg3 arg4 harg4 arg5 harg5 arg6 harg6 arg7 harg7) K } := by
  refine ⟨?_, ?_, fun E K => ?run⟩
  case run =>
    simp only [cc0__edge_kernel_eq_skeleton]; unfold cc0__edge_kernel_skel
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3
    obtain rfl := harg6.eq_unread hf6; obtain rfl := harg7.eq_unread hf7
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; iexact H6
    iexists _; iexact H7

end Cert.KernelIdeal.Edge

end
-- ==== Proof.EdgePieces.lean ====
/-
  What the edge kernel's body leaves in its two accumulators, case by case, as the body's own arithmetic applied to
  the blocks it was handed: the degree column is always "old degrees + row sums of tile j's incidence block"
  (from zero at a first tile), the output block "old sums + incidence block times the tile's projected features"
  (from zero at a first tile), scaled row by row by the reciprocal degrees at the last tile. Each lemma reads the
  stores a run found back through the buffer: every such list ends with a store of the whole buffer, so the last
  store's value is what the buffer holds, and a load of a buffer just stored whole reads the stored value.
-/
import proofs.«147048_j80771154968988_2_alg».proof.Proof.EdgeRunLast
import Idealize.ShloMosaic.Lib.Pipeline.Value

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz3 : (![0, 0, 0] : Fin 3 → ℕ) = fun _ => 0 := by funext a; fin_cases a <;> rfl
theorem hz2 : (![0, 0] : Fin 2 → ℕ) = fun _ => 0 := by funext a; fin_cases a <;> rfl

/-! ## One point's arithmetic -/

/-- The output block reset: all zeros. -/
def zeroAcc : Vec F S1x4096x128 .f32 := k0_pay3 (F := F)
/-- The degree column reset: all zeros. -/
def zeroDeg : Vec F S4096x1 .f32 := k0_pay4 (F := F)
/-- The degree column after a tile: the old degrees plus the row sums of the tile's incidence block (rows: the batch's
    4096 vertices `x0`; columns: the tile's 128 vertices `x1`). -/
def degStep (x0 : Vec F S1x4096x128 .f32) (x1 : Vec F S1x128x128 .f32) (s : Vec F S4096x1 .f32) : Vec F S4096x1 .f32 :=
  k0_pay7 x0 x1 s
/-- The output block after a tile: the old sums plus the tile's incidence block times the tile's projected features
    (`x1` through the linear layer `x2`, `x3`). -/
def accStep (x0 : Vec F S1x4096x128 .f32) (x1 : Vec F S1x128x128 .f32) (x2 : Vec F S128x128 .f32) (x3 : Vec F S1x128 .f32) (a : Vec F S1x4096x128 .f32) : Vec F S1x4096x128 .f32 :=
  k0_pay1 (k0_pay6 x0 x1) (k0_pay8 x2) (k0_pay9 x1) x3 a
/-- The last tile's scaling: each row of the sums times the reciprocal of its degree, zero where the degree is zero. -/
def normalise (s : Vec F S4096x1 .f32) (a : Vec F S1x4096x128 .f32) : Vec F S1x4096x128 .f32 := k0_pay2 s a

/-! ## The accumulators after each case -/

theorem first_deg_cover (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : isFirst i) (hl : ¬ isLast i) (x0 : Vec F S1x4096x128 .f32) (x1 : Vec F S1x128x128 .f32) (x2 : Vec F S128x128 .f32) (x3 : Vec F S1x128 .f32)  (y : S4096x1.Idx) :
    ∃ pc ∈ (runFirst c i arg2 harg2 arg3 harg3 arg4 harg4 arg5 harg5 arg6 harg6 arg7 harg7 hf hl x0 x1 x2 x3 ).2.1, y ∈ pc.1.set :=
  View.cover_of_tiledL _ S4096x1.size (by sl_kernel_rfl) y

/-- At a first tile the degree column ends at tile 0's row sums added to zero. -/
theorem first_deg (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : isFirst i) (hl : ¬ isLast i) (x0 : Vec F S1x4096x128 .f32) (x1 : Vec F S1x128x128 .f32) (x2 : Vec F S128x128 .f32) (x3 : Vec F S1x128 .f32)
    (v : View sig .tc .vmem S4096x1 .f32) (f : v.ty.Contents (Elt F)) :
    v.read (Elt F) (v.writes (Elt F) f (runFirst c i arg2 harg2 arg3 harg3 arg4 harg4 arg5 harg5 arg6 harg6 arg7 harg7 hf hl x0 x1 x2 x3 ).2.1)
      = degStep x0 x1 (zeroDeg (F := F)) := by
  rw [View.read_writes_eq_canon _ _ _ (first_deg_cover c i arg2 harg2 arg3 harg3 arg4 harg4 arg5 harg5 arg6 harg6 arg7 harg7 hf hl x0 x1 x2 x3 )]
  unfold runFirst; dsimp only
  sl_unfold_words
  simp only [View.readAt_eq_ld, harg2.read_unread, harg3.read_unread, harg4.read_unread, harg5.read_unread, harg6.read_unread, harg7.read_unread,
    View.ld_unit_zero (S := S1x4096x128) hz3, View.ld_unit_zero (S := S1x128x128) hz3, View.ld_unit_zero (S := S128x128) hz2,
    View.ld_unit_zero (S := S1x128) hz2, View.ld_unit_zero (S := S4096x1) hz2,
    View.readCov_unit_zero (S := S4096x1) _ hz2, View.readCov_unit_zero (S := S1x4096x128) _ hz3,
    View.canon_cons_unit_zero (S := S4096x1) hz2, View.canon_cons_unit_zero (S := S1x4096x128) hz3]
  rfl

theorem first_out_cover (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : isFirst i) (hl : ¬ isLast i) (x0 : Vec F S1x4096x128 .f32) (x1 : Vec F S1x128x128 .f32) (x2 : Vec F S128x128 .f32) (x3 : Vec F S1x128 .f32)  (y : S1x4096x128.Idx) :
    ∃ pc ∈ (runFirst c i arg2 harg2 arg3 harg3 arg4 harg4 arg5 harg5 arg6 harg6 arg7 harg7 hf hl x0 x1 x2 x3 ).1, y ∈ pc.1.set :=
  View.cover_of_tiledL _ S1x4096x128.size (by sl_kernel_rfl) y

/-- At a first tile the output block ends at tile 0's contribution added to zero. -/
theorem first_out (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : isFirst i) (hl : ¬ isLast i) (x0 : Vec F S1x4096x128 .f32) (x1 : Vec F S1x128x128 .f32) (x2 : Vec F S128x128 .f32) (x3 : Vec F S1x128 .f32)
    (v : View sig .tc .vmem S1x4096x128 .f32) (f : v.ty.Contents (Elt F)) :
    v.read (Elt F) (v.writes (Elt F) f (runFirst c i arg2 harg2 arg3 harg3 arg4 harg4 arg5 harg5 arg6 harg6 arg7 harg7 hf hl x0 x1 x2 x3 ).1)
      = accStep x0 x1 x2 x3 (zeroAcc (F := F)) := by
  rw [View.read_writes_eq_canon _ _ _ (first_out_cover c i arg2 harg2 arg3 harg3 arg4 harg4 arg5 harg5 arg6 harg6 arg7 harg7 hf hl x0 x1 x2 x3 )]
  unfold runFirst; dsimp only
  sl_unfold_words
  simp only [View.readAt_eq_ld, harg2.read_unread, harg3.read_unread, harg4.read_unread, harg5.read_unread, harg6.read_unread, harg7.read_unread,
    View.ld_unit_zero (S := S1x4096x128) hz3, View.ld_unit_zero (S := S1x128x128) hz3, View.ld_unit_zero (S := S128x128) hz2,
    View.ld_unit_zero (S := S1x128) hz2, View.ld_unit_zero (S := S4096x1) hz2,
    View.readCov_unit_zero (S := S4096x1) _ hz2, View.readCov_unit_zero (S := S1x4096x128) _ hz3,
    View.canon_cons_unit_zero (S := S4096x1) hz2, View.canon_cons_unit_zero (S := S1x4096x128) hz3]
  rfl

theorem mid_deg_cover (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : ¬ isFirst i) (hl : ¬ isLast i) (x0 : Vec F S1x4096x128 .f32) (x1 : Vec F S1x128x128 .f32) (x2 : Vec F S128x128 .f32) (x3 : Vec F S1x128 .f32) (a : Vec F S1x4096x128 .f32) (s : Vec F S4096x1 .f32) (y : S4096x1.Idx) :
    ∃ pc ∈ (runMid c i arg2 harg2 arg3 harg3 arg4 harg4 arg5 harg5 arg6 harg6 arg7 harg7 hf hl x0 x1 x2 x3 a s).2.1, y ∈ pc.1.set :=
  View.cover_of_tiledL _ S4096x1.size (by sl_kernel_rfl) y

/-- At an inner tile the degree column ends at the tile's row sums added to what it held. -/
theorem mid_deg (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : ¬ isFirst i) (hl : ¬ isLast i) (x0 : Vec F S1x4096x128 .f32) (x1 : Vec F S1x128x128 .f32) (x2 : Vec F S128x128 .f32) (x3 : Vec F S1x128 .f32) (a : Vec F S1x4096x128 .f32) (s : Vec F S4096x1 .f32)
    (v : View sig .tc .vmem S4096x1 .f32) (f : v.ty.Contents (Elt F)) :
    v.read (Elt F) (v.writes (Elt F) f (runMid c i arg2 harg2 arg3 harg3 arg4 harg4 arg5 harg5 arg6 harg6 arg7 harg7 hf hl x0 x1 x2 x3 a s).2.1)
      = degStep x0 x1 s := by
  rw [View.read_writes_eq_canon _ _ _ (mid_deg_cover c i arg2 harg2 arg3 harg3 arg4 harg4 arg5 harg5 arg6 harg6 arg7 harg7 hf hl x0 x1 x2 x3 a s)]
  unfold runMid; dsimp only
  sl_unfold_words
  simp only [View.readAt_eq_ld, harg2.read_unread, harg3.read_unread, harg4.read_unread, harg5.read_unread, harg6.read_unread, harg7.read_unread,
    View.ld_unit_zero (S := S1x4096x128) hz3, View.ld_unit_zero (S := S1x128x128) hz3, View.ld_unit_zero (S := S128x128) hz2,
    View.ld_unit_zero (S := S1x128) hz2, View.ld_unit_zero (S := S4096x1) hz2,
    View.readCov_unit_zero (S := S4096x1) _ hz2, View.readCov_unit_zero (S := S1x4096x128) _ hz3,
    View.canon_cons_unit_zero (S := S4096x1) hz2, View.canon_cons_unit_zero (S := S1x4096x128) hz3]
  rfl

theorem mid_out_cover (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : ¬ isFirst i) (hl : ¬ isLast i) (x0 : Vec F S1x4096x128 .f32) (x1 : Vec F S1x128x128 .f32) (x2 : Vec F S128x128 .f32) (x3 : Vec F S1x128 .f32) (a : Vec F S1x4096x128 .f32) (s : Vec F S4096x1 .f32) (y : S1x4096x128.Idx) :
    ∃ pc ∈ (runMid c i arg2 harg2 arg3 harg3 arg4 harg4 arg5 harg5 arg6 harg6 arg7 harg7 hf hl x0 x1 x2 x3 a s).1, y ∈ pc.1.set :=
  View.cover_of_tiledL _ S1x4096x128.size (by sl_kernel_rfl) y

/-- At an inner tile the output block ends at the tile's contribution added to what it held. -/
theorem mid_out (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : ¬ isFirst i) (hl : ¬ isLast i) (x0 : Vec F S1x4096x128 .f32) (x1 : Vec F S1x128x128 .f32) (x2 : Vec F S128x128 .f32) (x3 : Vec F S1x128 .f32) (a : Vec F S1x4096x128 .f32) (s : Vec F S4096x1 .f32)
    (v : View sig .tc .vmem S1x4096x128 .f32) (f : v.ty.Contents (Elt F)) :
    v.read (Elt F) (v.writes (Elt F) f (runMid c i arg2 harg2 arg3 harg3 arg4 harg4 arg5 harg5 arg6 harg6 arg7 harg7 hf hl x0 x1 x2 x3 a s).1)
      = accStep x0 x1 x2 x3 a := by
  rw [View.read_writes_eq_canon _ _ _ (mid_out_cover c i arg2 harg2 arg3 harg3 arg4 harg4 arg5 harg5 arg6 harg6 arg7 harg7 hf hl x0 x1 x2 x3 a s)]
  unfold runMid; dsimp only
  sl_unfold_words
  simp only [View.readAt_eq_ld, harg2.read_unread, harg3.read_unread, harg4.read_unread, harg5.read_unread, harg6.read_unread, harg7.read_unread,
    View.ld_unit_zero (S := S1x4096x128) hz3, View.ld_unit_zero (S := S1x128x128) hz3, View.ld_unit_zero (S := S128x128) hz2,
    View.ld_unit_zero (S := S1x128) hz2, View.ld_unit_zero (S := S4096x1) hz2,
    View.readCov_unit_zero (S := S4096x1) _ hz2, View.readCov_unit_zero (S := S1x4096x128) _ hz3,
    View.canon_cons_unit_zero (S := S4096x1) hz2, View.canon_cons_unit_zero (S := S1x4096x128) hz3]
  rfl

theorem last_deg_cover (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : ¬ isFirst i) (hl : isLast i) (x0 : Vec F S1x4096x128 .f32) (x1 : Vec F S1x128x128 .f32) (x2 : Vec F S128x128 .f32) (x3 : Vec F S1x128 .f32) (a : Vec F S1x4096x128 .f32) (s : Vec F S4096x1 .f32) (y : S4096x1.Idx) :
    ∃ pc ∈ (runLast c i arg2 harg2 arg3 harg3 arg4 harg4 arg5 harg5 arg6 harg6 arg7 harg7 hf hl x0 x1 x2 x3 a s).2.1, y ∈ pc.1.set :=
  View.cover_of_tiledL _ S4096x1.size (by sl_kernel_rfl) y

/-- At the last tile the degree column ends at the tile's row sums added to what it held: the full degrees. -/
theorem last_deg (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : ¬ isFirst i) (hl : isLast i) (x0 : Vec F S1x4096x128 .f32) (x1 : Vec F S1x128x128 .f32) (x2 : Vec F S128x128 .f32) (x3 : Vec F S1x128 .f32) (a : Vec F S1x4096x128 .f32) (s : Vec F S4096x1 .f32)
    (v : View sig .tc .vmem S4096x1 .f32) (f : v.ty.Contents (Elt F)) :
    v.read (Elt F) (v.writes (Elt F) f (runLast c i arg2 harg2 arg3 harg3 arg4 harg4 arg5 harg5 arg6 harg6 arg7 harg7 hf hl x0 x1 x2 x3 a s).2.1)
      = degStep x0 x1 s := by
  rw [View.read_writes_eq_canon _ _ _ (last_deg_cover c i arg2 harg2 arg3 harg3 arg4 harg4 arg5 harg5 arg6 harg6 arg7 harg7 hf hl x0 x1 x2 x3 a s)]
  unfold runLast; dsimp only
  sl_unfold_words
  simp only [View.readAt_eq_ld, harg2.read_unread, harg3.read_unread, harg4.read_unread, harg5.read_unread, harg6.read_unread, harg7.read_unread,
    View.ld_unit_zero (S := S1x4096x128) hz3, View.ld_unit_zero (S := S1x128x128) hz3, View.ld_unit_zero (S := S128x128) hz2,
    View.ld_unit_zero (S := S1x128) hz2, View.ld_unit_zero (S := S4096x1) hz2,
    View.readCov_unit_zero (S := S4096x1) _ hz2, View.readCov_unit_zero (S := S1x4096x128) _ hz3,
    View.canon_cons_unit_zero (S := S4096x1) hz2, View.canon_cons_unit_zero (S := S1x4096x128) hz3]
  rfl

theorem last_out_cover (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : ¬ isFirst i) (hl : isLast i) (x0 : Vec F S1x4096x128 .f32) (x1 : Vec F S1x128x128 .f32) (x2 : Vec F S128x128 .f32) (x3 : Vec F S1x128 .f32) (a : Vec F S1x4096x128 .f32) (s : Vec F S4096x1 .f32) (y : S1x4096x128.Idx) :
    ∃ pc ∈ (runLast c i arg2 harg2 arg3 harg3 arg4 harg4 arg5 harg5 arg6 harg6 arg7 harg7 hf hl x0 x1 x2 x3 a s).1, y ∈ pc.1.set :=
  View.cover_of_tiledL _ S1x4096x128.size (by sl_kernel_rfl) y

/-- At the last tile the output block ends at the completed sums, each row scaled by its reciprocal degree. -/
theorem last_out (c : Dev nD) (i : grid0.Coords)
    (arg2 : Memref sig .tc .vmem S1x4096x128 .f32) (harg2 : arg2.IsWhole) (arg3 : Memref sig .tc .vmem S1x128x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S1x4096x128 .f32) (harg6 : arg6.IsWhole) (arg7 : Memref sig .tc .vmem S4096x1 .f32) (harg7 : arg7.IsWhole)
    (hf : ¬ isFirst i) (hl : isLast i) (x0 : Vec F S1x4096x128 .f32) (x1 : Vec F S1x128x128 .f32) (x2 : Vec F S128x128 .f32) (x3 : Vec F S1x128 .f32) (a : Vec F S1x4096x128 .f32) (s : Vec F S4096x1 .f32)
    (v : View sig .tc .vmem S1x4096x128 .f32) (f : v.ty.Contents (Elt F)) :
    v.read (Elt F) (v.writes (Elt F) f (runLast c i arg2 harg2 arg3 harg3 arg4 harg4 arg5 harg5 arg6 harg6 arg7 harg7 hf hl x0 x1 x2 x3 a s).1)
      = normalise (degStep x0 x1 s) (accStep x0 x1 x2 x3 a) := by
  rw [View.read_writes_eq_canon _ _ _ (last_out_cover c i arg2 harg2 arg3 harg3 arg4 harg4 arg5 harg5 arg6 harg6 arg7 harg7 hf hl x0 x1 x2 x3 a s)]
  unfold runLast; dsimp only
  sl_unfold_words
  simp only [View.readAt_eq_ld, harg2.read_unread, harg3.read_unread, harg4.read_unread, harg5.read_unread, harg6.read_unread, harg7.read_unread,
    View.ld_unit_zero (S := S1x4096x128) hz3, View.ld_unit_zero (S := S1x128x128) hz3, View.ld_unit_zero (S := S128x128) hz2,
    View.ld_unit_zero (S := S1x128) hz2, View.ld_unit_zero (S := S4096x1) hz2,
    View.readCov_unit_zero (S := S4096x1) _ hz2, View.readCov_unit_zero (S := S1x4096x128) _ hz3,
    View.canon_cons_unit_zero (S := S4096x1) hz2, View.canon_cons_unit_zero (S := S1x4096x128) hz3]
  rfl

end Cert.KernelIdeal.Edge

end
-- ==== Proof.EdgeData.lean ====
/-
  The edge region's proof data. At linear point t = 32 b + j the two accumulators hold, after the body,
    sums(t)    = tile j's contribution added to sums(t-1)    (to zero when j = 0),
    degrees(t) = tile j's row sums added to degrees(t-1)     (to zero when j = 0),
  and the output block's staging buffer holds sums(t), except at j = 31 where it holds the rows of sums(t) scaled
  by the reciprocals of degrees(t) — the block the pipeline then writes back as batch b of the result. The degree
  column lives in a scoped buffer of the kernel's own, so its contents are carried by the region's invariant from
  one point to the next; the output block is handed to the next point untouched because the pipeline writes it
  back only after j = 31. The body obligation is the case's run (first / inner / last tile) at the point's
  memrefs and blocks.
-/
import proofs.«147048_j80771154968988_2_alg».proof.Proof.EdgePieces

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The accumulators, point by point -/

/-- One point's step on the pair (sums, degrees). -/
def step (c : Dev nD) (t : Fin cfg0.N) (p : Vec F S1x4096x128 .f32 × Vec F S4096x1 .f32) : Vec F S1x4096x128 .f32 × Vec F S4096x1 .f32 :=
  (accStep (iblk V c 0 t) (iblk V c 1 t) (iblk V c 2 t) (iblk V c 3 t) p.1, degStep (iblk V c 0 t) (iblk V c 1 t) p.2)

/-- (sums, degrees) after the body at point `n`: restarted from zero at every first tile. -/
def stAt (c : Dev nD) : (n : ℕ) → n < cfg0.N → Vec F S1x4096x128 .f32 × Vec F S4096x1 .f32
  | 0, hn => step V c ⟨0, hn⟩ (zeroAcc, zeroDeg)
  | n + 1, hn => step V c ⟨n + 1, hn⟩ (if (n + 1) % 32 = 0 then (zeroAcc, zeroDeg) else stAt c n (Nat.lt_of_succ_lt hn))

theorem stAt_first (c : Dev nD) (t : Fin cfg0.N) (h : t.val % 32 = 0) :
    stAt V c t.val t.isLt = step V c t (zeroAcc, zeroDeg) := by
  obtain ⟨n, hn⟩ := t
  cases n with
  | zero => rfl
  | succ n => show step V c ⟨n + 1, hn⟩ (if (n + 1) % 32 = 0 then _ else _) = _; rw [if_pos h]

theorem stAt_next (c : Dev nD) (t : Fin cfg0.N) (h : ¬ t.val % 32 = 0) :
    stAt V c t.val t.isLt = step V c t (stAt V c (t.val - 1) (Nat.lt_of_le_of_lt (Nat.sub_le _ _) t.isLt)) := by
  obtain ⟨n, hn⟩ := t
  cases n with
  | zero => exact absurd (Nat.zero_mod _) h
  | succ n => show step V c ⟨n + 1, hn⟩ (if (n + 1) % 32 = 0 then _ else _) = _; rw [if_neg h]; rfl

/-- What the output block's staging buffer holds after the body at point `t`: the running sums, scaled by the reciprocal
    degrees at a last tile. -/
def outAfter (c : Dev nD) (t : Fin cfg0.N) : Vec F S1x4096x128 .f32 :=
  if t.val % 32 = 31 then normalise (stAt V c t.val t.isLt).2 (stAt V c t.val t.isLt).1 else (stAt V c t.val t.isLt).1

/-! ## The region's invariant: the degree column carried between points -/

/-- Before the first point the class's invariant (every scoped buffer at anything); after point `n` the degree column at
    `degrees(n)`, the other scoped buffers at anything, the generator register at some state. -/
def PhiE (c : Dev nD) : (n : ℕ) → n ≤ cfg0.N → sProp 𝕄
  | 0, _ => Pipeline.ΦA spec0 c
  | n + 1, hn => iprop(owns (c : Thread nD τ) mDeg fullShare (stAt V c n hn).2 ∗ otherScoped c ∗ ∃ r, prngReg c r)

theorem PhiE_pos (c : Dev nD) (n : ℕ) (h : n ≤ cfg0.N) (hz : n ≠ 0) :
    PhiE V c n h = iprop(owns (c : Thread nD τ) mDeg fullShare (stAt V c (n - 1) (by omega)).2 ∗ otherScoped c ∗ ∃ r, prngReg c r) := by
  cases n with
  | zero => exact absurd rfl hz
  | succ n => rfl

/-- At any point the invariant holds the degree column at SOME contents. -/
theorem PhiE_some (c : Dev nD) (n : ℕ) (h : n ≤ cfg0.N) :
    PhiE V c n h ⊢ iprop((∃ d, owns (c : Thread nD τ) mDeg fullShare d) ∗ otherScoped c ∗ ∃ r, prngReg c r) := by
  cases n with
  | zero =>
    show Pipeline.ΦA spec0 c ⊢ _
    unfold Pipeline.ΦA; rw [scopedRest_split]
    iintro ⟨⟨HS, HO⟩, Hg⟩
    isplitl [HS]; · iexact HS
    isplitl [HO]; · iexact HO
    iexact Hg
  | succ n =>
    show iprop(owns (c : Thread nD τ) mDeg fullShare (stAt V c n h).2 ∗ otherScoped c ∗ ∃ r, prngReg c r) ⊢ _
    iintro ⟨HS, HO, Hg⟩
    isplitl [HS]; · iexists _; iexact HS
    isplitl [HO]; · iexact HO
    iexact Hg

/-! ## The proof data -/

/-- The edge region's proof data on core `c`: the arrays as the region finds them; each input's buffer left at its
    block, the output block's at `outAfter`; the invariant `PhiE`; nothing owed. The batch's feature rows are read by
    two windows (all 4096 rows, and the tile's 128 rows): they hold the two halves of that array's share. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAfter V c t
  Φ t := PhiE V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat V c).A w = V c (Pipeline.arrRef spec0 w) := by dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = outAfter V c t := by dsimp only [dat]

theorem Phi_castSucc (c : Dev nD) (t : Fin cfg0.N) : (dat V c).Φ t.castSucc = PhiE V c t.val (Nat.le_of_lt t.isLt) := by
  dsimp only [dat]; simp only [Fin.coe_castSucc]

/-- An input's current staging buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- After a first tile the output block's buffer holds the running sums the point before left: it is written back only
    after a last tile, and the point before a tile that is not first is not a last tile. -/
theorem before_4_next (c : Dev nD) (t : Fin cfg0.N) (h : ¬ t.val % 32 = 0) (d) :
    (dat V c).before 4 t d = (stAt V c (t.val - 1) (Nat.lt_of_le_of_lt (Nat.sub_le _ _) t.isLt)).1 := by
  rw [Dat.before_out_kept _ 4 rfl t (by omega) (Bool.eq_false_iff.mpr fun hf => by have := (flush0_4 _).mp hf; dsimp only at this; omega)
    (fun _ => rfl) (fun _ _ => rfl)]
  rw [after_4]; unfold outAfter; dsimp only
  rw [if_neg (by omega)]

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

set_option maxHeartbeats 2000000 in
/-- The body at any point: which of the three cases the point is in is read off `t % 32`; the inputs' memrefs hold their
    blocks; at a first tile both accumulators are handed over at anything, at a later tile at what the point before
    left; the case's run applies and its stores, read back, are this point's `sums` and `degrees`. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl,
    show (dat V c).Φ t.succ = PhiE V c (t.val + 1) t.isLt from rfl,
    show PhiE V c (t.val + 1) t.isLt = iprop(owns (c : Thread nD τ) mDeg fullShare (stAt V c t.val t.isLt).2 ∗ otherScoped c ∗ ∃ r, prngReg c r) from rfl,
    after_0, after_1, after_2, after_3, after_4, Phi_castSucc]
  by_cases hfirst : t.val % 32 = 0
  · -- a first tile
    have hnl : ¬ t.val % 32 = 31 := by omega
    have hf : isFirst (grid0.coords t) := (isFirst_iff t).mpr hfirst
    have hl : ¬ isLast (grid0.coords t) := fun h => hnl ((isLast_iff t).mp h)
    unfold outAfter; rw [if_neg hnl, stAt_first V c t hfirst]; unfold step; dsimp only
    iintro ⟨HΦ, Ho, ⟨%d0, H0⟩, ⟨%d1, H1⟩, ⟨%d2, H2⟩, ⟨%d3, H3⟩, ⟨%d4, H4⟩⟩
    ihave HΦ' := (PhiE_some V c t.val (Nat.le_of_lt t.isLt)) $$ HΦ
    icases HΦ' with ⟨HS, HO, Hg⟩
    iapply ((runFirst c (grid0.coords t) (mRow t) (hRow t) (mCol t) (hCol t) (mW t) (hW t) (mBias t) (hBias t) (mOut t) (hOut t) mDeg hDeg hf hl (iblk V c 0 t) (iblk V c 1 t) (iblk V c 2 t) (iblk V c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%g4, H4⟩, ⟨%gs, HS⟩⟩
    isplitl [HS HO Hg]
    · isplitl [HS]
      · unfold owns; iexists _; isplitr
        swap; · iexact HS
        ipureintro; exact first_deg c (grid0.coords t) (mRow t) (hRow t) (mCol t) (hCol t) (mW t) (hW t) (mBias t) (hBias t) (mOut t) (hOut t) mDeg hDeg hf hl (iblk V c 0 t) (iblk V c 1 t) (iblk V c 2 t) (iblk V c 3 t) _ _
      isplitl [HO]; · iexact HO
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact first_out c (grid0.coords t) (mRow t) (hRow t) (mCol t) (hCol t) (mW t) (hW t) (mBias t) (hBias t) (mOut t) (hOut t) mDeg hDeg hf hl (iblk V c 0 t) (iblk V c 1 t) (iblk V c 2 t) (iblk V c 3 t) _ _
  · have hz : t.val ≠ 0 := fun h => hfirst (by rw [h])
    have hf : ¬ isFirst (grid0.coords t) := fun h => hfirst ((isFirst_iff t).mp h)
    rw [PhiE_pos V c _ _ hz]
    simp only [before_4_next V c t hfirst]
    by_cases hlast : t.val % 32 = 31
    · -- the last tile
      have hl : isLast (grid0.coords t) := (isLast_iff t).mpr hlast
      unfold outAfter; rw [if_pos hlast, stAt_next V c t hfirst]; unfold step; dsimp only
      iintro ⟨⟨HS, HO, Hg⟩, Ho, ⟨%d0, H0⟩, ⟨%d1, H1⟩, ⟨%d2, H2⟩, ⟨%d3, H3⟩, ⟨%d4, H4⟩⟩
      iapply ((runLast c (grid0.coords t) (mRow t) (hRow t) (mCol t) (hCol t) (mW t) (hW t) (mBias t) (hBias t) (mOut t) (hOut t) mDeg hDeg hf hl (iblk V c 0 t) (iblk V c 1 t) (iblk V c 2 t) (iblk V c 3 t) _ _).2.2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, ⟨%g4, H4⟩, ⟨%gs, HS⟩⟩
      isplitl [HS HO Hg]
      · isplitl [HS]
        · unfold owns; iexists _; isplitr
          swap; · iexact HS
          ipureintro; exact last_deg c (grid0.coords t) (mRow t) (hRow t) (mCol t) (hCol t) (mW t) (hW t) (mBias t) (hBias t) (mOut t) (hOut t) mDeg hDeg hf hl (iblk V c 0 t) (iblk V c 1 t) (iblk V c 2 t) (iblk V c 3 t) _ _ _ _
        isplitl [HO]; · iexact HO
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact last_out c (grid0.coords t) (mRow t) (hRow t) (mCol t) (hCol t) (mW t) (hW t) (mBias t) (hBias t) (mOut t) (hOut t) mDeg hDeg hf hl (iblk V c 0 t) (iblk V c 1 t) (iblk V c 2 t) (iblk V c 3 t) _ _ _ _
    · -- an inner tile
      have hl : ¬ isLast (grid0.coords t) := fun h => hlast ((isLast_iff t).mp h)
      unfold outAfter; rw [if_neg hlast, stAt_next V c t hfirst]; unfold step; dsimp only
      iintro ⟨⟨HS, HO, Hg⟩, Ho, ⟨%d0, H0⟩, ⟨%d1, H1⟩, ⟨%d2, H2⟩, ⟨%d3, H3⟩, ⟨%d4, H4⟩⟩
      iapply ((runMid c (grid0.coords t) (mRow t) (hRow t) (mCol t) (hCol t) (mW t) (hW t) (mBias t) (hBias t) (mOut t) (hOut t) mDeg hDeg hf hl (iblk V c 0 t) (iblk V c 1 t) (iblk V c 2 t) (iblk V c 3 t) _ _).2.2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, ⟨%g4, H4⟩, ⟨%gs, HS⟩⟩
      isplitl [HS HO Hg]
      · isplitl [HS]
        · unfold owns; iexists _; isplitr
          swap; · iexact HS
          ipureintro; exact mid_deg c (grid0.coords t) (mRow t) (hRow t) (mCol t) (hCol t) (mW t) (hW t) (mBias t) (hBias t) (mOut t) (hOut t) mDeg hDeg hf hl (iblk V c 0 t) (iblk V c 1 t) (iblk V c 2 t) (iblk V c 3 t) _ _ _ _
        isplitl [HO]; · iexact HO
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact mid_out c (grid0.coords t) (mRow t) (hRow t) (mCol t) (hCol t) (mW t) (hW t) (mBias t) (hBias t) (mOut t) (hOut t) mDeg hDeg hf hl (iblk V c 0 t) (iblk V c 1 t) (iblk V c 2 t) (iblk V c 3 t) _ _ _ _

/-- The library's body obligation, at every point. -/
theorem body_obligation (c : Dev nD) : BodyObligation (dat (F := F) V c) (defs₀ (F := F)) Variants.none () Set.univ := fun t => by
  rw [bigSep_W0, bigSep_W0]
  exact sound_body V c t

/-! ## The invariant at the region's two ends -/

theorem Phi_first (c : Dev nD) : (dat V c).Φ 0 = Pipeline.ΦA spec0 c := rfl

/-- After the last point the invariant gives the class's back: the degree column's contents are forgotten. -/
theorem Phi_last (c : Dev nD) : (dat V c).Φ (Fin.last cfg0.N) ⊢ Pipeline.ΦA spec0 c := by
  rw [show (dat V c).Φ (Fin.last cfg0.N) = PhiE V c (Fin.last cfg0.N).val (Nat.le_of_lt_succ (Fin.last cfg0.N).isLt) from rfl]
  refine (PhiE_some V c _ _).trans ?_
  unfold Pipeline.ΦA; rw [scopedRest_split]
  iintro ⟨HS, HO, Hg⟩
  isplitl [HS HO]
  · isplitl [HS]; · iexact HS
    iexact HO
  iexact Hg

end Cert.KernelIdeal.Edge

end
-- ==== Proof.EdgeRegion.lean ====
/-
  The edge region's arrays at its two ends. The region reads four distinct buffers — the feature rows (through two
  windows: all 4096 rows of a batch, and one tile of 128), the weight matrix, the bias row — and writes one, the
  aggregated edge features. At entry the core's unscoped buffers are split into these five windows' arrays (the
  feature rows' buffer dealt in two halves of its share, one per window) and the rest; at exit the halves are joined
  again, the inputs are as they were, and the output buffer holds what the region's write-backs left.
-/
import proofs.«147048_j80771154968988_2_alg».proof.Proof.EdgeData
import Idealize.ShloMosaic.Lib.Pipeline.Kit
import Idealize.ShloMosaic.Lib.Pipeline.Regions

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the region's five windows, one by one. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v1) ↦{fullShare} W main_v1) ∗ (((c.tc : Thread nD τ).loc main_arg1) ↦{fullShare} W main_arg1)
          ∗ (((c.tc : Thread nD τ).loc main_v2) ↦{fullShare} W main_v2) ∗ (((c.tc : Thread nD τ).loc main_v3) ↦{fullShare} W main_v3)) := by
  unfold Pipeline.arrBufs
  rw [BI.bigSep_eq_bigSepL_of_eq [main_v1, main_arg1, main_v2, main_v3] (by decide) (by decide)]
  rfl

/-- The proof data's arrays, window by window, each whole at its share. -/
theorem arrays_eq (c : Dev nD) (G : (w : Fin cfg0.W) → Buf (Elt F) ((cfg0.win w).arr.view.loc (c.tc : Thread nD τ))) :
    ((dat V c).arrays G : sProp 𝕄)
      = iprop((((c.tc : Thread nD τ).loc main_v1) ↦{fullShare.left} G 0) ∗ (((c.tc : Thread nD τ).loc main_v1) ↦{fullShare.right} G 1)
          ∗ (((c.tc : Thread nD τ).loc main_arg1) ↦{fullShare} G 2) ∗ (((c.tc : Thread nD τ).loc main_v2) ↦{fullShare} G 3)
          ∗ (((c.tc : Thread nD τ).loc main_v3) ↦{fullShare} G 4)) := by
  unfold Dat.arrays
  rw [bigSep_W0]
  rw [(arr_whole0 0).set_eq_univ, (arr_whole0 2).set_eq_univ, (arr_whole0 3).set_eq_univ, (arr_whole0 4).set_eq_univ]
  rfl

/-- ENTRY. The core's unscoped buffers at the region-entry contents are the five windows' arrays at those contents
    (the feature rows' buffer in two halves) and the unscoped buffers no window stages. -/
theorem entry_arrays (c : Dev nD) :
    (unscopedBufs c (V c) : sProp 𝕄) ⊢ iprop((dat V c).arrays ((dat V c).arrAt · 0)
      ∗ Pipeline.unscopedRest (Ix := Unit) (Name := ℕ) (U := UR sig nD τ) (Lvl := ℕ) spec0 c (V c)) := by
  rw [Pipeline.unscopedBufs_split₀ (Ix := Unit) (Name := ℕ) (U := UR sig nD τ) (Lvl := ℕ) cfgs (0 : Fin 2) winFacts₀0.arr_unscoped c (V c)]
  show iprop(Pipeline.arrBufs spec0 c (V c) ∗ Pipeline.unscopedRest spec0 c (V c)) ⊢ _
  rw [arrBufs_eq, arrays_eq]
  have hhalves : ((((c.tc : Thread nD τ).loc main_v1) ↦{fullShare} V c main_v1) : sProp 𝕄)
      ⊢ iprop((((c.tc : Thread nD τ).loc main_v1) ↦{fullShare.left} V c main_v1) ∗ (((c.tc : Thread nD τ).loc main_v1) ↦{fullShare.right} V c main_v1)) :=
    (pointsTo_share (PosShare.mem_left_op_right fullShare)).1
  show _ ⊢ iprop((((((c.tc : Thread nD τ).loc main_v1) ↦{fullShare.left} V c main_v1) ∗ (((c.tc : Thread nD τ).loc main_v1) ↦{fullShare.right} V c main_v1)
      ∗ (((c.tc : Thread nD τ).loc main_arg1) ↦{fullShare} V c main_arg1) ∗ (((c.tc : Thread nD τ).loc main_v2) ↦{fullShare} V c main_v2)
      ∗ (((c.tc : Thread nD τ).loc main_v3) ↦{fullShare} V c main_v3)) : sProp 𝕄) ∗ _)
  iintro ⟨⟨Hx, Hw, Hb, Ho⟩, Hrest⟩
  ihave Hx' := hhalves $$ Hx
  icases Hx' with ⟨Hxl, Hxr⟩
  isplitr [Hrest]
  · isplitl [Hxl]; · iexact Hxl
    isplitl [Hxr]; · iexact Hxr
    isplitl [Hw]; · iexact Hw
    isplitl [Hb]; · iexact Hb
    iexact Ho
  iexact Hrest

/-- EXIT. The five arrays after the region's write-backs, beside the unscoped buffers no window stages, are the core's
    unscoped buffers at any contents `W` that keep every buffer but the output's as the region found it and hold, in the
    output's, what the write-backs left. -/
theorem exit_arrays (c : Dev nD) (W : (b : Ref sig .tc) → Buf (Elt F) ((c.tc : Thread nD τ).loc b))
    (hout : W main_v3 = (dat V c).arrAt 4 cfg0.N) (hrest : ∀ b : Ref sig .tc, b ≠ main_v3 → W b = V c b) :
    iprop((dat V c).arrays ((dat V c).arrAt · cfg0.N)
      ∗ Pipeline.unscopedRest (Ix := Unit) (Name := ℕ) (U := UR sig nD τ) (Lvl := ℕ) spec0 c (V c)) ⊢ (unscopedBufs c W : sProp 𝕄) := by
  rw [Pipeline.unscopedBufs_split₀ (Ix := Unit) (Name := ℕ) (U := UR sig nD τ) (Lvl := ℕ) cfgs (0 : Fin 2) winFacts₀0.arr_unscoped c W]
  show _ ⊢ iprop(Pipeline.arrBufs spec0 c W ∗ Pipeline.unscopedRest spec0 c W)
  rw [arrBufs_eq, arrays_eq]
  rw [(dat V c).arrAt_in 0 rfl, (dat V c).arrAt_in 1 rfl, (dat V c).arrAt_in 2 rfl, (dat V c).arrAt_in 3 rfl, ← hout,
    hrest main_v1 (by decide), hrest main_arg1 (by decide), hrest main_v2 (by decide)]
  have hR : (Pipeline.unscopedRest (Ix := Unit) (Name := ℕ) (U := UR sig nD τ) (Lvl := ℕ) spec0 c W : sProp 𝕄)
      = Pipeline.unscopedRest (Ix := Unit) (Name := ℕ) (U := UR sig nD τ) (Lvl := ℕ) spec0 c (V c) := by
    unfold Pipeline.unscopedRest
    refine bigSep_congr fun b hb => ?_
    rw [hrest b (fun h => (Finset.mem_sdiff.mp hb).2 (h ▸ Finset.mem_image.mpr ⟨4, Finset.mem_univ _, rfl⟩))]
  rw [hR]
  have hjoin : (iprop((((c.tc : Thread nD τ).loc main_v1) ↦{fullShare.left} V c main_v1) ∗ (((c.tc : Thread nD τ).loc main_v1) ↦{fullShare.right} V c main_v1)) : sProp 𝕄)
      ⊢ (((c.tc : Thread nD τ).loc main_v1) ↦{fullShare} V c main_v1) :=
    (pointsTo_share (PosShare.mem_left_op_right fullShare)).2
  iintro ⟨⟨Hxl, Hxr, Hw, Hb, Ho⟩, Hrest⟩
  isplitr [Hrest]
  · isplitl [Hxl Hxr]
    · iapply hjoin
      isplitl [Hxl]; · iexact Hxl
      iexact Hxr
    isplitl [Hw]; · iexact Hw
    isplitl [Hb]; · iexact Hb
    iexact Ho
  iexact Hrest

end Cert.KernelIdeal.Edge

end
-- ==== Proof.VertexSetup.lean ====
/-
  The vertex pass (second kernel region): hyperedge-to-vertex aggregation with a residual, and the two channel
  statistics of the result. Grid point (b, j) handles batch b and the j-th tile of 128 hyperedges. The body keeps two
  accumulators: the output block (one whole batch of 4096 x 128 running sums) and a scratch column of 4096 row
  degrees. Both are reset when j = 0; at every j the tile's incidence block (4096 vertices against the tile's 128
  centres) is formed, its row sums are added to the degrees and its product with the tile's 128 rows of the edge
  pass's result is added to the sums. At j = 31 each row of the sums is scaled by the reciprocal of its degree (zero
  where the degree is zero), the batch's own feature rows are added, and the per-channel sums of that finished
  block and of its square are stored in two small outputs, which no other point touches.
  This module fixes the three control cases (first tile / inner tile / last tile) as closed forms over the linear
  point number, says where the two small outputs are idle, names the staging memrefs the pipeline passes at a point,
  and splits the degree column out of the region's scoped rest.
-/
import proofs.«147048_j80771154968988_2_alg».proof.Proof.Gen.KernelIdeal.Launch
import proofs.«147048_j80771154968988_2_alg».proof.Proof.Gen.KernelIdeal.Skeleton
import proofs.«147048_j80771154968988_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Vertex

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the hyperedge-tile coordinate -/

/-- The reset branch's condition: the tile coordinate is 0. -/
abbrev isFirst (i : grid1.Coords) : Prop :=
  (Scalar.cmpi .ne (Scalar.extui (Scalar.cmpi .eq (BitVec.ofNat 32 (i 1).val) 0#32)) 0#32) = 1#1
/-- The finishing branch's condition: the tile coordinate is 31, the last. -/
abbrev isLast (i : grid1.Coords) : Prop := k1_cond2 i = 1#1

/-- Point t = 32 b + j resets exactly when j = 0. -/
theorem isFirst_iff : ∀ t : Fin cfg1.N, isFirst (grid1.coords t) ↔ t.val % 32 = 0 :=
  (by decide +kernel : ∀ t : Fin grid1.N, isFirst (grid1.coords t) ↔ t.val % 32 = 0)
/-- Point t = 32 b + j finishes its batch exactly when j = 31. -/
theorem isLast_iff : ∀ t : Fin cfg1.N, isLast (grid1.coords t) ↔ t.val % 32 = 31 :=
  (by decide +kernel : ∀ t : Fin grid1.N, isLast (grid1.coords t) ↔ t.val % 32 = 31)

/-! ## Where the windows are idle

The three inputs and the running-sums output are stored into (or only read) at every point. The two channel
statistics are stored only at a last tile: elsewhere they are idle and not written back, so the body hands their
buffers back as it found them. -/

theorem live_0 : ∀ i : grid1.Coords, cfg1.idle 0 i = false := fun _ => rfl
theorem live_1 : ∀ i : grid1.Coords, cfg1.idle 1 i = false := fun _ => rfl
theorem live_2 : ∀ i : grid1.Coords, cfg1.idle 2 i = false := fun _ => rfl
theorem live_3 : ∀ i : grid1.Coords, cfg1.idle 3 i = false := fun _ => rfl

/-- Before the last tile the channel-sum output is idle, -/
theorem idle_4 : ∀ t : Fin cfg1.N, ¬ t.val % 32 = 31 → cfg1.idle 4 (grid1.coords t) = true :=
  (by decide +kernel : ∀ t : Fin grid1.N, ¬ t.val % 32 = 31 → idle1 4 (grid1.coords t) = true)
/-- and so is the channel-square-sum output; -/
theorem idle_5 : ∀ t : Fin cfg1.N, ¬ t.val % 32 = 31 → cfg1.idle 5 (grid1.coords t) = true :=
  (by decide +kernel : ∀ t : Fin grid1.N, ¬ t.val % 32 = 31 → idle1 5 (grid1.coords t) = true)
/-- neither is written back there. -/
theorem noFlush_4 : ∀ t : Fin cfg1.N, ¬ t.val % 32 = 31 → (cfg1.win 4).flush t = false :=
  (by decide +kernel : ∀ t : Fin grid1.N, ¬ t.val % 32 = 31 → win1_4.flush t = false)
theorem noFlush_5 : ∀ t : Fin cfg1.N, ¬ t.val % 32 = 31 → (cfg1.win 5).flush t = false :=
  (by decide +kernel : ∀ t : Fin grid1.N, ¬ t.val % 32 = 31 → win1_5.flush t = false)
/-- At the last tile both are live. -/
theorem live_4 : ∀ t : Fin cfg1.N, t.val % 32 = 31 → cfg1.idle 4 (grid1.coords t) = false :=
  (by decide +kernel : ∀ t : Fin grid1.N, t.val % 32 = 31 → idle1 4 (grid1.coords t) = false)
theorem live_5 : ∀ t : Fin cfg1.N, t.val % 32 = 31 → cfg1.idle 5 (grid1.coords t) = false :=
  (by decide +kernel : ∀ t : Fin grid1.N, t.val % 32 = 31 → idle1 5 (grid1.coords t) = false)

/-! ## The memrefs the body is called with at a point -/

/-- All 4096 feature rows of the batch. -/
abbrev mAll (t : Fin cfg1.N) : Memref sig .tc .vmem S1x4096x128 .f32 := win1_0.stage (cfg1.slots t 0)
abbrev hAll (t : Fin cfg1.N) : (mAll t).IsWhole := hstage1_0 ((cfg1.slots t 0).cast nbuf1_0)
/-- The tile's 128 feature rows: the hyperedge centres. -/
abbrev mCtr (t : Fin cfg1.N) : Memref sig .tc .vmem S1x128x128 .f32 := win1_1.stage (cfg1.slots t 1)
abbrev hCtr (t : Fin cfg1.N) : (mCtr t).IsWhole := hstage1_1 ((cfg1.slots t 1).cast nbuf1_1)
/-- The tile's 128 rows of the edge pass's result. -/
abbrev mEdge (t : Fin cfg1.N) : Memref sig .tc .vmem S1x128x128 .f32 := win1_2.stage (cfg1.slots t 2)
abbrev hEdge (t : Fin cfg1.N) : (mEdge t).IsWhole := hstage1_2 ((cfg1.slots t 2).cast nbuf1_2)
/-- The batch's running sums, the finished block at the last tile. -/
abbrev mOut (t : Fin cfg1.N) : Memref sig .tc .vmem S1x4096x128 .f32 := win1_3.stage (cfg1.slots t 3)
abbrev hOut (t : Fin cfg1.N) : (mOut t).IsWhole := hstage1_3 ((cfg1.slots t 3).cast nbuf1_3)
/-- The channel sums of the finished block. -/
abbrev mSum (t : Fin cfg1.N) : Memref sig .tc .vmem S1x1x128 .f32 := win1_4.stage (cfg1.slots t 4)
abbrev hSum (t : Fin cfg1.N) : (mSum t).IsWhole := hstage1_4 ((cfg1.slots t 4).cast nbuf1_4)
/-- The channel sums of the finished block's square. -/
abbrev mSq (t : Fin cfg1.N) : Memref sig .tc .vmem S1x1x128 .f32 := win1_5.stage (cfg1.slots t 5)
abbrev hSq (t : Fin cfg1.N) : (mSq t).IsWhole := hstage1_5 ((cfg1.slots t 5).cast nbuf1_5)
/-- The degree column: a scoped buffer of the kernel's own, kept from one point to the next. -/
abbrev mDeg : Memref sig .tc .vmem S4096x1 .f32 := Memref.whole cc1_scratch0
abbrev hDeg : (mDeg).IsWhole := Memref.isWhole_whole _

/-! ## The degree column among the region's scoped rest -/

/-- The scoped buffers that are neither a staging buffer of this region nor the degree column, each whole at some
    contents: they ride through the region untouched. -/
def otherScoped (c : Dev nD) : sProp 𝕄 :=
  bigSep (((Finset.univ.filter fun b : Ref sig .tc => b.isScoped) \ Finset.univ.image (Pipeline.stageRef spec1)).erase cc1_scratch0)
    fun b => iprop(∃ f : Buf (Elt F) ((c.tc : Thread nD τ).loc b), ((c.tc : Thread nD τ).loc b) ↦{fullShare} f)

theorem scratch_mem : cc1_scratch0 ∈ ((Finset.univ.filter fun b : Ref sig .tc => b.isScoped) \ Finset.univ.image (Pipeline.stageRef spec1)) := by decide

/-- The region's scoped rest is the degree column at some contents beside the others. -/
theorem scopedRest_split (c : Dev nD) :
    (Pipeline.scopedRest (Ix := Unit) (Name := ℕ) (U := UR sig nD τ) (Lvl := ℕ) (Val := Elt F) spec1 c : sProp 𝕄)
      = iprop((∃ d, owns (c : Thread nD τ) mDeg fullShare d) ∗ otherScoped c) := by
  unfold Pipeline.scopedRest otherScoped
  rw [BI.bigSep_erase scratch_mem]
  simp only [mDeg, owns_whole]
  rfl

end Cert.KernelIdeal.Vertex

end
-- ==== Proof.VertexRunFirst.lean ====
/-
  The vertex kernel's body at a FIRST hyperedge tile (j = 0): both accumulators are reset before tile 0's
  contribution is added, so what the output block and the degree column held before does not matter; the two
  channel statistics are not touched. The run is by symbolic execution of the body's skeleton; the pieces each
  accumulator ends with are what that execution finds.
-/
import proofs.«147048_j80771154968988_2_alg».proof.Proof.VertexSetup

set_option maxRecDepth 16384

noncomputable section

namespace Cert.KernelIdeal.Vertex

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the output block and in the degree column at a first tile (last store first), with
    the body's triple: inputs at their blocks, both accumulators at anything, the two channel statistics at whatever
    they hold (`xi4`, `xi5`) and handed back so. -/
noncomputable def runFirst (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : isFirst i) (hl : ¬ isLast i)
    (x0 : Vec F S1x4096x128 .f32) (x1 : Vec F S1x128x128 .f32) (x2 : Vec F S1x128x128 .f32) :
    Σ' (LOut : List (View.Piece (Elt F) S1x4096x128 .f32)), { LDeg : List (View.Piece (Elt F) S4096x1 .f32) //
      ∀ (xi4 xi5 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xi4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LOut)
                ∗ owns (c : Thread nD τ) arg6 fullShare xi4 ∗ owns (c : Thread nD τ) arg7 fullShare xi5
                ∗ (∃ f, arg8.view.loc (c : Thread nD τ) ↦[arg8.view.set]{fullShare} arg8.view.writes (Elt F) f LDeg)) -∗ K ⟨⟩))
          ⊢ wp frame (wpE (defs₀ (F := F)) Variants.none c none) E (cc1__vertex_kernel i arg2 harg2 arg3 harg3 arg4 harg4 arg5 harg5 arg6 harg6 arg7 harg7 arg8 harg8) K } := by
  refine ⟨?_, ?_, fun xi4 xi5 E K => ?run⟩
  case run =>
    simp only [cc1__vertex_kernel_eq_skeleton]; unfold cc1__vertex_kernel_skel
    unfold owns
    iintro ⟨⟨%f0, %hf0, H0⟩, ⟨%f1, %hf1, H1⟩, ⟨%f2, %hf2, H2⟩, ⟨%d5, %f5, -, H5⟩, ⟨%f6, %hf6, H6⟩, ⟨%f7, %hf7, H7⟩, ⟨%d8, %f8, -, H8⟩, Hk⟩
    obtain rfl := harg2.eq_unread hf0; obtain rfl := harg3.eq_unread hf1; obtain rfl := harg4.eq_unread hf2
    obtain rfl := harg6.eq_unread hf6; obtain rfl := harg7.eq_unread hf7
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; isplitr; · ipureintro; exact harg6.read_unread _
      iexact H6
    isplitl [H7]
    · iexists _; isplitr; · ipureintro; exact harg7.read_unread _
      iexact H7
    iexists _; iexact H8

end Cert.KernelIdeal.Vertex

end
-- ==== Proof.VertexRunMid.lean ====
/-
  The vertex kernel's body at an INNER hyperedge tile (0 < j < 31): neither branch is taken; tile j's contribution is
  added to the running sums in the output block and to the running degrees in the scratch column; the two channel
  statistics are not touched.
-/
import proofs.«147048_j80771154968988_2_alg».proof.Proof.VertexRunFirst

set_option maxRecDepth 16384

noncomputable section

namespace Cert.KernelIdeal.Vertex

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the output block and in the degree column at an inner tile (last store first), with
    the body's triple: inputs at their blocks, the output block at the running sums `a` and the degree column at the
    running degrees `s` the point before left, the two channel statistics at whatever they hold and handed back so. -/
noncomputable def runMid (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : ¬ isFirst i) (hl : ¬ isLast i)
    (x0 : Vec F S1x4096x128 .f32) (x1 : Vec F S1x128x128 .f32) (x2 : Vec F S1x128x128 .f32)
    (a : Vec F S1x4096x128 .f32) (s : Vec F S4096x1 .f32) :
    Σ' (LOut : List (View.Piece (Elt F) S1x4096x128 .f32)), { LDeg : List (View.Piece (Elt F) S4096x1 .f32) //
      ∀ (xi4 xi5 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare a ∗ owns (c : Thread nD τ) arg6 fullShare xi4 ∗ owns (c : Thread nD τ) arg7 fullShare xi5 ∗ owns (c : Thread nD τ) arg8 fullShare s
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LOut)
                ∗ owns (c : Thread nD τ) arg6 fullShare xi4 ∗ owns (c : Thread nD τ) arg7 fullShare xi5
                ∗ (∃ f, arg8.view.loc (c : Thread nD τ) ↦[arg8.view.set]{fullShare} arg8.view.writes (Elt F) f LDeg)) -∗ K ⟨⟩))
          ⊢ wp frame (wpE (defs₀ (F := F)) Variants.none c none) E (cc1__vertex_kernel i arg2 harg2 arg3 harg3 arg4 harg4 arg5 harg5 arg6 harg6 arg7 harg7 arg8 harg8) K } := by
  refine ⟨?_, ?_, fun xi4 xi5 E K => ?run⟩
  case run =>
    simp only [cc1__vertex_kernel_eq_skeleton]; unfold cc1__vertex_kernel_skel
    unfold owns
    iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2
    obtain rfl := harg5.eq_unread hf5; obtain rfl := harg6.eq_unread hf6; obtain rfl := harg7.eq_unread hf7; obtain rfl := harg8.eq_unread hf8
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; isplitr; · ipureintro; exact harg6.read_unread _
      iexact H6
    isplitl [H7]
    · iexists _; isplitr; · ipureintro; exact harg7.read_unread _
      iexact H7
    iexists _; iexact H8

end Cert.KernelIdeal.Vertex

end
-- ==== Proof.VertexRunLast.lean ====
/-
  The vertex kernel's body at the LAST hyperedge tile (j = 31): tile 31's contribution is added; then every row of
  the sums is scaled by the reciprocal of that row's degree (zero where the degree is zero) and the batch's own
  feature rows are added, which is the finished block; its per-channel sums and the per-channel sums of its square
  are stored in the two small outputs, whatever those held.
-/
import proofs.«147048_j80771154968988_2_alg».proof.Proof.VertexRunMid

set_option maxRecDepth 16384

noncomputable section

namespace Cert.KernelIdeal.Vertex

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the output block, in the two channel statistics and in the degree column at the last
    tile (last store first), with the body's triple: inputs at their blocks, the output block at the running sums
    `a` and the degree column at the running degrees `s` the point before left, the two statistics at anything. -/
noncomputable def runLast (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : ¬ isFirst i) (hl : isLast i)
    (x0 : Vec F S1x4096x128 .f32) (x1 : Vec F S1x128x128 .f32) (x2 : Vec F S1x128x128 .f32)
    (a : Vec F S1x4096x128 .f32) (s : Vec F S4096x1 .f32) :
    Σ' (LOut : List (View.Piece (Elt F) S1x4096x128 .f32)) (LSum : List (View.Piece (Elt F) S1x1x128 .f32)) (LSq : List (View.Piece (Elt F) S1x1x128 .f32)),
      { LDeg : List (View.Piece (Elt F) S4096x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare a ∗ (∃ d, owns (c : Thread nD τ) arg6 fullShare d) ∗ (∃ d, owns (c : Thread nD τ) arg7 fullShare d) ∗ owns (c : Thread nD τ) arg8 fullShare s
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LOut)
                ∗ (∃ f, arg6.view.loc (c : Thread nD τ) ↦[arg6.view.set]{fullShare} arg6.view.writes (Elt F) f LSum)
                ∗ (∃ f, arg7.view.loc (c : Thread nD τ) ↦[arg7.view.set]{fullShare} arg7.view.writes (Elt F) f LSq)
                ∗ (∃ f, arg8.view.loc (c : Thread nD τ) ↦[arg8.view.set]{fullShare} arg8.view.writes (Elt F) f LDeg)) -∗ K ⟨⟩))
          ⊢ wp frame (wpE (defs₀ (F := F)) Variants.none c none) E (cc1__vertex_kernel i arg2 harg2 arg3 harg3 arg4 harg4 arg5 harg5 arg6 harg6 arg7 harg7 arg8 harg8) K } := by
  refine ⟨?_, ?_, ?_, ?_, fun E K => ?run⟩
  case run =>
    simp only [cc1__vertex_kernel_eq_skeleton]; unfold cc1__vertex_kernel_skel
    unfold owns
    iintro ⟨⟨%f0, %hf0, H0⟩, ⟨%f1, %hf1, H1⟩, ⟨%f2, %hf2, H2⟩, ⟨%f5, %hf5, H5⟩, ⟨%d6, %f6, -, H6⟩, ⟨%d7, %f7, -, H7⟩, ⟨%f8, %hf8, H8⟩, Hk⟩
    obtain rfl := harg2.eq_unread hf0; obtain rfl := harg3.eq_unread hf1; obtain rfl := harg4.eq_unread hf2
    obtain rfl := harg5.eq_unread hf5; obtain rfl := harg8.eq_unread hf8
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; iexact H6
    isplitl [H7]
    · iexists _; iexact H7
    iexists _; iexact H8

end Cert.KernelIdeal.Vertex

end
-- ==== Proof.VertexPieces.lean ====
/-
  What the vertex kernel's body leaves in the buffers it stores into, case by case, as the body's own arithmetic
  applied to the blocks it was handed. The degree column is always "old degrees + row sums of tile j's incidence
  block" (from zero at a first tile); the output block is "old sums + incidence block times the tile's rows of the
  edge pass's result" (from zero at a first tile), and at the last tile that, scaled row by row by the reciprocal
  degrees, plus the batch's own feature rows; the two channel statistics are, at the last tile, the column sums of
  that finished block and of its square. Each lemma reads the stores a run found back through the buffer: every
  such list ends with a store of the whole buffer, so the last store's value is what the buffer holds, and a load
  of a buffer just stored whole reads the stored value.
-/
import proofs.«147048_j80771154968988_2_alg».proof.Proof.VertexRunLast
import Idealize.ShloMosaic.Lib.Pipeline.Value

set_option maxRecDepth 16384

noncomputable section

namespace Cert.KernelIdeal.Vertex

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz3 : (![0, 0, 0] : Fin 3 → ℕ) = fun _ => 0 := by funext a; fin_cases a <;> rfl
theorem hz2 : (![0, 0] : Fin 2 → ℕ) = fun _ => 0 := by funext a; fin_cases a <;> rfl

/-! ## One point's arithmetic -/

/-- The output block reset: all zeros. -/
def zeroAcc : Vec F S1x4096x128 .f32 := k1_pay6 (F := F)
/-- The degree column reset: all zeros. -/
def zeroDeg : Vec F S4096x1 .f32 := k1_pay7 (F := F)
/-- The tile's incidence block: entry (r, e) is 1 when vertex r of the batch (`x0`'s row r) lies within squared
    distance 256 of the tile's centre e (`x1`'s row e), else 0. -/
def incidence (x0 : Vec F S1x4096x128 .f32) (x1 : Vec F S1x128x128 .f32) : Vec F S4096x128 .f32 := k1_pay9 x0 x1
/-- The degree column after a tile: the old degrees plus the row sums of the tile's incidence block. -/
def degStep (x0 : Vec F S1x4096x128 .f32) (x1 : Vec F S1x128x128 .f32) (s : Vec F S4096x1 .f32) : Vec F S4096x1 .f32 :=
  k1_pay10 x0 x1 s
/-- The output block after a tile: the old sums plus the tile's incidence block times the tile's 128 rows `x2` of the
    edge pass's result. -/
def accStep (x0 : Vec F S1x4096x128 .f32) (x1 : Vec F S1x128x128 .f32) (x2 : Vec F S1x128x128 .f32) (a : Vec F S1x4096x128 .f32) : Vec F S1x4096x128 .f32 :=
  k1_pay1 (k1_pay9 x0 x1) (k1_pay11 x2) a
/-- The finished block: each row of the sums `a` times the reciprocal of its degree in `s` (zero where the degree is
    zero), plus the batch's own feature rows `x0`. -/
def finish (x0 : Vec F S1x4096x128 .f32) (s : Vec F S4096x1 .f32) (a : Vec F S1x4096x128 .f32) : Vec F S1x4096x128 .f32 :=
  k1_pay3 (k1_pay8 x0) s a
/-- The finished block's per-channel sums over its 4096 rows. -/
def chanSum (x0 : Vec F S1x4096x128 .f32) (s : Vec F S4096x1 .f32) (a : Vec F S1x4096x128 .f32) : Vec F S1x1x128 .f32 :=
  k1_pay4 (k1_pay8 x0) s a
/-- The per-channel sums, over the 4096 rows, of the finished block's square. -/
def chanSq (x0 : Vec F S1x4096x128 .f32) (s : Vec F S4096x1 .f32) (a : Vec F S1x4096x128 .f32) : Vec F S1x1x128 .f32 :=
  k1_pay5 (k1_pay8 x0) s a

/-! ## The buffers after each case -/

theorem first_deg_cover (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : isFirst i) (hl : ¬ isLast i) (x0 : Vec F S1x4096x128 .f32) (x1 : Vec F S1x128x128 .f32) (x2 : Vec F S1x128x128 .f32) (y : S4096x1.Idx) :
    ∃ pc ∈ (runFirst c i arg2 harg2 arg3 harg3 arg4 harg4 arg5 harg5 arg6 harg6 arg7 harg7 arg8 harg8 hf hl x0 x1 x2).2.1, y ∈ pc.1.set :=
  View.cover_of_tiledL _ S4096x1.size (by sl_kernel_rfl) y

/-- At a first tile the degree column ends at tile 0's row sums added to zero. -/
theorem first_deg (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : isFirst i) (hl : ¬ isLast i) (x0 : Vec F S1x4096x128 .f32) (x1 : Vec F S1x128x128 .f32) (x2 : Vec F S1x128x128 .f32)
    (v : View sig .tc .vmem S4096x1 .f32) (f : v.ty.Contents (Elt F)) :
    v.read (Elt F) (v.writes (Elt F) f (runFirst c i arg2 harg2 arg3 harg3 arg4 harg4 arg5 harg5 arg6 harg6 arg7 harg7 arg8 harg8 hf hl x0 x1 x2).2.1)
      = degStep x0 x1 (zeroDeg (F := F)) := by
  rw [View.read_writes_eq_canon _ _ _ (first_deg_cover c i arg2 harg2 arg3 harg3 arg4 harg4 arg5 harg5 arg6 harg6 arg7 harg7 arg8 harg8 hf hl x0 x1 x2)]
  unfold runFirst; dsimp only
  sl_unfold_words
  simp only [View.readAt_eq_ld, harg2.read_unread, harg3.read_unread, harg4.read_unread, harg5.read_unread, harg6.read_unread, harg7.read_unread, harg8.read_unread,
    View.ld_unit_zero (S := S1x4096x128) hz3, View.ld_unit_zero (S := S1x128x128) hz3, View.ld_unit_zero (S := S1x1x128) hz3, View.ld_unit_zero (S := S4096x1) hz2,
    View.readCov_unit_zero (S := S4096x1) _ hz2, View.readCov_unit_zero (S := S1x4096x128) _ hz3, View.readCov_unit_zero (S := S1x1x128) _ hz3,
    View.canon_cons_unit_zero (S := S4096x1) hz2, View.canon_cons_unit_zero (S := S1x4096x128) hz3, View.canon_cons_unit_zero (S := S1x1x128) hz3]
  rfl

theorem first_out_cover (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : isFirst i) (hl : ¬ isLast i) (x0 : Vec F S1x4096x128 .f32) (x1 : Vec F S1x128x128 .f32) (x2 : Vec F S1x128x128 .f32) (y : S1x4096x128.Idx) :
    ∃ pc ∈ (runFirst c i arg2 harg2 arg3 harg3 arg4 harg4 arg5 harg5 arg6 harg6 arg7 harg7 arg8 harg8 hf hl x0 x1 x2).1, y ∈ pc.1.set :=
  View.cover_of_tiledL _ S1x4096x128.size (by sl_kernel_rfl) y

/-- At a first tile the output block ends at tile 0's contribution added to zero. -/
theorem first_out (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : isFirst i) (hl : ¬ isLast i) (x0 : Vec F S1x4096x128 .f32) (x1 : Vec F S1x128x128 .f32) (x2 : Vec F S1x128x128 .f32)
    (v : View sig .tc .vmem S1x4096x128 .f32) (f : v.ty.Contents (Elt F)) :
    v.read (Elt F) (v.writes (Elt F) f (runFirst c i arg2 harg2 arg3 harg3 arg4 harg4 arg5 harg5 arg6 harg6 arg7 harg7 arg8 harg8 hf hl x0 x1 x2).1)
      = accStep x0 x1 x2 (zeroAcc (F := F)) := by
  rw [View.read_writes_eq_canon _ _ _ (first_out_cover c i arg2 harg2 arg3 harg3 arg4 harg4 arg5 harg5 arg6 harg6 arg7 harg7 arg8 harg8 hf hl x0 x1 x2)]
  unfold runFirst; dsimp only
  sl_unfold_words
  simp only [View.readAt_eq_ld, harg2.read_unread, harg3.read_unread, harg4.read_unread, harg5.read_unread, harg6.read_unread, harg7.read_unread, harg8.read_unread,
    View.ld_unit_zero (S := S1x4096x128) hz3, View.ld_unit_zero (S := S1x128x128) hz3, View.ld_unit_zero (S := S1x1x128) hz3, View.ld_unit_zero (S := S4096x1) hz2,
    View.readCov_unit_zero (S := S4096x1) _ hz2, View.readCov_unit_zero (S := S1x4096x128) _ hz3, View.readCov_unit_zero (S := S1x1x128) _ hz3,
    View.canon_cons_unit_zero (S := S4096x1) hz2, View.canon_cons_unit_zero (S := S1x4096x128) hz3, View.canon_cons_unit_zero (S := S1x1x128) hz3]
  rfl

theorem mid_deg_cover (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : ¬ isFirst i) (hl : ¬ isLast i) (x0 : Vec F S1x4096x128 .f32) (x1 : Vec F S1x128x128 .f32) (x2 : Vec F S1x128x128 .f32) (a : Vec F S1x4096x128 .f32) (s : Vec F S4096x1 .f32) (y : S4096x1.Idx) :
    ∃ pc ∈ (runMid c i arg2 harg2 arg3 harg3 arg4 harg4 arg5 harg5 arg6 harg6 arg7 harg7 arg8 harg8 hf hl x0 x1 x2 a s).2.1, y ∈ pc.1.set :=
  View.cover_of_tiledL _ S4096x1.size (by sl_kernel_rfl) y

/-- At an inner tile the degree column ends at the tile's row sums added to what it held. -/
theorem mid_deg (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : ¬ isFirst i) (hl : ¬ isLast i) (x0 : Vec F S1x4096x128 .f32) (x1 : Vec F S1x128x128 .f32) (x2 : Vec F S1x128x128 .f32) (a : Vec F S1x4096x128 .f32) (s : Vec F S4096x1 .f32)
    (v : View sig .tc .vmem S4096x1 .f32) (f : v.ty.Contents (Elt F)) :
    v.read (Elt F) (v.writes (Elt F) f (runMid c i arg2 harg2 arg3 harg3 arg4 harg4 arg5 harg5 arg6 harg6 arg7 harg7 arg8 harg8 hf hl x0 x1 x2 a s).2.1)
      = degStep x0 x1 s := by
  rw [View.read_writes_eq_canon _ _ _ (mid_deg_cover c i arg2 harg2 arg3 harg3 arg4 harg4 arg5 harg5 arg6 harg6 arg7 harg7 arg8 harg8 hf hl x0 x1 x2 a s)]
  unfold runMid; dsimp only
  sl_unfold_words
  simp only [View.readAt_eq_ld, harg2.read_unread, harg3.read_unread, harg4.read_unread, harg5.read_unread, harg6.read_unread, harg7.read_unread, harg8.read_unread,
    View.ld_unit_zero (S := S1x4096x128) hz3, View.ld_unit_zero (S := S1x128x128) hz3, View.ld_unit_zero (S := S1x1x128) hz3, View.ld_unit_zero (S := S4096x1) hz2,
    View.readCov_unit_zero (S := S4096x1) _ hz2, View.readCov_unit_zero (S := S1x4096x128) _ hz3, View.readCov_unit_zero (S := S1x1x128) _ hz3,
    View.canon_cons_unit_zero (S := S4096x1) hz2, View.canon_cons_unit_zero (S := S1x4096x128) hz3, View.canon_cons_unit_zero (S := S1x1x128) hz3]
  rfl

theorem mid_out_cover (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : ¬ isFirst i) (hl : ¬ isLast i) (x0 : Vec F S1x4096x128 .f32) (x1 : Vec F S1x128x128 .f32) (x2 : Vec F S1x128x128 .f32) (a : Vec F S1x4096x128 .f32) (s : Vec F S4096x1 .f32) (y : S1x4096x128.Idx) :
    ∃ pc ∈ (runMid c i arg2 harg2 arg3 harg3 arg4 harg4 arg5 harg5 arg6 harg6 arg7 harg7 arg8 harg8 hf hl x0 x1 x2 a s).1, y ∈ pc.1.set :=
  View.cover_of_tiledL _ S1x4096x128.size (by sl_kernel_rfl) y

/-- At an inner tile the output block ends at the tile's contribution added to what it held. -/
theorem mid_out (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : ¬ isFirst i) (hl : ¬ isLast i) (x0 : Vec F S1x4096x128 .f32) (x1 : Vec F S1x128x128 .f32) (x2 : Vec F S1x128x128 .f32) (a : Vec F S1x4096x128 .f32) (s : Vec F S4096x1 .f32)
    (v : View sig .tc .vmem S1x4096x128 .f32) (f : v.ty.Contents (Elt F)) :
    v.read (Elt F) (v.writes (Elt F) f (runMid c i arg2 harg2 arg3 harg3 arg4 harg4 arg5 harg5 arg6 harg6 arg7 harg7 arg8 harg8 hf hl x0 x1 x2 a s).1)
      = accStep x0 x1 x2 a := by
  rw [View.read_writes_eq_canon _ _ _ (mid_out_cover c i arg2 harg2 arg3 harg3 arg4 harg4 arg5 harg5 arg6 harg6 arg7 harg7 arg8 harg8 hf hl x0 x1 x2 a s)]
  unfold runMid; dsimp only
  sl_unfold_words
  simp only [View.readAt_eq_ld, harg2.read_unread, harg3.read_unread, harg4.read_unread, harg5.read_unread, harg6.read_unread, harg7.read_unread, harg8.read_unread,
    View.ld_unit_zero (S := S1x4096x128) hz3, View.ld_unit_zero (S := S1x128x128) hz3, View.ld_unit_zero (S := S1x1x128) hz3, View.ld_unit_zero (S := S4096x1) hz2,
    View.readCov_unit_zero (S := S4096x1) _ hz2, View.readCov_unit_zero (S := S1x4096x128) _ hz3, View.readCov_unit_zero (S := S1x1x128) _ hz3,
    View.canon_cons_unit_zero (S := S4096x1) hz2, View.canon_cons_unit_zero (S := S1x4096x128) hz3, View.canon_cons_unit_zero (S := S1x1x128) hz3]
  rfl

theorem last_deg_cover (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : ¬ isFirst i) (hl : isLast i) (x0 : Vec F S1x4096x128 .f32) (x1 : Vec F S1x128x128 .f32) (x2 : Vec F S1x128x128 .f32) (a : Vec F S1x4096x128 .f32) (s : Vec F S4096x1 .f32) (y : S4096x1.Idx) :
    ∃ pc ∈ (runLast c i arg2 harg2 arg3 harg3 arg4 harg4 arg5 harg5 arg6 harg6 arg7 harg7 arg8 harg8 hf hl x0 x1 x2 a s).2.2.2.1, y ∈ pc.1.set :=
  View.cover_of_tiledL _ S4096x1.size (by sl_kernel_rfl) y

/-- At the last tile the degree column ends at the tile's row sums added to what it held: the full degrees. -/
theorem last_deg (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : ¬ isFirst i) (hl : isLast i) (x0 : Vec F S1x4096x128 .f32) (x1 : Vec F S1x128x128 .f32) (x2 : Vec F S1x128x128 .f32) (a : Vec F S1x4096x128 .f32) (s : Vec F S4096x1 .f32)
    (v : View sig .tc .vmem S4096x1 .f32) (f : v.ty.Contents (Elt F)) :
    v.read (Elt F) (v.writes (Elt F) f (runLast c i arg2 harg2 arg3 harg3 arg4 harg4 arg5 harg5 arg6 harg6 arg7 harg7 arg8 harg8 hf hl x0 x1 x2 a s).2.2.2.1)
      = degStep x0 x1 s := by
  rw [View.read_writes_eq_canon _ _ _ (last_deg_cover c i arg2 harg2 arg3 harg3 arg4 harg4 arg5 harg5 arg6 harg6 arg7 harg7 arg8 harg8 hf hl x0 x1 x2 a s)]
  unfold runLast; dsimp only
  sl_unfold_words
  simp only [View.readAt_eq_ld, harg2.read_unread, harg3.read_unread, harg4.read_unread, harg5.read_unread, harg6.read_unread, harg7.read_unread, harg8.read_unread,
    View.ld_unit_zero (S := S1x4096x128) hz3, View.ld_unit_zero (S := S1x128x128) hz3, View.ld_unit_zero (S := S1x1x128) hz3, View.ld_unit_zero (S := S4096x1) hz2,
    View.readCov_unit_zero (S := S4096x1) _ hz2, View.readCov_unit_zero (S := S1x4096x128) _ hz3, View.readCov_unit_zero (S := S1x1x128) _ hz3,
    View.canon_cons_unit_zero (S := S4096x1) hz2, View.canon_cons_unit_zero (S := S1x4096x128) hz3, View.canon_cons_unit_zero (S := S1x1x128) hz3]
  rfl

theorem last_out_cover (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : ¬ isFirst i) (hl : isLast i) (x0 : Vec F S1x4096x128 .f32) (x1 : Vec F S1x128x128 .f32) (x2 : Vec F S1x128x128 .f32) (a : Vec F S1x4096x128 .f32) (s : Vec F S4096x1 .f32) (y : S1x4096x128.Idx) :
    ∃ pc ∈ (runLast c i arg2 harg2 arg3 harg3 arg4 harg4 arg5 harg5 arg6 harg6 arg7 harg7 arg8 harg8 hf hl x0 x1 x2 a s).1, y ∈ pc.1.set :=
  View.cover_of_tiledL _ S1x4096x128.size (by sl_kernel_rfl) y

/-- At the last tile the output block ends at the finished block: the completed sums, each row scaled by its reciprocal degree, plus the batch's feature rows. -/
theorem last_out (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : ¬ isFirst i) (hl : isLast i) (x0 : Vec F S1x4096x128 .f32) (x1 : Vec F S1x128x128 .f32) (x2 : Vec F S1x128x128 .f32) (a : Vec F S1x4096x128 .f32) (s : Vec F S4096x1 .f32)
    (v : View sig .tc .vmem S1x4096x128 .f32) (f : v.ty.Contents (Elt F)) :
    v.read (Elt F) (v.writes (Elt F) f (runLast c i arg2 harg2 arg3 harg3 arg4 harg4 arg5 harg5 arg6 harg6 arg7 harg7 arg8 harg8 hf hl x0 x1 x2 a s).1)
      = finish x0 (degStep x0 x1 s) (accStep x0 x1 x2 a) := by
  rw [View.read_writes_eq_canon _ _ _ (last_out_cover c i arg2 harg2 arg3 harg3 arg4 harg4 arg5 harg5 arg6 harg6 arg7 harg7 arg8 harg8 hf hl x0 x1 x2 a s)]
  unfold runLast; dsimp only
  sl_unfold_words
  simp only [View.readAt_eq_ld, harg2.read_unread, harg3.read_unread, harg4.read_unread, harg5.read_unread, harg6.read_unread, harg7.read_unread, harg8.read_unread,
    View.ld_unit_zero (S := S1x4096x128) hz3, View.ld_unit_zero (S := S1x128x128) hz3, View.ld_unit_zero (S := S1x1x128) hz3, View.ld_unit_zero (S := S4096x1) hz2,
    View.readCov_unit_zero (S := S4096x1) _ hz2, View.readCov_unit_zero (S := S1x4096x128) _ hz3, View.readCov_unit_zero (S := S1x1x128) _ hz3,
    View.canon_cons_unit_zero (S := S4096x1) hz2, View.canon_cons_unit_zero (S := S1x4096x128) hz3, View.canon_cons_unit_zero (S := S1x1x128) hz3]
  rfl

theorem last_sum_cover (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : ¬ isFirst i) (hl : isLast i) (x0 : Vec F S1x4096x128 .f32) (x1 : Vec F S1x128x128 .f32) (x2 : Vec F S1x128x128 .f32) (a : Vec F S1x4096x128 .f32) (s : Vec F S4096x1 .f32) (y : S1x1x128.Idx) :
    ∃ pc ∈ (runLast c i arg2 harg2 arg3 harg3 arg4 harg4 arg5 harg5 arg6 harg6 arg7 harg7 arg8 harg8 hf hl x0 x1 x2 a s).2.1, y ∈ pc.1.set :=
  View.cover_of_tiledL _ S1x1x128.size (by sl_kernel_rfl) y

/-- At the last tile the first small output ends at the finished block's per-channel sums. -/
theorem last_sum (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : ¬ isFirst i) (hl : isLast i) (x0 : Vec F S1x4096x128 .f32) (x1 : Vec F S1x128x128 .f32) (x2 : Vec F S1x128x128 .f32) (a : Vec F S1x4096x128 .f32) (s : Vec F S4096x1 .f32)
    (v : View sig .tc .vmem S1x1x128 .f32) (f : v.ty.Contents (Elt F)) :
    v.read (Elt F) (v.writes (Elt F) f (runLast c i arg2 harg2 arg3 harg3 arg4 harg4 arg5 harg5 arg6 harg6 arg7 harg7 arg8 harg8 hf hl x0 x1 x2 a s).2.1)
      = chanSum x0 (degStep x0 x1 s) (accStep x0 x1 x2 a) := by
  rw [View.read_writes_eq_canon _ _ _ (last_sum_cover c i arg2 harg2 arg3 harg3 arg4 harg4 arg5 harg5 arg6 harg6 arg7 harg7 arg8 harg8 hf hl x0 x1 x2 a s)]
  unfold runLast; dsimp only
  sl_unfold_words
  simp only [View.readAt_eq_ld, harg2.read_unread, harg3.read_unread, harg4.read_unread, harg5.read_unread, harg6.read_unread, harg7.read_unread, harg8.read_unread,
    View.ld_unit_zero (S := S1x4096x128) hz3, View.ld_unit_zero (S := S1x128x128) hz3, View.ld_unit_zero (S := S1x1x128) hz3, View.ld_unit_zero (S := S4096x1) hz2,
    View.readCov_unit_zero (S := S4096x1) _ hz2, View.readCov_unit_zero (S := S1x4096x128) _ hz3, View.readCov_unit_zero (S := S1x1x128) _ hz3,
    View.canon_cons_unit_zero (S := S4096x1) hz2, View.canon_cons_unit_zero (S := S1x4096x128) hz3, View.canon_cons_unit_zero (S := S1x1x128) hz3]
  rfl

theorem last_sq_cover (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : ¬ isFirst i) (hl : isLast i) (x0 : Vec F S1x4096x128 .f32) (x1 : Vec F S1x128x128 .f32) (x2 : Vec F S1x128x128 .f32) (a : Vec F S1x4096x128 .f32) (s : Vec F S4096x1 .f32) (y : S1x1x128.Idx) :
    ∃ pc ∈ (runLast c i arg2 harg2 arg3 harg3 arg4 harg4 arg5 harg5 arg6 harg6 arg7 harg7 arg8 harg8 hf hl x0 x1 x2 a s).2.2.1, y ∈ pc.1.set :=
  View.cover_of_tiledL _ S1x1x128.size (by sl_kernel_rfl) y

/-- At the last tile the second small output ends at the per-channel sums of the finished block's square. -/
theorem last_sq (c : Dev nD) (i : grid1.Coords)
    (arg2 : Memref sig .tc .vmem S1x4096x128 .f32) (harg2 : arg2.IsWhole) (arg3 : Memref sig .tc .vmem S1x128x128 .f32) (harg3 : arg3.IsWhole)
    (arg4 : Memref sig .tc .vmem S1x128x128 .f32) (harg4 : arg4.IsWhole) (arg5 : Memref sig .tc .vmem S1x4096x128 .f32) (harg5 : arg5.IsWhole)
    (arg6 : Memref sig .tc .vmem S1x1x128 .f32) (harg6 : arg6.IsWhole) (arg7 : Memref sig .tc .vmem S1x1x128 .f32) (harg7 : arg7.IsWhole)
    (arg8 : Memref sig .tc .vmem S4096x1 .f32) (harg8 : arg8.IsWhole)
    (hf : ¬ isFirst i) (hl : isLast i) (x0 : Vec F S1x4096x128 .f32) (x1 : Vec F S1x128x128 .f32) (x2 : Vec F S1x128x128 .f32) (a : Vec F S1x4096x128 .f32) (s : Vec F S4096x1 .f32)
    (v : View sig .tc .vmem S1x1x128 .f32) (f : v.ty.Contents (Elt F)) :
    v.read (Elt F) (v.writes (Elt F) f (runLast c i arg2 harg2 arg3 harg3 arg4 harg4 arg5 harg5 arg6 harg6 arg7 harg7 arg8 harg8 hf hl x0 x1 x2 a s).2.2.1)
      = chanSq x0 (degStep x0 x1 s) (accStep x0 x1 x2 a) := by
  rw [View.read_writes_eq_canon _ _ _ (last_sq_cover c i arg2 harg2 arg3 harg3 arg4 harg4 arg5 harg5 arg6 harg6 arg7 harg7 arg8 harg8 hf hl x0 x1 x2 a s)]
  unfold runLast; dsimp only
  sl_unfold_words
  simp only [View.readAt_eq_ld, harg2.read_unread, harg3.read_unread, harg4.read_unread, harg5.read_unread, harg6.read_unread, harg7.read_unread, harg8.read_unread,
    View.ld_unit_zero (S := S1x4096x128) hz3, View.ld_unit_zero (S := S1x128x128) hz3, View.ld_unit_zero (S := S1x1x128) hz3, View.ld_unit_zero (S := S4096x1) hz2,
    View.readCov_unit_zero (S := S4096x1) _ hz2, View.readCov_unit_zero (S := S1x4096x128) _ hz3, View.readCov_unit_zero (S := S1x1x128) _ hz3,
    View.canon_cons_unit_zero (S := S4096x1) hz2, View.canon_cons_unit_zero (S := S1x4096x128) hz3, View.canon_cons_unit_zero (S := S1x1x128) hz3]
  rfl

end Cert.KernelIdeal.Vertex

end
-- ==== Proof.VertexData.lean ====
/-
  The vertex region's proof data. At linear point t = 32 b + j the two accumulators hold, after the body,
    sums(t)    = tile j's contribution added to sums(t-1)    (to zero when j = 0),
    degrees(t) = tile j's row sums added to degrees(t-1)     (to zero when j = 0),
  and the output block's staging buffer holds sums(t), except at j = 31 where it holds the finished block: the
  rows of sums(t) scaled by the reciprocals of degrees(t), plus the batch's own feature rows, which the pipeline
  then writes back as batch b of the result. At j = 31 the two small outputs receive the finished block's
  per-channel sums and the per-channel sums of its square, and are written back too; at every other point they
  are idle, so the body hands them back as it found them and nothing need be said of what they hold. The degree
  column lives in a scoped buffer of the kernel's own, so its contents are carried by the region's invariant from
  one point to the next; the output block is handed to the next point untouched because the pipeline writes it
  back only after j = 31. The body obligation is the case's run (first / inner / last tile) at the point's
  memrefs and blocks.
-/
import proofs.«147048_j80771154968988_2_alg».proof.Proof.VertexPieces

set_option maxRecDepth 16384

noncomputable section

namespace Cert.KernelIdeal.Vertex

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulators, point by point -/

/-- One point's step on the pair (sums, degrees). -/
def step (c : Dev nD) (t : Fin cfg1.N) (p : Vec F S1x4096x128 .f32 × Vec F S4096x1 .f32) : Vec F S1x4096x128 .f32 × Vec F S4096x1 .f32 :=
  (accStep (iblk V c 0 t) (iblk V c 1 t) (iblk V c 2 t) p.1, degStep (iblk V c 0 t) (iblk V c 1 t) p.2)

/-- (sums, degrees) after the body at point `n`: restarted from zero at every first tile. -/
def stAt (c : Dev nD) : (n : ℕ) → n < cfg1.N → Vec F S1x4096x128 .f32 × Vec F S4096x1 .f32
  | 0, hn => step V c ⟨0, hn⟩ (zeroAcc, zeroDeg)
  | n + 1, hn => step V c ⟨n + 1, hn⟩ (if (n + 1) % 32 = 0 then (zeroAcc, zeroDeg) else stAt c n (Nat.lt_of_succ_lt hn))

theorem stAt_first (c : Dev nD) (t : Fin cfg1.N) (h : t.val % 32 = 0) :
    stAt V c t.val t.isLt = step V c t (zeroAcc, zeroDeg) := by
  obtain ⟨n, hn⟩ := t
  cases n with
  | zero => rfl
  | succ n => show step V c ⟨n + 1, hn⟩ (if (n + 1) % 32 = 0 then _ else _) = _; rw [if_pos h]

theorem stAt_next (c : Dev nD) (t : Fin cfg1.N) (h : ¬ t.val % 32 = 0) :
    stAt V c t.val t.isLt = step V c t (stAt V c (t.val - 1) (Nat.lt_of_le_of_lt (Nat.sub_le _ _) t.isLt)) := by
  obtain ⟨n, hn⟩ := t
  cases n with
  | zero => exact absurd (Nat.zero_mod _) h
  | succ n => show step V c ⟨n + 1, hn⟩ (if (n + 1) % 32 = 0 then _ else _) = _; rw [if_neg h]; rfl

/-- What the output block's staging buffer holds after the body at point `t`: the running sums, and at a last tile the
    finished block. -/
def outAfter (c : Dev nD) (t : Fin cfg1.N) : Vec F S1x4096x128 .f32 :=
  if t.val % 32 = 31 then finish (iblk V c 0 t) (stAt V c t.val t.isLt).2 (stAt V c t.val t.isLt).1 else (stAt V c t.val t.isLt).1

/-- What the channel-sum output's staging buffer holds after the body at a last tile `t`: the per-channel sums of the
    finished block. (At the other points the window is idle and this is not consulted.) -/
def sumAfter (c : Dev nD) (t : Fin cfg1.N) : Vec F S1x1x128 .f32 :=
  chanSum (iblk V c 0 t) (stAt V c t.val t.isLt).2 (stAt V c t.val t.isLt).1

/-- What the channel-square-sum output's staging buffer holds after the body at a last tile `t`: the per-channel sums of
    the finished block's square. (At the other points the window is idle and this is not consulted.) -/
def sqAfter (c : Dev nD) (t : Fin cfg1.N) : Vec F S1x1x128 .f32 :=
  chanSq (iblk V c 0 t) (stAt V c t.val t.isLt).2 (stAt V c t.val t.isLt).1

/-! ## The region's invariant: the degree column carried between points -/

/-- Before the first point the class's invariant (every scoped buffer at anything); after point `n` the degree column at
    `degrees(n)`, the other scoped buffers at anything, the generator register at some state. -/
def PhiV (c : Dev nD) : (n : ℕ) → n ≤ cfg1.N → sProp 𝕄
  | 0, _ => Pipeline.ΦA spec1 c
  | n + 1, hn => iprop(owns (c : Thread nD τ) mDeg fullShare (stAt V c n hn).2 ∗ otherScoped c ∗ ∃ r, prngReg c r)

theorem PhiV_pos (c : Dev nD) (n : ℕ) (h : n ≤ cfg1.N) (hz : n ≠ 0) :
    PhiV V c n h = iprop(owns (c : Thread nD τ) mDeg fullShare (stAt V c (n - 1) (by omega)).2 ∗ otherScoped c ∗ ∃ r, prngReg c r) := by
  cases n with
  | zero => exact absurd rfl hz
  | succ n => rfl

/-- At any point the invariant holds the degree column at SOME contents. -/
theorem PhiV_some (c : Dev nD) (n : ℕ) (h : n ≤ cfg1.N) :
    PhiV V c n h ⊢ iprop((∃ d, owns (c : Thread nD τ) mDeg fullShare d) ∗ otherScoped c ∗ ∃ r, prngReg c r) := by
  cases n with
  | zero =>
    show Pipeline.ΦA spec1 c ⊢ _
    unfold Pipeline.ΦA; rw [scopedRest_split]
    iintro ⟨⟨HS, HO⟩, Hg⟩
    isplitl [HS]; · iexact HS
    isplitl [HO]; · iexact HO
    iexact Hg
  | succ n =>
    show iprop(owns (c : Thread nD τ) mDeg fullShare (stAt V c n h).2 ∗ otherScoped c ∗ ∃ r, prngReg c r) ⊢ _
    iintro ⟨HS, HO, Hg⟩
    isplitl [HS]; · iexists _; iexact HS
    isplitl [HO]; · iexact HO
    iexact Hg

/-! ## The proof data -/

/-- The vertex region's proof data on core `c`: the arrays as the region finds them; each input's buffer left at its
    block, the output block's at `outAfter`, the two channel statistics' at `sumAfter` and `sqAfter`; the invariant
    `PhiV`; nothing owed. The feature rows are read by two windows (all 4096 rows of the batch, and the tile's 128
    rows): they hold the two halves of that array's share. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAfter V c t
    | ⟨4, _⟩ => sumAfter V c t
    | ⟨5, _⟩ => sqAfter V c t
  Φ t := PhiV V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg1.W) : (dat V c).A w = V c (Pipeline.arrRef spec1 w) := by dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = outAfter V c t := by dsimp only [dat]
theorem after_4 (c : Dev nD) (t : Fin cfg1.N) : (dat V c).after 4 t = sumAfter V c t := by dsimp only [dat]
theorem after_5 (c : Dev nD) (t : Fin cfg1.N) : (dat V c).after 5 t = sqAfter V c t := by dsimp only [dat]

theorem Phi_castSucc (c : Dev nD) (t : Fin cfg1.N) : (dat V c).Φ t.castSucc = PhiV V c t.val (Nat.le_of_lt t.isLt) := by
  dsimp only [dat]; simp only [Fin.coe_castSucc]

/-- An input's current staging buffer holds its block at every point, fetched there or not. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- After a first tile the output block's buffer holds the running sums the point before left: it is written back only
    after a last tile, and the point before a tile that is not first is not a last tile. -/
theorem before_3_next (c : Dev nD) (t : Fin cfg1.N) (h : ¬ t.val % 32 = 0) (d) :
    (dat V c).before 3 t d = (stAt V c (t.val - 1) (Nat.lt_of_le_of_lt (Nat.sub_le _ _) t.isLt)).1 := by
  rw [Dat.before_out_kept _ 3 rfl t (by omega) (Bool.eq_false_iff.mpr fun hf => by have := (flush1_3 _).mp hf; dsimp only at this; omega)
    (fun _ => rfl) (fun _ _ => rfl)]
  rw [after_3]; unfold outAfter; dsimp only
  rw [if_neg (by omega)]

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 2000000 in
/-- The body at any point: which of the three cases the point is in is read off `t % 32`; the inputs' memrefs hold their
    blocks; at a first tile both accumulators are handed over at anything, at a later tile at what the point before
    left; before the last tile the two channel statistics are handed over and taken back at what they hold, at the
    last tile handed over at anything and taken back at the finished block's statistics; the case's run applies and
    its stores, read back, are this point's `sums`, `degrees` and, at the last tile, finished block and statistics. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl,
    show (dat V c).Φ t.succ = PhiV V c (t.val + 1) t.isLt from rfl,
    show PhiV V c (t.val + 1) t.isLt = iprop(owns (c : Thread nD τ) mDeg fullShare (stAt V c t.val t.isLt).2 ∗ otherScoped c ∗ ∃ r, prngReg c r) from rfl,
    show (dat V c).leavesExact 0 t = owns (c : Thread nD τ) (st1_0 t) fullShare ((dat V c).after 0 t) from by
      unfold Dat.leavesExact; rw [live_0],
    show (dat V c).leavesExact 1 t = owns (c : Thread nD τ) (st1_1 t) fullShare ((dat V c).after 1 t) from by
      unfold Dat.leavesExact; rw [live_1],
    show (dat V c).leavesExact 2 t = owns (c : Thread nD τ) (st1_2 t) fullShare ((dat V c).after 2 t) from by
      unfold Dat.leavesExact; rw [live_2],
    show (dat V c).leavesExact 3 t = owns (c : Thread nD τ) (st1_3 t) fullShare ((dat V c).after 3 t) from by
      unfold Dat.leavesExact; rw [live_3],
    after_0, after_1, after_2, after_3, Phi_castSucc]
  by_cases hfirst : t.val % 32 = 0
  · -- a first tile
    have hnl : ¬ t.val % 32 = 31 := by omega
    have hf : isFirst (grid1.coords t) := (isFirst_iff t).mpr hfirst
    have hl : ¬ isLast (grid1.coords t) := fun h => hnl ((isLast_iff t).mp h)
    rw [Dat.leavesExact_idle (dat V c) 4 t (idle_4 t hnl) (noFlush_4 t hnl), Dat.leavesExact_idle (dat V c) 5 t (idle_5 t hnl) (noFlush_5 t hnl)]
    unfold outAfter; rw [if_neg hnl, stAt_first V c t hfirst]; unfold step; dsimp only
    iintro ⟨HΦ, Ho, ⟨%d0, H0⟩, ⟨%d1, H1⟩, ⟨%d2, H2⟩, ⟨%d3, H3⟩, ⟨%d4, H4⟩, ⟨%d5, H5⟩⟩
    ihave HΦ' := (PhiV_some V c t.val (Nat.le_of_lt t.isLt)) $$ HΦ
    icases HΦ' with ⟨HS, HO, Hg⟩
    iapply ((runFirst c (grid1.coords t) (mAll t) (hAll t) (mCtr t) (hCtr t) (mEdge t) (hEdge t) (mOut t) (hOut t) (mSum t) (hSum t) (mSq t) (hSq t) mDeg hDeg hf hl (iblk V c 0 t) (iblk V c 1 t) (iblk V c 2 t)).2.2 _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [HS]; · iexact HS
    iintro ⟨H0, H1, H2, ⟨%g3, H3⟩, H4, H5, ⟨%gs, HS⟩⟩
    isplitl [HS HO Hg]
    · isplitl [HS]
      · unfold owns; iexists _; isplitr
        swap; · iexact HS
        ipureintro; exact first_deg c (grid1.coords t) (mAll t) (hAll t) (mCtr t) (hCtr t) (mEdge t) (hEdge t) (mOut t) (hOut t) (mSum t) (hSum t) (mSq t) (hSq t) mDeg hDeg hf hl (iblk V c 0 t) (iblk V c 1 t) (iblk V c 2 t) _ _
      isplitl [HO]; · iexact HO
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact first_out c (grid1.coords t) (mAll t) (hAll t) (mCtr t) (hCtr t) (mEdge t) (hEdge t) (mOut t) (hOut t) (mSum t) (hSum t) (mSq t) (hSq t) mDeg hDeg hf hl (iblk V c 0 t) (iblk V c 1 t) (iblk V c 2 t) _ _
    isplitl [H4]; · iexists _; iexact H4
    iexists _; iexact H5
  · have hz : t.val ≠ 0 := fun h => hfirst (by rw [h])
    have hf : ¬ isFirst (grid1.coords t) := fun h => hfirst ((isFirst_iff t).mp h)
    rw [PhiV_pos V c _ _ hz]
    simp only [before_3_next V c t hfirst]
    by_cases hlast : t.val % 32 = 31
    · -- the last tile
      have hl : isLast (grid1.coords t) := (isLast_iff t).mpr hlast
      rw [show (dat V c).leavesExact 4 t = owns (c : Thread nD τ) (st1_4 t) fullShare ((dat V c).after 4 t) from by
          unfold Dat.leavesExact; rw [live_4 t hlast],
        show (dat V c).leavesExact 5 t = owns (c : Thread nD τ) (st1_5 t) fullShare ((dat V c).after 5 t) from by
          unfold Dat.leavesExact; rw [live_5 t hlast],
        after_4, after_5]
      unfold outAfter sumAfter sqAfter; rw [if_pos hlast, stAt_next V c t hfirst]; unfold step; dsimp only
      iintro ⟨⟨HS, HO, Hg⟩, Ho, ⟨%d0, H0⟩, ⟨%d1, H1⟩, ⟨%d2, H2⟩, ⟨%d3, H3⟩, ⟨%d4, H4⟩, ⟨%d5, H5⟩⟩
      iapply ((runLast c (grid1.coords t) (mAll t) (hAll t) (mCtr t) (hCtr t) (mEdge t) (hEdge t) (mOut t) (hOut t) (mSum t) (hSum t) (mSq t) (hSq t) mDeg hDeg hf hl (iblk V c 0 t) (iblk V c 1 t) (iblk V c 2 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, ⟨%g3, H3⟩, ⟨%g4, H4⟩, ⟨%g5, H5⟩, ⟨%gs, HS⟩⟩
      isplitl [HS HO Hg]
      · isplitl [HS]
        · unfold owns; iexists _; isplitr
          swap; · iexact HS
          ipureintro; exact last_deg c (grid1.coords t) (mAll t) (hAll t) (mCtr t) (hCtr t) (mEdge t) (hEdge t) (mOut t) (hOut t) (mSum t) (hSum t) (mSq t) (hSq t) mDeg hDeg hf hl (iblk V c 0 t) (iblk V c 1 t) (iblk V c 2 t) _ _ _ _
        isplitl [HO]; · iexact HO
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact last_out c (grid1.coords t) (mAll t) (hAll t) (mCtr t) (hCtr t) (mEdge t) (hEdge t) (mOut t) (hOut t) (mSum t) (hSum t) (mSq t) (hSq t) mDeg hDeg hf hl (iblk V c 0 t) (iblk V c 1 t) (iblk V c 2 t) _ _ _ _
      isplitl [H4]
      · unfold owns; iexists _; isplitr
        swap; · iexact H4
        ipureintro; exact last_sum c (grid1.coords t) (mAll t) (hAll t) (mCtr t) (hCtr t) (mEdge t) (hEdge t) (mOut t) (hOut t) (mSum t) (hSum t) (mSq t) (hSq t) mDeg hDeg hf hl (iblk V c 0 t) (iblk V c 1 t) (iblk V c 2 t) _ _ _ _
      unfold owns; iexists _; isplitr
      swap; · iexact H5
      ipureintro; exact last_sq c (grid1.coords t) (mAll t) (hAll t) (mCtr t) (hCtr t) (mEdge t) (hEdge t) (mOut t) (hOut t) (mSum t) (hSum t) (mSq t) (hSq t) mDeg hDeg hf hl (iblk V c 0 t) (iblk V c 1 t) (iblk V c 2 t) _ _ _ _
    · -- an inner tile
      have hl : ¬ isLast (grid1.coords t) := fun h => hlast ((isLast_iff t).mp h)
      rw [Dat.leavesExact_idle (dat V c) 4 t (idle_4 t hlast) (noFlush_4 t hlast), Dat.leavesExact_idle (dat V c) 5 t (idle_5 t hlast) (noFlush_5 t hlast)]
      unfold outAfter; rw [if_neg hlast, stAt_next V c t hfirst]; unfold step; dsimp only
      iintro ⟨⟨HS, HO, Hg⟩, Ho, ⟨%d0, H0⟩, ⟨%d1, H1⟩, ⟨%d2, H2⟩, ⟨%d3, H3⟩, ⟨%d4, H4⟩, ⟨%d5, H5⟩⟩
      iapply ((runMid c (grid1.coords t) (mAll t) (hAll t) (mCtr t) (hCtr t) (mEdge t) (hEdge t) (mOut t) (hOut t) (mSum t) (hSum t) (mSq t) (hSq t) mDeg hDeg hf hl (iblk V c 0 t) (iblk V c 1 t) (iblk V c 2 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, ⟨%g3, H3⟩, H4, H5, ⟨%gs, HS⟩⟩
      isplitl [HS HO Hg]
      · isplitl [HS]
        · unfold owns; iexists _; isplitr
          swap; · iexact HS
          ipureintro; exact mid_deg c (grid1.coords t) (mAll t) (hAll t) (mCtr t) (hCtr t) (mEdge t) (hEdge t) (mOut t) (hOut t) (mSum t) (hSum t) (mSq t) (hSq t) mDeg hDeg hf hl (iblk V c 0 t) (iblk V c 1 t) (iblk V c 2 t) _ _ _ _
        isplitl [HO]; · iexact HO
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact mid_out c (grid1.coords t) (mAll t) (hAll t) (mCtr t) (hCtr t) (mEdge t) (hEdge t) (mOut t) (hOut t) (mSum t) (hSum t) (mSq t) (hSq t) mDeg hDeg hf hl (iblk V c 0 t) (iblk V c 1 t) (iblk V c 2 t) _ _ _ _
      isplitl [H4]; · iexists _; iexact H4
      iexists _; iexact H5

/-- The library's body obligation, at every point. -/
theorem body_obligation (c : Dev nD) : BodyObligation (dat (F := F) V c) (defs₀ (F := F)) Variants.none () Set.univ := fun t => by
  rw [bigSep_W1, bigSep_W1]
  exact sound_body V c t

/-! ## The invariant at the region's two ends -/

theorem Phi_first (c : Dev nD) : (dat V c).Φ 0 = Pipeline.ΦA spec1 c := rfl

/-- After the last point the invariant gives the class's back: the degree column's contents are forgotten. -/
theorem Phi_last (c : Dev nD) : (dat V c).Φ (Fin.last cfg1.N) ⊢ Pipeline.ΦA spec1 c := by
  rw [show (dat V c).Φ (Fin.last cfg1.N) = PhiV V c (Fin.last cfg1.N).val (Nat.le_of_lt_succ (Fin.last cfg1.N).isLt) from rfl]
  refine (PhiV_some V c _ _).trans ?_
  unfold Pipeline.ΦA; rw [scopedRest_split]
  iintro ⟨HS, HO, Hg⟩
  isplitl [HS HO]
  · isplitl [HS]; · iexact HS
    iexact HO
  iexact Hg

end Cert.KernelIdeal.Vertex

end
-- ==== Proof.VertexRegion.lean ====
/-
  The vertex region's arrays at its two ends. The region reads two distinct buffers — the feature rows (through two
  windows: all 4096 rows of a batch, and one tile of 128) and the edge pass's result — and writes three: the
  aggregated vertex features and the two per-batch channel statistics. At entry the core's unscoped buffers are
  split into these six windows' arrays (the feature rows' buffer dealt in two halves of its share, one per window)
  and the rest; at exit the halves are joined again, the inputs are as they were, and each output buffer holds what
  the region's write-backs left in it.
-/
import proofs.«147048_j80771154968988_2_alg».proof.Proof.VertexData
import Idealize.ShloMosaic.Lib.Pipeline.Kit
import Idealize.ShloMosaic.Lib.Pipeline.Regions

set_option maxRecDepth 16384

noncomputable section

namespace Cert.KernelIdeal.Vertex

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the region's six windows, one by one. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec1 c W : sProp 𝕄)
      = iprop((((c.tc : Thread nD τ).loc main_v1) ↦{fullShare} W main_v1) ∗ (((c.tc : Thread nD τ).loc main_v3) ↦{fullShare} W main_v3)
          ∗ (((c.tc : Thread nD τ).loc main_v4_0) ↦{fullShare} W main_v4_0) ∗ (((c.tc : Thread nD τ).loc main_v4_1) ↦{fullShare} W main_v4_1)
          ∗ (((c.tc : Thread nD τ).loc main_v4_2) ↦{fullShare} W main_v4_2)) := by
  unfold Pipeline.arrBufs
  rw [BI.bigSep_eq_bigSepL_of_eq [main_v1, main_v3, main_v4_0, main_v4_1, main_v4_2] (by decide) (by decide)]
  rfl

/-- The proof data's arrays, window by window, each whole at its share. -/
theorem arrays_eq (c : Dev nD) (G : (w : Fin cfg1.W) → Buf (Elt F) ((cfg1.win w).arr.view.loc (c.tc : Thread nD τ))) :
    ((dat V c).arrays G : sProp 𝕄)
      = iprop((((c.tc : Thread nD τ).loc main_v1) ↦{fullShare.left} G 0) ∗ (((c.tc : Thread nD τ).loc main_v1) ↦{fullShare.right} G 1)
          ∗ (((c.tc : Thread nD τ).loc main_v3) ↦{fullShare} G 2) ∗ (((c.tc : Thread nD τ).loc main_v4_0) ↦{fullShare} G 3)
          ∗ (((c.tc : Thread nD τ).loc main_v4_1) ↦{fullShare} G 4) ∗ (((c.tc : Thread nD τ).loc main_v4_2) ↦{fullShare} G 5)) := by
  unfold Dat.arrays
  rw [bigSep_W1]
  rw [(arr_whole1 0).set_eq_univ, (arr_whole1 2).set_eq_univ, (arr_whole1 3).set_eq_univ, (arr_whole1 4).set_eq_univ, (arr_whole1 5).set_eq_univ]
  rfl

/-- ENTRY. The core's unscoped buffers at the region-entry contents are the six windows' arrays at those contents
    (the feature rows' buffer in two halves) and the unscoped buffers no window stages. -/
theorem entry_arrays (c : Dev nD) :
    (unscopedBufs c (V c) : sProp 𝕄) ⊢ iprop((dat V c).arrays ((dat V c).arrAt · 0)
      ∗ Pipeline.unscopedRest (Ix := Unit) (Name := ℕ) (U := UR sig nD τ) (Lvl := ℕ) spec1 c (V c)) := by
  rw [Pipeline.unscopedBufs_split₀ (Ix := Unit) (Name := ℕ) (U := UR sig nD τ) (Lvl := ℕ) cfgs (1 : Fin 2) winFacts₀1.arr_unscoped c (V c)]
  show iprop(Pipeline.arrBufs spec1 c (V c) ∗ Pipeline.unscopedRest spec1 c (V c)) ⊢ _
  rw [arrBufs_eq, arrays_eq]
  have hhalves : ((((c.tc : Thread nD τ).loc main_v1) ↦{fullShare} V c main_v1) : sProp 𝕄)
      ⊢ iprop((((c.tc : Thread nD τ).loc main_v1) ↦{fullShare.left} V c main_v1) ∗ (((c.tc : Thread nD τ).loc main_v1) ↦{fullShare.right} V c main_v1)) :=
    (pointsTo_share (PosShare.mem_left_op_right fullShare)).1
  show _ ⊢ iprop((((((c.tc : Thread nD τ).loc main_v1) ↦{fullShare.left} V c main_v1) ∗ (((c.tc : Thread nD τ).loc main_v1) ↦{fullShare.right} V c main_v1)
      ∗ (((c.tc : Thread nD τ).loc main_v3) ↦{fullShare} V c main_v3) ∗ (((c.tc : Thread nD τ).loc main_v4_0) ↦{fullShare} V c main_v4_0)
      ∗ (((c.tc : Thread nD τ).loc main_v4_1) ↦{fullShare} V c main_v4_1) ∗ (((c.tc : Thread nD τ).loc main_v4_2) ↦{fullShare} V c main_v4_2)) : sProp 𝕄) ∗ _)
  iintro ⟨⟨Hx, He, Ho, Hs, Hq⟩, Hrest⟩
  ihave Hx' := hhalves $$ Hx
  icases Hx' with ⟨Hxl, Hxr⟩
  isplitr [Hrest]
  · isplitl [Hxl]; · iexact Hxl
    isplitl [Hxr]; · iexact Hxr
    isplitl [He]; · iexact He
    isplitl [Ho]; · iexact Ho
    isplitl [Hs]; · iexact Hs
    iexact Hq
  iexact Hrest

/-- EXIT. The six arrays after the region's write-backs, beside the unscoped buffers no window stages, are the core's
    unscoped buffers at any contents `W` that keep every buffer but the three outputs' as the region found it and hold,
    in each output's, what the write-backs left there. -/
theorem exit_arrays (c : Dev nD) (W : (b : Ref sig .tc) → Buf (Elt F) ((c.tc : Thread nD τ).loc b))
    (h0 : W main_v4_0 = (dat V c).arrAt 3 cfg1.N) (h1 : W main_v4_1 = (dat V c).arrAt 4 cfg1.N) (h2 : W main_v4_2 = (dat V c).arrAt 5 cfg1.N)
    (hrest : ∀ b : Ref sig .tc, b ≠ main_v4_0 → b ≠ main_v4_1 → b ≠ main_v4_2 → W b = V c b) :
    iprop((dat V c).arrays ((dat V c).arrAt · cfg1.N)
      ∗ Pipeline.unscopedRest (Ix := Unit) (Name := ℕ) (U := UR sig nD τ) (Lvl := ℕ) spec1 c (V c)) ⊢ (unscopedBufs c W : sProp 𝕄) := by
  rw [Pipeline.unscopedBufs_split₀ (Ix := Unit) (Name := ℕ) (U := UR sig nD τ) (Lvl := ℕ) cfgs (1 : Fin 2) winFacts₀1.arr_unscoped c W]
  show _ ⊢ iprop(Pipeline.arrBufs spec1 c W ∗ Pipeline.unscopedRest spec1 c W)
  rw [arrBufs_eq, arrays_eq]
  rw [(dat V c).arrAt_in 0 rfl, (dat V c).arrAt_in 1 rfl, (dat V c).arrAt_in 2 rfl, ← h0, ← h1, ← h2,
    hrest main_v1 (by decide) (by decide) (by decide), hrest main_v3 (by decide) (by decide) (by decide)]
  have hR : (Pipeline.unscopedRest (Ix := Unit) (Name := ℕ) (U := UR sig nD τ) (Lvl := ℕ) spec1 c W : sProp 𝕄)
      = Pipeline.unscopedRest (Ix := Unit) (Name := ℕ) (U := UR sig nD τ) (Lvl := ℕ) spec1 c (V c) := by
    unfold Pipeline.unscopedRest
    refine bigSep_congr fun b hb => ?_
    rw [hrest b (fun h => (Finset.mem_sdiff.mp hb).2 (h ▸ Finset.mem_image.mpr ⟨3, Finset.mem_univ _, rfl⟩))
      (fun h => (Finset.mem_sdiff.mp hb).2 (h ▸ Finset.mem_image.mpr ⟨4, Finset.mem_univ _, rfl⟩))
      (fun h => (Finset.mem_sdiff.mp hb).2 (h ▸ Finset.mem_image.mpr ⟨5, Finset.mem_univ _, rfl⟩))]
  rw [hR]
  have hjoin : (iprop((((c.tc : Thread nD τ).loc main_v1) ↦{fullShare.left} V c main_v1) ∗ (((c.tc : Thread nD τ).loc main_v1) ↦{fullShare.right} V c main_v1)) : sProp 𝕄)
      ⊢ (((c.tc : Thread nD τ).loc main_v1) ↦{fullShare} V c main_v1) :=
    (pointsTo_share (PosShare.mem_left_op_right fullShare)).2
  iintro ⟨⟨Hxl, Hxr, He, Ho, Hs, Hq⟩, Hrest⟩
  isplitr [Hrest]
  · isplitl [Hxl Hxr]
    · iapply hjoin
      isplitl [Hxl]; · iexact Hxl
      iexact Hxr
    isplitl [He]; · iexact He
    isplitl [Ho]; · iexact Ho
    isplitl [Hs]; · iexact Hs
    iexact Hq
  iexact Hrest

end Cert.KernelIdeal.Vertex

end
-- ==== Proof.KernelRun.lean ====
/-
  The whole program: @main is a short host prefix (reshape and transpose of the feature map, the bias as a row), the
  edge region, the vertex region, and a host suffix (batch statistics, normalisation, the gated output). The two
  regions are run by the pipeline library as segments of @main; between two items each core holds every unscoped
  buffer whole at named contents beside its generator register and the fact that it owes no other core anything.
  What the regions leave in their output buffers is what their proof data computes (`arrAt`), so the final memory is
  the host suffix applied to those.
-/
import proofs.«147048_j80771154968988_2_alg».proof.Proof.EdgeRegion
import proofs.«147048_j80771154968988_2_alg».proof.Proof.VertexRegion
import proofs.«147048_j80771154968988_2_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- What the edge region finds: the launch contents after the host prefix. -/
abbrev In0 (c : Dev nD) (b : Ref sig .tc) : Buf (Elt F) ((c : Thread nD τ).loc b) := Gen.V1 m c b
/-- What the edge region leaves in its output buffer. -/
abbrev edgeOut (c : Dev nD) : Buf (Elt F) ((c : Thread nD τ).loc main_v3) := (Edge.dat (In0 m) c).arrAt 4 cfg0.N
/-- The contents after the edge region. -/
abbrev Mid (c : Dev nD) : Valuation τ sig (Elt F) := Function.update (Gen.V1 m c) main_v3 (edgeOut m c)
/-- What the vertex region finds. -/
abbrev In1 (c : Dev nD) (b : Ref sig .tc) : Buf (Elt F) ((c : Thread nD τ).loc b) := Mid m c b
/-- What the vertex region leaves in its three output buffers. -/
abbrev vertOut (c : Dev nD) : Buf (Elt F) ((c : Thread nD τ).loc main_v4_0) := (Vertex.dat (In1 m) c).arrAt 3 cfg1.N
abbrev vertSum (c : Dev nD) : Buf (Elt F) ((c : Thread nD τ).loc main_v4_1) := (Vertex.dat (In1 m) c).arrAt 4 cfg1.N
abbrev vertSq (c : Dev nD) : Buf (Elt F) ((c : Thread nD τ).loc main_v4_2) := (Vertex.dat (In1 m) c).arrAt 5 cfg1.N

/-- The regions' outputs as the family the generated valuations are written over. -/
def outs : Gen.Outs (F := F) := fun _ r c =>
  if h : r = main_v3 then h ▸ edgeOut m c
  else if h : r = main_v4_0 then h ▸ vertOut m c
  else if h : r = main_v4_1 then h ▸ vertSum m c
  else if h : r = main_v4_2 then h ▸ vertSq m c
  else m ((c : Thread nD τ).loc r)

theorem outs_v3 (J : ℕ) (c : Dev nD) : outs m J main_v3 c = edgeOut m c := by unfold outs; rw [dif_pos rfl]
theorem outs_v4_0 (J : ℕ) (c : Dev nD) : outs m J main_v4_0 c = vertOut m c := by
  unfold outs; rw [dif_neg (by decide), dif_pos rfl]
theorem outs_v4_1 (J : ℕ) (c : Dev nD) : outs m J main_v4_1 c = vertSum m c := by
  unfold outs; rw [dif_neg (by decide), dif_neg (by decide), dif_pos rfl]
theorem outs_v4_2 (J : ℕ) (c : Dev nD) : outs m J main_v4_2 c = vertSq m c := by
  unfold outs; rw [dif_neg (by decide), dif_neg (by decide), dif_neg (by decide), dif_pos rfl]

theorem V2_eq (c : Dev nD) : Gen.V2 m (outs m) c = Mid m c := by
  unfold Gen.V2 Mid; rw [outs_v3]

/-! ## The proof data family, and what rides beside the buffers -/

/-- Every pipeline's proof data, each at its region's entry contents. -/
def pdats : (p : Fin 2) → (c : Dev nD) → Dat τ (Elt F) Unit ℕ (UR sig nD τ) ℕ (cfgs p) c
  | ⟨0, _⟩ => fun c => Edge.dat (In0 m) c
  | ⟨1, _⟩ => fun c => Vertex.dat (In1 m) c

abbrev L : GSem nD τ sig → Finset Unit := fun _ => ∅
abbrev lv : GSem nD τ sig → Unit → ℕ := fun _ _ => 0

/-- Beside the buffers: the core's generator register at some state, and that it owes nothing. -/
abbrev Rest (c : Dev nD) : sProp 𝕄 := iprop((∃ r, prngReg c r) ∗ ∃ W, owes (c : Thread nD τ) (0 : CellTallies nD τ sig Unit) W)

/-! ## The edge region as a segment -/

set_option backward.isDefEq.respectTransparency.types false in
def reg0 : Pipeline.RegionSeg (pcfgs (F := F)) Gen.adm (pdats m) () defs₀ Variants.none L lv 0 where
  win := winFacts₀0
  block_pos := block_pos0
  stage_whole := stage_whole0
  K := PEmpty
  osem k := k.elim
  ho := Pipeline.OwnSemFacts.none _
  hbody c := (Edge.body_obligation (In0 m) c).loose
  hwaits := Pipeline.hwaits_of_owed_zero _ _ _ _ L lv 0 fun _ _ => rfl
  pre c := iprop(StableHlo.held (c : Thread nD τ) (Pipeline.ucRefs τ sig) (Gen.V1 m c) ∗ Rest c)
  post c := iprop(StableHlo.held (c : Thread nD τ) (Pipeline.ucRefs τ sig) (Gen.V2 m (outs m) c) ∗ Rest c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit := Edge.entry_arrays (In0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Edge.Phi_last (In0 m) c).trans ?_
    unfold Pipeline.ΦA
    iintro ⟨Hr, Hp⟩
    isplitl [Hp]; · iexact Hp
    isplitr; · iempintro
    iexact Hr
  hexit c := by
    have hjoin := Edge.exit_arrays (In0 m) c (fun b => Gen.V2 m (outs m) c b)
      (by show Gen.V2 m (outs m) c main_v3 = _; rw [V2_eq]; exact Function.update_self ..)
      (fun b hb => by
        show Gen.V2 m (outs m) c b = Gen.V1 m c b
        rw [V2_eq]; exact Function.update_of_ne (StableHlo.devRef_ne_of_ne hb) ..)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The vertex region as a segment -/

theorem V3_v4_0 (c : Dev nD) : Gen.V3 m (outs m) c main_v4_0 = vertOut m c := by
  unfold Gen.V3
  rw [Function.update_of_ne (StableHlo.devRef_ne_of_ne (by decide : main_v4_0 ≠ main_v4_2)),
    Function.update_of_ne (StableHlo.devRef_ne_of_ne (by decide : main_v4_0 ≠ main_v4_1)), Function.update_self, outs_v4_0]
theorem V3_v4_1 (c : Dev nD) : Gen.V3 m (outs m) c main_v4_1 = vertSum m c := by
  unfold Gen.V3
  rw [Function.update_of_ne (StableHlo.devRef_ne_of_ne (by decide : main_v4_1 ≠ main_v4_2)), Function.update_self, outs_v4_1]
theorem V3_v4_2 (c : Dev nD) : Gen.V3 m (outs m) c main_v4_2 = vertSq m c := by
  unfold Gen.V3
  rw [Function.update_self, outs_v4_2]

set_option backward.isDefEq.respectTransparency.types false in
def reg1 : Pipeline.RegionSeg (pcfgs (F := F)) Gen.adm (pdats m) () defs₀ Variants.none L lv 1 where
  win := winFacts₀1
  block_pos := block_pos1
  stage_whole := stage_whole1
  K := PEmpty
  osem k := k.elim
  ho := Pipeline.OwnSemFacts.none _
  hbody c := (Vertex.body_obligation (In1 m) c).loose
  hwaits := Pipeline.hwaits_of_owed_zero _ _ _ _ L lv 1 fun _ _ => rfl
  pre c := iprop(StableHlo.held (c : Thread nD τ) (Pipeline.ucRefs τ sig) (Gen.V2 m (outs m) c) ∗ Rest c)
  post c := iprop(StableHlo.held (c : Thread nD τ) (Pipeline.ucRefs τ sig) (Gen.V3 m (outs m) c) ∗ Rest c)
  X c := iprop(∃ r, prngReg c r)
  Y c := iprop(∃ r, prngReg c r)
  Z c := Pipeline.unscopedRest (Ix := Unit) (Name := ℕ) (U := UR sig nD τ) (Lvl := ℕ) spec1 c (In1 m c)
  hentry c := by
    rw [Pipeline.ownSems0_none, V2_eq]
    have hsplit := Vertex.entry_arrays (In1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Vertex.Phi_last (In1 m) c).trans ?_
    unfold Pipeline.ΦA
    iintro ⟨Hr, Hp⟩
    isplitl [Hp]; · iexact Hp
    isplitr; · iempintro
    iexact Hr
  hexit c := by
    have hjoin := Vertex.exit_arrays (In1 m) c (fun b => Gen.V3 m (outs m) c b)
      (V3_v4_0 m c) (V3_v4_1 m c) (V3_v4_2 m c)
      (fun b h0 h1 h2 => by
        show Gen.V3 m (outs m) c b = Mid m c b
        rw [Gen.V3_of m (outs m) c b (by simp only [List.mem_cons, List.not_mem_nil, or_false]; exact fun h => h.elim h0 (fun h => h.elim h1 h2)), V2_eq])
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main's run -/

/-- The rest states between the four items: the same on every core at every boundary. -/
abbrev Es : Fin 3 → Dev nD → sProp 𝕄 := fun _ c => Rest c

set_option backward.isDefEq.respectTransparency.types false in
/-- Every weakly fair execution of @main from memory `m` with zero counters terminates, and in every final memory each
    core's unscoped buffers hold the last boundary's contents: the launch contents through the host prefix, the two
    regions' outputs at what their proof data computes, and the host suffix over those. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V4 m (outs m) c b) := by
  refine Pipeline.θ_run_regions_kit_dev (pcfgs (F := F)) Gen.adm (pdats m) () cellOf_inj emb₁ defs₀ Variants.none L lv m ρ main
    (Gen.segs m (outs m) Variants.none L lv (Es (F := F)) () (pdats m) (reg0 m) (reg1 m))
    (fun c Q => by
      rewrite [main_chain c, Pipeline.Seg.run_eq_chain,
        show (Gen.segs m (outs m) Variants.none L lv (Es (F := F)) () (pdats m) (reg0 m) (reg1 m) c).map Pipeline.Seg.prog = [
          StableHlo.seq hostOps0,
          Prog.lift (.customCall (Pipeline.entry 0) ()),
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rest c))
    (Tₙ := fun c => StableHlo.held (c : Thread nD τ) (Pipeline.ucRefs τ sig) (Gen.V4 m (outs m) c))
    (hch := fun c => ⟨.rfl, .rfl, .rfl, .rfl, sep_mono .rfl (by iintro ⟨-, HO⟩; iexact HO)⟩)
    (hinit := ?_)
    (QY := fun c s => ∀ b ∈ Pipeline.ucRefs τ sig, s.mem (((c : Thread nD τ)).1, b) = Gen.V4 m (outs m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    imodintro
    iapply (pointsTo_read_all (Pipeline.ucRefs τ sig) (fun b => (((c : Thread nD τ)).1, b)) (Gen.V4 m (outs m) c) s')
    isplitl [Hh] <;> iassumption

/-! ## The frame -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every argument array ends as launched: no host operation and no region writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (Gen.V4_main_arg0 m (outs m) c),
     (h c _ (mem_uc main_arg1 (by decide))).trans (Gen.V4_main_arg1 m (outs m) c),
     (h c _ (mem_uc main_arg2 (by decide))).trans (Gen.V4_main_arg2 m (outs m) c),
     (h c _ (mem_uc main_arg3 (by decide))).trans (Gen.V4_main_arg3 m (outs m) c),
     (h c _ (mem_uc main_arg4 (by decide))).trans (Gen.V4_main_arg4 m (outs m) c)⟩) (run_all m ρ)

/-- The result array ends at the last boundary's contents, beside the unchanged arguments. -/
theorem run_result : θ_run defs (onTc (τ := τ) (main (F := F))) ⟨m, fun _ => 0, ρ⟩ (fun r => ∀ c : Dev nD,
      r.2.mem ((c.tc : Thread nD τ).loc main_v38) = Gen.V4 m (outs m) c main_v38
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v38 (by decide)),
     (h c _ (mem_uc main_arg0 (by decide))).trans (Gen.V4_main_arg0 m (outs m) c),
     (h c _ (mem_uc main_arg1 (by decide))).trans (Gen.V4_main_arg1 m (outs m) c),
     (h c _ (mem_uc main_arg2 (by decide))).trans (Gen.V4_main_arg2 m (outs m) c),
     (h c _ (mem_uc main_arg3 (by decide))).trans (Gen.V4_main_arg3 m (outs m) c),
     (h c _ (mem_uc main_arg4 (by decide))).trans (Gen.V4_main_arg4 m (outs m) c)⟩) (run_all m ρ)

end Cert.KernelIdeal.Run

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibRowStat.lean ====
/-
  Rows of a rank-2 array: the keepdims layouts of a row statistic, read at an index written by coordinates.

  A statistic of each row of an [a, b] array (a sum over the b lanes) is an [a] vector; to be combined with the array again it
  is cast to an [a, 1] column and the column is broadcast back over the b lanes. Each of these reads its operand at the row
  coordinate alone; the lane sum ranges over the lane coordinate.
-/
import Idealize.ShloMosaic.PureOps.Ideal.Laws
import Idealize.ShloMosaic.Lib.ValueIdx
import Idealize.ShloMosaic.Lib.Pipeline.Value

namespace Cert.LibRowStat

open Idealize.ShloMosaic Idealize.ShloMosaic.ValueIdx

variable {α : Type}

/-- An `[a, 1]` column broadcast to `[a, b]` reads, at `(p, q)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => exact (if_pos rfl).symm

/-- The sum of an `[a, b]` array over its lanes reads, at row `p`, the sum over `k` of the array at `(p, k)`. At the ideal
    values. -/
theorem sum_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext
      (match ax with | ⟨0, _⟩ => rfl | ⟨1, _⟩ => rfl)))

end Cert.LibRowStat
-- ==== Proof.LibKeepdims.lean ====
/-
  Keepdims layouts and single-axis sums of rank-3 arrays, read at an index written by coordinates.

  A sum over one axis that keeps the axis as a unit axis is, in a kernel, a lane or sublane reduction followed by a
  shape cast that appends or inserts the unit axis, and its consumer broadcasts the unit axis back. Each of these
  operations reads its operand at an index whose coordinates are those of the result index with the unit coordinate
  dropped, added or set to zero; the sums range over the coordinates of the reduced axis.
-/
import Idealize.ShloMosaic.PureOps.Ideal.Laws
import Idealize.ShloMosaic.Lib.ValueIdx
import Idealize.ShloMosaic.Lib.ValueLayout
import Idealize.ShloMosaic.Lib.Pipeline.Value

namespace Cert.LibKeepdims

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => exact (if_pos rfl).symm

/-- A `[1, 1, b]` array broadcast to `[1, a, b]` reads, at `(u, i, r)`, the operand's one row at `r`. -/
theorem broadcastTo_11b_1ab_apply {a b : ℕ} (v : (⟨3, ![1, 1, b]⟩ : Shape).Idx → α)
    (h : (⟨3, ![1, 1, b]⟩ : Shape).Broadcasts ⟨3, ![1, a, b]⟩) (u : Fin 1) (i : Fin a) (r : Fin b) :
    broadcastTo ⟨3, ![1, a, b]⟩ v h (ix3 u i r) = v (ix3 (0 : Fin 1) (0 : Fin 1) r) := by
  refine broadcastTo_apply v h (ix3 u i r) (ix3 (0 : Fin 1) (0 : Fin 1) r) fun ax => ?_
  match ax with
  | ⟨0, _⟩ => exact (if_pos rfl).symm
  | ⟨1, _⟩ => exact (if_pos rfl).symm
  | ⟨2, _⟩ =>
    show r.val = if b = 1 then 0 else r.val
    split
    · have := r.isLt; omega
    · rfl

/-- The sum of an `[a, b, c]` array over its last axis reads, at `(i, j)`, the sum over `k` of the operand at
    `(i, j, k)`. At the ideal values. -/
theorem sum_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext
      (match ax with | ⟨0, _⟩ => rfl | ⟨1, _⟩ => rfl | ⟨2, _⟩ => rfl)))

/-- The sum of an `[a, b, c]` array over its middle axis reads, at `(i, r)`, the sum over `k` of the operand at
    `(i, k, r)`. At the ideal values. -/
theorem sum_middle_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (r : Fin c) :
    multiReduction .add [1] ⟨2, ![a, c]⟩ src acc h hφ hacc (ix2 i r) = ∑ k : Fin b, src (ix3 i k r) :=
  (Ideal.multiReduction_add_single src acc h hφ hacc (ix2 i r)).trans
    (Finset.sum_congr rfl fun k _ => congrArg src (funext fun ax => Fin.ext
      (match ax with | ⟨0, _⟩ => rfl | ⟨1, _⟩ => rfl | ⟨2, _⟩ => rfl)))

end Cert.LibKeepdims
-- ==== Proof.LibPairwiseTile.lean ====
/-
  The incidence block of a thresholded pairwise squared distance, read at an index, at the ideal values.

  For a block of `a` row vectors v(p, ·) and a tile of `b` column vectors u(q, ·), both of `k` features, the squared
  distance is spelt |v_p|² + |u_q|² − 2·⟨v_p, u_q⟩: the row norms as a lane sum kept as an [a, 1] column and broadcast
  along the tile, the tile's norms as a lane sum kept as a [b, 1] column, transposed to a [1, b] row and broadcast down
  the rows, the cross term as a plain matrix product of v with the transposed tile. Each of the three reads, at (p, q),
  a sum over the feature coordinate alone.
-/
import proofs.«147048_j80771154968988_2_alg».proof.Proof.LibMatmulPlain
import proofs.«147048_j80771154968988_2_alg».proof.Proof.LibRowStat
import proofs.«147048_j80771154968988_2_alg».proof.Proof.LibKeepdims
import Idealize.ShloMosaic.Lib.ValueLayout

namespace Cert.LibPairwiseTile

open Idealize.ShloMosaic Idealize.ShloMosaic.ValueIdx

variable {a b k : ℕ}

/-- The squared norms of the rows, kept as a column and broadcast along the tile: at (p, q) the squared norm of row p. -/
theorem rowNorm_apply (v : FVec Ideal ⟨2, ![a, k]⟩ .f32) (acc : BitVec 32)
    (hr : (⟨2, ![a, k]⟩ : Shape).Reduces [1] ⟨1, ![a]⟩) (hφ : FKind.Formats .f32) (hacc : acc = FKind.add.neutral .f32 hφ)
    (hs : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ (multiReduction .add [1] ⟨1, ![a]⟩ (mulf v v) acc hr hφ hacc) hs) hb (ix2 p q)
      = ∑ c : Fin k, v (ix2 p c) * v (ix2 p c) := by
  rw [LibRowStat.broadcastTo_a1_ab_apply, LibKeepdims.shapeCast_a_a1_apply, LibRowStat.sum_lanes_apply]
  rfl

/-- The squared norms of the tile's vectors, kept as a column, transposed to a row and broadcast down the rows: at (p, q)
    the squared norm of the tile's vector q. -/
theorem colNorm_apply (u : FVec Ideal ⟨2, ![b, k]⟩ .f32) (acc : BitVec 32)
    (hr : (⟨2, ![b, k]⟩ : Shape).Reduces [1] ⟨1, ![b]⟩) (hφ : FKind.Formats .f32) (hacc : acc = FKind.add.neutral .f32 hφ)
    (hs : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ (multiReduction .add [1] ⟨1, ![b]⟩ (mulf u u) acc hr hφ hacc) hs) ht) hb (ix2 p q)
      = ∑ c : Fin k, u (ix2 q c) * u (ix2 q c) := by
  rw [broadcastTo_1b_ab_apply, transpose_ix2_apply, LibKeepdims.shapeCast_a_a1_apply, LibRowStat.sum_lanes_apply]
  rfl

/-- The cross term: the rows times the transposed tile, into the zero accumulator: at (p, q) the inner product of row p
    with the tile's vector q. -/
theorem cross_apply {φ₁ φ₂ : FTy} (prec : Option ContractPrecision) (v : FVec Ideal ⟨2, ![a, k]⟩ φ₁) (u : FVec Ideal ⟨2, ![b, k]⟩ φ₂)
    (ht : (⟨2, ![b, k]⟩ : Shape).Transposes [1, 0] ⟨2, ![k, b]⟩) (p : Fin a) (q : Fin b) :
    matmul (DotDims.plain a k b) prec v (transpose ⟨2, ![k, b]⟩ [1, 0] u ht) (constant (F := Ideal) ⟨2, ![a, b]⟩ .f32 0x00000000#32) (ix2 p q)
      = ∑ c : Fin k, v (ix2 p c) * u (ix2 q c) := by
  rw [LibMatmulPlain.matmul_plain_zero_apply]
  exact Finset.sum_congr rfl fun c _ => by rw [transpose_ix2_apply]

end Cert.LibPairwiseTile
-- ==== Proof.EdgeValue.lean ====
/-
  The edge kernel's one-point arithmetic read at an index, at the ideal values.
  With r_p the feature row p of the batch and s_q the feature row q of the tile:
    incidence(p, q)  = 1 when |r_p|² + |s_q|² − 2⟨r_p, s_q⟩ < 256, else 0;
    degrees'(p)      = degrees(p) + Σ_q incidence(p, q);
    sums'(p, d)      = sums(p, d) + Σ_q incidence(p, q) · ((Σ_c s_q(c) · W(d, c)) + bias(d));
    scaled(p, d)     = sums(p, d) · (1 / degrees(p) when degrees(p) > 0, else 0).
-/
import proofs.«147048_j80771154968988_2_alg».proof.Proof.EdgePieces
import proofs.«147048_j80771154968988_2_alg».proof.Proof.LibPairwiseTile

set_option maxRecDepth 16384

noncomputable section

namespace Cert.KernelIdeal.Edge

open Cert.KernelIdeal Cert.KernelIdeal.Gen
open Idealize.ShloMosaic Idealize.ShloMosaic.ValueIdx

/-- The thresholded squared distance of two feature vectors, as the kernel spells it. -/
def dist2 (r s : Fin 128 → EReal) : EReal :=
  ((∑ c : Fin 128, r c * r c) + (∑ c : Fin 128, s c * s c)) - Ideal.ofBits .f32 0x40000000#32 * ∑ c : Fin 128, r c * s c

/-- One incidence entry: 1 when the squared distance is below 256, else 0. -/
def incEntry (r s : Fin 128 → EReal) : EReal :=
  FloatOps.sitofp (F := Ideal) .f32 ((Ideal.cmp .olt (dist2 r s) (Ideal.ofBits .f32 0x43800000#32)).setWidth 32)

/-- Row p of a [1, n, 128] block. -/
def rowOf {n : ℕ} (x : (⟨3, ![1, n, 128]⟩ : Shape).Idx → EReal) (p : Fin n) : Fin 128 → EReal := fun c => x (ix3 (0 : Fin 1) p c)

/-- One tile's incidence block, entry by entry. -/
theorem k0_pay6_apply (x0 : Vec Ideal S1x4096x128 .f32) (x1 : Vec Ideal S1x128x128 .f32) (p : Fin 4096) (q : Fin 128) :
    k0_pay6 x0 x1 (ix2 p q) = incEntry (rowOf x0 p) (rowOf x1 q) := by
  unfold k0_pay6 k0_pay5 incEntry dist2 rowOf
  show FloatOps.sitofp (F := Ideal) .f32 ((FloatOps.cmpf (F := Ideal) .olt (_ - _ * _) _).setWidth 32) = _
  refine congrArg (fun z => FloatOps.sitofp (F := Ideal) .f32 (BitVec.setWidth 32 z)) ?_
  show Ideal.cmp .olt _ _ = Ideal.cmp .olt _ _
  refine congrArg₂ (Ideal.cmp .olt) ?_ rfl
  refine congrArg₂ (· - ·) ?_ (congrArg₂ (· * ·) rfl ?_)
  · show _ + _ = _ + _
    refine congrArg₂ (· + ·) ?_ ?_
    · exact (LibPairwiseTile.rowNorm_apply _ _ _ _ _ _ _ p q).trans
        (Finset.sum_congr rfl fun c _ => by rw [shapeCast_1ab_ab_apply])
    · exact (LibPairwiseTile.colNorm_apply _ _ _ _ _ _ _ _ p q).trans
        (Finset.sum_congr rfl fun c _ => by rw [shapeCast_1ab_ab_apply])
  · exact (LibPairwiseTile.cross_apply (some .fp32) _ _ _ p q).trans
      (Finset.sum_congr rfl fun c _ => by rw [shapeCast_1ab_ab_apply, shapeCast_1ab_ab_apply])

/-- The degree column after a tile: the old degree of row p plus the row sum of the tile's incidence block. -/
theorem degStep_apply (x0 : Vec Ideal S1x4096x128 .f32) (x1 : Vec Ideal S1x128x128 .f32) (s : Vec Ideal S4096x1 .f32) (p : Fin 4096) :
    degStep x0 x1 s (ix2 p (0 : Fin 1)) = s (ix2 p (0 : Fin 1)) + ∑ q : Fin 128, k0_pay6 x0 x1 (ix2 p q) := by
  unfold degStep k0_pay7
  rw [shapeCast_self]
  refine (addf_apply (s := S4096x1) (φ := .f32) _ _ (ix2 p (0 : Fin 1))).trans ?_
  refine congrArg (_ + ·) ?_
  exact (LibKeepdims.shapeCast_a_a1_apply _ _ p 0).trans (LibRowStat.sum_lanes_apply _ _ _ _ _ p)

/-- The linear layer on a tile's rows, as the kernel spells it: row q times the transposed weights plus the bias row. -/
theorem proj_apply (v35 v34 : FVec Ideal S128x128 .bf16) (v38 : Vec Ideal S1x128 .f32)
    (ht : S128x128.Transposes [1, 0] S128x128) (hs : S1x128.ShapeCasts S1x128) (hb : S1x128.Broadcasts S128x128) (q d : Fin 128) :
    addf (matmul dot_S128x128_S128x128_S128x128_1_0_0_1_n_n none v35 (transpose S128x128 [1, 0] v34 ht) (constant (F := Ideal) S128x128 .f32 0x00000000#32))
        (broadcastTo S128x128 (shapeCast S1x128 v38 hs) hb) (ix2 q d)
      = (∑ c : Fin 128, v35 (ix2 q c) * v34 (ix2 d c)) + v38 (ix2 (0 : Fin 1) d) := by
  show _ + _ = _ + _
  refine congrArg₂ (· + ·) ?_ ?_
  · exact LibPairwiseTile.cross_apply none v35 v34 ht q d
  · rw [shapeCast_self]; exact broadcastTo_1b_ab_apply _ _ q d

/-- The output block after a tile: the old sum at (p, d) plus the tile's incidence row p against the tile's projected
    features in channel d. -/
theorem k0_pay1_apply (v25 : FVec Ideal S4096x128 .f32) (v34 v35 : FVec Ideal S128x128 .bf16) (v38 : Vec Ideal S1x128 .f32)
    (v42 : Vec Ideal S1x4096x128 .f32) (u : Fin 1) (p : Fin 4096) (d : Fin 128) :
    k0_pay1 v25 v34 v35 v38 v42 (ix3 u p d)
      = v42 (ix3 (0 : Fin 1) p d) + ∑ q : Fin 128, v25 (ix2 p q) * ((∑ c : Fin 128, v35 (ix2 q c) * v34 (ix2 d c)) + v38 (ix2 (0 : Fin 1) d)) := by
  unfold k0_pay1
  rw [shapeCast_ab_1ab_apply]
  show _ + _ = _ + _
  refine congrArg₂ (· + ·) (shapeCast_1ab_ab_apply _ _ p d) ?_
  refine (LibMatmulPlain.matmul_plain_zero_apply none _ _ p d).trans (Finset.sum_congr rfl fun q _ => ?_)
  show v25 (ix2 p q) * _ = _
  exact congrArg (v25 (ix2 p q) * ·) (proj_apply v35 v34 v38 _ _ _ q d)

/-- The reciprocal of a degree, zero where the degree is not positive. -/
def invDeg (z : EReal) : EReal :=
  Scalar.select (Ideal.cmp .ogt z (Ideal.ofBits .f32 0x00000000#32)) (Ideal.div (Ideal.ofBits .f32 0x3F800000#32) z) (Ideal.ofBits .f32 0x00000000#32)

/-- The last tile's scaling: the sum at (p, d) times the reciprocal degree of row p. -/
theorem normalise_apply (s : Vec Ideal S4096x1 .f32) (a : Vec Ideal S1x4096x128 .f32) (u : Fin 1) (p : Fin 4096) (d : Fin 128) :
    normalise s a (ix3 u p d) = a (ix3 (0 : Fin 1) p d) * invDeg (s (ix2 p (0 : Fin 1))) := by
  unfold normalise k0_pay2 invDeg
  rw [shapeCast_ab_1ab_apply]
  show _ * _ = _ * _
  refine congrArg₂ (· * ·) (shapeCast_1ab_ab_apply _ _ p d) ?_
  exact LibRowStat.broadcastTo_a1_ab_apply _ _ p d

/-- The resets are zero everywhere. -/
theorem zeroAcc_apply (i : S1x4096x128.Idx) : zeroAcc (F := Ideal) i = Ideal.ofBits .f32 0x00000000#32 := by
  unfold zeroAcc k0_pay3; rfl
theorem zeroDeg_apply (i : S4096x1.Idx) : zeroDeg (F := Ideal) i = Ideal.ofBits .f32 0x00000000#32 := by
  unfold zeroDeg k0_pay4; rfl

end Cert.KernelIdeal.Edge

end
-- ==== Proof.EdgeBlocks.lean ====
/-
  Which rows of the arrays an edge-region point reads: point t = 32 b + j is handed all 4096 feature rows of batch b,
  rows 128 j … 128 j + 127 of the same batch as the tile, and the whole weight matrix and bias row.
-/
import proofs.«147048_j80771154968988_2_alg».proof.Proof.EdgeValue
import proofs.«147048_j80771154968988_2_alg».proof.Proof.EdgeData

set_option maxRecDepth 16384

noncomputable section

namespace Cert.KernelIdeal.Edge

open Cert.KernelIdeal Cert.KernelIdeal.Gen
open Idealize.ShloMosaic Idealize.ShloMosaic.TcCoe Idealize.ShloMosaic.ValueIdx Idealize.SL.Sem
open Idealize.ShloMosaic.Pipeline (Dat)

/-! ## Which block a point reads -/

theorem idx_rows : ∀ t : Fin cfg0.N, win0_0.index t 0 = t.val / 32 ∧ win0_0.index t 1 = 0 ∧ win0_0.index t 2 = 0 :=
  (by decide +kernel : ∀ t : Fin grid0.N, win0_0.index t 0 = t.val / 32 ∧ win0_0.index t 1 = 0 ∧ win0_0.index t 2 = 0)
theorem idx_tile : ∀ t : Fin cfg0.N, win0_1.index t 0 = t.val / 32 ∧ win0_1.index t 1 = t.val % 32 ∧ win0_1.index t 2 = 0 :=
  (by decide +kernel : ∀ t : Fin grid0.N, win0_1.index t 0 = t.val / 32 ∧ win0_1.index t 1 = t.val % 32 ∧ win0_1.index t 2 = 0)
theorem idx_w : ∀ t : Fin cfg0.N, win0_2.index t 0 = 0 ∧ win0_2.index t 1 = 0 :=
  (by decide +kernel : ∀ t : Fin grid0.N, win0_2.index t 0 = 0 ∧ win0_2.index t 1 = 0)
theorem idx_bias : ∀ t : Fin cfg0.N, win0_3.index t 0 = 0 ∧ win0_3.index t 1 = 0 :=
  (by decide +kernel : ∀ t : Fin grid0.N, win0_3.index t 0 = 0 ∧ win0_3.index t 1 = 0)
theorem idx_out : ∀ t : Fin cfg0.N, win0_4.index t 0 = t.val / 32 ∧ win0_4.index t 1 = 0 ∧ win0_4.index t 2 = 0 :=
  (by decide +kernel : ∀ t : Fin grid0.N, win0_4.index t 0 = t.val / 32 ∧ win0_4.index t 1 = 0 ∧ win0_4.index t 2 = 0)

/-- The batch a point works on. -/
def batchOf (t : Fin cfg0.N) : Fin 4 := ⟨t.val / 32, Nat.div_lt_of_lt_mul (lt_of_lt_of_eq t.isLt N_0)⟩

variable {F : FTy → Type} [FloatOps F]
variable (V : (c : Dev nD) → (b : Ref sig .tc) → Buf (Elt F) ((c : Thread nD τ).loc b))

/-- The batch's rows: block (b, 0, 0) of the feature array. -/
theorem iblk_rows (c : Dev nD) (t : Fin cfg0.N) (u : Fin 1) (p : Fin 4096) (f : Fin 128) :
    (iblk V c 0 t : Vec F S1x4096x128 .f32) (ix3 u p f) = (V c main_v1 : S4x4096x128.Idx → Elt F .f32) (ix3 (batchOf t) p f) := by
  unfold iblk
  rw [View.read_apply]
  show V c main_v1 _ = V c main_v1 _
  congr 1
  funext a
  apply Fin.ext
  have hu : u.val = 0 := by omega
  match a with
  | ⟨0, _⟩ => show win0_0.index t 0 * 1 + 1 * u.val = t.val / 32; rw [(idx_rows t).1, hu]; omega
  | ⟨1, _⟩ => show win0_0.index t 1 * 4096 + 1 * p.val = p.val; rw [(idx_rows t).2.1]; omega
  | ⟨2, _⟩ => show win0_0.index t 2 * 128 + 1 * f.val = f.val; rw [(idx_rows t).2.2]; omega

/-- The tile's rows: rows 128 j … 128 j + 127 of the batch. -/
theorem iblk_tile (c : Dev nD) (t : Fin cfg0.N) (u : Fin 1) (q : Fin 128) (f : Fin 128) :
    (iblk V c 1 t : Vec F S1x128x128 .f32) (ix3 u q f)
      = (V c main_v1 : S4x4096x128.Idx → Elt F .f32) (ix3 (batchOf t) ⟨(128 * (t.val % 32) + q.val) % 4096, Nat.mod_lt _ (by decide)⟩ f) := by
  unfold iblk
  rw [View.read_apply]
  show V c main_v1 _ = V c main_v1 _
  congr 1
  funext a
  apply Fin.ext
  have hu : u.val = 0 := by omega
  have hq := q.isLt
  match a with
  | ⟨0, _⟩ => show win0_1.index t 0 * 1 + 1 * u.val = t.val / 32; rw [(idx_tile t).1, hu]; omega
  | ⟨1, _⟩ => show win0_1.index t 1 * 128 + 1 * q.val = (128 * (t.val % 32) + q.val) % 4096; rw [(idx_tile t).2.1]; omega
  | ⟨2, _⟩ => show win0_1.index t 2 * 128 + 1 * f.val = f.val; rw [(idx_tile t).2.2]; omega

/-- The weights: the whole array at every point. -/
theorem iblk_w (c : Dev nD) (t : Fin cfg0.N) (d f : Fin 128) :
    (iblk V c 2 t : Vec F S128x128 .f32) (ix2 d f) = (V c main_arg1 : S128x128.Idx → Elt F .f32) (ix2 d f) := by
  unfold iblk
  rw [View.read_apply]
  show V c main_arg1 _ = V c main_arg1 _
  congr 1
  funext a
  apply Fin.ext
  match a with
  | ⟨0, _⟩ => show win0_2.index t 0 * 128 + 1 * d.val = d.val; rw [(idx_w t).1]; omega
  | ⟨1, _⟩ => show win0_2.index t 1 * 128 + 1 * f.val = f.val; rw [(idx_w t).2]; omega

/-- The bias row: the whole array at every point. -/
theorem iblk_bias (c : Dev nD) (t : Fin cfg0.N) (u : Fin 1) (d : Fin 128) :
    (iblk V c 3 t : Vec F S1x128 .f32) (ix2 u d) = (V c main_v2 : S1x128.Idx → Elt F .f32) (ix2 (0 : Fin 1) d) := by
  unfold iblk
  rw [View.read_apply]
  show V c main_v2 _ = V c main_v2 _
  congr 1
  funext a
  apply Fin.ext
  have hu : u.val = 0 := by omega
  match a with
  | ⟨0, _⟩ => show win0_3.index t 0 * 1 + 1 * u.val = 0; rw [(idx_bias t).1, hu]
  | ⟨1, _⟩ => show win0_3.index t 1 * 128 + 1 * d.val = d.val; rw [(idx_bias t).2]; omega

end Cert.KernelIdeal.Edge

end
-- ==== Proof.LibBlockSum.lean ====
/-
  Sums over a range cut into equal blocks.

  A sum over `n * b` consecutive indices is the sum, over the `n` blocks, of the sum over the `b` indices of each
  block: index `q` of block `j` is the index `q + b * j` of the whole range, and every index of the whole range
  is of this form exactly once.  The same at the sizes 16 blocks of 512, written with a range of block numbers;
  and a sum over the first `n + 1` block numbers is the sum over the first `n` plus the last term.
-/
import Mathlib.Algebra.BigOperators.Fin
import Mathlib.Algebra.BigOperators.Group.Finset.Basic
import Mathlib.Data.Fintype.BigOperators
import Mathlib.Logic.Equiv.Fin.Basic

open scoped BigOperators

namespace Cert.LibBlockSum

/-- Index `q` of block `j`, among `n` blocks of `b` indices each, is the index `q + b * j` of the whole range. -/
theorem finProd_val {n b : ℕ} (j : Fin n) (q : Fin b) : (finProdFinEquiv (j, q)).val = q.val + b * j.val := rfl

/-- The sum over the blocks of the sums over each block is the sum over the whole range of `n * b` indices. -/
theorem sum_blocks {M : Type*} [AddCommMonoid M] {n b : ℕ} (f : Fin (n * b) → M) :
    ∑ j : Fin n, ∑ q : Fin b, f (finProdFinEquiv (j, q)) = ∑ i, f i :=
  (Fintype.sum_prod_type' fun (j : Fin n) (q : Fin b) => f (finProdFinEquiv (j, q))).symm.trans
    (Equiv.sum_comp finProdFinEquiv f)

/-- The same for 8192 indices cut into 16 blocks of 512, the block number running over a range of naturals:
    index `q` of block `j` is `512 * j + q`, which is below 8192 for every block number below 16. -/
theorem sum_blocks_8192 {M : Type*} [AddCommMonoid M] (f : Fin 8192 → M) :
    ∑ j ∈ Finset.range 16, ∑ q : Fin 512, (if h : 512 * j + q.val < 8192 then f ⟨512 * j + q.val, h⟩ else 0)
      = ∑ i, f i := by
  refine Eq.trans ?_ (sum_blocks (n := 16) (b := 512) f)
  rw [Finset.sum_range fun j => ∑ q : Fin 512, (if h : 512 * j + q.val < 8192 then f ⟨512 * j + q.val, h⟩ else 0)]
  refine Finset.sum_congr rfl fun j _ => Finset.sum_congr rfl fun q _ => ?_
  have hlt : 512 * j.val + q.val < 8192 := by have := j.isLt; have := q.isLt; omega
  rw [dif_pos hlt]
  exact congrArg f (Fin.ext (by show 512 * j.val + q.val = q.val + 512 * j.val; omega))

/-- A sum over the first `n + 1` naturals is the sum over the first `n` plus the term at `n`. -/
theorem sum_range_step {M : Type*} [AddCommMonoid M] (g : ℕ → M) (n : ℕ) :
    ∑ j ∈ Finset.range (n + 1), g j = (∑ j ∈ Finset.range n, g j) + g n :=
  Finset.sum_range_succ g n

end Cert.LibBlockSum
-- ==== Proof.EdgeAcc.lean ====
/-
  The edge region's accumulators as sums over the incidence matrix of one batch, and the region's output array.
  After point t = 32 b + j the degree of row p is the number of incident rows among the first 128 (j + 1) rows of the
  batch, and the running sum at (p, d) is the sum over those rows e of incidence(p, e) times the projected feature of e
  in channel d. At j = 31 the sums range over the whole batch, each row is scaled by its reciprocal degree, and the
  block is written back as batch b of the output array; the four batches' blocks cover the array.
-/
import proofs.«147048_j80771154968988_2_alg».proof.Proof.EdgeBlocks
import proofs.«147048_j80771154968988_2_alg».proof.Proof.LibBlockSum

set_option maxRecDepth 16384

noncomputable section

namespace Cert.KernelIdeal.Edge

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The feature rows, the weights and the bias row as the region finds them, as plain arrays of extended reals. -/
def feat (c : Dev nD) : S4x4096x128.Idx → EReal := V c main_v1
def wts (c : Dev nD) : S128x128.Idx → EReal := V c main_arg1
def biasRow (c : Dev nD) : S1x128.Idx → EReal := V c main_v2
/-- Row e of batch b of the feature array. -/
def rowB (c : Dev nD) (b : Fin 4) (e : Fin 4096) : Fin 128 → EReal := fun f => feat V c (ix3 b e f)
/-- The incidence of rows p and e of batch b. -/
def incB (c : Dev nD) (b : Fin 4) (p e : Fin 4096) : EReal := incEntry (rowB V c b p) (rowB V c b e)
/-- Row e of batch b through the linear layer, channel d. -/
def projB (c : Dev nD) (b : Fin 4) (e : Fin 4096) (d : Fin 128) : EReal :=
  (∑ f : Fin 128, feat V c (ix3 b e f) * wts V c (ix2 d f)) + biasRow V c (ix2 (0 : Fin 1) d)
/-- A row number from a natural. -/
def rowAt (n : ℕ) : Fin 4096 := ⟨n % 4096, Nat.mod_lt _ (by decide)⟩

abbrev Z : EReal := Ideal.ofBits .f32 0x00000000#32

/-! ## One point -/

theorem step_deg (c : Dev nD) (t : Fin cfg0.N) (st : Vec Ideal S1x4096x128 .f32 × Vec Ideal S4096x1 .f32) (p : Fin 4096) :
    (step V c t st).2 (ix2 p (0 : Fin 1)) = st.2 (ix2 p (0 : Fin 1)) + ∑ q : Fin 128, incB V c (batchOf t) p (rowAt (128 * (t.val % 32) + q.val)) := by
  unfold step; dsimp only
  rw [degStep_apply]
  refine congrArg (_ + ·) (Finset.sum_congr rfl fun q _ => ?_)
  rw [k0_pay6_apply]
  unfold incB
  refine congrArg₂ incEntry (funext fun f => ?_) (funext fun f => ?_)
  · exact iblk_rows V c t 0 p f
  · exact iblk_tile V c t 0 q f

theorem step_acc (c : Dev nD) (t : Fin cfg0.N) (st : Vec Ideal S1x4096x128 .f32 × Vec Ideal S4096x1 .f32) (u : Fin 1) (p : Fin 4096) (d : Fin 128) :
    (step V c t st).1 (ix3 u p d) = st.1 (ix3 (0 : Fin 1) p d)
      + ∑ q : Fin 128, incB V c (batchOf t) p (rowAt (128 * (t.val % 32) + q.val)) * projB V c (batchOf t) (rowAt (128 * (t.val % 32) + q.val)) d := by
  unfold step accStep; dsimp only
  rw [k0_pay1_apply]
  refine congrArg (_ + ·) (Finset.sum_congr rfl fun q _ => ?_)
  refine congrArg₂ (fun a b : EReal => a * b) ?_ ?_
  · rw [k0_pay6_apply]
    unfold incB
    refine congrArg₂ incEntry (funext fun f => ?_) (funext fun f => ?_)
    · exact iblk_rows V c t 0 p f
    · exact iblk_tile V c t 0 q f
  · unfold projB
    refine congrArg₂ (fun a b : EReal => a + b) (Finset.sum_congr rfl fun f _ => ?_) (iblk_bias V c t 0 d)
    refine congrArg₂ (fun a b : EReal => a * b) ?_ ?_
    · show k0_pay9 (iblk V c 1 t) (ix2 q f) = _
      unfold k0_pay9 k0_pay5
      exact (shapeCast_1ab_ab_apply _ _ q f).trans (iblk_tile V c t 0 q f)
    · show k0_pay8 (iblk V c 2 t) (ix2 d f) = _
      unfold k0_pay8
      exact iblk_w V c t d f

/-! ## After each point: the sums over the tiles so far -/

def tileDeg (c : Dev nD) (b : Fin 4) (p : Fin 4096) (j : ℕ) : EReal := ∑ q : Fin 128, incB V c b p (rowAt (128 * j + q.val))
def tileAcc (c : Dev nD) (b : Fin 4) (p : Fin 4096) (d : Fin 128) (j : ℕ) : EReal :=
  ∑ q : Fin 128, incB V c b p (rowAt (128 * j + q.val)) * projB V c b (rowAt (128 * j + q.val)) d

theorem stAt_sums (c : Dev nD) (b : Fin 4) : ∀ (j : ℕ), j < 32 → ∀ (n : ℕ) (hn : n < cfg0.N), n = 32 * b.val + j →
    (∀ p : Fin 4096, (stAt V c n hn).2 (ix2 p (0 : Fin 1)) = Z + ∑ j' ∈ Finset.range (j + 1), tileDeg V c b p j')
    ∧ (∀ (u : Fin 1) (p : Fin 4096) (d : Fin 128), (stAt V c n hn).1 (ix3 u p d) = Z + ∑ j' ∈ Finset.range (j + 1), tileAcc V c b p d j') := by
  intro j
  induction j with
  | zero =>
    intro _ n hn hnb
    have hmod : n % 32 = 0 := by omega
    have hb : batchOf ⟨n, hn⟩ = b := Fin.ext (by show n / 32 = b.val; omega)
    have e : stAt V c n hn = step V c ⟨n, hn⟩ (zeroAcc, zeroDeg) := stAt_first V c ⟨n, hn⟩ hmod
    refine ⟨fun p => ?_, fun u p d => ?_⟩
    · rw [e, step_deg, hb, Finset.sum_range_one]
      show zeroDeg (F := Ideal) (ix2 p (0 : Fin 1)) + _ = _
      rw [zeroDeg_apply]
      show Z + ∑ q : Fin 128, incB V c b p (rowAt (128 * (n % 32) + q.val)) = Z + tileDeg V c b p 0
      rw [hmod]; rfl
    · rw [e, step_acc, hb, Finset.sum_range_one]
      show zeroAcc (F := Ideal) (ix3 (0 : Fin 1) p d) + _ = _
      rw [zeroAcc_apply]
      show Z + ∑ q : Fin 128, incB V c b p (rowAt (128 * (n % 32) + q.val)) * projB V c b (rowAt (128 * (n % 32) + q.val)) d = Z + tileAcc V c b p d 0
      rw [hmod]; rfl
  | succ j ih =>
    intro hj n hn hnb
    have hmod : ¬ n % 32 = 0 := by omega
    have hmod' : n % 32 = j + 1 := by omega
    have hb : batchOf ⟨n, hn⟩ = b := Fin.ext (by show n / 32 = b.val; omega)
    have e : stAt V c n hn = step V c ⟨n, hn⟩ (stAt V c (n - 1) (Nat.lt_of_le_of_lt (Nat.sub_le _ _) hn)) := stAt_next V c ⟨n, hn⟩ hmod
    obtain ⟨ihd, iha⟩ := ih (by omega) (n - 1) (Nat.lt_of_le_of_lt (Nat.sub_le _ _) hn) (by omega)
    refine ⟨fun p => ?_, fun u p d => ?_⟩
    · rw [e, step_deg, hb, ihd p, Finset.sum_range_succ (fun j' => tileDeg V c b p j') (j + 1), add_assoc]
      show _ = Z + (_ + tileDeg V c b p (j + 1))
      unfold tileDeg
      rw [hmod']
    · rw [e, step_acc, hb, iha 0 p d, Finset.sum_range_succ (fun j' => tileAcc V c b p d j') (j + 1), add_assoc]
      show _ = Z + (_ + tileAcc V c b p d (j + 1))
      unfold tileAcc
      rw [hmod']

/-! ## The whole batch -/

/-- The 32 tiles of 128 rows are the batch's 4096 rows. -/
theorem blocks_sum {M : Type*} [AddCommMonoid M] (g : Fin 4096 → M) :
    ∑ j ∈ Finset.range 32, ∑ q : Fin 128, g (rowAt (128 * j + q.val)) = ∑ e : Fin 4096, g e := by
  refine Eq.trans ?_ (LibBlockSum.sum_blocks (n := 32) (b := 128) g)
  rw [Finset.sum_range fun j => ∑ q : Fin 128, g (rowAt (128 * j + q.val))]
  refine Finset.sum_congr rfl fun j _ => Finset.sum_congr rfl fun q _ => ?_
  exact congrArg g (Fin.ext (by
    show (128 * j.val + q.val) % 4096 = q.val + 128 * j.val
    have := j.isLt; have := q.isLt; omega))

/-- After the last tile of batch b the output block holds the batch's aggregated, degree-normalised edge features. -/
theorem outAfter_last (c : Dev nD) (b : Fin 4) (t : Fin cfg0.N) (ht : t.val = 32 * b.val + 31) (u : Fin 1) (p : Fin 4096) (d : Fin 128) :
    outAfter V c t (ix3 u p d)
      = (Z + ∑ e : Fin 4096, incB V c b p e * projB V c b e d) * invDeg (Z + ∑ e : Fin 4096, incB V c b p e) := by
  unfold outAfter
  rw [if_pos (by omega), normalise_apply]
  obtain ⟨hd, ha⟩ := stAt_sums V c b 31 (by decide) t.val t.isLt ht
  rw [ha 0 p d, hd p]
  unfold tileDeg tileAcc
  rw [blocks_sum (fun e => incB V c b p e * projB V c b e d), blocks_sum (fun e => incB V c b p e)]

end Cert.KernelIdeal.Edge

end
-- ==== Proof.EdgeFinal.lean ====
/-
  The edge region's output array. The pipeline writes the output block back after the last tile of each batch, as
  batch b of the array; the four blocks cover the array, so the array ends holding, at (b, p, d), the batch's
  aggregated features of row p in channel d scaled by row p's reciprocal degree.
-/
import proofs.«147048_j80771154968988_2_alg».proof.Proof.EdgeAcc
import Idealize.ShloMosaic.Lib.Pipeline.Value

set_option maxRecDepth 16384

noncomputable section

namespace Cert.KernelIdeal.Edge

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The output array, entry by entry. -/
def edgeArr (c : Dev nD) : S4x4096x128.Idx → EReal := fun i =>
  (Z + ∑ e : Fin 4096, incB V c (i 0) (i 1) e * projB V c (i 0) e (i 2)) * invDeg (Z + ∑ e : Fin 4096, incB V c (i 0) (i 1) e)

/-- The last point of batch b. -/
def lastOf (b : Fin 4) : Fin cfg0.N := ⟨32 * b.val + 31, lt_of_lt_of_eq (by have := b.isLt; omega : 32 * b.val + 31 < 128) N_0.symm⟩

theorem emb_out (t : Fin cfg0.N) (u : Fin 1) (p : Fin 4096) (d : Fin 128) :
    (((cfg0.win 4).blk t).view.emb (ix3 u p d) : S4x4096x128.Idx) = ix3 (batchOf t) p d := by
  funext a
  apply Fin.ext
  have hu : u.val = 0 := by omega
  match a with
  | ⟨0, _⟩ => show win0_4.index t 0 * 1 + 1 * u.val = t.val / 32; rw [(idx_out t).1, hu]; omega
  | ⟨1, _⟩ => show win0_4.index t 1 * 4096 + 1 * p.val = p.val; rw [(idx_out t).2.1]; omega
  | ⟨2, _⟩ => show win0_4.index t 2 * 128 + 1 * d.val = d.val; rw [(idx_out t).2.2]; omega

/-- What a write-back writes is the array's block there. -/
theorem flushed_eq (c : Dev nD) (t : Fin cfg0.N) (hf : (cfg0.win 4).flush t = true) :
    (dat V c).flushed 4 t = ((cfg0.win 4).blk t).view.read (Elt Ideal) (edgeArr V c) := by
  have h31 : t.val % 32 = 31 := (flush0_4 t).mp hf
  funext y
  obtain ⟨u, p, d, rfl⟩ : ∃ (u : Fin 1) (p : Fin 4096) (d : Fin 128), y = ix3 u p d := ⟨y 0, y 1, y 2, eq_ix3 y⟩
  show (dat V c).after 4 t (ix3 u p d) = _
  rw [after_4, outAfter_last V c (batchOf t) t (by show t.val = 32 * (t.val / 32) + 31; omega), View.read_apply]
  show _ = edgeArr V c (((cfg0.win 4).blk t).view.emb (ix3 u p d))
  rw [emb_out]
  rfl

theorem edgeOut_eq (c : Dev nD) : (dat V c).arrAt 4 cfg0.N = edgeArr V c :=
  (dat V c).arrAt_eq_of_cover 4 (edgeArr V c) (flushed_eq V c) fun i =>
    ⟨lastOf (i 0), (flush0_4 _).mpr (by show (32 * (i 0).val + 31) % 32 = 31; omega), by
      show i ∈ ((View.whole main_v3).slice (win0_4.rect (lastOf (i 0)))).set
      rw [View.set_slice_whole, Rect.mem_set_unit]
      intro a
      have h0 : (i 0 : Nat) < 4 := (i 0).isLt
      have h1 : (i 1 : Nat) < 4096 := (i 1).isLt
      have h2 : (i 2 : Nat) < 128 := (i 2).isLt
      have hi := idx_out (lastOf (i 0))
      have hl : (lastOf (i 0)).val / 32 = (i 0).val := by show (32 * (i 0).val + 31) / 32 = (i 0).val; omega
      match a with
      | ⟨0, _⟩ =>
        show win0_4.index (lastOf (i 0)) 0 * 1 ≤ (i 0 : Nat) ∧ (i 0 : Nat) < win0_4.index (lastOf (i 0)) 0 * 1 + 1
        rw [hi.1, hl]; omega
      | ⟨1, _⟩ =>
        show win0_4.index (lastOf (i 0)) 1 * 4096 ≤ (i 1 : Nat) ∧ (i 1 : Nat) < win0_4.index (lastOf (i 0)) 1 * 4096 + 4096
        rw [hi.2.1]; omega
      | ⟨2, _⟩ =>
        show win0_4.index (lastOf (i 0)) 2 * 128 ≤ (i 2 : Nat) ∧ (i 2 : Nat) < win0_4.index (lastOf (i 0)) 2 * 128 + 128
        rw [hi.2.2]; omega⟩

/-- The output array at an index. -/
theorem edgeOut_apply (c : Dev nD) (b : Fin 4) (p : Fin 4096) (d : Fin 128) :
    ((dat V c).arrAt 4 cfg0.N : S4x4096x128.Idx → EReal) (ix3 b p d)
      = (Z + ∑ e : Fin 4096, incB V c b p e * projB V c b e d) * invDeg (Z + ∑ e : Fin 4096, incB V c b p e) := by
  rw [edgeOut_eq]; rfl

end Cert.KernelIdeal.Edge

end
-- ==== Proof.KernelHost.lean ====
/-
  The kernel program's two stretches of host operations, read back: the three operations before the kernel regions
  (the input as [B, N, C], the bias as a row) at an index, and the forty-one operations after them as one function
  `tailOut` of the regions' three results and the affine parameters — the per-channel moments from the partial sums,
  the layout back to an image, the normalisation with the affine map, and SiLU — with each stage read at an index on
  the extended reals. Every lemma is about ANY contents `W` of the buffers.
-/
import proofs.«147048_j80771154968988_2_alg».proof.Proof.Gen.KernelIdeal.Launch
import Idealize.ShloMosaic.Lib.StableHlo.Run
import Idealize.ShloMosaic.Lib.IdealHost
import Idealize.ShloMosaic.Lib.ValueLayout
import Idealize.ShloMosaic.Lib.Pipeline.Value

noncomputable section

open scoped BigOperators

namespace Cert.KernelIdeal.HostValue

open Cert.KernelIdeal Cert.KernelIdeal.Gen Idealize.ShloMosaic Idealize.ShloMosaic.TcCoe Idealize.ShloMosaic.StableHlo
open Idealize.ShloMosaic.ValueIdx

variable {F : FTy → Type} [FloatOps F]

/-! ## The stages -/

/-- The input x : [B, C, H, W] viewed as [B, N, C]: xfK b n c = x b c (n / 64) (n % 64). -/
def xfK (a0 : FVec F S4x128x64x64 .f32) : FVec F S4x4096x128 .f32 :=
  transpose S4x4096x128 [0, 2, 1] (shapeCast S4x128x4096 a0 shapeCasts_S4x128x64x64_S4x128x4096)
    transposes_S4x128x4096_S4x4096x128_0_2_1

/-- The bias as a one-row matrix. -/
def biasRowK (a2 : FVec F S128 .f32) : FVec F S1x128 .f32 := shapeCast S1x128 a2 shapeCasts_S128_S1x128

/-- The per-batch partial sums [B, 1, C] summed over the batch: sumB s c = 0 + Σ_b s b 0 c. -/
def sumB (s : FVec F S4x1x128 .f32) : FVec F S128 .f32 :=
  shapeCast S128 (Host.reduceAdd s (constant S_ .f32 0x00000000#32) reducesTo_S4x1x128_S1x128_d0 h_S_)
    shapeCasts_S1x128_S128

/-- The per-channel mean: the summed partial sums over 16384. -/
def meanK (s1 : FVec F S4x1x128 .f32) : FVec F S128 .f32 :=
  Host.divf (sumB s1) (broadcastInDim S128 ![] bcast_S_S128 (constant S_ .f32 0x46800000#32))

/-- The per-channel mean of squares: the summed partial sums of squares over 16384. -/
def msqK (s2 : FVec F S4x1x128 .f32) : FVec F S128 .f32 :=
  Host.divf (sumB s2) (broadcastInDim S128 ![] bcast_S_S128 (constant S_ .f32 0x46800000#32))

/-- The per-channel variance: the mean of squares minus the square of the mean. -/
def varK (s1 s2 : FVec F S4x1x128 .f32) : FVec F S128 .f32 :=
  subf (msqK s2) (mulf (meanK s1) (meanK s1))

/-- A [B, N, C] array laid out as an image [B, C, H, W]. -/
def imgK (o : FVec F S4x4096x128 .f32) : FVec F S4x128x64x64 .f32 :=
  shapeCast S4x128x64x64 (transpose S4x128x4096 [0, 2, 1] o transposes_S4x4096x128_S4x128x4096_0_2_1)
    shapeCasts_S4x128x4096_S4x128x64x64

/-- A per-channel value as a [1, C, 1, 1] array. -/
def chan1K (v : FVec F S128 .f32) : FVec F S1x128x1x1 .f32 :=
  broadcastInDim S1x128x1x1 ![1] bcast_S128_S1x128x1x1_1 v

/-- A [1, C, 1, 1] array repeated over batch, height and width. -/
def chanAllK (v : FVec F S1x128x1x1 .f32) : FVec F S4x128x64x64 .f32 :=
  broadcastInDim S4x128x64x64 ![0, 1, 2, 3] bcast_S1x128x1x1_S4x128x64x64_0_1_2_3 v

/-- Normalisation of an image p by GIVEN per-channel mean μ and variance v, with the affine map:
    γ c · ((p − μ c) · rsqrt (v c + ε)) + β c. -/
def bnK (p : FVec F S4x128x64x64 .f32) (mu va g be : FVec F S128 .f32) : FVec F S4x128x64x64 .f32 :=
  addf
    (mulf (chanAllK (chan1K g))
      (mulf (subf p (chanAllK (chan1K mu)))
        (chanAllK (Host.rsqrt (addf (chan1K va)
          (broadcastInDim S1x128x1x1 ![] bcast_S_S1x128x1x1 (constant S_ .f32 0x3727C5AC#32)))))))
    (chanAllK (chan1K be))

/-- SiLU: y · (1 / (1 + exp (−y))). -/
def siluK (y : FVec F S4x128x64x64 .f32) : FVec F S4x128x64x64 .f32 :=
  mulf y
    (Host.divf (broadcastInDim S4x128x64x64 ![] bcast_S_S4x128x64x64 (constant S_ .f32 0x3F800000#32))
      (addf (broadcastInDim S4x128x64x64 ![] bcast_S_S4x128x64x64 (constant S_ .f32 0x3F800000#32))
        (Host.exp (Host.negf y))))

/-- What the forty-one operations after the regions compute from the regions' results o (the layer's output
    before normalisation, as [B, N, C]), s1, s2 (per-batch partial sums of it and of its square) and γ, β. -/
def tailOut (o : FVec F S4x4096x128 .f32) (s1 s2 : FVec F S4x1x128 .f32) (g be : FVec F S128 .f32) :
    FVec F S4x128x64x64 .f32 :=
  siluK (bnK (imgK o) (meanK s1) (varK s1 s2) g be)

/-! ## The two stretches from any contents -/

variable (W : Valuation τ sig (Elt F))

set_option maxRecDepth 8192 in
theorem head_v1_eq : StableHlo.after hostOps0 W main_v1 = xfK (W main_arg0) := by
  simp only [hostOps0]; after_results; rfl

set_option maxRecDepth 8192 in
theorem head_v2_eq : StableHlo.after hostOps0 W main_v2 = biasRowK (W main_arg2) := by
  simp only [hostOps0]; after_results; rfl

set_option maxRecDepth 8192 in
set_option maxHeartbeats 4000000 in
/-- The result buffer after the last stretch is `tailOut` of the regions' results and the affine parameters. -/
theorem tail_eq :
    StableHlo.after hostOps2 W main_v38
      = tailOut (W main_v4_0) (W main_v4_1) (W main_v4_2) (W main_arg3) (W main_arg4) := by
  simp only [hostOps2]; after_results_simp; rfl

/-! ## The stages at an index, on the extended reals -/

/-- A rank-zero float literal broadcast to any shape reads the extended real its pattern denotes. -/
theorem scalar_bcast_applyK {T : Shape} (h : S_.BroadcastsInDim T ![]) (w : BitVec 32) (j : T.Idx) :
    broadcastInDim T ![] h (constant (F := Ideal) S_ .f32 w) j = Ideal.ofBits .f32 w :=
  broadcastInDim_scalar_apply h _ j

/-- xfK b n c = x b c (n / 64) (n % 64). -/
theorem xfK_apply (a0 : FVec Ideal S4x128x64x64 .f32) (b : Fin 4) (n : Fin 4096) (c : Fin 128) :
    xfK a0 (ix3 b n c)
      = a0 (ix4 b c ⟨n.val / 64, by have := n.isLt; omega⟩ ⟨n.val % 64, Nat.mod_lt _ (by decide)⟩) := by
  unfold xfK
  refine (transpose_ix3_021_apply _ _ b n c).trans ?_
  refine shapeCast_apply _ _ _ _ ?_
  rw [Shape.rowMajor_val_four, Shape.rowMajor_val_three]
  show ((b.val * 128 + c.val) * 64 + n.val / 64) * 64 + n.val % 64 = (b.val * 128 + c.val) * 4096 + n.val
  omega

/-- The first stretch leaves, in the [B, N, C] buffer at (b, n, c), the input at (b, c, n / 64, n % 64). -/
theorem head_v1_apply (W : Valuation τ sig (Elt Ideal)) (b : Fin 4) (n : Fin 4096) (c : Fin 128) :
    StableHlo.after hostOps0 W main_v1 (ix3 b n c)
      = W main_arg0 (ix4 b c ⟨n.val / 64, by have := n.isLt; omega⟩ ⟨n.val % 64, Nat.mod_lt _ (by decide)⟩) := by
  rw [head_v1_eq]; exact xfK_apply _ b n c

/-- The first stretch leaves, in the bias row at (0, d), the bias at d. -/
theorem head_v2_apply (W : Valuation τ sig (Elt Ideal)) (d : Fin 128) :
    StableHlo.after hostOps0 W main_v2 (ix2 (0 : Fin 1) d) = W main_arg2 (ix1 d) := by
  rw [head_v2_eq]; unfold biasRowK
  exact shapeCast_a_1a_apply _ _ (0 : Fin 1) d

/-- The index a sum over the batch axis of a [4, 1, 128] array visits. -/
theorem lift_batch (h : S4x1x128.Reduces [0] S1x128) (u : Fin 1) (ch : Fin 128) (b : Fin 4) :
    h.lift (ix2 u ch) b = ix3 b u ch := by
  funext a
  match a with
  | ⟨0, _⟩ => exact Fin.ext rfl
  | ⟨1, _⟩ => exact Fin.ext rfl
  | ⟨2, _⟩ => exact Fin.ext rfl

/-- sumB s c = Σ_b s b 0 c. -/
theorem sumB_apply (s : FVec Ideal S4x1x128 .f32) (ch : Fin 128) :
    sumB s (ix1 ch) = ∑ b : Fin 4, s (ix3 b (0 : Fin 1) ch) := by
  unfold sumB
  rw [shapeCast_1a_a_apply, hostReduceAdd_apply,
    Ideal.hostReduceAdd_single reducesTo_S4x1x128_S1x128_d0 (by decide : S4x1x128.Reduces [0] S1x128)]
  show Ideal.ofBits .f32 0x00000000#32 + ∑ b : Fin 4, _ = _
  rw [Ideal.ofBits_zero_f32, zero_add]
  exact Finset.sum_congr rfl fun b _ => by rw [lift_batch]

/-- meanK c = (Σ_b s1 b 0 c) / 16384, the divisor the literal's value. -/
theorem meanK_apply (s1 : FVec Ideal S4x1x128 .f32) (ch : Fin 128) :
    meanK s1 (ix1 ch) = Ideal.div (∑ b : Fin 4, s1 (ix3 b (0 : Fin 1) ch)) (Ideal.ofBits .f32 0x46800000#32) := by
  unfold meanK
  rw [hostDivf_apply, scalar_bcast_applyK, sumB_apply]

/-- msqK c = (Σ_b s2 b 0 c) / 16384. -/
theorem msqK_apply (s2 : FVec Ideal S4x1x128 .f32) (ch : Fin 128) :
    msqK s2 (ix1 ch) = Ideal.div (∑ b : Fin 4, s2 (ix3 b (0 : Fin 1) ch)) (Ideal.ofBits .f32 0x46800000#32) := by
  unfold msqK
  rw [hostDivf_apply, scalar_bcast_applyK, sumB_apply]

/-- varK c = msqK c − meanK c · meanK c. -/
theorem varK_apply (s1 s2 : FVec Ideal S4x1x128 .f32) (ch : Fin 128) :
    varK s1 s2 (ix1 ch) = msqK s2 (ix1 ch) - meanK s1 (ix1 ch) * meanK s1 (ix1 ch) := by
  unfold varK
  rw [subf_apply, mulf_apply]

/-- imgK at (b, c, h, w) reads the [B, N, C] array at (b, 64·h + w, c). -/
theorem imgK_apply (o : FVec Ideal S4x4096x128 .f32) (b : Fin 4) (ch : Fin 128) (h w : Fin 64) :
    imgK o (ix4 b ch h w)
      = o (ix3 b ⟨h.val * 64 + w.val, by have := h.isLt; have := w.isLt; omega⟩ ch) := by
  unfold imgK
  refine (shapeCast_apply _ _ (ix4 b ch h w)
    (ix3 b ch (⟨h.val * 64 + w.val, by have := h.isLt; have := w.isLt; omega⟩ : Fin 4096)) ?_).trans ?_
  · rw [Shape.rowMajor_val_four, Shape.rowMajor_val_three]
    show (b.val * 128 + ch.val) * 4096 + (h.val * 64 + w.val) = ((b.val * 128 + ch.val) * 64 + h.val) * 64 + w.val
    omega
  · exact transpose_ix3_021_apply _ _ b ch _

/-- A per-channel value as a [1, C, 1, 1] array reads the value at c. -/
theorem chan1K_apply (v : FVec Ideal S128 .f32) (u0 : Fin 1) (ch : Fin 128) (u2 u3 : Fin 1) :
    chan1K v (ix4 u0 ch u2 u3) = v (ix1 ch) := by
  unfold chan1K
  refine broadcastInDim_apply _ _ _ (ix4 u0 ch u2 u3) (ix1 ch) fun a => ?_
  match a with
  | ⟨0, _⟩ => rfl

/-- A [1, C, 1, 1] array repeated over batch, height and width reads its element at c. -/
theorem chanAllK_apply (v : FVec Ideal S1x128x1x1 .f32) (b : Fin 4) (ch : Fin 128) (h w : Fin 64) :
    chanAllK v (ix4 b ch h w) = v (ix4 (0 : Fin 1) ch (0 : Fin 1) (0 : Fin 1)) := by
  unfold chanAllK
  refine broadcastInDim_apply _ _ _ (ix4 b ch h w) (ix4 (0 : Fin 1) ch (0 : Fin 1) (0 : Fin 1)) fun a => ?_
  match a with
  | ⟨0, _⟩ => rfl
  | ⟨1, _⟩ => rfl
  | ⟨2, _⟩ => rfl
  | ⟨3, _⟩ => rfl

/-- bnK at (b, c, h, w): γ c · ((p b c h w − μ c) · rsqrt (v c + ε)) + β c, ε the literal's value. -/
theorem bnK_apply (p : FVec Ideal S4x128x64x64 .f32) (mu va g be : FVec Ideal S128 .f32)
    (b : Fin 4) (ch : Fin 128) (h w : Fin 64) :
    bnK p mu va g be (ix4 b ch h w)
      = g (ix1 ch) * ((p (ix4 b ch h w) - mu (ix1 ch))
          * Ideal.rsqrt (va (ix1 ch) + Ideal.ofBits .f32 0x3727C5AC#32)) + be (ix1 ch) := by
  unfold bnK
  rw [addf_apply, mulf_apply, mulf_apply, subf_apply, chanAllK_apply, chanAllK_apply, chanAllK_apply, chanAllK_apply,
    chan1K_apply, chan1K_apply, chan1K_apply]
  show _ * (_ * Ideal.rsqrt (chan1K va (ix4 (0 : Fin 1) ch (0 : Fin 1) (0 : Fin 1)) + _)) + _ = _
  rw [chan1K_apply, scalar_bcast_applyK]

/-- SiLU at an index: y · (1 / (1 + exp (−y))), the two 1 the literal's value. -/
theorem siluK_apply (y : FVec Ideal S4x128x64x64 .f32) (i : S4x128x64x64.Idx) :
    siluK y i = y i * Ideal.div (Ideal.ofBits .f32 0x3F800000#32)
      (Ideal.ofBits .f32 0x3F800000#32 + Ideal.exp (-(y i))) := by
  unfold siluK
  rw [mulf_apply, hostDivf_apply, addf_apply, scalar_bcast_applyK]
  rfl

/-- The normalised value the last stretch computes at (b, c, h, w), in closed form. -/
theorem tail_bn_apply (o : FVec Ideal S4x4096x128 .f32) (s1 s2 : FVec Ideal S4x1x128 .f32) (g be : FVec Ideal S128 .f32)
    (b : Fin 4) (ch : Fin 128) (h w : Fin 64) :
    bnK (imgK o) (meanK s1) (varK s1 s2) g be (ix4 b ch h w)
      = g (ix1 ch) * ((imgK o (ix4 b ch h w) - meanK s1 (ix1 ch))
          * Ideal.rsqrt (varK s1 s2 (ix1 ch) + Ideal.ofBits .f32 0x3727C5AC#32)) + be (ix1 ch) :=
  bnK_apply _ _ _ _ _ b ch h w

/-- The last stretch's result at (b, c, h, w): SiLU of the normalised value. -/
theorem tailOut_apply (o : FVec Ideal S4x4096x128 .f32) (s1 s2 : FVec Ideal S4x1x128 .f32) (g be : FVec Ideal S128 .f32)
    (b : Fin 4) (ch : Fin 128) (h w : Fin 64) :
    tailOut o s1 s2 g be (ix4 b ch h w)
      = bnK (imgK o) (meanK s1) (varK s1 s2) g be (ix4 b ch h w)
        * Ideal.div (Ideal.ofBits .f32 0x3F800000#32)
            (Ideal.ofBits .f32 0x3F800000#32 + Ideal.exp (-(bnK (imgK o) (meanK s1) (varK s1 s2) g be (ix4 b ch h w)))) := by
  unfold tailOut
  exact siluK_apply _ _

end Cert.KernelIdeal.HostValue

end
-- ==== Proof.LibColStat.lean ====
/-
  Columns of a rank-2 array: a column statistic, read at an index written by coordinates.

  A statistic of each column of an [a, b] array (a sum over the a rows) is a [b] vector: at column q it is the sum, over
  the row coordinate k, of the array at (k, q). This is the reduction along axis 0, the companion of the lane sum of a
  row statistic (the reduction along axis 1).
-/
import Idealize.ShloMosaic.PureOps.Ideal.Laws
import Idealize.ShloMosaic.Lib.ValueIdx
import Idealize.ShloMosaic.Lib.Pipeline.Value

namespace Cert.LibColStat

open Idealize.ShloMosaic Idealize.ShloMosaic.ValueIdx

/-- The sum of an `[a, b]` array over its rows reads, at column `q`, the sum over `k` of the array at `(k, q)`. At the
    ideal values. -/
theorem sum_rows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext
      (match ax with | ⟨0, _⟩ => rfl | ⟨1, _⟩ => rfl)))

end Cert.LibColStat
-- ==== Proof.VertexValue.lean ====
/-
  The vertex kernel's one-point arithmetic read at an index, at the ideal values.
  With r_p the feature row p of the batch, s_q the feature row q of the tile (the tile's centres) and e_q the tile's row
  q of the edge pass's result:
    incidence(p, q)  = 1 when |r_p|² + |s_q|² − 2⟨r_p, s_q⟩ < 256, else 0   (the edge pass's incidence entry);
    degrees'(p)      = degrees(p) + Σ_q incidence(p, q);
    sums'(p, d)      = sums(p, d) + Σ_q incidence(p, q) · e_q(d);
    finished(p, d)   = sums(p, d) · (1 / degrees(p) when degrees(p) > 0, else 0) + r_p(d);
    chanSum(d)       = Σ_p finished(p, d);
    chanSq(d)        = Σ_p finished(p, d)².
-/
import proofs.«147048_j80771154968988_2_alg».proof.Proof.VertexPieces
import proofs.«147048_j80771154968988_2_alg».proof.Proof.EdgeValue
import proofs.«147048_j80771154968988_2_alg».proof.Proof.LibColStat

set_option maxRecDepth 16384

noncomputable section

namespace Cert.KernelIdeal.Vertex

open Cert.KernelIdeal Cert.KernelIdeal.Gen
open Idealize.ShloMosaic Idealize.ShloMosaic.ValueIdx

/-- One tile's incidence block, entry by entry: the edge pass's incidence entry of the batch's row p and the tile's
    centre q. -/
theorem k1_pay9_apply (x0 : Vec Ideal S1x4096x128 .f32) (x1 : Vec Ideal S1x128x128 .f32) (p : Fin 4096) (q : Fin 128) :
    k1_pay9 x0 x1 (ix2 p q) = Edge.incEntry (Edge.rowOf x0 p) (Edge.rowOf x1 q) := by
  unfold k1_pay9 k1_pay8 Edge.incEntry Edge.dist2 Edge.rowOf
  show FloatOps.sitofp (F := Ideal) .f32 ((FloatOps.cmpf (F := Ideal) .olt (_ - _ * _) _).setWidth 32) = _
  refine congrArg (fun z => FloatOps.sitofp (F := Ideal) .f32 (BitVec.setWidth 32 z)) ?_
  show Ideal.cmp .olt _ _ = Ideal.cmp .olt _ _
  refine congrArg₂ (Ideal.cmp .olt) ?_ rfl
  refine congrArg₂ (· - ·) ?_ (congrArg₂ (· * ·) rfl ?_)
  · show _ + _ = _ + _
    refine congrArg₂ (· + ·) ?_ ?_
    · exact (LibPairwiseTile.rowNorm_apply _ _ _ _ _ _ _ p q).trans
        (Finset.sum_congr rfl fun c _ => by rw [shapeCast_1ab_ab_apply])
    · exact (LibPairwiseTile.colNorm_apply _ _ _ _ _ _ _ _ p q).trans
        (Finset.sum_congr rfl fun c _ => by rw [shapeCast_1ab_ab_apply])
  · exact (LibPairwiseTile.cross_apply (some .fp32) _ _ _ p q).trans
      (Finset.sum_congr rfl fun c _ => by rw [shapeCast_1ab_ab_apply, shapeCast_1ab_ab_apply])

/-- The degree column after a tile: the old degree of row p plus the row sum of the tile's incidence block. -/
theorem degStep_apply (x0 : Vec Ideal S1x4096x128 .f32) (x1 : Vec Ideal S1x128x128 .f32) (s : Vec Ideal S4096x1 .f32) (p : Fin 4096) :
    degStep x0 x1 s (ix2 p (0 : Fin 1)) = s (ix2 p (0 : Fin 1)) + ∑ q : Fin 128, k1_pay9 x0 x1 (ix2 p q) := by
  unfold degStep k1_pay10
  rw [shapeCast_self]
  refine (addf_apply (s := S4096x1) (φ := .f32) _ _ (ix2 p (0 : Fin 1))).trans ?_
  refine congrArg (_ + ·) ?_
  exact (LibKeepdims.shapeCast_a_a1_apply _ _ p 0).trans (LibRowStat.sum_lanes_apply _ _ _ _ _ p)

/-- The accumulation step as the kernel spells it: the old block at (p, d) plus row p of the left factor against
    column d of the right factor (both factors pass through the narrower float format, which at the ideal values
    changes nothing). -/
theorem k1_pay1_apply (v25 : FVec Ideal S4096x128 .f32) (v34 : FVec Ideal S128x128 .f32) (v35 : Vec Ideal S1x4096x128 .f32)
    (u : Fin 1) (p : Fin 4096) (d : Fin 128) :
    k1_pay1 v25 v34 v35 (ix3 u p d) = v35 (ix3 (0 : Fin 1) p d) + ∑ q : Fin 128, v25 (ix2 p q) * v34 (ix2 q d) := by
  unfold k1_pay1
  rw [shapeCast_ab_1ab_apply]
  show _ + _ = _ + _
  refine congrArg₂ (· + ·) (shapeCast_1ab_ab_apply _ _ p d) ?_
  refine (LibMatmulPlain.matmul_plain_zero_apply none _ _ p d).trans (Finset.sum_congr rfl fun q _ => ?_)
  rfl

/-- The output block after a tile: the old sum at (p, d) plus the tile's incidence row p against channel d of the tile's
    rows of the edge pass's result. -/
theorem accStep_apply (x0 : Vec Ideal S1x4096x128 .f32) (x1 x2 : Vec Ideal S1x128x128 .f32) (a : Vec Ideal S1x4096x128 .f32)
    (u : Fin 1) (p : Fin 4096) (d : Fin 128) :
    accStep x0 x1 x2 a (ix3 u p d)
      = a (ix3 (0 : Fin 1) p d) + ∑ q : Fin 128, k1_pay9 x0 x1 (ix2 p q) * x2 (ix3 (0 : Fin 1) q d) := by
  unfold accStep
  refine (k1_pay1_apply _ _ _ u p d).trans ?_
  refine congrArg (_ + ·) (Finset.sum_congr rfl fun q _ => ?_)
  refine congrArg (_ * ·) ?_
  unfold k1_pay11
  exact shapeCast_1ab_ab_apply _ _ q d

/-- The finishing step before the unit axis is put back: the sum at (p, d) times the reciprocal degree of row p, plus
    the residual at (p, d). -/
theorem k1_pay2_apply (v4 : FVec Ideal S4096x128 .f32) (v47 : Vec Ideal S4096x1 .f32) (v54 : Vec Ideal S1x4096x128 .f32)
    (p : Fin 4096) (d : Fin 128) :
    k1_pay2 v4 v47 v54 (ix2 p d) = v54 (ix3 (0 : Fin 1) p d) * Edge.invDeg (v47 (ix2 p (0 : Fin 1))) + v4 (ix2 p d) := by
  unfold k1_pay2 Edge.invDeg
  show _ * _ + _ = _ * _ + _
  refine congrArg (· + v4 (ix2 p d)) ?_
  show _ * _ = _ * _
  refine congrArg₂ (· * ·) (shapeCast_1ab_ab_apply _ _ p d) ?_
  exact LibRowStat.broadcastTo_a1_ab_apply _ _ p d

/-- The finished block is the finishing step with the unit axis put back. -/
theorem finish_eq (x0 : Vec Ideal S1x4096x128 .f32) (s : Vec Ideal S4096x1 .f32) (a : Vec Ideal S1x4096x128 .f32)
    (u : Fin 1) (p : Fin 4096) (d : Fin 128) :
    finish x0 s a (ix3 u p d) = k1_pay2 (k1_pay8 x0) s a (ix2 p d) := by
  unfold finish k1_pay3
  exact shapeCast_ab_1ab_apply _ _ u p d

/-- The finished block: the sum at (p, d) times the reciprocal degree of row p, plus the batch's own feature at (p, d). -/
theorem finish_apply (x0 : Vec Ideal S1x4096x128 .f32) (s : Vec Ideal S4096x1 .f32) (a : Vec Ideal S1x4096x128 .f32)
    (u : Fin 1) (p : Fin 4096) (d : Fin 128) :
    finish x0 s a (ix3 u p d)
      = a (ix3 (0 : Fin 1) p d) * Edge.invDeg (s (ix2 p (0 : Fin 1))) + x0 (ix3 (0 : Fin 1) p d) := by
  refine (finish_eq x0 s a u p d).trans ((k1_pay2_apply _ _ _ p d).trans ?_)
  refine congrArg (a (ix3 (0 : Fin 1) p d) * Edge.invDeg (s (ix2 p (0 : Fin 1))) + ·) ?_
  unfold k1_pay8
  exact shapeCast_1ab_ab_apply _ _ p d

/-- The first channel statistic: in channel d, the sum over the 4096 rows of the finished block. -/
theorem chanSum_apply (x0 : Vec Ideal S1x4096x128 .f32) (s : Vec Ideal S4096x1 .f32) (a : Vec Ideal S1x4096x128 .f32)
    (u v : Fin 1) (d : Fin 128) :
    chanSum x0 s a (ix3 u v d) = ∑ p : Fin 4096, finish x0 s a (ix3 (0 : Fin 1) p d) := by
  unfold chanSum k1_pay4
  refine (shapeCast_ab_1ab_apply _ _ u v d).trans ?_
  refine (shapeCast_a_1a_apply _ _ v d).trans ?_
  refine (LibColStat.sum_rows_apply _ _ _ _ _ d).trans (Finset.sum_congr rfl fun p _ => ?_)
  exact (finish_eq x0 s a 0 p d).symm

/-- The second channel statistic: in channel d, the sum over the 4096 rows of the finished block's square. -/
theorem chanSq_apply (x0 : Vec Ideal S1x4096x128 .f32) (s : Vec Ideal S4096x1 .f32) (a : Vec Ideal S1x4096x128 .f32)
    (u v : Fin 1) (d : Fin 128) :
    chanSq x0 s a (ix3 u v d)
      = ∑ p : Fin 4096, finish x0 s a (ix3 (0 : Fin 1) p d) * finish x0 s a (ix3 (0 : Fin 1) p d) := by
  unfold chanSq k1_pay5
  refine (shapeCast_ab_1ab_apply _ _ u v d).trans ?_
  refine (shapeCast_a_1a_apply _ _ v d).trans ?_
  refine (LibColStat.sum_rows_apply _ _ _ _ _ d).trans (Finset.sum_congr rfl fun p _ => ?_)
  rw [finish_eq x0 s a 0 p d]
  rfl

/-- The resets are zero everywhere. -/
theorem zeroAcc_apply (i : S1x4096x128.Idx) : zeroAcc (F := Ideal) i = Ideal.ofBits .f32 0x00000000#32 := by
  unfold zeroAcc k1_pay6; rfl
theorem zeroDeg_apply (i : S4096x1.Idx) : zeroDeg (F := Ideal) i = Ideal.ofBits .f32 0x00000000#32 := by
  unfold zeroDeg k1_pay7; rfl

end Cert.KernelIdeal.Vertex

end
-- ==== Proof.VertexBlocks.lean ====
/-
  Which rows of the arrays a vertex-region point reads and writes: point t = 32 b + j is handed all 4096 feature rows
  of batch b, rows 128 j … 128 j + 127 of the same batch as the tile's centres, and rows 128 j … 128 j + 127 of batch b
  of the edge pass's result; its three outputs' blocks are batch b of the vertex features (4096 rows) and batch b's one
  row of each of the two channel statistics.
-/
import proofs.«147048_j80771154968988_2_alg».proof.Proof.VertexValue
import proofs.«147048_j80771154968988_2_alg».proof.Proof.VertexData

set_option maxRecDepth 16384

noncomputable section

namespace Cert.KernelIdeal.Vertex

open Cert.KernelIdeal Cert.KernelIdeal.Gen
open Idealize.ShloMosaic Idealize.ShloMosaic.TcCoe Idealize.ShloMosaic.ValueIdx Idealize.SL.Sem
open Idealize.ShloMosaic.Pipeline (Dat)

/-! ## Which block a point reads or writes -/

theorem idx_rows : ∀ t : Fin cfg1.N, win1_0.index t 0 = t.val / 32 ∧ win1_0.index t 1 = 0 ∧ win1_0.index t 2 = 0 :=
  (by decide +kernel : ∀ t : Fin grid1.N, win1_0.index t 0 = t.val / 32 ∧ win1_0.index t 1 = 0 ∧ win1_0.index t 2 = 0)
theorem idx_tile : ∀ t : Fin cfg1.N, win1_1.index t 0 = t.val / 32 ∧ win1_1.index t 1 = t.val % 32 ∧ win1_1.index t 2 = 0 :=
  (by decide +kernel : ∀ t : Fin grid1.N, win1_1.index t 0 = t.val / 32 ∧ win1_1.index t 1 = t.val % 32 ∧ win1_1.index t 2 = 0)
theorem idx_edge : ∀ t : Fin cfg1.N, win1_2.index t 0 = t.val / 32 ∧ win1_2.index t 1 = t.val % 32 ∧ win1_2.index t 2 = 0 :=
  (by decide +kernel : ∀ t : Fin grid1.N, win1_2.index t 0 = t.val / 32 ∧ win1_2.index t 1 = t.val % 32 ∧ win1_2.index t 2 = 0)
theorem idx_out : ∀ t : Fin cfg1.N, win1_3.index t 0 = t.val / 32 ∧ win1_3.index t 1 = 0 ∧ win1_3.index t 2 = 0 :=
  (by decide +kernel : ∀ t : Fin grid1.N, win1_3.index t 0 = t.val / 32 ∧ win1_3.index t 1 = 0 ∧ win1_3.index t 2 = 0)
theorem idx_sum : ∀ t : Fin cfg1.N, win1_4.index t 0 = t.val / 32 ∧ win1_4.index t 1 = 0 ∧ win1_4.index t 2 = 0 :=
  (by decide +kernel : ∀ t : Fin grid1.N, win1_4.index t 0 = t.val / 32 ∧ win1_4.index t 1 = 0 ∧ win1_4.index t 2 = 0)
theorem idx_sq : ∀ t : Fin cfg1.N, win1_5.index t 0 = t.val / 32 ∧ win1_5.index t 1 = 0 ∧ win1_5.index t 2 = 0 :=
  (by decide +kernel : ∀ t : Fin grid1.N, win1_5.index t 0 = t.val / 32 ∧ win1_5.index t 1 = 0 ∧ win1_5.index t 2 = 0)

/-- The three outputs' blocks are whole (no block overhangs its array): their extents at every point. -/
theorem xs_out : ∀ t : Fin cfg1.N, win1_3.xsize (grid1.coords t) 0 = 1 ∧ win1_3.xsize (grid1.coords t) 1 = 4096 ∧ win1_3.xsize (grid1.coords t) 2 = 128 :=
  (by decide +kernel : ∀ t : Fin grid1.N, win1_3.xsize (grid1.coords t) 0 = 1 ∧ win1_3.xsize (grid1.coords t) 1 = 4096 ∧ win1_3.xsize (grid1.coords t) 2 = 128)
theorem xs_sum : ∀ t : Fin cfg1.N, win1_4.xsize (grid1.coords t) 0 = 1 ∧ win1_4.xsize (grid1.coords t) 1 = 1 ∧ win1_4.xsize (grid1.coords t) 2 = 128 :=
  (by decide +kernel : ∀ t : Fin grid1.N, win1_4.xsize (grid1.coords t) 0 = 1 ∧ win1_4.xsize (grid1.coords t) 1 = 1 ∧ win1_4.xsize (grid1.coords t) 2 = 128)
theorem xs_sq : ∀ t : Fin cfg1.N, win1_5.xsize (grid1.coords t) 0 = 1 ∧ win1_5.xsize (grid1.coords t) 1 = 1 ∧ win1_5.xsize (grid1.coords t) 2 = 128 :=
  (by decide +kernel : ∀ t : Fin grid1.N, win1_5.xsize (grid1.coords t) 0 = 1 ∧ win1_5.xsize (grid1.coords t) 1 = 1 ∧ win1_5.xsize (grid1.coords t) 2 = 128)

/-- The batch a point works on. -/
def batchOf (t : Fin cfg1.N) : Fin 4 := ⟨t.val / 32, Nat.div_lt_of_lt_mul (lt_of_lt_of_eq t.isLt N_1)⟩

/-- The last point of batch b: the one that finishes it and after which its three blocks are written back. -/
def lastOf (b : Fin 4) : Fin cfg1.N := ⟨32 * b.val + 31, lt_of_lt_of_eq (by have := b.isLt; omega) N_1.symm⟩

theorem lastOf_mod (b : Fin 4) : (lastOf b).val % 32 = 31 := by show (32 * b.val + 31) % 32 = 31; omega
theorem batchOf_lastOf (b : Fin 4) : batchOf (lastOf b) = b := Fin.ext (by show (32 * b.val + 31) / 32 = b.val; omega)
theorem lastOf_batchOf (t : Fin cfg1.N) (h : t.val % 32 = 31) : lastOf (batchOf t) = t :=
  Fin.ext (by show 32 * (t.val / 32) + 31 = t.val; omega)

variable {F : FTy → Type} [FloatOps F]
variable (V : (c : Dev nD) → (b : Ref sig .tc) → Buf (Elt F) ((c : Thread nD τ).loc b))

/-! ## The inputs' blocks -/

/-- The batch's rows: block (b, 0, 0) of the feature array. -/
theorem iblk_rows (c : Dev nD) (t : Fin cfg1.N) (u : Fin 1) (p : Fin 4096) (f : Fin 128) :
    (iblk V c 0 t : Vec F S1x4096x128 .f32) (ix3 u p f) = (V c main_v1 : S4x4096x128.Idx → Elt F .f32) (ix3 (batchOf t) p f) := by
  unfold iblk
  rw [View.read_apply]
  show V c main_v1 _ = V c main_v1 _
  congr 1
  funext a
  apply Fin.ext
  have hu : u.val = 0 := by omega
  match a with
  | ⟨0, _⟩ => show win1_0.index t 0 * 1 + 1 * u.val = t.val / 32; rw [(idx_rows t).1, hu]; omega
  | ⟨1, _⟩ => show win1_0.index t 1 * 4096 + 1 * p.val = p.val; rw [(idx_rows t).2.1]; omega
  | ⟨2, _⟩ => show win1_0.index t 2 * 128 + 1 * f.val = f.val; rw [(idx_rows t).2.2]; omega

/-- The tile's centres: rows 128 j … 128 j + 127 of the batch's features. -/
theorem iblk_tile (c : Dev nD) (t : Fin cfg1.N) (u : Fin 1) (q : Fin 128) (f : Fin 128) :
    (iblk V c 1 t : Vec F S1x128x128 .f32) (ix3 u q f)
      = (V c main_v1 : S4x4096x128.Idx → Elt F .f32) (ix3 (batchOf t) ⟨(128 * (t.val % 32) + q.val) % 4096, Nat.mod_lt _ (by decide)⟩ f) := by
  unfold iblk
  rw [View.read_apply]
  show V c main_v1 _ = V c main_v1 _
  congr 1
  funext a
  apply Fin.ext
  have hu : u.val = 0 := by omega
  have hq := q.isLt
  match a with
  | ⟨0, _⟩ => show win1_1.index t 0 * 1 + 1 * u.val = t.val / 32; rw [(idx_tile t).1, hu]; omega
  | ⟨1, _⟩ => show win1_1.index t 1 * 128 + 1 * q.val = (128 * (t.val % 32) + q.val) % 4096; rw [(idx_tile t).2.1]; omega
  | ⟨2, _⟩ => show win1_1.index t 2 * 128 + 1 * f.val = f.val; rw [(idx_tile t).2.2]; omega

/-- The tile's rows of the edge pass's result: rows 128 j … 128 j + 127 of batch b of that array. -/
theorem iblk_edge (c : Dev nD) (t : Fin cfg1.N) (u : Fin 1) (q : Fin 128) (f : Fin 128) :
    (iblk V c 2 t : Vec F S1x128x128 .f32) (ix3 u q f)
      = (V c main_v3 : S4x4096x128.Idx → Elt F .f32) (ix3 (batchOf t) ⟨(128 * (t.val % 32) + q.val) % 4096, Nat.mod_lt _ (by decide)⟩ f) := by
  unfold iblk
  rw [View.read_apply]
  show V c main_v3 _ = V c main_v3 _
  congr 1
  funext a
  apply Fin.ext
  have hu : u.val = 0 := by omega
  have hq := q.isLt
  match a with
  | ⟨0, _⟩ => show win1_2.index t 0 * 1 + 1 * u.val = t.val / 32; rw [(idx_edge t).1, hu]; omega
  | ⟨1, _⟩ => show win1_2.index t 1 * 128 + 1 * q.val = (128 * (t.val % 32) + q.val) % 4096; rw [(idx_edge t).2.1]; omega
  | ⟨2, _⟩ => show win1_2.index t 2 * 128 + 1 * f.val = f.val; rw [(idx_edge t).2.2]; omega

/-! ## The outputs' blocks, read off any contents of their arrays -/

/-- Block t of the vertex-feature array is batch b's 4096 rows. -/
theorem read_blk_out (c : Dev nD) (t : Fin cfg1.N) (G : Buf (Elt F) ((cfg1.win 3).arr.view.loc (c.tc : Thread nD τ)))
    (u : Fin 1) (p : Fin 4096) (d : Fin 128) :
    (((cfg1.win 3).blk t).view.read (Elt F) G : Vec F S1x4096x128 .f32) (ix3 u p d)
      = (G : S4x4096x128.Idx → Elt F .f32) (ix3 (batchOf t) p d) := by
  rw [View.read_apply]
  show G _ = G _
  congr 1
  funext a
  apply Fin.ext
  have hu : u.val = 0 := by omega
  match a with
  | ⟨0, _⟩ => show win1_3.index t 0 * 1 + 1 * u.val = t.val / 32; rw [(idx_out t).1, hu]; omega
  | ⟨1, _⟩ => show win1_3.index t 1 * 4096 + 1 * p.val = p.val; rw [(idx_out t).2.1]; omega
  | ⟨2, _⟩ => show win1_3.index t 2 * 128 + 1 * d.val = d.val; rw [(idx_out t).2.2]; omega

/-- Block t of the channel-sum array is batch b's one row. -/
theorem read_blk_sum (c : Dev nD) (t : Fin cfg1.N) (G : Buf (Elt F) ((cfg1.win 4).arr.view.loc (c.tc : Thread nD τ)))
    (u v : Fin 1) (d : Fin 128) :
    (((cfg1.win 4).blk t).view.read (Elt F) G : Vec F S1x1x128 .f32) (ix3 u v d)
      = (G : S4x1x128.Idx → Elt F .f32) (ix3 (batchOf t) (0 : Fin 1) d) := by
  rw [View.read_apply]
  show G _ = G _
  congr 1
  funext a
  apply Fin.ext
  have hu : u.val = 0 := by omega
  have hv : v.val = 0 := by omega
  match a with
  | ⟨0, _⟩ => show win1_4.index t 0 * 1 + 1 * u.val = t.val / 32; rw [(idx_sum t).1, hu]; omega
  | ⟨1, _⟩ => show win1_4.index t 1 * 1 + 1 * v.val = 0; rw [(idx_sum t).2.1, hv]
  | ⟨2, _⟩ => show win1_4.index t 2 * 128 + 1 * d.val = d.val; rw [(idx_sum t).2.2]; omega

/-- Block t of the channel-square-sum array is batch b's one row. -/
theorem read_blk_sq (c : Dev nD) (t : Fin cfg1.N) (G : Buf (Elt F) ((cfg1.win 5).arr.view.loc (c.tc : Thread nD τ)))
    (u v : Fin 1) (d : Fin 128) :
    (((cfg1.win 5).blk t).view.read (Elt F) G : Vec F S1x1x128 .f32) (ix3 u v d)
      = (G : S4x1x128.Idx → Elt F .f32) (ix3 (batchOf t) (0 : Fin 1) d) := by
  rw [View.read_apply]
  show G _ = G _
  congr 1
  funext a
  apply Fin.ext
  have hu : u.val = 0 := by omega
  have hv : v.val = 0 := by omega
  match a with
  | ⟨0, _⟩ => show win1_5.index t 0 * 1 + 1 * u.val = t.val / 32; rw [(idx_sq t).1, hu]; omega
  | ⟨1, _⟩ => show win1_5.index t 1 * 1 + 1 * v.val = 0; rw [(idx_sq t).2.1, hv]
  | ⟨2, _⟩ => show win1_5.index t 2 * 128 + 1 * d.val = d.val; rw [(idx_sq t).2.2]; omega

/-! ## The outputs' blocks cover their arrays -/

/-- Every element of the vertex-feature array lies in the block its batch's last point writes back. -/
theorem cover_out (b : Fin 4) (p : Fin 4096) (d : Fin 128) :
    ∃ t : Fin cfg1.N, (cfg1.win 3).flush t = true ∧ (ix3 b p d : S4x4096x128.Idx) ∈ ((cfg1.win 3).blk t).view.set := by
  refine ⟨lastOf b, (flush1_3 _).mpr (lastOf_mod b), ?_⟩
  show (ix3 b p d : S4x4096x128.Idx) ∈ ((View.whole main_v4_0).slice (win1_3.rect (lastOf b))).set
  rw [View.set_slice_whole, Rect.mem_set_unit]
  intro a
  have hb := b.isLt; have hp := p.isLt; have hd := d.isLt
  match a with
  | ⟨0, _⟩ => show win1_3.index (lastOf b) 0 * 1 ≤ b.val ∧ b.val < win1_3.index (lastOf b) 0 * 1 + win1_3.xsize (grid1.coords (lastOf b)) 0
              rw [(idx_out _).1, (xs_out _).1]; show (32 * b.val + 31) / 32 * 1 ≤ b.val ∧ b.val < (32 * b.val + 31) / 32 * 1 + 1; omega
  | ⟨1, _⟩ => show win1_3.index (lastOf b) 1 * 4096 ≤ p.val ∧ p.val < win1_3.index (lastOf b) 1 * 4096 + win1_3.xsize (grid1.coords (lastOf b)) 1
              rw [(idx_out _).2.1, (xs_out _).2.1]; omega
  | ⟨2, _⟩ => show win1_3.index (lastOf b) 2 * 128 ≤ d.val ∧ d.val < win1_3.index (lastOf b) 2 * 128 + win1_3.xsize (grid1.coords (lastOf b)) 2
              rw [(idx_out _).2.2, (xs_out _).2.2]; omega

/-- Every element of the channel-sum array lies in the block its batch's last point writes back. -/
theorem cover_sum (b : Fin 4) (v : Fin 1) (d : Fin 128) :
    ∃ t : Fin cfg1.N, (cfg1.win 4).flush t = true ∧ (ix3 b v d : S4x1x128.Idx) ∈ ((cfg1.win 4).blk t).view.set := by
  refine ⟨lastOf b, (flush1_4 _).mpr (lastOf_mod b), ?_⟩
  show (ix3 b v d : S4x1x128.Idx) ∈ ((View.whole main_v4_1).slice (win1_4.rect (lastOf b))).set
  rw [View.set_slice_whole, Rect.mem_set_unit]
  intro a
  have hb := b.isLt; have hv := v.isLt; have hd := d.isLt
  match a with
  | ⟨0, _⟩ => show win1_4.index (lastOf b) 0 * 1 ≤ b.val ∧ b.val < win1_4.index (lastOf b) 0 * 1 + win1_4.xsize (grid1.coords (lastOf b)) 0
              rw [(idx_sum _).1, (xs_sum _).1]; show (32 * b.val + 31) / 32 * 1 ≤ b.val ∧ b.val < (32 * b.val + 31) / 32 * 1 + 1; omega
  | ⟨1, _⟩ => show win1_4.index (lastOf b) 1 * 1 ≤ v.val ∧ v.val < win1_4.index (lastOf b) 1 * 1 + win1_4.xsize (grid1.coords (lastOf b)) 1
              rw [(idx_sum _).2.1, (xs_sum _).2.1]; omega
  | ⟨2, _⟩ => show win1_4.index (lastOf b) 2 * 128 ≤ d.val ∧ d.val < win1_4.index (lastOf b) 2 * 128 + win1_4.xsize (grid1.coords (lastOf b)) 2
              rw [(idx_sum _).2.2, (xs_sum _).2.2]; omega

/-- Every element of the channel-square-sum array lies in the block its batch's last point writes back. -/
theorem cover_sq (b : Fin 4) (v : Fin 1) (d : Fin 128) :
    ∃ t : Fin cfg1.N, (cfg1.win 5).flush t = true ∧ (ix3 b v d : S4x1x128.Idx) ∈ ((cfg1.win 5).blk t).view.set := by
  refine ⟨lastOf b, (flush1_5 _).mpr (lastOf_mod b), ?_⟩
  show (ix3 b v d : S4x1x128.Idx) ∈ ((View.whole main_v4_2).slice (win1_5.rect (lastOf b))).set
  rw [View.set_slice_whole, Rect.mem_set_unit]
  intro a
  have hb := b.isLt; have hv := v.isLt; have hd := d.isLt
  match a with
  | ⟨0, _⟩ => show win1_5.index (lastOf b) 0 * 1 ≤ b.val ∧ b.val < win1_5.index (lastOf b) 0 * 1 + win1_5.xsize (grid1.coords (lastOf b)) 0
              rw [(idx_sq _).1, (xs_sq _).1]; show (32 * b.val + 31) / 32 * 1 ≤ b.val ∧ b.val < (32 * b.val + 31) / 32 * 1 + 1; omega
  | ⟨1, _⟩ => show win1_5.index (lastOf b) 1 * 1 ≤ v.val ∧ v.val < win1_5.index (lastOf b) 1 * 1 + win1_5.xsize (grid1.coords (lastOf b)) 1
              rw [(idx_sq _).2.1, (xs_sq _).2.1]; omega
  | ⟨2, _⟩ => show win1_5.index (lastOf b) 2 * 128 ≤ d.val ∧ d.val < win1_5.index (lastOf b) 2 * 128 + win1_5.xsize (grid1.coords (lastOf b)) 2
              rw [(idx_sq _).2.2, (xs_sq _).2.2]; omega

end Cert.KernelIdeal.Vertex

end
-- ==== Proof.VertexAcc.lean ====
/-
  The vertex region's three output arrays in closed form, at the ideal values, over the region-entry contents V.
  With r_e the feature row e of batch b (array main_v1) and g_e the row e of batch b of the edge pass's result
  (array main_v3), and inc(p, e) the incidence entry of rows p and e of batch b:
    degrees(p)  = 0 + Σ_e inc(p, e),            sums(p, d) = 0 + Σ_e inc(p, e) · g_e(d)       (e over all 4096 rows:
                                                                   the 32 tiles of 128 rows, in the grid's order),
    out(b, p, d) = sums(p, d) · (1 / degrees(p) when degrees(p) > 0, else 0) + r_p(d),
    sum(b, d)    = Σ_p out(b, p, d),             sq(b, d)  = Σ_p out(b, p, d)².
  One point adds one tile's terms to the two running sums; after j + 1 tiles the running sums are the sums over the
  first j + 1 tiles; the 32 tiles together are the 4096 rows; the last point of each batch writes the batch's blocks
  back, and these blocks cover the three arrays.
-/
import proofs.«147048_j80771154968988_2_alg».proof.Proof.VertexBlocks
import proofs.«147048_j80771154968988_2_alg».proof.Proof.LibBlockSum
import Idealize.ShloMosaic.Lib.Pipeline.Value

set_option maxRecDepth 16384

noncomputable section

namespace Cert.KernelIdeal.Vertex

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered, at the ideal values
variable (V : (c : Dev nD) → (b : Ref sig .tc) → Buf (Elt Ideal) ((c : Thread nD τ).loc b))

/-! ## The entry contents, plainly typed -/

/-- Zero, as the kernel's resets spell it. -/
abbrev Z : EReal := Ideal.ofBits .f32 0x00000000#32

/-- Feature (b, e, f) of the region-entry feature array. -/
def feat (c : Dev nD) (b : Fin 4) (e : Fin 4096) (f : Fin 128) : EReal := (V c main_v1 : S4x4096x128.Idx → EReal) (ix3 b e f)
/-- Entry (b, e, d) of the edge pass's result as the region finds it. -/
def edgeFeat (c : Dev nD) (b : Fin 4) (e : Fin 4096) (d : Fin 128) : EReal := (V c main_v3 : S4x4096x128.Idx → EReal) (ix3 b e d)
/-- Feature row e of batch b. -/
def rowB (c : Dev nD) (b : Fin 4) (e : Fin 4096) : Fin 128 → EReal := fun f => feat V c b e f
/-- The incidence entry of rows p and e of batch b: 1 when their squared distance is below 256, else 0. -/
def incB (c : Dev nD) (b : Fin 4) (p e : Fin 4096) : EReal := Edge.incEntry (rowB V c b p) (rowB V c b e)
/-- Row q of tile j, as a row of the batch. -/
def tileRow (j : ℕ) (q : Fin 128) : Fin 4096 := ⟨(128 * j + q.val) % 4096, Nat.mod_lt _ (by decide)⟩

theorem tileRow_eq (j : ℕ) (q : Fin 128) : tileRow j q = ⟨(128 * j + q.val) % 4096, Nat.mod_lt _ (by decide)⟩ := rfl

/-- Two functions of a rank-3 index agree when they agree at every index written by coordinates. -/
theorem ext_ix3 {n0 n1 n2 : ℕ} {α : Type} {f g : (⟨3, ![n0, n1, n2]⟩ : Shape).Idx → α}
    (h : ∀ (u : Fin n0) (p : Fin n1) (d : Fin n2), f (ix3 u p d) = g (ix3 u p d)) : f = g :=
  funext fun x => (congrArg f (eq_ix3 x)).trans ((h _ _ _).trans (congrArg g (eq_ix3 x)).symm)

/-! ## One point -/

/-- The incidence entry the body forms from its two feature blocks is the batch's. -/
theorem inc_blk (c : Dev nD) (t : Fin cfg1.N) (p : Fin 4096) (q : Fin 128) :
    Edge.incEntry (Edge.rowOf (iblk V c 0 t : Vec Ideal S1x4096x128 .f32) p) (Edge.rowOf (iblk V c 1 t : Vec Ideal S1x128x128 .f32) q)
      = incB V c (batchOf t) p (tileRow (t.val % 32) q) := by
  unfold incB
  congr 1
  · funext f; exact iblk_rows V c t 0 p f
  · funext f; exact iblk_tile V c t 0 q f

/-- One point adds, to the degree of row p, the tile's incidence entries of row p. -/
theorem step_deg (c : Dev nD) (t : Fin cfg1.N) (st : Vec Ideal S1x4096x128 .f32 × Vec Ideal S4096x1 .f32) (p : Fin 4096) :
    (step V c t st).2 (ix2 p (0 : Fin 1))
      = st.2 (ix2 p (0 : Fin 1)) + ∑ q : Fin 128, incB V c (batchOf t) p (tileRow (t.val % 32) q) := by
  unfold step; dsimp only
  refine (degStep_apply _ _ _ p).trans (congrArg (fun z : EReal => st.2 (ix2 p (0 : Fin 1)) + z) (Finset.sum_congr rfl fun q _ => ?_))
  exact (k1_pay9_apply _ _ p q).trans (inc_blk V c t p q)

/-- One point adds, to the sum at (p, d), the tile's incidence entries of row p against channel d of the tile's rows of the
    edge pass's result. -/
theorem step_acc (c : Dev nD) (t : Fin cfg1.N) (st : Vec Ideal S1x4096x128 .f32 × Vec Ideal S4096x1 .f32)
    (u : Fin 1) (p : Fin 4096) (d : Fin 128) :
    (step V c t st).1 (ix3 u p d)
      = st.1 (ix3 (0 : Fin 1) p d)
        + ∑ q : Fin 128, incB V c (batchOf t) p (tileRow (t.val % 32) q) * edgeFeat V c (batchOf t) (tileRow (t.val % 32) q) d := by
  unfold step; dsimp only
  refine (accStep_apply _ _ _ _ u p d).trans (congrArg (fun z : EReal => st.1 (ix3 (0 : Fin 1) p d) + z) (Finset.sum_congr rfl fun q _ => ?_))
  refine congrArg₂ (fun a b : EReal => a * b) ((k1_pay9_apply _ _ p q).trans (inc_blk V c t p q)) ?_
  exact iblk_edge V c t 0 q d

/-! ## The running sums after j + 1 tiles of a batch -/

/-- After tile j of batch b the degree of row p is zero plus the incidence entries of row p against the first j + 1 tiles. -/
theorem stAt_deg (c : Dev nD) (b : Fin 4) (p : Fin 4096) (j : ℕ) :
    ∀ (n : ℕ) (hn : n < cfg1.N), n = 32 * b.val + j → j < 32 →
      (stAt V c n hn).2 (ix2 p (0 : Fin 1))
        = Z + ∑ j' ∈ Finset.range (j + 1), ∑ q : Fin 128, incB V c b p (tileRow j' q) := by
  induction j with
  | zero =>
    intro n hn hnj _
    have h0 : n % 32 = 0 := by omega
    have hb : batchOf ⟨n, hn⟩ = b := Fin.ext (by show n / 32 = b.val; omega)
    rw [(stAt_first V c ⟨n, hn⟩ h0 : stAt V c n hn = _), step_deg, hb, Finset.sum_range_one]
    show zeroDeg (F := Ideal) (ix2 p (0 : Fin 1)) + ∑ q : Fin 128, incB V c b p (tileRow (n % 32) q) = _
    rw [zeroDeg_apply, h0]
  | succ j ih =>
    intro n hn hnj hj
    have h0 : ¬ n % 32 = 0 := by omega
    have hb : batchOf ⟨n, hn⟩ = b := Fin.ext (by show n / 32 = b.val; omega)
    have hm : n % 32 = j + 1 := by omega
    rw [(stAt_next V c ⟨n, hn⟩ h0 : stAt V c n hn = _), step_deg, hb]
    show (stAt V c (n - 1) _).2 (ix2 p (0 : Fin 1)) + ∑ q : Fin 128, incB V c b p (tileRow (n % 32) q) = _
    rw [ih (n - 1) _ (by omega) (by omega), hm, Finset.sum_range_succ _ (j + 1), add_assoc]

/-- After tile j of batch b the sum at (p, d) is zero plus, over the first j + 1 tiles, the incidence entries of row p against
    channel d of the edge pass's rows. -/
theorem stAt_acc (c : Dev nD) (b : Fin 4) (p : Fin 4096) (d : Fin 128) (j : ℕ) :
    ∀ (n : ℕ) (hn : n < cfg1.N), n = 32 * b.val + j → j < 32 →
      (stAt V c n hn).1 (ix3 (0 : Fin 1) p d)
        = Z + ∑ j' ∈ Finset.range (j + 1), ∑ q : Fin 128, incB V c b p (tileRow j' q) * edgeFeat V c b (tileRow j' q) d := by
  induction j with
  | zero =>
    intro n hn hnj _
    have h0 : n % 32 = 0 := by omega
    have hb : batchOf ⟨n, hn⟩ = b := Fin.ext (by show n / 32 = b.val; omega)
    rw [(stAt_first V c ⟨n, hn⟩ h0 : stAt V c n hn = _), step_acc, hb, Finset.sum_range_one]
    show zeroAcc (F := Ideal) (ix3 (0 : Fin 1) p d) + ∑ q : Fin 128, incB V c b p (tileRow (n % 32) q) * edgeFeat V c b (tileRow (n % 32) q) d = _
    rw [zeroAcc_apply, h0]
  | succ j ih =>
    intro n hn hnj hj
    have h0 : ¬ n % 32 = 0 := by omega
    have hb : batchOf ⟨n, hn⟩ = b := Fin.ext (by show n / 32 = b.val; omega)
    have hm : n % 32 = j + 1 := by omega
    rw [(stAt_next V c ⟨n, hn⟩ h0 : stAt V c n hn = _), step_acc, hb]
    show (stAt V c (n - 1) _).1 (ix3 (0 : Fin 1) p d) + ∑ q : Fin 128, incB V c b p (tileRow (n % 32) q) * edgeFeat V c b (tileRow (n % 32) q) d = _
    rw [ih (n - 1) _ (by omega) (by omega), hm, Finset.sum_range_succ _ (j + 1), add_assoc]

/-! ## The 32 tiles are the 4096 rows -/

/-- A sum over the 32 tiles of the sums over each tile's 128 rows is the sum over the batch's 4096 rows. -/
theorem sum_tiles {M : Type} [AddCommMonoid M] (g : Fin 4096 → M) :
    ∑ j' ∈ Finset.range 32, ∑ q : Fin 128, g (tileRow j' q) = ∑ e : Fin 4096, g e := by
  rw [Finset.sum_range fun j' => ∑ q : Fin 128, g (tileRow j' q)]
  refine Eq.trans ?_ (LibBlockSum.sum_blocks (n := 32) (b := 128) g)
  refine Finset.sum_congr rfl fun j _ => Finset.sum_congr rfl fun q _ => congrArg g (Fin.ext ?_)
  show (128 * j.val + q.val) % 4096 = q.val + 128 * j.val
  have := j.isLt; have := q.isLt; omega

/-! ## The last tile of a batch -/

/-- After the batch's last tile the degree of row p counts the incidence entries of row p against all 4096 rows. -/
theorem deg_last (c : Dev nD) (b : Fin 4) (p : Fin 4096) :
    (stAt V c (lastOf b).val (lastOf b).isLt).2 (ix2 p (0 : Fin 1)) = Z + ∑ e : Fin 4096, incB V c b p e := by
  rw [stAt_deg V c b p 31 (lastOf b).val (lastOf b).isLt rfl (by decide), sum_tiles]

/-- After the batch's last tile the sum at (p, d) runs over all 4096 rows. -/
theorem acc_last (c : Dev nD) (b : Fin 4) (p : Fin 4096) (d : Fin 128) :
    (stAt V c (lastOf b).val (lastOf b).isLt).1 (ix3 (0 : Fin 1) p d) = Z + ∑ e : Fin 4096, incB V c b p e * edgeFeat V c b e d := by
  rw [stAt_acc V c b p d 31 (lastOf b).val (lastOf b).isLt rfl (by decide), sum_tiles fun e => incB V c b p e * edgeFeat V c b e d]

/-- The finished block of batch b, entry by entry. -/
theorem outAfter_last (c : Dev nD) (b : Fin 4) (u : Fin 1) (p : Fin 4096) (d : Fin 128) :
    outAfter V c (lastOf b) (ix3 u p d)
      = (Z + ∑ e : Fin 4096, incB V c b p e * edgeFeat V c b e d) * Edge.invDeg (Z + ∑ e : Fin 4096, incB V c b p e) + feat V c b p d := by
  have hx : (iblk V c 0 (lastOf b) : Vec Ideal S1x4096x128 .f32) (ix3 (0 : Fin 1) p d) = feat V c b p d :=
    (iblk_rows V c (lastOf b) 0 p d).trans (by rw [batchOf_lastOf]; rfl)
  unfold outAfter
  rw [if_pos (lastOf_mod b), finish_apply, acc_last, deg_last, hx]

/-- The batch's channel sums: over its 4096 rows, the finished block. -/
theorem sumAfter_last (c : Dev nD) (b : Fin 4) (u v : Fin 1) (d : Fin 128) :
    sumAfter V c (lastOf b) (ix3 u v d) = ∑ p : Fin 4096, outAfter V c (lastOf b) (ix3 (0 : Fin 1) p d) := by
  unfold sumAfter
  rw [chanSum_apply]
  refine Finset.sum_congr rfl fun p _ => ?_
  unfold outAfter; rw [if_pos (lastOf_mod b)]

/-- The batch's channel sums of squares: over its 4096 rows, the finished block's square. -/
theorem sqAfter_last (c : Dev nD) (b : Fin 4) (u v : Fin 1) (d : Fin 128) :
    sqAfter V c (lastOf b) (ix3 u v d)
      = ∑ p : Fin 4096, outAfter V c (lastOf b) (ix3 (0 : Fin 1) p d) * outAfter V c (lastOf b) (ix3 (0 : Fin 1) p d) := by
  unfold sqAfter
  rw [chanSq_apply]
  refine Finset.sum_congr rfl fun p _ => ?_
  unfold outAfter; rw [if_pos (lastOf_mod b)]

/-! ## The three arrays after the region -/

/-- Entry (b, p, d) of the vertex features the region leaves. -/
def outB (c : Dev nD) (b : Fin 4) (p : Fin 4096) (d : Fin 128) : EReal := outAfter V c (lastOf b) (ix3 (0 : Fin 1) p d)
/-- The vertex-feature array the region leaves. -/
def vertOut (c : Dev nD) : S4x4096x128.Idx → EReal := fun i => outB V c (i 0) (i 1) (i 2)
/-- The channel-sum array the region leaves. -/
def vertSum (c : Dev nD) : S4x1x128.Idx → EReal := fun i => ∑ p : Fin 4096, outB V c (i 0) p (i 2)
/-- The channel-square-sum array the region leaves. -/
def vertSq (c : Dev nD) : S4x1x128.Idx → EReal := fun i => ∑ p : Fin 4096, outB V c (i 0) p (i 2) * outB V c (i 0) p (i 2)

/-- What a batch's last point writes back as vertex features is the batch's block of `vertOut`. -/
theorem flushed_out (c : Dev nD) (t : Fin cfg1.N) (hf : (cfg1.win 3).flush t = true) :
    (dat V c).flushed 3 t = ((cfg1.win 3).blk t).view.read (Elt Ideal) (vertOut V c) := by
  obtain ⟨b, rfl⟩ : ∃ b, t = lastOf b := ⟨batchOf t, (lastOf_batchOf t ((flush1_3 t).mp hf)).symm⟩
  show (cfg1.win 3).cut (grid1.coords (lastOf b)) ((dat V c).after 3 (lastOf b)) = _
  rw [after_3]
  refine ext_ix3 (n0 := 1) (n1 := 4096) (n2 := 128) fun u p d => ?_
  refine Eq.trans ?_ (read_blk_out (F := Ideal) c (lastOf b) (vertOut V c : Buf (Elt Ideal) ((cfg1.win 3).arr.view.loc (c.tc : Thread nD τ))) u p d).symm
  show outAfter V c (lastOf b) (ix3 u p d) = outAfter V c (lastOf (batchOf (lastOf b))) (ix3 (0 : Fin 1) p d)
  rw [batchOf_lastOf, Subsingleton.elim u (0 : Fin 1)]

/-- What it writes back as channel sums is the batch's row of `vertSum`. -/
theorem flushed_sum (c : Dev nD) (t : Fin cfg1.N) (hf : (cfg1.win 4).flush t = true) :
    (dat V c).flushed 4 t = ((cfg1.win 4).blk t).view.read (Elt Ideal) (vertSum V c) := by
  obtain ⟨b, rfl⟩ : ∃ b, t = lastOf b := ⟨batchOf t, (lastOf_batchOf t ((flush1_4 t).mp hf)).symm⟩
  show (cfg1.win 4).cut (grid1.coords (lastOf b)) ((dat V c).after 4 (lastOf b)) = _
  rw [after_4]
  refine ext_ix3 (n0 := 1) (n1 := 1) (n2 := 128) fun u v d => ?_
  refine Eq.trans ?_ (read_blk_sum (F := Ideal) c (lastOf b) (vertSum V c : Buf (Elt Ideal) ((cfg1.win 4).arr.view.loc (c.tc : Thread nD τ))) u v d).symm
  show sumAfter V c (lastOf b) (ix3 u v d) = ∑ p : Fin 4096, outAfter V c (lastOf (batchOf (lastOf b))) (ix3 (0 : Fin 1) p d)
  rw [batchOf_lastOf, sumAfter_last]

/-- What it writes back as channel sums of squares is the batch's row of `vertSq`. -/
theorem flushed_sq (c : Dev nD) (t : Fin cfg1.N) (hf : (cfg1.win 5).flush t = true) :
    (dat V c).flushed 5 t = ((cfg1.win 5).blk t).view.read (Elt Ideal) (vertSq V c) := by
  obtain ⟨b, rfl⟩ : ∃ b, t = lastOf b := ⟨batchOf t, (lastOf_batchOf t ((flush1_5 t).mp hf)).symm⟩
  show (cfg1.win 5).cut (grid1.coords (lastOf b)) ((dat V c).after 5 (lastOf b)) = _
  rw [after_5]
  refine ext_ix3 (n0 := 1) (n1 := 1) (n2 := 128) fun u v d => ?_
  refine Eq.trans ?_ (read_blk_sq (F := Ideal) c (lastOf b) (vertSq V c : Buf (Elt Ideal) ((cfg1.win 5).arr.view.loc (c.tc : Thread nD τ))) u v d).symm
  show sqAfter V c (lastOf b) (ix3 u v d)
    = ∑ p : Fin 4096, outAfter V c (lastOf (batchOf (lastOf b))) (ix3 (0 : Fin 1) p d) * outAfter V c (lastOf (batchOf (lastOf b))) (ix3 (0 : Fin 1) p d)
  rw [batchOf_lastOf, sqAfter_last]

/-- The vertex-feature array ends holding `vertOut`. -/
theorem final_out (c : Dev nD) : (dat V c).arrAt 3 cfg1.N = vertOut V c :=
  (dat V c).arrAt_eq_of_cover 3 (vertOut V c) (flushed_out V c) fun i => by
    have h := cover_out (i 0) (i 1) (i 2)
    have e : (ix3 (i 0) (i 1) (i 2) : S4x4096x128.Idx) = i := (eq_ix3 (n0 := 4) (n1 := 4096) (n2 := 128) i).symm
    rw [e] at h; exact h

/-- The channel-sum array ends holding `vertSum`. -/
theorem final_sum (c : Dev nD) : (dat V c).arrAt 4 cfg1.N = vertSum V c :=
  (dat V c).arrAt_eq_of_cover 4 (vertSum V c) (flushed_sum V c) fun i => by
    have h := cover_sum (i 0) (i 1) (i 2)
    have e : (ix3 (i 0) (i 1) (i 2) : S4x1x128.Idx) = i := (eq_ix3 (n0 := 4) (n1 := 1) (n2 := 128) i).symm
    rw [e] at h; exact h

/-- The channel-square-sum array ends holding `vertSq`. -/
theorem final_sq (c : Dev nD) : (dat V c).arrAt 5 cfg1.N = vertSq V c :=
  (dat V c).arrAt_eq_of_cover 5 (vertSq V c) (flushed_sq V c) fun i => by
    have h := cover_sq (i 0) (i 1) (i 2)
    have e : (ix3 (i 0) (i 1) (i 2) : S4x1x128.Idx) = i := (eq_ix3 (n0 := 4) (n1 := 1) (n2 := 128) i).symm
    rw [e] at h; exact h

/-! ## The three arrays, entry by entry -/

/-- The vertex-feature array after the region's write-backs, plainly typed. -/
def arrOut (c : Dev nD) : S4x4096x128.Idx → EReal := (dat V c).arrAt 3 cfg1.N
/-- The channel-sum array after the region's write-backs, plainly typed. -/
def arrSum (c : Dev nD) : S4x1x128.Idx → EReal := (dat V c).arrAt 4 cfg1.N
/-- The channel-square-sum array after the region's write-backs, plainly typed. -/
def arrSq (c : Dev nD) : S4x1x128.Idx → EReal := (dat V c).arrAt 5 cfg1.N

theorem arrOut_eq (c : Dev nD) : arrOut V c = vertOut V c := final_out V c
theorem arrSum_eq (c : Dev nD) : arrSum V c = vertSum V c := final_sum V c
theorem arrSq_eq (c : Dev nD) : arrSq V c = vertSq V c := final_sq V c

/-- Entry (b, p, d) of the vertex features: the incidence-weighted sum of the edge pass's rows over all 4096 rows of the batch,
    divided by the row's degree (zero where the degree is zero), plus the vertex's own feature. -/
theorem vertOut_apply (c : Dev nD) (b : Fin 4) (p : Fin 4096) (d : Fin 128) :
    arrOut V c (ix3 b p d)
      = (Z + ∑ e : Fin 4096, incB V c b p e * edgeFeat V c b e d) * Edge.invDeg (Z + ∑ e : Fin 4096, incB V c b p e) + feat V c b p d := by
  rw [arrOut_eq]
  exact outAfter_last V c b 0 p d

/-- Entry (b, 0, d) of the channel sums: the sum over the batch's 4096 rows of the vertex features in channel d. -/
theorem vertSum_apply (c : Dev nD) (b : Fin 4) (d : Fin 128) :
    arrSum V c (ix3 b (0 : Fin 1) d) = ∑ p : Fin 4096, arrOut V c (ix3 b p d) := by
  rw [arrSum_eq, arrOut_eq]
  rfl

/-- Entry (b, 0, d) of the channel sums of squares: the sum over the batch's 4096 rows of the squared vertex features in
    channel d. -/
theorem vertSq_apply (c : Dev nD) (b : Fin 4) (d : Fin 128) :
    arrSq V c (ix3 b (0 : Fin 1) d) = ∑ p : Fin 4096, arrOut V c (ix3 b p d) * arrOut V c (ix3 b p d) := by
  rw [arrSq_eq, arrOut_eq]
  rfl

end Cert.KernelIdeal.Vertex

end
-- ==== Proof.RefRun.lean ====
/-
  The reference program as a straight line of host operations, and what it computes.
  @main's operations are listed in order (the three outlined functions' operations standing at their call
  sites, over each call's own buffers); the program is that straight line; and once it has run the result
  buffer holds `out`, the composition of the named stages below, applied to the argument arrays, while the
  argument buffers are unchanged. The list is cut in five consecutive pieces, one per part of the mathematics
  (distances and incidence; vertices to hyperedges; hyperedges to vertices and the residual; the batch
  moments; normalisation and SiLU), and each piece is read from ANY contents of the buffers.
-/
import proofs.«147048_j80771154968988_2_alg».proof.Defs
import proofs.«147048_j80771154968988_2_alg».proof.Proof.Gen.ReferenceIdeal
import proofs.«147048_j80771154968988_2_alg».proof.Proof.Gen.Pre_finite_inputs
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- Operations 1 … 27: the [B, N, C] view of the input, the squared norms, the pairwise squared distances, the
    incidence matrix (distance below the threshold, as a float), and the linear layer. -/
abbrev opsA : List (HloOp τ sig (Elt F)) :=
  [ reshape main_arg0 main_v0 rfl shapeCasts_S4x128x64x64_S4x128x4096,
    unary main_v0 main_v1 ((transpose S4x4096x128 [0, 2, 1] · transposes_S4x128x4096_S4x4096x128_0_2_1) : (⟨S4x128x4096, .f32⟩ : BufTy).Contents (Elt F) → (⟨S4x4096x128, .f32⟩ : BufTy).Contents (Elt F)),
    binary main_v1 main_v1 main_v2 (mulf : (⟨S4x4096x128, .f32⟩ : BufTy).Contents (Elt F) → (⟨S4x4096x128, .f32⟩ : BufTy).Contents (Elt F) → (⟨S4x4096x128, .f32⟩ : BufTy).Contents (Elt F)),
    nullary main_cst (constant S_ .f32 0x00000000#32),
    binary main_v2 main_cst main_v3 ((fun x v => Host.reduceAdd x v reducesTo_S4x4096x128_S4x4096_d2 h_S_) : (⟨S4x4096x128, .f32⟩ : BufTy).Contents (Elt F) → (⟨S_, .f32⟩ : BufTy).Contents (Elt F) → (⟨S4x4096, .f32⟩ : BufTy).Contents (Elt F)),
    unary main_v3 main_v4 (broadcastInDim S4x4096x1 ![0, 1] bcast_S4x4096_S4x4096x1_0_1 : (⟨S4x4096, .f32⟩ : BufTy).Contents (Elt F) → (⟨S4x4096x1, .f32⟩ : BufTy).Contents (Elt F)),
    unary main_v3 main_v5 (broadcastInDim S4x1x4096 ![0, 2] bcast_S4x4096_S4x1x4096_0_2 : (⟨S4x4096, .f32⟩ : BufTy).Contents (Elt F) → (⟨S4x1x4096, .f32⟩ : BufTy).Contents (Elt F)),
    unary main_v4 main_v6 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    unary main_v5 main_v7 (broadcastInDim S4x4096x4096 ![0, 1, 2] bcast_S4x1x4096_S4x4096x4096_0_1_2 : (⟨S4x1x4096, .f32⟩ : BufTy).Contents (Elt F) → (⟨S4x4096x4096, .f32⟩ : BufTy).Contents (Elt F)),
    binary main_v6 main_v7 main_v8 (addf : (⟨S4x4096x4096, .f32⟩ : BufTy).Contents (Elt F) → (⟨S4x4096x4096, .f32⟩ : BufTy).Contents (Elt F) → (⟨S4x4096x4096, .f32⟩ : BufTy).Contents (Elt F)),
    binary main_v1 main_v1 main_v9 ((fun l r => Host.dotGeneral dot_S4x4096x128_S4x4096x128_S4x4096x4096_2_2_1_1_0_0 none l r) : (⟨S4x4096x128, .f32⟩ : BufTy).Contents (Elt F) → (⟨S4x4096x128, .f32⟩ : BufTy).Contents (Elt F) → (⟨S4x4096x4096, .f32⟩ : BufTy).Contents (Elt F)),
    nullary main_cst_0 (constant S_ .f32 0x40000000#32),
    unary main_cst_0 main_v10 (broadcastInDim S4x4096x4096 ![] bcast_S_S4x4096x4096 : (⟨S_, .f32⟩ : BufTy).Contents (Elt F) → (⟨S4x4096x4096, .f32⟩ : BufTy).Contents (Elt F)),
    binary main_v10 main_v9 main_v11 (mulf : (⟨S4x4096x4096, .f32⟩ : BufTy).Contents (Elt F) → (⟨S4x4096x4096, .f32⟩ : BufTy).Contents (Elt F) → (⟨S4x4096x4096, .f32⟩ : BufTy).Contents (Elt F)),
    binary main_v8 main_v11 main_v12 (subf : (⟨S4x4096x4096, .f32⟩ : BufTy).Contents (Elt F) → (⟨S4x4096x4096, .f32⟩ : BufTy).Contents (Elt F) → (⟨S4x4096x4096, .f32⟩ : BufTy).Contents (Elt F)),
    nullary main_cst_1 (constant S_ .f32 0x00000000#32),
    unary main_cst_1 main_v13 (broadcastInDim S4x4096x4096 ![] bcast_S_S4x4096x4096 : (⟨S_, .f32⟩ : BufTy).Contents (Elt F) → (⟨S4x4096x4096, .f32⟩ : BufTy).Contents (Elt F)),
    binary main_v12 main_v13 main_v14 (maximumf : (⟨S4x4096x4096, .f32⟩ : BufTy).Contents (Elt F) → (⟨S4x4096x4096, .f32⟩ : BufTy).Contents (Elt F) → (⟨S4x4096x4096, .f32⟩ : BufTy).Contents (Elt F)),
    unary main_v14 main_v15 (Host.sqrt : (⟨S4x4096x4096, .f32⟩ : BufTy).Contents (Elt F) → (⟨S4x4096x4096, .f32⟩ : BufTy).Contents (Elt F)),
    nullary main_cst_2 (constant S_ .f32 0x41800000#32),
    unary main_cst_2 main_v16 (broadcastInDim S4x4096x4096 ![] bcast_S_S4x4096x4096 : (⟨S_, .f32⟩ : BufTy).Contents (Elt F) → (⟨S4x4096x4096, .f32⟩ : BufTy).Contents (Elt F)),
    binary main_v15 main_v16 main_v17 (cmpf .olt : (⟨S4x4096x4096, .f32⟩ : BufTy).Contents (Elt F) → (⟨S4x4096x4096, .f32⟩ : BufTy).Contents (Elt F) → (⟨S4x4096x4096, .i1⟩ : BufTy).Contents (Elt F)),
    unary main_v17 main_v18 (uitofp .f32 : (⟨S4x4096x4096, .i1⟩ : BufTy).Contents (Elt F) → (⟨S4x4096x4096, .f32⟩ : BufTy).Contents (Elt F)),
    binary main_v1 main_arg1 main_v19 ((fun l r => Host.dotGeneral dot_S4x4096x128_S128x128_S4x4096x128_2_1_01_0_n_n none l r) : (⟨S4x4096x128, .f32⟩ : BufTy).Contents (Elt F) → (⟨S128x128, .f32⟩ : BufTy).Contents (Elt F) → (⟨S4x4096x128, .f32⟩ : BufTy).Contents (Elt F)),
    unary main_arg2 main_v20 (broadcastInDim S1x1x128 ![2] bcast_S128_S1x1x128_2 : (⟨S128, .f32⟩ : BufTy).Contents (Elt F) → (⟨S1x1x128, .f32⟩ : BufTy).Contents (Elt F)),
    unary main_v20 main_v21 (broadcastInDim S4x4096x128 ![0, 1, 2] bcast_S1x1x128_S4x4096x128_0_1_2 : (⟨S1x1x128, .f32⟩ : BufTy).Contents (Elt F) → (⟨S4x4096x128, .f32⟩ : BufTy).Contents (Elt F)),
    binary main_v19 main_v21 main_v22 (addf : (⟨S4x4096x128, .f32⟩ : BufTy).Contents (Elt F) → (⟨S4x4096x128, .f32⟩ : BufTy).Contents (Elt F) → (⟨S4x4096x128, .f32⟩ : BufTy).Contents (Elt F)) ]

/-- Operations 28 … 43: the hyperedge degrees, the incidence-weighted sum of the vertices' features over each
    hyperedge, and its division by the degree where that is positive (the first call of the outlined select). -/
abbrev opsB : List (HloOp τ sig (Elt F)) :=
  [ nullary main_cst_3 (constant S_ .f32 0x00000000#32),
    binary main_v18 main_cst_3 main_v23 ((fun x v => Host.reduceAdd x v reducesTo_S4x4096x4096_S4x4096_d1 h_S_) : (⟨S4x4096x4096, .f32⟩ : BufTy).Contents (Elt F) → (⟨S_, .f32⟩ : BufTy).Contents (Elt F) → (⟨S4x4096, .f32⟩ : BufTy).Contents (Elt F)),
    binary main_v18 main_v22 main_v24 ((fun l r => Host.dotGeneral dot_S4x4096x4096_S4x4096x128_S4x4096x128_1_1_2_2_0_0 none l r) : (⟨S4x4096x4096, .f32⟩ : BufTy).Contents (Elt F) → (⟨S4x4096x128, .f32⟩ : BufTy).Contents (Elt F) → (⟨S4x4096x128, .f32⟩ : BufTy).Contents (Elt F)),
    nullary main_cst_4 (constant S_ .f32 0x00000000#32),
    unary main_cst_4 main_v25 (broadcastInDim S4x4096 ![] bcast_S_S4x4096 : (⟨S_, .f32⟩ : BufTy).Contents (Elt F) → (⟨S4x4096, .f32⟩ : BufTy).Contents (Elt F)),
    binary main_v23 main_v25 main_v26 (cmpf .ogt : (⟨S4x4096, .f32⟩ : BufTy).Contents (Elt F) → (⟨S4x4096, .f32⟩ : BufTy).Contents (Elt F) → (⟨S4x4096, .i1⟩ : BufTy).Contents (Elt F)),
    nullary main_cst_5 (constant S_ .f32 0x3F800000#32),
    unary main_cst_5 main_v27 (broadcastInDim S4x4096 ![] bcast_S_S4x4096 : (⟨S_, .f32⟩ : BufTy).Contents (Elt F) → (⟨S4x4096, .f32⟩ : BufTy).Contents (Elt F)),
    binary main_v27 main_v23 main_v28 (Host.divf : (⟨S4x4096, .f32⟩ : BufTy).Contents (Elt F) → (⟨S4x4096, .f32⟩ : BufTy).Contents (Elt F) → (⟨S4x4096, .f32⟩ : BufTy).Contents (Elt F)),
    nullary main_cst_6 (constant S_ .f32 0x00000000#32),
    TRef.unary (.of main_cst_6) main_call0.v0 id,
    TRef.unary main_call0.v0 main_call0.v1 (broadcastInDim S4x4096 ![] bcast_S_S4x4096),
    TRef.ternary (.of main_v26) (.of main_v28) main_call0.v1 main_call0.v2 select,
    unary main_v29 main_v30 (broadcastInDim S4x4096x1 ![0, 1] bcast_S4x4096_S4x4096x1_0_1 : (⟨S4x4096, .f32⟩ : BufTy).Contents (Elt F) → (⟨S4x4096x1, .f32⟩ : BufTy).Contents (Elt F)),
    unary main_v30 main_v31 (broadcastInDim S4x4096x128 ![0, 1, 2] bcast_S4x4096x1_S4x4096x128_0_1_2 : (⟨S4x4096x1, .f32⟩ : BufTy).Contents (Elt F) → (⟨S4x4096x128, .f32⟩ : BufTy).Contents (Elt F)),
    binary main_v31 main_v24 main_v32 (mulf : (⟨S4x4096x128, .f32⟩ : BufTy).Contents (Elt F) → (⟨S4x4096x128, .f32⟩ : BufTy).Contents (Elt F) → (⟨S4x4096x128, .f32⟩ : BufTy).Contents (Elt F)) ]

/-- Operations 44 … 64: the vertex degrees, the sum back over each vertex's hyperedges, its division by the degree
    (the second call of the outlined select), the residual, the layout back to [B, C, H, W], and the per-channel sum. -/
abbrev opsC : List (HloOp τ sig (Elt F)) :=
  [ nullary main_cst_7 (constant S_ .f32 0x00000000#32),
    binary main_v18 main_cst_7 main_v33 ((fun x v => Host.reduceAdd x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    binary main_v18 main_v32 main_v34 ((fun l r => Host.dotGeneral dot_S4x4096x4096_S4x4096x128_S4x4096x128_2_1_1_2_0_0 none l r) : (⟨S4x4096x4096, .f32⟩ : BufTy).Contents (Elt F) → (⟨S4x4096x128, .f32⟩ : BufTy).Contents (Elt F) → (⟨S4x4096x128, .f32⟩ : BufTy).Contents (Elt F)),
    nullary main_cst_8 (constant S_ .f32 0x00000000#32),
    unary main_cst_8 main_v35 (broadcastInDim S4x4096 ![] bcast_S_S4x4096 : (⟨S_, .f32⟩ : BufTy).Contents (Elt F) → (⟨S4x4096, .f32⟩ : BufTy).Contents (Elt F)),
    binary main_v33 main_v35 main_v36 (cmpf .ogt : (⟨S4x4096, .f32⟩ : BufTy).Contents (Elt F) → (⟨S4x4096, .f32⟩ : BufTy).Contents (Elt F) → (⟨S4x4096, .i1⟩ : BufTy).Contents (Elt F)),
    nullary main_cst_9 (constant S_ .f32 0x3F800000#32),
    unary main_cst_9 main_v37 (broadcastInDim S4x4096 ![] bcast_S_S4x4096 : (⟨S_, .f32⟩ : BufTy).Contents (Elt F) → (⟨S4x4096, .f32⟩ : BufTy).Contents (Elt F)),
    binary main_v37 main_v33 main_v38 (Host.divf : (⟨S4x4096, .f32⟩ : BufTy).Contents (Elt F) → (⟨S4x4096, .f32⟩ : BufTy).Contents (Elt F) → (⟨S4x4096, .f32⟩ : BufTy).Contents (Elt F)),
    nullary main_cst_10 (constant S_ .f32 0x00000000#32),
    TRef.unary (.of main_cst_10) main_call1.v0 id,
    TRef.unary main_call1.v0 main_call1.v1 (broadcastInDim S4x4096 ![] bcast_S_S4x4096),
    TRef.ternary (.of main_v36) (.of main_v38) main_call1.v1 main_call1.v2 select,
    unary main_v39 main_v40 (broadcastInDim S4x4096x1 ![0, 1] bcast_S4x4096_S4x4096x1_0_1 : (⟨S4x4096, .f32⟩ : BufTy).Contents (Elt F) → (⟨S4x4096x1, .f32⟩ : BufTy).Contents (Elt F)),
    unary main_v40 main_v41 (broadcastInDim S4x4096x128 ![0, 1, 2] bcast_S4x4096x1_S4x4096x128_0_1_2 : (⟨S4x4096x1, .f32⟩ : BufTy).Contents (Elt F) → (⟨S4x4096x128, .f32⟩ : BufTy).Contents (Elt F)),
    binary main_v41 main_v34 main_v42 (mulf : (⟨S4x4096x128, .f32⟩ : BufTy).Contents (Elt F) → (⟨S4x4096x128, .f32⟩ : BufTy).Contents (Elt F) → (⟨S4x4096x128, .f32⟩ : BufTy).Contents (Elt F)),
    binary main_v42 main_v1 main_v43 (addf : (⟨S4x4096x128, .f32⟩ : BufTy).Contents (Elt F) → (⟨S4x4096x128, .f32⟩ : BufTy).Contents (Elt F) → (⟨S4x4096x128, .f32⟩ : BufTy).Contents (Elt F)),
    unary main_v43 main_v44 ((transpose S4x128x4096 [0, 2, 1] · transposes_S4x4096x128_S4x128x4096_0_2_1) : (⟨S4x4096x128, .f32⟩ : BufTy).Contents (Elt F) → (⟨S4x128x4096, .f32⟩ : BufTy).Contents (Elt F)),
    reshape main_v44 main_v45 rfl shapeCasts_S4x128x4096_S4x128x64x64,
    nullary main_cst_11 (constant S_ .f32 0x00000000#32),
    binary main_v45 main_cst_11 main_v46 ((fun x v => Host.reduceAdd x v reducesTo_S4x128x64x64_S128_d0_2_3 h_S_) : (⟨S4x128x64x64, .f32⟩ : BufTy).Contents (Elt F) → (⟨S_, .f32⟩ : BufTy).Contents (Elt F) → (⟨S128, .f32⟩ : BufTy).Contents (Elt F)) ]

/-- Operations 65 … 90: the per-channel mean, and the outlined variance (whose last three operations are the
    nested outlined select). -/
abbrev opsD : List (HloOp τ sig (Elt F)) :=
  [ nullary main_cst_12 (constant S_ .f32 0x46800000#32),
    unary main_cst_12 main_v47 (broadcastInDim S128 ![] bcast_S_S128 : (⟨S_, .f32⟩ : BufTy).Contents (Elt F) → (⟨S128, .f32⟩ : BufTy).Contents (Elt F)),
    binary main_v46 main_v47 main_v48 (Host.divf : (⟨S128, .f32⟩ : BufTy).Contents (Elt F) → (⟨S128, .f32⟩ : BufTy).Contents (Elt F) → (⟨S128, .f32⟩ : BufTy).Contents (Elt F)),
    nullary main_c (constantI S_ 32 0#32),
    TRef.nullary main_call2.cst (constant S_ .f32 0x00000000#32),
    TRef.binary (.of main_v45) main_call2.cst main_call2.v0 (fun x v => Host.reduceAdd x v reducesTo_S4x128x64x64_S128_d0_2_3 h_S_),
    TRef.unary main_call2.v0 main_call2.v1 (broadcastInDim S1x128x1x1 ![1] bcast_S128_S1x128x1x1_1),
    TRef.nullary main_call2.cst_0 (constant S_ .f32 0x46800000#32),
    TRef.unary main_call2.cst_0 main_call2.v2 (broadcastInDim S1x128x1x1 ![] bcast_S_S1x128x1x1),
    TRef.binary main_call2.v1 main_call2.v2 main_call2.v3 Host.divf,
    TRef.unary main_call2.v3 main_call2.v4 (broadcastInDim S4x128x64x64 ![0, 1, 2, 3] bcast_S1x128x1x1_S4x128x64x64_0_1_2_3),
    TRef.binary (.of main_v45) main_call2.v4 main_call2.v5 subf,
    TRef.binary main_call2.v5 main_call2.v5 main_call2.v6 mulf,
    TRef.unary (.of main_c) main_call2.v7 (sitofp .f32),
    TRef.nullary main_call2.cst_1 (constant S_ .f32 0x46800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S4x128x64x64_S128_d0_2_3 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b) ]

/-- Operations 91 … 115: centring, scaling by the reciprocal square root of the variance plus epsilon, the affine
    map, and SiLU. -/
abbrev opsE : List (HloOp τ sig (Elt F)) :=
  [ unary main_v48 main_v50 (broadcastInDim S1x128x1x1 ![1] bcast_S128_S1x128x1x1_1 : (⟨S128, .f32⟩ : BufTy).Contents (Elt F) → (⟨S1x128x1x1, .f32⟩ : BufTy).Contents (Elt F)),
    unary main_v50 main_v51 (broadcastInDim S4x128x64x64 ![0, 1, 2, 3] bcast_S1x128x1x1_S4x128x64x64_0_1_2_3 : (⟨S1x128x1x1, .f32⟩ : BufTy).Contents (Elt F) → (⟨S4x128x64x64, .f32⟩ : BufTy).Contents (Elt F)),
    binary main_v45 main_v51 main_v52 (subf : (⟨S4x128x64x64, .f32⟩ : BufTy).Contents (Elt F) → (⟨S4x128x64x64, .f32⟩ : BufTy).Contents (Elt F) → (⟨S4x128x64x64, .f32⟩ : BufTy).Contents (Elt F)),
    unary main_v49 main_v53 (broadcastInDim S1x128x1x1 ![1] bcast_S128_S1x128x1x1_1 : (⟨S128, .f32⟩ : BufTy).Contents (Elt F) → (⟨S1x128x1x1, .f32⟩ : BufTy).Contents (Elt F)),
    nullary main_cst_13 (constant S_ .f32 0x3727C5AC#32),
    unary main_cst_13 main_v54 (broadcastInDim S1x128x1x1 ![] bcast_S_S1x128x1x1 : (⟨S_, .f32⟩ : BufTy).Contents (Elt F) → (⟨S1x128x1x1, .f32⟩ : BufTy).Contents (Elt F)),
    binary main_v53 main_v54 main_v55 (addf : (⟨S1x128x1x1, .f32⟩ : BufTy).Contents (Elt F) → (⟨S1x128x1x1, .f32⟩ : BufTy).Contents (Elt F) → (⟨S1x128x1x1, .f32⟩ : BufTy).Contents (Elt F)),
    unary main_v55 main_v56 (Host.rsqrt : (⟨S1x128x1x1, .f32⟩ : BufTy).Contents (Elt F) → (⟨S1x128x1x1, .f32⟩ : BufTy).Contents (Elt F)),
    unary main_v56 main_v57 (broadcastInDim S4x128x64x64 ![0, 1, 2, 3] bcast_S1x128x1x1_S4x128x64x64_0_1_2_3 : (⟨S1x128x1x1, .f32⟩ : BufTy).Contents (Elt F) → (⟨S4x128x64x64, .f32⟩ : BufTy).Contents (Elt F)),
    binary main_v52 main_v57 main_v58 (mulf : (⟨S4x128x64x64, .f32⟩ : BufTy).Contents (Elt F) → (⟨S4x128x64x64, .f32⟩ : BufTy).Contents (Elt F) → (⟨S4x128x64x64, .f32⟩ : BufTy).Contents (Elt F)),
    unary main_arg3 main_v59 (broadcastInDim S1x128x1x1 ![1] bcast_S128_S1x128x1x1_1 : (⟨S128, .f32⟩ : BufTy).Contents (Elt F) → (⟨S1x128x1x1, .f32⟩ : BufTy).Contents (Elt F)),
    unary main_v59 main_v60 (broadcastInDim S4x128x64x64 ![0, 1, 2, 3] bcast_S1x128x1x1_S4x128x64x64_0_1_2_3 : (⟨S1x128x1x1, .f32⟩ : BufTy).Contents (Elt F) → (⟨S4x128x64x64, .f32⟩ : BufTy).Contents (Elt F)),
    binary main_v60 main_v58 main_v61 (mulf : (⟨S4x128x64x64, .f32⟩ : BufTy).Contents (Elt F) → (⟨S4x128x64x64, .f32⟩ : BufTy).Contents (Elt F) → (⟨S4x128x64x64, .f32⟩ : BufTy).Contents (Elt F)),
    unary main_arg4 main_v62 (broadcastInDim S1x128x1x1 ![1] bcast_S128_S1x128x1x1_1 : (⟨S128, .f32⟩ : BufTy).Contents (Elt F) → (⟨S1x128x1x1, .f32⟩ : BufTy).Contents (Elt F)),
    unary main_v62 main_v63 (broadcastInDim S4x128x64x64 ![0, 1, 2, 3] bcast_S1x128x1x1_S4x128x64x64_0_1_2_3 : (⟨S1x128x1x1, .f32⟩ : BufTy).Contents (Elt F) → (⟨S4x128x64x64, .f32⟩ : BufTy).Contents (Elt F)),
    binary main_v61 main_v63 main_v64 (addf : (⟨S4x128x64x64, .f32⟩ : BufTy).Contents (Elt F) → (⟨S4x128x64x64, .f32⟩ : BufTy).Contents (Elt F) → (⟨S4x128x64x64, .f32⟩ : BufTy).Contents (Elt F)),
    unary main_v64 main_v65 (Host.negf : (⟨S4x128x64x64, .f32⟩ : BufTy).Contents (Elt F) → (⟨S4x128x64x64, .f32⟩ : BufTy).Contents (Elt F)),
    unary main_v65 main_v66 (Host.exp : (⟨S4x128x64x64, .f32⟩ : BufTy).Contents (Elt F) → (⟨S4x128x64x64, .f32⟩ : BufTy).Contents (Elt F)),
    nullary main_cst_14 (constant S_ .f32 0x3F800000#32),
    unary main_cst_14 main_v67 (broadcastInDim S4x128x64x64 ![] bcast_S_S4x128x64x64 : (⟨S_, .f32⟩ : BufTy).Contents (Elt F) → (⟨S4x128x64x64, .f32⟩ : BufTy).Contents (Elt F)),
    binary main_v67 main_v66 main_v68 (addf : (⟨S4x128x64x64, .f32⟩ : BufTy).Contents (Elt F) → (⟨S4x128x64x64, .f32⟩ : BufTy).Contents (Elt F) → (⟨S4x128x64x64, .f32⟩ : BufTy).Contents (Elt F)),
    nullary main_cst_15 (constant S_ .f32 0x3F800000#32),
    unary main_cst_15 main_v69 (broadcastInDim S4x128x64x64 ![] bcast_S_S4x128x64x64 : (⟨S_, .f32⟩ : BufTy).Contents (Elt F) → (⟨S4x128x64x64, .f32⟩ : BufTy).Contents (Elt F)),
    binary main_v69 main_v68 main_v70 (Host.divf : (⟨S4x128x64x64, .f32⟩ : BufTy).Contents (Elt F) → (⟨S4x128x64x64, .f32⟩ : BufTy).Contents (Elt F) → (⟨S4x128x64x64, .f32⟩ : BufTy).Contents (Elt F)),
    binary main_v64 main_v70 main_v71 (mulf : (⟨S4x128x64x64, .f32⟩ : BufTy).Contents (Elt F) → (⟨S4x128x64x64, .f32⟩ : BufTy).Contents (Elt F) → (⟨S4x128x64x64, .f32⟩ : BufTy).Contents (Elt F)) ]

/-- The first part of @main (its statements 1 … 60). -/
abbrev ops0 : List (HloOp τ sig (Elt F)) := opsA ++ (opsB ++ opsC)
/-- The second part of @main (its statements 61 … 91). -/
abbrev ops1 : List (HloOp τ sig (Elt F)) := opsD ++ opsE
/-- @main's 115 operations, in order. -/
abbrev ops : List (HloOp τ sig (Elt F)) := ops0 ++ ops1

/-! ## The program is that straight line -/

set_option maxRecDepth 8192 in
set_option maxHeartbeats 4000000 in
theorem main_part0_eq (c : Dev nD) : main_part0 (F := F) c = seq ops0 := rfl

set_option maxRecDepth 8192 in
set_option maxHeartbeats 4000000 in
theorem main_part1_eq (c : Dev nD) : main_part1 (F := F) c = seq ops1 := rfl

theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨reshape_bufs_sub .., unary_bufs_sub .., binary_bufs_sub .., nullary_bufs_sub .., binary_bufs_sub .., unary_bufs_sub .., unary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., unary_bufs_sub .., binary_bufs_sub .., unary_bufs_sub .., unary_bufs_sub .., binary_bufs_sub ..⟩
set_option maxRecDepth 8192 in
theorem opsB_sub : (opsB : List (HloOp τ sig (Elt F))).Forall fun op => op.bufs ⊆ tcRefs τ sig :=
  ⟨nullary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub ..⟩
set_option maxRecDepth 8192 in
theorem opsC_sub : (opsC : List (HloOp τ sig (Elt F))).Forall fun op => op.bufs ⊆ tcRefs τ sig :=
  ⟨nullary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., nullary_bufs_sub .., binary_bufs_sub ..⟩
set_option maxRecDepth 8192 in
theorem opsD_sub : (opsD : List (HloOp τ sig (Elt F))).Forall fun op => op.bufs ⊆ tcRefs τ sig :=
  ⟨nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem opsE_sub : (opsE : List (HloOp τ sig (Elt F))).Forall fun op => op.bufs ⊆ tcRefs τ sig :=
  ⟨unary_bufs_sub .., unary_bufs_sub .., binary_bufs_sub .., unary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩
theorem ops_sub : (ops : List (HloOp τ sig (Elt F))).Forall fun op => op.bufs ⊆ tcRefs τ sig :=
  List.forall_iff_forall_mem.mpr fun op h => by
    simp only [ops, ops0, ops1, List.mem_append] at h
    rcases h with (h | h | h) | h | h
    exacts [List.forall_iff_forall_mem.mp opsA_sub op h, List.forall_iff_forall_mem.mp opsB_sub op h,
      List.forall_iff_forall_mem.mp opsC_sub op h, List.forall_iff_forall_mem.mp opsD_sub op h,
      List.forall_iff_forall_mem.mp opsE_sub op h]

/-! ## The stages

Each is one part of the mathematics as a pure function of arrays; `out` composes them. A scalar literal
`constant S_ .f32 b` is the rank-zero array holding the float whose binary32 pattern is `b`. -/

/-- The input x : [B, C, H, W] viewed as B batches of N = H·W vertices with C features: xf b n c = x b c (n / W) (n % W). -/
def xf (a0 : FVec F S4x128x64x64 .f32) : FVec F S4x4096x128 .f32 :=
  transpose S4x4096x128 [0, 2, 1] (shapeCast S4x128x4096 a0 shapeCasts_S4x128x64x64_S4x128x4096)
    transposes_S4x128x4096_S4x4096x128_0_2_1

/-- A per-(batch, vertex) scalar repeated along a trailing feature axis of length 128. -/
def rowsTo128 (s : FVec F S4x4096 .f32) : FVec F S4x4096x128 .f32 :=
  broadcastInDim S4x4096x128 ![0, 1, 2] bcast_S4x4096x1_S4x4096x128_0_1_2
    (broadcastInDim S4x4096x1 ![0, 1] bcast_S4x4096_S4x4096x1_0_1 s)

/-- The squared norm of each vertex: sq b n = 0 + Σ_c x b n c · x b n c. -/
def sq (x : FVec F S4x4096x128 .f32) : FVec F S4x4096 .f32 :=
  Host.reduceAdd (mulf x x) (constant S_ .f32 0x00000000#32) reducesTo_S4x4096x128_S4x4096_d2 h_S_

/-- The pairwise squared distances: d2 b i j = (sq b i + sq b j) − 2 · Σ_c x b i c · x b j c. -/
def d2 (x : FVec F S4x4096x128 .f32) : FVec F S4x4096x4096 .f32 :=
  subf
    (addf
      (broadcastInDim S4x4096x4096 ![0, 1, 2] bcast_S4x4096x1_S4x4096x4096_0_1_2
        (broadcastInDim S4x4096x1 ![0, 1] bcast_S4x4096_S4x4096x1_0_1 (sq x)))
      (broadcastInDim S4x4096x4096 ![0, 1, 2] bcast_S4x1x4096_S4x4096x4096_0_1_2
        (broadcastInDim S4x1x4096 ![0, 2] bcast_S4x4096_S4x1x4096_0_2 (sq x))))
    (mulf (broadcastInDim S4x4096x4096 ![] bcast_S_S4x4096x4096 (constant S_ .f32 0x40000000#32))
      (Host.dotGeneral dot_S4x4096x128_S4x4096x128_S4x4096x4096_2_2_1_1_0_0 none x x))

/-- The incidence matrix: inc b i j is 1 when sqrt (max (d2 b i j) 0) < 16, else 0, as a float. -/
def inc (x : FVec F S4x4096x128 .f32) : FVec F S4x4096x4096 .f32 :=
  uitofp .f32
    (cmpf .olt
      (Host.sqrt (maximumf (d2 x) (broadcastInDim S4x4096x4096 ![] bcast_S_S4x4096x4096 (constant S_ .f32 0x00000000#32))))
      (broadcastInDim S4x4096x4096 ![] bcast_S_S4x4096x4096 (constant S_ .f32 0x41800000#32)))

/-- The linear layer: xe b n d = Σ_c x b n c · W d c + bias d. -/
def xe (x : FVec F S4x4096x128 .f32) (a1 : FVec F S128x128 .f32) (a2 : FVec F S128 .f32) : FVec F S4x4096x128 .f32 :=
  addf (Host.dotGeneral dot_S4x4096x128_S128x128_S4x4096x128_2_1_01_0_n_n none x a1)
    (broadcastInDim S4x4096x128 ![0, 1, 2] bcast_S1x1x128_S4x4096x128_0_1_2
      (broadcastInDim S1x1x128 ![2] bcast_S128_S1x1x128_2 a2))

/-- The hyperedge degrees: degE b e = 0 + Σ_v i b v e. -/
def degE (i : FVec F S4x4096x4096 .f32) : FVec F S4x4096 .f32 :=
  Host.reduceAdd i (constant S_ .f32 0x00000000#32) reducesTo_S4x4096x4096_S4x4096_d1 h_S_

/-- The vertex degrees: degV b v = 0 + Σ_e i b v e. -/
def degV (i : FVec F S4x4096x4096 .f32) : FVec F S4x4096 .f32 :=
  Host.reduceAdd i (constant S_ .f32 0x00000000#32) reducesTo_S4x4096x4096_S4x4096_d2 h_S_

/-- The reciprocal of a degree where it is positive, zero elsewhere: 1 / d if d > 0, else 0. -/
def invDeg (d : FVec F S4x4096 .f32) : FVec F S4x4096 .f32 :=
  select (cmpf .ogt d (broadcastInDim S4x4096 ![] bcast_S_S4x4096 (constant S_ .f32 0x00000000#32)))
    (Host.divf (broadcastInDim S4x4096 ![] bcast_S_S4x4096 (constant S_ .f32 0x3F800000#32)) d)
    (broadcastInDim S4x4096 ![] bcast_S_S4x4096 (constant S_ .f32 0x00000000#32))

/-- Vertices to hyperedges: edge b e c = invDeg (degE b e) · Σ_v i b v e · y b v c. -/
def edge (i : FVec F S4x4096x4096 .f32) (y : FVec F S4x4096x128 .f32) : FVec F S4x4096x128 .f32 :=
  mulf (rowsTo128 (invDeg (degE i)))
    (Host.dotGeneral dot_S4x4096x4096_S4x4096x128_S4x4096x128_1_1_2_2_0_0 none i y)

/-- Hyperedges to vertices: vert b v c = invDeg (degV b v) · Σ_e i b v e · z b e c. -/
def vert (i : FVec F S4x4096x4096 .f32) (z : FVec F S4x4096x128 .f32) : FVec F S4x4096x128 .f32 :=
  mulf (rowsTo128 (invDeg (degV i)))
    (Host.dotGeneral dot_S4x4096x4096_S4x4096x128_S4x4096x128_2_1_1_2_0_0 none i z)

/-- A [B, N, C] array laid back out as [B, C, H, W]. -/
def toImage (t : FVec F S4x4096x128 .f32) : FVec F S4x128x64x64 .f32 :=
  shapeCast S4x128x64x64 (transpose S4x128x4096 [0, 2, 1] t transposes_S4x4096x128_S4x128x4096_0_2_1)
    shapeCasts_S4x128x4096_S4x128x64x64

/-- The layer's output before normalisation, as an image: the message-passing result plus the residual. -/
def pre (a0 : FVec F S4x128x64x64 .f32) (a1 : FVec F S128x128 .f32) (a2 : FVec F S128 .f32) : FVec F S4x128x64x64 .f32 :=
  toImage (addf (vert (inc (xf a0)) (edge (inc (xf a0)) (xe (xf a0) a1 a2))) (xf a0))

/-- The per-channel sum over batch, height and width: chanSum p c = 0 + Σ_{b,h,w} p b c h w. -/
def chanSum (p : FVec F S4x128x64x64 .f32) : FVec F S128 .f32 :=
  Host.reduceAdd p (constant S_ .f32 0x00000000#32) reducesTo_S4x128x64x64_S128_d0_2_3 h_S_

/-- The per-channel mean: chanSum / 16384. -/
def mean (p : FVec F S4x128x64x64 .f32) : FVec F S128 .f32 :=
  Host.divf (chanSum p) (broadcastInDim S128 ![] bcast_S_S128 (constant S_ .f32 0x46800000#32))

/-- A per-channel value as a [1, C, 1, 1] array. -/
def chan1 (v : FVec F S128 .f32) : FVec F S1x128x1x1 .f32 :=
  broadcastInDim S1x128x1x1 ![1] bcast_S128_S1x128x1x1_1 v

/-- A [1, C, 1, 1] array repeated over batch, height and width. -/
def chanAll (v : FVec F S1x128x1x1 .f32) : FVec F S4x128x64x64 .f32 :=
  broadcastInDim S4x128x64x64 ![0, 1, 2, 3] bcast_S1x128x1x1_S4x128x64x64_0_1_2_3 v

/-- The divisor of the variance: 16384 minus the correction 0 (an integer converted to a float). -/
def varDenom : FVec F S_ .f32 :=
  subf (constant S_ .f32 0x46800000#32) (sitofp .f32 (constantI S_ 32 0#32))

/-- The image centred by its per-channel mean (the mean taken as chanSum / 16384 on the [1, C, 1, 1] array). -/
def centred (p : FVec F S4x128x64x64 .f32) : FVec F S4x128x64x64 .f32 :=
  subf p (chanAll (Host.divf (chan1 (chanSum p))
    (broadcastInDim S1x128x1x1 ![] bcast_S_S1x128x1x1 (constant S_ .f32 0x46800000#32))))

/-- The per-channel variance: chanSum (centred²) / varDenom where varDenom > 0, the literal 0x7FC00000 elsewhere. -/
def var (p : FVec F S4x128x64x64 .f32) : FVec F S128 .f32 :=
  select (broadcastInDim S128 ![] bcast_S_S128 (cmpf .ogt (varDenom (F := F)) (constant S_ .f32 0x00000000#32)))
    (Host.divf (chanSum (mulf (centred p) (centred p))) (broadcastInDim S128 ![] bcast_S_S128 varDenom))
    (broadcastInDim S128 ![] bcast_S_S128 (constant S_ .f32 0x7FC00000#32))

/-- Batch normalisation with the affine map: γ c · ((p − mean c) · rsqrt (var c + ε)) + β c. -/
def bn (p : FVec F S4x128x64x64 .f32) (a3 a4 : FVec F S128 .f32) : FVec F S4x128x64x64 .f32 :=
  addf
    (mulf (chanAll (chan1 a3))
      (mulf (subf p (chanAll (chan1 (mean p))))
        (chanAll (Host.rsqrt (addf (chan1 (var p))
          (broadcastInDim S1x128x1x1 ![] bcast_S_S1x128x1x1 (constant S_ .f32 0x3727C5AC#32)))))))
    (chanAll (chan1 a4))

/-- SiLU: y · (1 / (1 + exp (−y))). -/
def silu (y : FVec F S4x128x64x64 .f32) : FVec F S4x128x64x64 .f32 :=
  mulf y
    (Host.divf (broadcastInDim S4x128x64x64 ![] bcast_S_S4x128x64x64 (constant S_ .f32 0x3F800000#32))
      (addf (broadcastInDim S4x128x64x64 ![] bcast_S_S4x128x64x64 (constant S_ .f32 0x3F800000#32))
        (Host.exp (Host.negf y))))

/-- What the program computes from its five arguments. -/
def out (a0 : FVec F S4x128x64x64 .f32) (a1 : FVec F S128x128 .f32) (a2 a3 a4 : FVec F S128 .f32) :
    FVec F S4x128x64x64 .f32 :=
  silu (bn (pre a0 a1 a2) a3 a4)

/-! ## Reading the pieces, from any contents `V0` of the buffers -/

/-- The buffers' contents after the first piece. -/
def valA (V0 : Valuation τ sig (Elt F)) : Valuation τ sig (Elt F) := after opsA V0

set_option maxRecDepth 8192 in
set_option maxHeartbeats 2000000 in
theorem valA_main_v1 (V0 : Valuation τ sig (Elt F)) : valA V0 (no_index (Proc.devRef .tc main_v1)) = xf (V0 (Proc.devRef .tc main_arg0)) := by
  unfold valA; simp only [opsA]; after_results_simp; rfl
set_option maxRecDepth 8192 in
set_option maxHeartbeats 2000000 in
theorem valA_main_v18 (V0 : Valuation τ sig (Elt F)) : valA V0 (no_index (Proc.devRef .tc main_v18)) = inc (xf (V0 (Proc.devRef .tc main_arg0))) := by
  unfold valA; simp only [opsA]; after_results_simp; rfl
set_option maxRecDepth 8192 in
set_option maxHeartbeats 2000000 in
theorem valA_main_v22 (V0 : Valuation τ sig (Elt F)) : valA V0 (no_index (Proc.devRef .tc main_v22)) = xe (xf (V0 (Proc.devRef .tc main_arg0))) (V0 (Proc.devRef .tc main_arg1)) (V0 (Proc.devRef .tc main_arg2)) := by
  unfold valA; simp only [opsA]; after_results_simp; rfl
set_option maxRecDepth 8192 in
set_option maxHeartbeats 2000000 in
theorem valA_main_arg0 (V0 : Valuation τ sig (Elt F)) : valA V0 (no_index (Proc.devRef .tc main_arg0)) = V0 (Proc.devRef .tc main_arg0) := by
  unfold valA; simp only [opsA]; after_results_simp
set_option maxRecDepth 8192 in
set_option maxHeartbeats 2000000 in
theorem valA_main_arg1 (V0 : Valuation τ sig (Elt F)) : valA V0 (no_index (Proc.devRef .tc main_arg1)) = V0 (Proc.devRef .tc main_arg1) := by
  unfold valA; simp only [opsA]; after_results_simp
set_option maxRecDepth 8192 in
set_option maxHeartbeats 2000000 in
theorem valA_main_arg2 (V0 : Valuation τ sig (Elt F)) : valA V0 (no_index (Proc.devRef .tc main_arg2)) = V0 (Proc.devRef .tc main_arg2) := by
  unfold valA; simp only [opsA]; after_results_simp
set_option maxRecDepth 8192 in
set_option maxHeartbeats 2000000 in
theorem valA_main_arg3 (V0 : Valuation τ sig (Elt F)) : valA V0 (no_index (Proc.devRef .tc main_arg3)) = V0 (Proc.devRef .tc main_arg3) := by
  unfold valA; simp only [opsA]; after_results_simp
set_option maxRecDepth 8192 in
set_option maxHeartbeats 2000000 in
theorem valA_main_arg4 (V0 : Valuation τ sig (Elt F)) : valA V0 (no_index (Proc.devRef .tc main_arg4)) = V0 (Proc.devRef .tc main_arg4) := by
  unfold valA; simp only [opsA]; after_results_simp

/-- The buffers' contents after the first two pieces. -/
def valB (V0 : Valuation τ sig (Elt F)) : Valuation τ sig (Elt F) := after opsB (valA V0)

set_option maxRecDepth 8192 in
set_option maxHeartbeats 2000000 in
theorem valB_main_v32 (V0 : Valuation τ sig (Elt F)) : valB V0 (no_index (Proc.devRef .tc main_v32)) = edge (inc (xf (V0 (Proc.devRef .tc main_arg0)))) (xe (xf (V0 (Proc.devRef .tc main_arg0))) (V0 (Proc.devRef .tc main_arg1)) (V0 (Proc.devRef .tc main_arg2))) := by
  unfold valB; simp only [opsB]; after_results_simp
  simp only [valA_main_v18 V0, valA_main_v22 V0]
  rfl
set_option maxRecDepth 8192 in
set_option maxHeartbeats 2000000 in
theorem valB_main_v1 (V0 : Valuation τ sig (Elt F)) : valB V0 (no_index (Proc.devRef .tc main_v1)) = xf (V0 (Proc.devRef .tc main_arg0)) := by
  unfold valB; simp only [opsB]; after_results_simp; exact valA_main_v1 V0
set_option maxRecDepth 8192 in
set_option maxHeartbeats 2000000 in
theorem valB_main_v18 (V0 : Valuation τ sig (Elt F)) : valB V0 (no_index (Proc.devRef .tc main_v18)) = inc (xf (V0 (Proc.devRef .tc main_arg0))) := by
  unfold valB; simp only [opsB]; after_results_simp; exact valA_main_v18 V0
set_option maxRecDepth 8192 in
set_option maxHeartbeats 2000000 in
theorem valB_main_arg0 (V0 : Valuation τ sig (Elt F)) : valB V0 (no_index (Proc.devRef .tc main_arg0)) = V0 (Proc.devRef .tc main_arg0) := by
  unfold valB; simp only [opsB]; after_results_simp; exact valA_main_arg0 V0
set_option maxRecDepth 8192 in
set_option maxHeartbeats 2000000 in
theorem valB_main_arg1 (V0 : Valuation τ sig (Elt F)) : valB V0 (no_index (Proc.devRef .tc main_arg1)) = V0 (Proc.devRef .tc main_arg1) := by
  unfold valB; simp only [opsB]; after_results_simp; exact valA_main_arg1 V0
set_option maxRecDepth 8192 in
set_option maxHeartbeats 2000000 in
theorem valB_main_arg2 (V0 : Valuation τ sig (Elt F)) : valB V0 (no_index (Proc.devRef .tc main_arg2)) = V0 (Proc.devRef .tc main_arg2) := by
  unfold valB; simp only [opsB]; after_results_simp; exact valA_main_arg2 V0
set_option maxRecDepth 8192 in
set_option maxHeartbeats 2000000 in
theorem valB_main_arg3 (V0 : Valuation τ sig (Elt F)) : valB V0 (no_index (Proc.devRef .tc main_arg3)) = V0 (Proc.devRef .tc main_arg3) := by
  unfold valB; simp only [opsB]; after_results_simp; exact valA_main_arg3 V0
set_option maxRecDepth 8192 in
set_option maxHeartbeats 2000000 in
theorem valB_main_arg4 (V0 : Valuation τ sig (Elt F)) : valB V0 (no_index (Proc.devRef .tc main_arg4)) = V0 (Proc.devRef .tc main_arg4) := by
  unfold valB; simp only [opsB]; after_results_simp; exact valA_main_arg4 V0

/-- The buffers' contents after the first three pieces (the first part of @main). -/
def valC (V0 : Valuation τ sig (Elt F)) : Valuation τ sig (Elt F) := after opsC (valB V0)

set_option maxRecDepth 8192 in
set_option maxHeartbeats 2000000 in
theorem valC_main_v45 (V0 : Valuation τ sig (Elt F)) : valC V0 (no_index (Proc.devRef .tc main_v45)) = pre (V0 (Proc.devRef .tc main_arg0)) (V0 (Proc.devRef .tc main_arg1)) (V0 (Proc.devRef .tc main_arg2)) := by
  unfold valC; simp only [opsC]; after_results_simp
  simp only [valB_main_v18 V0, valB_main_v32 V0, valB_main_v1 V0]
  rfl
set_option maxRecDepth 8192 in
set_option maxHeartbeats 2000000 in
theorem valC_main_v46 (V0 : Valuation τ sig (Elt F)) : valC V0 (no_index (Proc.devRef .tc main_v46)) = chanSum (pre (V0 (Proc.devRef .tc main_arg0)) (V0 (Proc.devRef .tc main_arg1)) (V0 (Proc.devRef .tc main_arg2))) := by
  unfold valC; simp only [opsC]; after_results_simp
  simp only [valB_main_v18 V0, valB_main_v32 V0, valB_main_v1 V0]
  rfl
set_option maxRecDepth 8192 in
set_option maxHeartbeats 2000000 in
theorem valC_main_arg0 (V0 : Valuation τ sig (Elt F)) : valC V0 (no_index (Proc.devRef .tc main_arg0)) = V0 (Proc.devRef .tc main_arg0) := by
  unfold valC; simp only [opsC]; after_results_simp; exact valB_main_arg0 V0
set_option maxRecDepth 8192 in
set_option maxHeartbeats 2000000 in
theorem valC_main_arg1 (V0 : Valuation τ sig (Elt F)) : valC V0 (no_index (Proc.devRef .tc main_arg1)) = V0 (Proc.devRef .tc main_arg1) := by
  unfold valC; simp only [opsC]; after_results_simp; exact valB_main_arg1 V0
set_option maxRecDepth 8192 in
set_option maxHeartbeats 2000000 in
theorem valC_main_arg2 (V0 : Valuation τ sig (Elt F)) : valC V0 (no_index (Proc.devRef .tc main_arg2)) = V0 (Proc.devRef .tc main_arg2) := by
  unfold valC; simp only [opsC]; after_results_simp; exact valB_main_arg2 V0
set_option maxRecDepth 8192 in
set_option maxHeartbeats 2000000 in
theorem valC_main_arg3 (V0 : Valuation τ sig (Elt F)) : valC V0 (no_index (Proc.devRef .tc main_arg3)) = V0 (Proc.devRef .tc main_arg3) := by
  unfold valC; simp only [opsC]; after_results_simp; exact valB_main_arg3 V0
set_option maxRecDepth 8192 in
set_option maxHeartbeats 2000000 in
theorem valC_main_arg4 (V0 : Valuation τ sig (Elt F)) : valC V0 (no_index (Proc.devRef .tc main_arg4)) = V0 (Proc.devRef .tc main_arg4) := by
  unfold valC; simp only [opsC]; after_results_simp; exact valB_main_arg4 V0

/-- The buffers' contents after the first four pieces. -/
def valD (V0 : Valuation τ sig (Elt F)) : Valuation τ sig (Elt F) := after opsD (valC V0)

set_option maxRecDepth 8192 in
set_option maxHeartbeats 2000000 in
theorem valD_main_v48 (V0 : Valuation τ sig (Elt F)) : valD V0 (no_index (Proc.devRef .tc main_v48)) = mean (pre (V0 (Proc.devRef .tc main_arg0)) (V0 (Proc.devRef .tc main_arg1)) (V0 (Proc.devRef .tc main_arg2))) := by
  unfold valD; simp only [opsD]; after_results_simp
  simp only [valC_main_v46 V0]
  rfl
set_option maxRecDepth 8192 in
set_option maxHeartbeats 2000000 in
theorem valD_main_v49 (V0 : Valuation τ sig (Elt F)) : valD V0 (no_index (Proc.devRef .tc main_v49)) = var (pre (V0 (Proc.devRef .tc main_arg0)) (V0 (Proc.devRef .tc main_arg1)) (V0 (Proc.devRef .tc main_arg2))) := by
  unfold valD; simp only [opsD]; after_results_simp
  simp only [valC_main_v45 V0]
  rfl
set_option maxRecDepth 8192 in
set_option maxHeartbeats 2000000 in
theorem valD_main_v45 (V0 : Valuation τ sig (Elt F)) : valD V0 (no_index (Proc.devRef .tc main_v45)) = pre (V0 (Proc.devRef .tc main_arg0)) (V0 (Proc.devRef .tc main_arg1)) (V0 (Proc.devRef .tc main_arg2)) := by
  unfold valD; simp only [opsD]; after_results_simp; exact valC_main_v45 V0
set_option maxRecDepth 8192 in
set_option maxHeartbeats 2000000 in
theorem valD_main_arg0 (V0 : Valuation τ sig (Elt F)) : valD V0 (no_index (Proc.devRef .tc main_arg0)) = V0 (Proc.devRef .tc main_arg0) := by
  unfold valD; simp only [opsD]; after_results_simp; exact valC_main_arg0 V0
set_option maxRecDepth 8192 in
set_option maxHeartbeats 2000000 in
theorem valD_main_arg1 (V0 : Valuation τ sig (Elt F)) : valD V0 (no_index (Proc.devRef .tc main_arg1)) = V0 (Proc.devRef .tc main_arg1) := by
  unfold valD; simp only [opsD]; after_results_simp; exact valC_main_arg1 V0
set_option maxRecDepth 8192 in
set_option maxHeartbeats 2000000 in
theorem valD_main_arg2 (V0 : Valuation τ sig (Elt F)) : valD V0 (no_index (Proc.devRef .tc main_arg2)) = V0 (Proc.devRef .tc main_arg2) := by
  unfold valD; simp only [opsD]; after_results_simp; exact valC_main_arg2 V0
set_option maxRecDepth 8192 in
set_option maxHeartbeats 2000000 in
theorem valD_main_arg3 (V0 : Valuation τ sig (Elt F)) : valD V0 (no_index (Proc.devRef .tc main_arg3)) = V0 (Proc.devRef .tc main_arg3) := by
  unfold valD; simp only [opsD]; after_results_simp; exact valC_main_arg3 V0
set_option maxRecDepth 8192 in
set_option maxHeartbeats 2000000 in
theorem valD_main_arg4 (V0 : Valuation τ sig (Elt F)) : valD V0 (no_index (Proc.devRef .tc main_arg4)) = V0 (Proc.devRef .tc main_arg4) := by
  unfold valD; simp only [opsD]; after_results_simp; exact valC_main_arg4 V0

/-- The buffers' contents after all five pieces. -/
def valE (V0 : Valuation τ sig (Elt F)) : Valuation τ sig (Elt F) := after opsE (valD V0)

set_option maxRecDepth 8192 in
set_option maxHeartbeats 2000000 in
theorem valE_main_v71 (V0 : Valuation τ sig (Elt F)) : valE V0 (no_index (Proc.devRef .tc main_v71)) = out (V0 (Proc.devRef .tc main_arg0)) (V0 (Proc.devRef .tc main_arg1)) (V0 (Proc.devRef .tc main_arg2)) (V0 (Proc.devRef .tc main_arg3)) (V0 (Proc.devRef .tc main_arg4)) := by
  unfold valE; simp only [opsE]; after_results_simp
  simp only [valD_main_v45 V0, valD_main_v48 V0, valD_main_v49 V0, valD_main_arg3 V0, valD_main_arg4 V0]
  rfl
set_option maxRecDepth 8192 in
set_option maxHeartbeats 2000000 in
theorem valE_main_arg0 (V0 : Valuation τ sig (Elt F)) : valE V0 (no_index (Proc.devRef .tc main_arg0)) = V0 (Proc.devRef .tc main_arg0) := by
  unfold valE; simp only [opsE]; after_results_simp; exact valD_main_arg0 V0
set_option maxRecDepth 8192 in
set_option maxHeartbeats 2000000 in
theorem valE_main_arg1 (V0 : Valuation τ sig (Elt F)) : valE V0 (no_index (Proc.devRef .tc main_arg1)) = V0 (Proc.devRef .tc main_arg1) := by
  unfold valE; simp only [opsE]; after_results_simp; exact valD_main_arg1 V0
set_option maxRecDepth 8192 in
set_option maxHeartbeats 2000000 in
theorem valE_main_arg2 (V0 : Valuation τ sig (Elt F)) : valE V0 (no_index (Proc.devRef .tc main_arg2)) = V0 (Proc.devRef .tc main_arg2) := by
  unfold valE; simp only [opsE]; after_results_simp; exact valD_main_arg2 V0
set_option maxRecDepth 8192 in
set_option maxHeartbeats 2000000 in
theorem valE_main_arg3 (V0 : Valuation τ sig (Elt F)) : valE V0 (no_index (Proc.devRef .tc main_arg3)) = V0 (Proc.devRef .tc main_arg3) := by
  unfold valE; simp only [opsE]; after_results_simp; exact valD_main_arg3 V0
set_option maxRecDepth 8192 in
set_option maxHeartbeats 2000000 in
theorem valE_main_arg4 (V0 : Valuation τ sig (Elt F)) : valE V0 (no_index (Proc.devRef .tc main_arg4)) = V0 (Proc.devRef .tc main_arg4) := by
  unfold valE; simp only [opsE]; after_results_simp; exact valD_main_arg4 V0

/-- The whole line is the five pieces one after the other. -/
theorem after_ops (V0 : Valuation τ sig (Elt F)) : after ops V0 = valE V0 := by
  simp only [ops, ops0, ops1, after_append]
  rfl

/-! ## The run -/

/-- On every device, for any float values, from any memory with zero counters: every weakly fair execution of
    @main terminates, the result buffer holding `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v71) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v71).trans (by simp only [after_ops]; exact valE_main_v71 (launchContents m c)),
      (h c main_arg0).trans (by simp only [after_ops]; exact valE_main_arg0 (launchContents m c)),
      (h c main_arg1).trans (by simp only [after_ops]; exact valE_main_arg1 (launchContents m c)),
      (h c main_arg2).trans (by simp only [after_ops]; exact valE_main_arg2 (launchContents m c)),
      (h c main_arg3).trans (by simp only [after_ops]; exact valE_main_arg3 (launchContents m c)),
      (h c main_arg4).trans (by simp only [after_ops]; exact valE_main_arg4 (launchContents m c))⟩)
    (run_seq scopedRefs_eq scopedSems_eq defs main (fun _ => ops) main_eq (fun _ => ops_sub) m ρ)

/-- The reference's frame: it runs to its end from any memory, and its argument arrays end unchanged. -/
theorem frame_ri : Cert.frame_ReferenceIdeal := fun m ρ _ =>
  (θ_run Cert.ReferenceIdeal.defs _ _).mono (fun _ h c => (h c).2) (run (F := Ideal) m ρ)

end Cert.ReferenceIdeal.RefRun

end
-- ==== Proof.KernelRefShared.lean ====
/-
  The reference and the kernel program share their last part: laying a [B, N, C] array out as an image, normalising
  by per-channel moments with the affine map, and SiLU are the same functions in both; the reference applies them at
  the moments it computes from the image itself.
-/
import proofs.«147048_j80771154968988_2_alg».proof.Proof.KernelHost
import proofs.«147048_j80771154968988_2_alg».proof.Proof.RefRun

noncomputable section

namespace Cert.KernelIdeal.HostValue

open Idealize.ShloMosaic

variable {F : FTy → Type} [FloatOps F]

/-- The [B, N, C] view of the input is one function in both programs. -/
theorem ref_xf_eq (a0 : FVec F Cert.KernelIdeal.S4x128x64x64 .f32) :
    Cert.ReferenceIdeal.RefRun.xf a0 = xfK a0 := rfl

/-- The layout back to an image is one function in both programs. -/
theorem ref_toImage_eq (t : FVec F Cert.KernelIdeal.S4x4096x128 .f32) :
    Cert.ReferenceIdeal.RefRun.toImage t = imgK t := rfl

/-- The reference's normalisation is the kernel program's, at the reference's own moments of the image. -/
theorem ref_bn_eq (p : FVec F Cert.KernelIdeal.S4x128x64x64 .f32) (a3 a4 : FVec F Cert.KernelIdeal.S128 .f32) :
    Cert.ReferenceIdeal.RefRun.bn p a3 a4
      = bnK p (Cert.ReferenceIdeal.RefRun.mean p) (Cert.ReferenceIdeal.RefRun.var p) a3 a4 := rfl

/-- SiLU is one function in both programs. -/
theorem ref_silu_eq (y : FVec F Cert.KernelIdeal.S4x128x64x64 .f32) :
    Cert.ReferenceIdeal.RefRun.silu y = siluK y := rfl

/-- The reference's result over the shared functions. -/
theorem ref_out_eq (a0 : FVec F Cert.KernelIdeal.S4x128x64x64 .f32) (a1 : FVec F Cert.KernelIdeal.S128x128 .f32)
    (a2 a3 a4 : FVec F Cert.KernelIdeal.S128 .f32) :
    Cert.ReferenceIdeal.RefRun.out a0 a1 a2 a3 a4
      = siluK (bnK (Cert.ReferenceIdeal.RefRun.pre a0 a1 a2)
          (Cert.ReferenceIdeal.RefRun.mean (Cert.ReferenceIdeal.RefRun.pre a0 a1 a2))
          (Cert.ReferenceIdeal.RefRun.var (Cert.ReferenceIdeal.RefRun.pre a0 a1 a2)) a3 a4) := rfl

end Cert.KernelIdeal.HostValue

end
-- ==== Proof.RefRead.lean ====
/-
  The reference's stages read at an index, on the extended reals: each stage of `RefRun.out` at one element is a
  closed expression of the earlier stages at elements — finite sums over the literal coordinate ranges, the exact
  arithmetic of the extended reals, every float literal kept as the extended real its binary32 pattern denotes.
  Indices are written by coordinates: b < 4 a batch, n, i, j, v, e < 4096 vertices or hyperedges, c, d < 128 features
  or channels, (h, w) < 64 × 64 the image position with n = 64·h + w.
-/
import proofs.«147048_j80771154968988_2_alg».proof.Proof.RefRun
import Idealize.ShloMosaic.Lib.IdealHost
import Idealize.ShloMosaic.Lib.ValueLayout
import Idealize.ShloMosaic.Lib.Pipeline.Value

noncomputable section

open scoped BigOperators

namespace Cert.ReferenceIdeal.RefValue

open Cert.ReferenceIdeal Cert.ReferenceIdeal.Gen Cert.ReferenceIdeal.RefRun Idealize.ShloMosaic Idealize.ShloMosaic.ValueIdx

/-! ## The [B, N, C] view and the squared norms -/

/-- xf b n c = x b c (n / 64) (n % 64). -/
theorem xf_apply (a0 : FVec Ideal S4x128x64x64 .f32) (b : Fin 4) (n : Fin 4096) (c : Fin 128) :
    xf a0 (ix3 b n c)
      = a0 (ix4 b c ⟨n.val / 64, by have := n.isLt; omega⟩ ⟨n.val % 64, Nat.mod_lt _ (by decide)⟩) := by
  unfold xf
  refine (transpose_ix3_021_apply _ _ b n c).trans ?_
  refine shapeCast_apply _ _ _ _ ?_
  rw [Shape.rowMajor_val_four, Shape.rowMajor_val_three]
  show ((b.val * 128 + c.val) * 64 + n.val / 64) * 64 + n.val % 64 = (b.val * 128 + c.val) * 4096 + n.val
  omega

/-- The index a sum over the feature axis of a [4, 4096, 128] array visits. -/
theorem lift_feat (h : S4x4096x128.Reduces [2] S4x4096) (b : Fin 4) (n : Fin 4096) (c : Fin 128) :
    h.lift (ix2 b n) c = ix3 b n c := by
  funext a
  match a with
  | ⟨0, _⟩ => exact Fin.ext rfl
  | ⟨1, _⟩ => exact Fin.ext rfl
  | ⟨2, _⟩ => exact Fin.ext rfl

/-- sq b n = Σ_c x b n c · x b n c. -/
theorem sq_apply (x : FVec Ideal S4x4096x128 .f32) (b : Fin 4) (n : Fin 4096) :
    RefRun.sq x (ix2 b n) = ∑ c : Fin 128, x (ix3 b n c) * x (ix3 b n c) := by
  unfold RefRun.sq
  rw [hostReduceAdd_apply,
    Ideal.hostReduceAdd_single reducesTo_S4x4096x128_S4x4096_d2 (by decide : S4x4096x128.Reduces [2] S4x4096)]
  show Ideal.ofBits .f32 0x00000000#32 + ∑ c : Fin 128, _ = _
  rw [Ideal.ofBits_zero_f32, zero_add]
  exact Finset.sum_congr rfl fun c _ => by rw [lift_feat]; rfl

/-! ## The pairwise squared distances and the incidence matrix -/

/-- A rank-zero array broadcast to any shape reads its one element everywhere; for a float literal that element is
    the extended real its pattern denotes. -/
theorem scalar_bcast_apply {T : Shape} (h : S_.BroadcastsInDim T ![]) (w : BitVec 32) (j : T.Idx) :
    broadcastInDim T ![] h (constant (F := Ideal) S_ .f32 w) j = Ideal.ofBits .f32 w :=
  broadcastInDim_scalar_apply h _ j

/-- A per-(batch, vertex) value repeated along a trailing axis of length 4096 reads the value at (b, i). -/
theorem bcast_row_apply (s : FVec Ideal S4x4096 .f32) (b : Fin 4) (i j : Fin 4096) :
    broadcastInDim S4x4096x4096 ![0, 1, 2] bcast_S4x4096x1_S4x4096x4096_0_1_2
      (broadcastInDim S4x4096x1 ![0, 1] bcast_S4x4096_S4x4096x1_0_1 s) (ix3 b i j) = s (ix2 b i) := by
  refine (broadcastInDim_apply _ _ _ (ix3 b i j) (ix3 b i (0 : Fin 1)) fun a => ?_).trans ?_
  · match a with
    | ⟨0, _⟩ => rfl
    | ⟨1, _⟩ => rfl
    | ⟨2, _⟩ => rfl
  · refine broadcastInDim_apply _ _ _ (ix3 b i (0 : Fin 1)) (ix2 b i) fun a => ?_
    match a with
    | ⟨0, _⟩ => rfl
    | ⟨1, _⟩ => rfl

/-- A per-(batch, vertex) value repeated along a middle axis of length 4096 reads the value at (b, j). -/
theorem bcast_col_apply (s : FVec Ideal S4x4096 .f32) (b : Fin 4) (i j : Fin 4096) :
    broadcastInDim S4x4096x4096 ![0, 1, 2] bcast_S4x1x4096_S4x4096x4096_0_1_2
      (broadcastInDim S4x1x4096 ![0, 2] bcast_S4x4096_S4x1x4096_0_2 s) (ix3 b i j) = s (ix2 b j) := by
  refine (broadcastInDim_apply _ _ _ (ix3 b i j) (ix3 b (0 : Fin 1) j) fun a => ?_).trans ?_
  · match a with
    | ⟨0, _⟩ => rfl
    | ⟨1, _⟩ => rfl
    | ⟨2, _⟩ => rfl
  · refine broadcastInDim_apply _ _ _ (ix3 b (0 : Fin 1) j) (ix2 b j) fun a => ?_
    match a with
    | ⟨0, _⟩ => rfl
    | ⟨1, _⟩ => rfl

/-- A product contracting ONE axis of length n, at a result index: the sum over that axis's coordinate of the
    operands' products, at operand indices the caller names. -/
theorem dot_sum {sl sr so : Shape} (D : DotDims sl sr so) (n : Nat) (hr : D.contr.rank = 1)
    (hs : D.contr.size ⟨0, by omega⟩ = n) (x : FVec Ideal sl .f32) (y : FVec Ideal sr .f32) (j : so.Idx)
    (L : Fin n → sl.Idx) (R : Fin n → sr.Idx)
    (hL : ∀ c, D.lhsIdx j ((contrEquiv1 D n hr hs).symm c) = L c)
    (hR : ∀ c, D.rhsIdx j ((contrEquiv1 D n hr hs).symm c) = R c) :
    Host.dotGeneral D none x y j = ∑ c : Fin n, x (L c) * y (R c) := by
  show FloatOps.dotGeneral D none .single x y j = _
  rw [Ideal.dotGeneral_apply, ← Equiv.sum_comp (contrEquiv1 D n hr hs).symm]
  exact Finset.sum_congr rfl fun c _ => by rw [hL c, hR c]

/-- The four products of the program, by short names. -/
abbrev D1 := dot_S4x4096x128_S4x4096x128_S4x4096x4096_2_2_1_1_0_0
abbrev D2 := dot_S4x4096x128_S128x128_S4x4096x128_2_1_01_0_n_n
abbrev D3 := dot_S4x4096x4096_S4x4096x128_S4x4096x128_1_1_2_2_0_0
abbrev D4 := dot_S4x4096x4096_S4x4096x128_S4x4096x128_2_1_1_2_0_0

/-- The Gram matrix: the batched product contracting the feature axis of both operands, at (b, i, j), is
    Σ_c x b i c · y b j c. -/
theorem gram_apply (x y : FVec Ideal S4x4096x128 .f32) (b : Fin 4) (i j : Fin 4096) :
    Host.dotGeneral dot_S4x4096x128_S4x4096x128_S4x4096x4096_2_2_1_1_0_0 none x y (ix3 b i j)
      = ∑ c : Fin 128, x (ix3 b i c) * y (ix3 b j c) := by
  refine dot_sum D1 128 rfl rfl x y (ix3 b i j) (fun c => ix3 b i c) (fun c => ix3 b j c) (fun c => ?_) (fun c => ?_)
  · funext a
    match a with
    | ⟨0, _⟩ => exact Fin.ext rfl
    | ⟨1, _⟩ => exact Fin.ext rfl
    | ⟨2, _⟩ =>
      refine Fin.ext ?_
      show (D1.lhsIdx (ix3 b i j) ((contrEquiv1 D1 128 rfl rfl).symm c) (2 : Fin 3)).val = c.val
      rw [D1.lhsIdx_val_of_single (cl := (2 : Fin 3)) rfl]
      exact contrEquiv1_symm_val D1 128 rfl rfl c
  · funext a
    match a with
    | ⟨0, _⟩ => exact Fin.ext rfl
    | ⟨1, _⟩ => exact Fin.ext rfl
    | ⟨2, _⟩ =>
      refine Fin.ext ?_
      show (D1.rhsIdx (ix3 b i j) ((contrEquiv1 D1 128 rfl rfl).symm c) (2 : Fin 3)).val = c.val
      rw [D1.rhsIdx_val_of_single (cr := (2 : Fin 3)) rfl]
      exact contrEquiv1_symm_val D1 128 rfl rfl c

/-- d2 b i j = (sq b i + sq b j) − 2 · Σ_c x b i c · x b j c, the 2 the literal's value. -/
theorem d2_apply (x : FVec Ideal S4x4096x128 .f32) (b : Fin 4) (i j : Fin 4096) :
    d2 x (ix3 b i j)
      = (RefRun.sq x (ix2 b i) + RefRun.sq x (ix2 b j))
        - Ideal.ofBits .f32 0x40000000#32 * ∑ c : Fin 128, x (ix3 b i c) * x (ix3 b j c) := by
  unfold d2
  rw [subf_apply, addf_apply, mulf_apply, bcast_row_apply, bcast_col_apply, scalar_bcast_apply, gram_apply]

/-- inc b i j: the comparison sqrt (max (d2 b i j) 0) < 16 as a bit, read as an unsigned integer. -/
theorem inc_apply (x : FVec Ideal S4x4096x128 .f32) (b : Fin 4) (i j : Fin 4096) :
    inc x (ix3 b i j)
      = FloatOps.uitofp (F := Ideal) .f32
          (Ideal.cmp .olt (Ideal.sqrt (max (d2 x (ix3 b i j)) (Ideal.ofBits .f32 0x00000000#32)))
            (Ideal.ofBits .f32 0x41800000#32)) := by
  unfold inc
  show FloatOps.uitofp (F := Ideal) .f32 (FloatOps.cmpf .olt (FloatOps.hostUnary .sqrt (max (d2 x (ix3 b i j)) _)) _) = _
  rw [scalar_bcast_apply, scalar_bcast_apply]
  rfl

/-! ## The linear layer, the degrees, and the two message-passing steps -/

/-- xe b n d = Σ_c x b n c · W d c + bias d. -/
theorem xe_apply (x : FVec Ideal S4x4096x128 .f32) (a1 : FVec Ideal S128x128 .f32) (a2 : FVec Ideal S128 .f32)
    (b : Fin 4) (n : Fin 4096) (d : Fin 128) :
    xe x a1 a2 (ix3 b n d) = (∑ c : Fin 128, x (ix3 b n c) * a1 (ix2 d c)) + a2 (ix1 d) := by
  unfold xe
  rw [addf_apply]
  congr 1
  · refine dot_sum D2 128 rfl rfl x a1 (ix3 b n d) (fun k => ix3 b n k) (fun k => ix2 d k) (fun k => ?_) (fun k => ?_)
    · funext a
      match a with
      | ⟨0, _⟩ => exact Fin.ext rfl
      | ⟨1, _⟩ => exact Fin.ext rfl
      | ⟨2, _⟩ =>
        refine Fin.ext ?_
        show (D2.lhsIdx (ix3 b n d) ((contrEquiv1 D2 128 rfl rfl).symm k) (2 : Fin 3)).val = k.val
        rw [D2.lhsIdx_val_of_single (cl := (2 : Fin 3)) rfl]
        exact contrEquiv1_symm_val D2 128 rfl rfl k
    · funext a
      match a with
      | ⟨0, _⟩ => exact Fin.ext rfl
      | ⟨1, _⟩ =>
        refine Fin.ext ?_
        show (D2.rhsIdx (ix3 b n d) ((contrEquiv1 D2 128 rfl rfl).symm k) (1 : Fin 2)).val = k.val
        rw [D2.rhsIdx_val_of_single (cr := (1 : Fin 2)) rfl]
        exact contrEquiv1_symm_val D2 128 rfl rfl k
  · refine (broadcastInDim_apply _ _ _ (ix3 b n d) (ix3 (0 : Fin 1) (0 : Fin 1) d) fun a => ?_).trans ?_
    · match a with
      | ⟨0, _⟩ => rfl
      | ⟨1, _⟩ => rfl
      | ⟨2, _⟩ => rfl
    · refine broadcastInDim_apply _ _ _ (ix3 (0 : Fin 1) (0 : Fin 1) d) (ix1 d) fun a => ?_
      match a with
      | ⟨0, _⟩ => rfl

/-- The index a sum over the middle axis of a [4, 4096, 4096] array visits. -/
theorem lift_mid (h : S4x4096x4096.Reduces [1] S4x4096) (b : Fin 4) (e : Fin 4096) (v : Fin 4096) :
    h.lift (ix2 b e) v = ix3 b v e := by
  funext a
  match a with
  | ⟨0, _⟩ => exact Fin.ext rfl
  | ⟨1, _⟩ => exact Fin.ext rfl
  | ⟨2, _⟩ => exact Fin.ext rfl

/-- The index a sum over the last axis of a [4, 4096, 4096] array visits. -/
theorem lift_last (h : S4x4096x4096.Reduces [2] S4x4096) (b : Fin 4) (v : Fin 4096) (e : Fin 4096) :
    h.lift (ix2 b v) e = ix3 b v e := by
  funext a
  match a with
  | ⟨0, _⟩ => exact Fin.ext rfl
  | ⟨1, _⟩ => exact Fin.ext rfl
  | ⟨2, _⟩ => exact Fin.ext rfl

/-- degE b e = Σ_v i b v e. -/
theorem degE_apply (i : FVec Ideal S4x4096x4096 .f32) (b : Fin 4) (e : Fin 4096) :
    degE i (ix2 b e) = ∑ v : Fin 4096, i (ix3 b v e) := by
  unfold degE
  rw [hostReduceAdd_apply,
    Ideal.hostReduceAdd_single reducesTo_S4x4096x4096_S4x4096_d1 (by decide : S4x4096x4096.Reduces [1] S4x4096)]
  show Ideal.ofBits .f32 0x00000000#32 + ∑ v : Fin 4096, _ = _
  rw [Ideal.ofBits_zero_f32, zero_add]
  exact Finset.sum_congr rfl fun v _ => by rw [lift_mid]

/-- degV b v = Σ_e i b v e. -/
theorem degV_apply (i : FVec Ideal S4x4096x4096 .f32) (b : Fin 4) (v : Fin 4096) :
    degV i (ix2 b v) = ∑ e : Fin 4096, i (ix3 b v e) := by
  unfold degV
  rw [hostReduceAdd_apply,
    Ideal.hostReduceAdd_single reducesTo_S4x4096x4096_S4x4096_d2 (by decide : S4x4096x4096.Reduces [2] S4x4096)]
  show Ideal.ofBits .f32 0x00000000#32 + ∑ e : Fin 4096, _ = _
  rw [Ideal.ofBits_zero_f32, zero_add]
  exact Finset.sum_congr rfl fun e _ => by rw [lift_last]

/-- invDeg d at (b, n): the choice, by the bit of d b n > 0, between the quotient 1 / d b n and 0 (the three
    literals the extended reals their patterns denote). -/
theorem invDeg_apply (d : FVec Ideal S4x4096 .f32) (b : Fin 4) (n : Fin 4096) :
    invDeg d (ix2 b n)
      = Scalar.select (Ideal.cmp .ogt (d (ix2 b n)) (Ideal.ofBits .f32 0x00000000#32))
          (Ideal.div (Ideal.ofBits .f32 0x3F800000#32) (d (ix2 b n))) (Ideal.ofBits .f32 0x00000000#32) := by
  unfold invDeg
  rw [select_apply, cmpf_apply, hostDivf_apply, scalar_bcast_apply, scalar_bcast_apply]
  rfl

/-- A per-(batch, vertex) value repeated along the feature axis reads the value at (b, n). -/
theorem rowsTo128_apply (s : FVec Ideal S4x4096 .f32) (b : Fin 4) (n : Fin 4096) (c : Fin 128) :
    rowsTo128 s (ix3 b n c) = s (ix2 b n) := by
  unfold rowsTo128
  refine (broadcastInDim_apply _ _ _ (ix3 b n c) (ix3 b n (0 : Fin 1)) fun a => ?_).trans ?_
  · match a with
    | ⟨0, _⟩ => rfl
    | ⟨1, _⟩ => rfl
    | ⟨2, _⟩ => rfl
  · refine broadcastInDim_apply _ _ _ (ix3 b n (0 : Fin 1)) (ix2 b n) fun a => ?_
    match a with
    | ⟨0, _⟩ => rfl
    | ⟨1, _⟩ => rfl

/-- edge b e c = invDeg (degE) b e · Σ_v i b v e · y b v c. -/
theorem edge_apply (i : FVec Ideal S4x4096x4096 .f32) (y : FVec Ideal S4x4096x128 .f32)
    (b : Fin 4) (e : Fin 4096) (c : Fin 128) :
    edge i y (ix3 b e c) = invDeg (degE i) (ix2 b e) * ∑ v : Fin 4096, i (ix3 b v e) * y (ix3 b v c) := by
  unfold edge
  rw [mulf_apply, rowsTo128_apply]
  congr 1
  refine dot_sum D3 4096 rfl rfl i y (ix3 b e c) (fun k => ix3 b k e) (fun k => ix3 b k c) (fun k => ?_) (fun k => ?_)
  · funext a
    match a with
    | ⟨0, _⟩ => exact Fin.ext rfl
    | ⟨1, _⟩ =>
      refine Fin.ext ?_
      show (D3.lhsIdx (ix3 b e c) ((contrEquiv1 D3 4096 rfl rfl).symm k) (1 : Fin 3)).val = k.val
      rw [D3.lhsIdx_val_of_single (cl := (1 : Fin 3)) rfl]
      exact contrEquiv1_symm_val D3 4096 rfl rfl k
    | ⟨2, _⟩ => exact Fin.ext rfl
  · funext a
    match a with
    | ⟨0, _⟩ => exact Fin.ext rfl
    | ⟨1, _⟩ =>
      refine Fin.ext ?_
      show (D3.rhsIdx (ix3 b e c) ((contrEquiv1 D3 4096 rfl rfl).symm k) (1 : Fin 3)).val = k.val
      rw [D3.rhsIdx_val_of_single (cr := (1 : Fin 3)) rfl]
      exact contrEquiv1_symm_val D3 4096 rfl rfl k
    | ⟨2, _⟩ => exact Fin.ext rfl

/-- vert b v c = invDeg (degV) b v · Σ_e i b v e · z b e c. -/
theorem vert_apply (i : FVec Ideal S4x4096x4096 .f32) (z : FVec Ideal S4x4096x128 .f32)
    (b : Fin 4) (v : Fin 4096) (c : Fin 128) :
    vert i z (ix3 b v c) = invDeg (degV i) (ix2 b v) * ∑ e : Fin 4096, i (ix3 b v e) * z (ix3 b e c) := by
  unfold vert
  rw [mulf_apply, rowsTo128_apply]
  congr 1
  refine dot_sum D4 4096 rfl rfl i z (ix3 b v c) (fun k => ix3 b v k) (fun k => ix3 b k c) (fun k => ?_) (fun k => ?_)
  · funext a
    match a with
    | ⟨0, _⟩ => exact Fin.ext rfl
    | ⟨1, _⟩ => exact Fin.ext rfl
    | ⟨2, _⟩ =>
      refine Fin.ext ?_
      show (D4.lhsIdx (ix3 b v c) ((contrEquiv1 D4 4096 rfl rfl).symm k) (2 : Fin 3)).val = k.val
      rw [D4.lhsIdx_val_of_single (cl := (2 : Fin 3)) rfl]
      exact contrEquiv1_symm_val D4 4096 rfl rfl k
  · funext a
    match a with
    | ⟨0, _⟩ => exact Fin.ext rfl
    | ⟨1, _⟩ =>
      refine Fin.ext ?_
      show (D4.rhsIdx (ix3 b v c) ((contrEquiv1 D4 4096 rfl rfl).symm k) (1 : Fin 3)).val = k.val
      rw [D4.rhsIdx_val_of_single (cr := (1 : Fin 3)) rfl]
      exact contrEquiv1_symm_val D4 4096 rfl rfl k
    | ⟨2, _⟩ => exact Fin.ext rfl

/-- A [B, N, C] array laid out as an image: at (b, c, h, w) it reads the array at (b, 64·h + w, c). -/
theorem toImage_apply (t : FVec Ideal S4x4096x128 .f32) (b : Fin 4) (c : Fin 128) (h w : Fin 64) :
    toImage t (ix4 b c h w)
      = t (ix3 b ⟨h.val * 64 + w.val, by have := h.isLt; have := w.isLt; omega⟩ c) := by
  unfold toImage
  refine (shapeCast_apply _ _ (ix4 b c h w)
    (ix3 b c (⟨h.val * 64 + w.val, by have := h.isLt; have := w.isLt; omega⟩ : Fin 4096)) ?_).trans ?_
  · rw [Shape.rowMajor_val_four, Shape.rowMajor_val_three]
    show (b.val * 128 + c.val) * 4096 + (h.val * 64 + w.val) = ((b.val * 128 + c.val) * 64 + h.val) * 64 + w.val
    omega
  · exact transpose_ix3_021_apply _ _ b c _

/-- The layer's output before normalisation at (b, c, h, w), with n = 64·h + w: the message-passing result at
    (b, n, c) plus the input's feature there. -/
theorem pre_apply (a0 : FVec Ideal S4x128x64x64 .f32) (a1 : FVec Ideal S128x128 .f32) (a2 : FVec Ideal S128 .f32)
    (b : Fin 4) (c : Fin 128) (h w : Fin 64) :
    pre a0 a1 a2 (ix4 b c h w)
      = vert (inc (xf a0)) (edge (inc (xf a0)) (xe (xf a0) a1 a2))
          (ix3 b ⟨h.val * 64 + w.val, by have := h.isLt; have := w.isLt; omega⟩ c)
        + xf a0 (ix3 b ⟨h.val * 64 + w.val, by have := h.isLt; have := w.isLt; omega⟩ c) := by
  unfold pre
  rw [toImage_apply, addf_apply]

/-! ## The batch moments, the normalisation and SiLU -/

/-- A rank-4 index set is the product of its four coordinate ranges. -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- Dropping batch, height and width from an image index leaves the channel. -/
theorem drop_chan (b : Fin 4) (c' c : Fin 128) (h w : Fin 64) :
    reducesTo_S4x128x64x64_S128_d0_2_3.drop (ix4 b c' h w) = ix1 c ↔ c' = c := by
  constructor
  · intro H
    exact Fin.ext (congrArg Fin.val (congrFun H (0 : Fin 1)))
  · rintro rfl
    funext a
    match a with
    | ⟨0, _⟩ => exact Fin.ext rfl

/-- chanSum p c = Σ_b Σ_h Σ_w p b c h w. -/
theorem chanSum_apply (p : FVec Ideal S4x128x64x64 .f32) (c : Fin 128) :
    chanSum p (ix1 c) = ∑ b : Fin 4, ∑ h : Fin 64, ∑ w : Fin 64, p (ix4 b c h w) := by
  unfold chanSum
  rw [hostReduceAdd_apply]
  unfold Ideal.hostReduceAdd
  show Ideal.ofBits .f32 0x00000000#32 + _ = _
  rw [Ideal.ofBits_zero_f32, zero_add, Finset.sum_filter,
    ← Equiv.sum_comp (idxEquiv4 (n0 := 4) (n1 := 128) (n2 := 64) (n3 := 64)).symm]
  simp only [Fintype.sum_prod_type]
  refine Finset.sum_congr rfl fun b _ => ?_
  rw [Finset.sum_eq_single c]
  · refine Finset.sum_congr rfl fun h _ => Finset.sum_congr rfl fun w _ => ?_
    exact if_pos ((drop_chan b c c h w).mpr rfl)
  · intro c' _ hne
    refine Finset.sum_eq_zero fun h _ => Finset.sum_eq_zero fun w _ => ?_
    exact if_neg fun H => hne ((drop_chan b c' c h w).mp H)
  · intro hc
    exact absurd (Finset.mem_univ c) hc

/-- mean c = chanSum c / 16384, the divisor the literal's value. -/
theorem mean_apply (p : FVec Ideal S4x128x64x64 .f32) (c : Fin 128) :
    mean p (ix1 c) = Ideal.div (chanSum p (ix1 c)) (Ideal.ofBits .f32 0x46800000#32) := by
  unfold mean
  rw [hostDivf_apply, scalar_bcast_apply]

/-- A per-channel value as a [1, C, 1, 1] array reads the value at c. -/
theorem chan1_apply (v : FVec Ideal S128 .f32) (u0 : Fin 1) (c : Fin 128) (u2 u3 : Fin 1) :
    chan1 v (ix4 u0 c u2 u3) = v (ix1 c) := by
  unfold chan1
  refine broadcastInDim_apply _ _ _ (ix4 u0 c u2 u3) (ix1 c) fun a => ?_
  match a with
  | ⟨0, _⟩ => rfl

/-- A [1, C, 1, 1] array repeated over batch, height and width reads its element at c. -/
theorem chanAll_apply (v : FVec Ideal S1x128x1x1 .f32) (b : Fin 4) (c : Fin 128) (h w : Fin 64) :
    chanAll v (ix4 b c h w) = v (ix4 (0 : Fin 1) c (0 : Fin 1) (0 : Fin 1)) := by
  unfold chanAll
  refine broadcastInDim_apply _ _ _ (ix4 b c h w) (ix4 (0 : Fin 1) c (0 : Fin 1) (0 : Fin 1)) fun a => ?_
  match a with
  | ⟨0, _⟩ => rfl
  | ⟨1, _⟩ => rfl
  | ⟨2, _⟩ => rfl
  | ⟨3, _⟩ => rfl

/-- The image centred: p b c h w − chanSum c / 16384. -/
theorem centred_apply (p : FVec Ideal S4x128x64x64 .f32) (b : Fin 4) (c : Fin 128) (h w : Fin 64) :
    centred p (ix4 b c h w)
      = p (ix4 b c h w) - Ideal.div (chanSum p (ix1 c)) (Ideal.ofBits .f32 0x46800000#32) := by
  unfold centred
  rw [subf_apply, chanAll_apply, hostDivf_apply, chan1_apply, scalar_bcast_apply]

/-- The variance's divisor: the value of the literal 16384 minus the integer 0 converted. -/
theorem varDenom_apply :
    varDenom (F := Ideal) ix0 = Ideal.ofBits .f32 0x46800000#32 - FloatOps.sitofp (F := Ideal) .f32 (0#32 : BitVec 32) := rfl

/-- var c: the choice, by the bit of varDenom > 0, between Σ_{b,h,w} (centred b c h w)² / varDenom and the
    value of the literal 0x7FC00000. -/
theorem var_apply (p : FVec Ideal S4x128x64x64 .f32) (c : Fin 128) :
    var p (ix1 c)
      = Scalar.select (Ideal.cmp .ogt (varDenom (F := Ideal) ix0) (Ideal.ofBits .f32 0x00000000#32))
          (Ideal.div (∑ b : Fin 4, ∑ h : Fin 64, ∑ w : Fin 64, centred p (ix4 b c h w) * centred p (ix4 b c h w))
            (varDenom (F := Ideal) ix0))
          (Ideal.ofBits .f32 0x7FC00000#32) := by
  unfold var
  rw [select_apply, hostDivf_apply, chanSum_apply, scalar_bcast_apply,
    broadcastInDim_scalar_apply, broadcastInDim_scalar_apply]
  rfl

/-- bn at (b, c, h, w): γ c · ((p b c h w − mean c) · rsqrt (var c + ε)) + β c, ε the literal's value. -/
theorem bn_apply (p : FVec Ideal S4x128x64x64 .f32) (a3 a4 : FVec Ideal S128 .f32)
    (b : Fin 4) (c : Fin 128) (h w : Fin 64) :
    bn p a3 a4 (ix4 b c h w)
      = a3 (ix1 c) * ((p (ix4 b c h w) - mean p (ix1 c))
          * Ideal.rsqrt (var p (ix1 c) + Ideal.ofBits .f32 0x3727C5AC#32)) + a4 (ix1 c) := by
  unfold bn
  rw [addf_apply, mulf_apply, mulf_apply, subf_apply, chanAll_apply, chanAll_apply, chanAll_apply, chanAll_apply,
    chan1_apply, chan1_apply, chan1_apply]
  show _ * (_ * Ideal.rsqrt (chan1 (var p) (ix4 (0 : Fin 1) c (0 : Fin 1) (0 : Fin 1)) + _)) + _ = _
  rw [chan1_apply, scalar_bcast_apply]

/-- SiLU at an index: y · (1 / (1 + exp (−y))), the two 1 the literal's value. -/
theorem silu_apply (y : FVec Ideal S4x128x64x64 .f32) (i : S4x128x64x64.Idx) :
    silu y i = y i * Ideal.div (Ideal.ofBits .f32 0x3F800000#32)
      (Ideal.ofBits .f32 0x3F800000#32 + Ideal.exp (-(y i))) := by
  unfold silu
  rw [mulf_apply, hostDivf_apply, addf_apply, scalar_bcast_apply]
  rfl

/-- The program's result at (b, c, h, w). -/
theorem out_apply (a0 : FVec Ideal S4x128x64x64 .f32) (a1 : FVec Ideal S128x128 .f32) (a2 a3 a4 : FVec Ideal S128 .f32)
    (b : Fin 4) (c : Fin 128) (h w : Fin 64) :
    out a0 a1 a2 a3 a4 (ix4 b c h w)
      = bn (pre a0 a1 a2) a3 a4 (ix4 b c h w)
        * Ideal.div (Ideal.ofBits .f32 0x3F800000#32)
            (Ideal.ofBits .f32 0x3F800000#32 + Ideal.exp (-(bn (pre a0 a1 a2) a3 a4 (ix4 b c h w)))) := by
  unfold out
  exact silu_apply _ _

end Cert.ReferenceIdeal.RefValue

end
-- ==== Proof.RefConsts.lean ====
/-
  The one float literal of the reference whose value decides a branch: 16384, the number of elements per channel.
  The variance divides by 16384 − 0, which is positive, so its guarded choice is always the quotient.
-/
import proofs.«147048_j80771154968988_2_alg».proof.Proof.RefRead

noncomputable section

open scoped BigOperators

namespace Cert.ReferenceIdeal.RefConsts

open Cert.ReferenceIdeal Cert.ReferenceIdeal.Gen Cert.ReferenceIdeal.RefRun Cert.ReferenceIdeal.RefValue
open Idealize.ShloMosaic Idealize.ShloMosaic.ValueIdx

/-- The binary32 pattern 0x46800000 denotes 2^14 = 16384. -/
theorem ofBits_16384 : Ideal.ofBits .f32 0x46800000#32 = ((16384 : ℝ) : EReal) := by
  simp [Ideal.ofBits, Ideal.ieee, -EReal.coe_mul]; norm_num

/-- The integer 0 converts to the extended real 0. -/
theorem sitofp_zero : FloatOps.sitofp (F := Ideal) .f32 (0#32 : BitVec 32) = 0 := by
  show (((0#32 : BitVec 32).toInt : ℝ) : EReal) = 0
  simp

/-- The variance's divisor is the literal's value. -/
theorem varDenom_eq : varDenom (F := Ideal) ix0 = Ideal.ofBits .f32 0x46800000#32 := by
  rw [varDenom_apply, sitofp_zero, sub_zero]

/-- The divisor is positive: the guard's bit is 1. -/
theorem var_guard :
    Ideal.cmp .ogt (varDenom (F := Ideal) ix0) (Ideal.ofBits .f32 0x00000000#32) = 1#1 := by
  rw [varDenom_eq, ofBits_16384, Ideal.ofBits_zero_f32]
  have h : (0 : EReal) < ((16384 : ℝ) : EReal) := by exact_mod_cast (by norm_num : (0 : ℝ) < 16384)
  simp [Ideal.cmp, h]

/-- var c = Σ_{b,h,w} (centred b c h w)² / 16384, the divisor the literal's value. -/
theorem var_apply' (p : FVec Ideal S4x128x64x64 .f32) (c : Fin 128) :
    var p (ix1 c)
      = Ideal.div (∑ b : Fin 4, ∑ h : Fin 64, ∑ w : Fin 64, centred p (ix4 b c h w) * centred p (ix4 b c h w))
          (Ideal.ofBits .f32 0x46800000#32) := by
  rw [var_apply, var_guard, select_one, varDenom_eq]

end Cert.ReferenceIdeal.RefConsts

end
-- ==== Proof.LibF32Literals.lean ====
/-
  Binary32 literals as extended reals. At the exact (extended-real) reading of floats a literal is the value its
  IEEE-754 pattern denotes: sign bit, eight exponent bits with bias 127, twenty-three fraction bits. The patterns
  here are those of 0, 1, 2, 16, 256 and 16384.
-/
import Idealize.ShloMosaic.PureOps.Ideal

noncomputable section

namespace Cert.LibF32Literals

open Idealize.ShloMosaic

/-- The pattern of +0.0 denotes 0. -/
theorem ofBits_zero : Ideal.ofBits .f32 0x00000000#32 = 0 := by
  simp [Ideal.ofBits, Ideal.ieee]

/-- The pattern 0x3F800000 denotes 1. -/
theorem ofBits_one : Ideal.ofBits .f32 0x3F800000#32 = 1 := by
  simp [Ideal.ofBits, Ideal.ieee, -EReal.coe_mul]; norm_num

/-- The pattern 0x3F800000 denotes the real 1. -/
theorem ofBits_one_coe : Ideal.ofBits .f32 0x3F800000#32 = ((1 : ℝ) : EReal) := by
  rw [ofBits_one]; norm_cast

/-- The pattern 0x40000000 denotes the real 2. -/
theorem ofBits_two : Ideal.ofBits .f32 0x40000000#32 = ((2 : ℝ) : EReal) := by
  simp [Ideal.ofBits, Ideal.ieee, -EReal.coe_mul]; norm_num

/-- The pattern 0x41800000 denotes the real 16. -/
theorem ofBits_16 : Ideal.ofBits .f32 0x41800000#32 = ((16 : ℝ) : EReal) := by
  simp [Ideal.ofBits, Ideal.ieee, -EReal.coe_mul]; norm_num

/-- The pattern 0x43800000 denotes the real 256. -/
theorem ofBits_256 : Ideal.ofBits .f32 0x43800000#32 = ((256 : ℝ) : EReal) := by
  simp [Ideal.ofBits, Ideal.ieee, -EReal.coe_mul]; norm_num

/-- The pattern 0x46800000 denotes the real 16384. -/
theorem ofBits_16384 : Ideal.ofBits .f32 0x46800000#32 = ((16384 : ℝ) : EReal) := by
  simp [Ideal.ofBits, Ideal.ieee, -EReal.coe_mul]; norm_num

end Cert.LibF32Literals

end
-- ==== Proof.LibSqrtThreshold.lean ====
/-
  A threshold seen through the square root. On the extended reals, with the square root of a negative number and
  of −∞ sent to −∞ and that of +∞ to +∞: for a real t > 0 and EVERY extended real d,
      sqrt (max d 0) < t  ↔  d < t · t,
  so comparing a clamped distance with a threshold is comparing the squared distance with the threshold's square.
-/
import Idealize.ShloMosaic.PureOps.Ideal

noncomputable section

namespace Cert.LibSqrtThreshold

open Idealize.ShloMosaic

/-- The square root of a real: −∞ below zero, the real square root from zero on. -/
theorem sqrt_coe (r : ℝ) : Ideal.sqrt (r : EReal) = if r < 0 then ⊥ else ((Real.sqrt r : ℝ) : EReal) := rfl
theorem sqrt_top : Ideal.sqrt ⊤ = ⊤ := rfl
theorem sqrt_bot : Ideal.sqrt ⊥ = ⊥ := rfl

/-- The square root of zero is zero. -/
theorem sqrt_zero : Ideal.sqrt 0 = 0 := by
  show Ideal.sqrt ((0 : ℝ) : EReal) = 0
  rw [sqrt_coe, if_neg (lt_irrefl _), Real.sqrt_zero]; rfl

/-- For a real t > 0 and every extended real d: sqrt (max d 0) < t exactly when d < t · t. -/
theorem sqrt_max_lt_iff (t : ℝ) (ht : 0 < t) (d : EReal) :
    Ideal.sqrt (max d 0) < (t : EReal) ↔ d < ((t * t : ℝ) : EReal) := by
  have htt : (0 : ℝ) < t * t := mul_pos ht ht
  induction d using EReal.rec with
  | bot =>
    rw [max_eq_right bot_le, sqrt_zero]
    exact ⟨fun _ => EReal.bot_lt_coe _, fun _ => by exact_mod_cast ht⟩
  | top =>
    rw [max_eq_left le_top, sqrt_top]
    exact ⟨fun h => absurd h (not_lt.mpr le_top), fun h => absurd h (not_lt.mpr le_top)⟩
  | coe r =>
    by_cases hr : r < 0
    · have h0 : ((r : ℝ) : EReal) ≤ 0 := by exact_mod_cast hr.le
      rw [max_eq_right h0, sqrt_zero]
      exact ⟨fun _ => by exact_mod_cast hr.trans htt, fun _ => by exact_mod_cast ht⟩
    · have hr' : 0 ≤ r := not_lt.mp hr
      have h0 : (0 : EReal) ≤ ((r : ℝ) : EReal) := by exact_mod_cast hr'
      rw [max_eq_left h0, sqrt_coe, if_neg hr, EReal.coe_lt_coe_iff, EReal.coe_lt_coe_iff, Real.sqrt_lt' ht, sq]

/-- The same as the comparison's bit. -/
theorem cmp_sqrt_threshold (t : ℝ) (ht : 0 < t) (d : EReal) :
    Ideal.cmp .olt (Ideal.sqrt (max d 0)) (t : EReal) = Ideal.cmp .olt d ((t * t : ℝ) : EReal) := by
  show BitVec.ofBool (decide (Ideal.sqrt (max d 0) < (t : EReal))) = BitVec.ofBool (decide (d < ((t * t : ℝ) : EReal)))
  rw [decide_eq_decide.mpr (sqrt_max_lt_iff t ht d)]

/-- At the threshold 16: the distance is below 16 exactly when the squared distance is below 256. -/
theorem cmp_sqrt_16 (d : EReal) :
    Ideal.cmp .olt (Ideal.sqrt (max d 0)) ((16 : ℝ) : EReal) = Ideal.cmp .olt d ((256 : ℝ) : EReal) := by
  have h := cmp_sqrt_threshold 16 (by norm_num) d
  rwa [show ((16 : ℝ) * 16) = 256 by norm_num] at h

end Cert.LibSqrtThreshold

end
-- ==== Proof.LibRealValued.lean ====
/-
  Real-valued extended reals. An extended real is REAL when it is neither infinity. The reals among the extended
  reals are closed under sum, difference, product, negation, maximum, finite sums, the quotient by a NONZERO real,
  the guarded reciprocal (1 / z where z > 0, else 0) of a real z, and contain the value of every unsigned integer.
-/
import Idealize.ShloMosaic.PureOps.Ideal

noncomputable section

open scoped BigOperators

namespace Cert.LibRealValued

open Idealize.ShloMosaic

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases le_total x y with h | h
  · rw [max_eq_right h]; exact hy
  · rw [max_eq_left h]; exact hx

/-- A finite sum of reals is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- The quotient of a real by a nonzero real is real. -/
theorem IsReal.div {x : EReal} (hx : IsReal x) {b : ℝ} (hb : b ≠ 0) : IsReal (Ideal.div x (b : EReal)) := by
  rw [Ideal.div_coe hb]; exact hx.mul (IsReal.coe _)

/-- The guarded reciprocal of a real — 1 / z where z > 0, else 0 — is real. -/
theorem IsReal.guardedRecip {z : EReal} (hz : IsReal z) :
    IsReal (Scalar.select (Ideal.cmp .ogt z 0) (Ideal.div 1 z) 0) := by
  obtain ⟨r, rfl⟩ := hz
  show IsReal (if BitVec.ofBool (decide ((0 : EReal) < (r : EReal))) = 1#1 then Ideal.div 1 (r : EReal) else 0)
  by_cases h : (0 : EReal) < (r : EReal)
  · have hr : r ≠ 0 := by
      have : (0 : ℝ) < r := by exact_mod_cast h
      exact ne_of_gt this
    rw [decide_eq_true h, if_pos (show BitVec.ofBool true = 1#1 by decide)]
    exact IsReal.one.div hr
  · rw [decide_eq_false h, if_neg (show ¬ BitVec.ofBool false = 1#1 by decide)]
    exact IsReal.zero

/-- The value of an unsigned integer is real. -/
theorem IsReal.uitofp {w : Nat} (b : BitVec w) : IsReal (FloatOps.uitofp (F := Ideal) .f32 b) :=
  ⟨(b.toNat : ℝ), rfl⟩

end Cert.LibRealValued

end
-- ==== Proof.LibBatchVariance.lean ====
/-
  The variance in two arrangements. For N real numbers o_i (N ≠ 0 their count) with mean μ = (Σ o_i) / N:
      (Σ (o_i − μ)²) / N = (Σ o_i²) / N − μ².
  Stated over the reals, and over the extended reals with the quotient that is x · y⁻¹ off a zero divisor.
-/
import Idealize.ShloMosaic.PureOps.Ideal

noncomputable section

open scoped BigOperators

namespace Cert.LibBatchVariance

open Idealize.ShloMosaic

/-- The mean of the squared deviations is the mean of the squares minus the square of the mean. -/
theorem variance_eq {ι : Type*} [Fintype ι] (o : ι → ℝ) (N : ℝ) (hN : N ≠ 0) (hcard : (Fintype.card ι : ℝ) = N) :
    (∑ i, (o i - (∑ j, o j) / N) * (o i - (∑ j, o j) / N)) / N
      = (∑ i, o i * o i) / N - ((∑ j, o j) / N) * ((∑ j, o j) / N) := by
  set S := ∑ j, o j with hS
  have h1 : ∑ i, (o i - S / N) * (o i - S / N)
      = (∑ i, o i * o i) - 2 * (S / N) * S + N * ((S / N) * (S / N)) := by
    have : ∀ i, (o i - S / N) * (o i - S / N) = o i * o i - 2 * (S / N) * o i + (S / N) * (S / N) := fun i => by ring
    simp only [this, Finset.sum_add_distrib, Finset.sum_sub_distrib, ← Finset.mul_sum, Finset.sum_const,
      Finset.card_univ, nsmul_eq_mul, hcard, ← hS]
    ring
  rw [h1]
  field_simp
  ring

/-- A finite sum of reals, taken in the extended reals, is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient of two reals, the divisor nonzero, is the real quotient. -/
theorem div_coe_coe (a : ℝ) {b : ℝ} (hb : b ≠ 0) : Ideal.div (a : EReal) (b : EReal) = ((a / b : ℝ) : EReal) := by
  rw [Ideal.div_coe hb, ← EReal.coe_mul]; congr 1; field_simp

/-- The same identity on the extended reals, for real data. -/
theorem variance_ereal {ι : Type*} [Fintype ι] (o : ι → ℝ) (N : ℝ) (hN : N ≠ 0) (hcard : (Fintype.card ι : ℝ) = N) :
    Ideal.div (∑ i, (((o i : ℝ) : EReal) - Ideal.div (∑ j, ((o j : ℝ) : EReal)) (N : EReal))
        * (((o i : ℝ) : EReal) - Ideal.div (∑ j, ((o j : ℝ) : EReal)) (N : EReal))) (N : EReal)
      = Ideal.div (∑ i, ((o i : ℝ) : EReal) * ((o i : ℝ) : EReal)) (N : EReal)
        - Ideal.div (∑ j, ((o j : ℝ) : EReal)) (N : EReal) * Ideal.div (∑ j, ((o j : ℝ) : EReal)) (N : EReal) := by
  rw [coe_sum, div_coe_coe _ hN]
  simp only [← EReal.coe_sub, ← EReal.coe_mul]
  rw [coe_sum, coe_sum, div_coe_coe _ hN, div_coe_coe _ hN, ← EReal.coe_sub, variance_eq o N hN hcard]

end Cert.LibBatchVariance

end
-- ==== Proof.RefBridge.lean ====
/-
  Facts about the reference's stages that join it to another arrangement of the same layer: the incidence test as a
  comparison of the SQUARED distance with 256; the symmetry of the distances, of the incidence matrix and hence of the
  two degree vectors; the precondition read as "every input entry is a real number"; that the layer's output before
  normalisation is then real everywhere; and the variance as the mean of squares minus the square of the mean.
-/
import proofs.«147048_j80771154968988_2_alg».proof.Proof.RefConsts
import proofs.«147048_j80771154968988_2_alg».proof.Proof.LibF32Literals
import proofs.«147048_j80771154968988_2_alg».proof.Proof.LibSqrtThreshold
import proofs.«147048_j80771154968988_2_alg».proof.Proof.LibRealValued
import proofs.«147048_j80771154968988_2_alg».proof.Proof.LibBatchVariance
import Idealize.ShloMosaic.Lib.ReduceAll

noncomputable section

open scoped BigOperators

namespace Cert.ReferenceIdeal.RefBridge

open Cert.ReferenceIdeal Cert.ReferenceIdeal.Gen Cert.ReferenceIdeal.RefRun Cert.ReferenceIdeal.RefValue
open Idealize.ShloMosaic Idealize.ShloMosaic.ValueIdx

/-! ## The incidence test on the squared distance -/

/-- inc b i j is the bit of d2 b i j < 256 (the literal 0x43800000), read as an unsigned integer: the square root
    and the clamp at zero drop out, for every extended real d2 b i j. -/
theorem inc_threshold (x : FVec Ideal S4x4096x128 .f32) (b : Fin 4) (i j : Fin 4096) :
    inc x (ix3 b i j)
      = FloatOps.uitofp (F := Ideal) .f32 (Ideal.cmp .olt (d2 x (ix3 b i j)) (Ideal.ofBits .f32 0x43800000#32)) := by
  rw [inc_apply, Cert.LibF32Literals.ofBits_zero, Cert.LibF32Literals.ofBits_16, Cert.LibF32Literals.ofBits_256,
    Cert.LibSqrtThreshold.cmp_sqrt_16]

/-! ## Symmetry -/

/-- The squared distances are symmetric. -/
theorem d2_symm (x : FVec Ideal S4x4096x128 .f32) (b : Fin 4) (i j : Fin 4096) :
    d2 x (ix3 b i j) = d2 x (ix3 b j i) := by
  rw [d2_apply, d2_apply, add_comm (RefRun.sq x (ix2 b i))]
  congr 2
  exact Finset.sum_congr rfl fun c _ => mul_comm _ _

/-- The incidence matrix is symmetric. -/
theorem inc_symm (x : FVec Ideal S4x4096x128 .f32) (b : Fin 4) (i j : Fin 4096) :
    inc x (ix3 b i j) = inc x (ix3 b j i) := by
  rw [inc_apply, inc_apply, d2_symm]

/-- So the hyperedge degrees are the vertex degrees. -/
theorem degE_eq_degV (x : FVec Ideal S4x4096x128 .f32) (b : Fin 4) (e : Fin 4096) :
    degE (inc x) (ix2 b e) = degV (inc x) (ix2 b e) := by
  rw [degE_apply, degV_apply]
  exact Finset.sum_congr rfl fun v _ => inc_symm x b v e

/-! ## The precondition: every input entry is a real -/

/-- A rank-zero array has one index. -/
instance : Subsingleton Cert.Pre_finite_inputs.S_.Idx := ⟨fun _ _ => funext fun d => d.elim0⟩

/-- The pattern 0x7F800000 denotes +∞. -/
theorem ofBits_inf : Ideal.ofBits .f32 0x7F800000#32 = ⊤ := by
  simp [Ideal.ofBits, Ideal.ieee]

/-- An extended real whose absolute value compares below +∞ is a real. -/
theorem real_of_abs_lt_top (x : EReal) (h : Ideal.cmp .olt (max x (-x)) ⊤ = 1#1) : ∃ r : ℝ, x = (r : EReal) := by
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  induction x using EReal.rec with
  | bot => exact absurd hlt (by simp)
  | top => exact absurd hlt (by simp)
  | coe r => exact ⟨r, rfl⟩

/-- "All entries have absolute value below +∞", as the predicate spells it for one array, says every entry is a real. -/
theorem all_real {S : Shape} {axes : List (Fin S.rank)} (a : FVec Ideal S .f32)
    (hb : Cert.Pre_finite_inputs.S_.BroadcastsInDim S ![]) (hr : S.ReducesTo axes Cert.Pre_finite_inputs.S_)
    (hS : 0 < Cert.Pre_finite_inputs.S_.numel)
    (e : Host.reduce IntOp.andi
          (cmpf .olt (Host.absf a) (broadcastInDim S ![] hb (constant Cert.Pre_finite_inputs.S_ .f32 0x7F800000#32)))
          (constantI Cert.Pre_finite_inputs.S_ 1 1#1) hr hS ix0 = 1#1) :
    ∀ i, ∃ r : ℝ, a i = (r : EReal) := by
  intro i
  have hi := Host.reduce_andi_all _ _ hr hS ix0 e i
  refine real_of_abs_lt_top (a i) ?_
  rw [← ofBits_inf]
  exact hi

/-- The precondition `finite_inputs` holds of five arrays exactly as the claims state it (the printed predicate is
    all ones): then every entry of each array is a real number. -/
theorem real_of_pre [Cert.Pre_finite_inputs.Facts] (a0 : FVec Ideal S4x128x64x64 .f32) (a1 : FVec Ideal S128x128 .f32)
    (a2 a3 a4 : FVec Ideal S128 .f32)
    (h : Cert.Pre_finite_inputs.fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨all_real a0 _ _ _ e0, all_real a1 _ _ _ e1, all_real a2 _ _ _ e2, all_real a3 _ _ _ e3, all_real a4 _ _ _ e4⟩

/-! ## Real inputs give a real layer output -/

section Real
open Cert.LibRealValued

theorem xf_real (a0 : FVec Ideal S4x128x64x64 .f32) (h0 : ∀ i, IsReal (a0 i)) (b : Fin 4) (n : Fin 4096) (c : Fin 128) :
    IsReal (xf a0 (ix3 b n c)) := by
  rw [xf_apply]; exact h0 _

theorem xe_real (a0 : FVec Ideal S4x128x64x64 .f32) (a1 : FVec Ideal S128x128 .f32) (a2 : FVec Ideal S128 .f32)
    (h0 : ∀ i, IsReal (a0 i)) (h1 : ∀ i, IsReal (a1 i)) (h2 : ∀ i, IsReal (a2 i)) (b : Fin 4) (n : Fin 4096) (d : Fin 128) :
    IsReal (xe (xf a0) a1 a2 (ix3 b n d)) := by
  rw [xe_apply]
  exact (IsReal.sum _ _ fun c _ => (xf_real a0 h0 b n c).mul (h1 _)).add (h2 _)

/-- An incidence entry is 0 or 1, in particular real. -/
theorem inc_real (x : FVec Ideal S4x4096x128 .f32) (b : Fin 4) (i j : Fin 4096) : IsReal (inc x (ix3 b i j)) := by
  rw [inc_apply]; exact IsReal.uitofp _

theorem degE_real (x : FVec Ideal S4x4096x128 .f32) (b : Fin 4) (e : Fin 4096) : IsReal (degE (inc x) (ix2 b e)) := by
  rw [degE_apply]; exact IsReal.sum _ _ fun v _ => inc_real x b v e

theorem degV_real (x : FVec Ideal S4x4096x128 .f32) (b : Fin 4) (v : Fin 4096) : IsReal (degV (inc x) (ix2 b v)) := by
  rw [degV_apply]; exact IsReal.sum _ _ fun e _ => inc_real x b v e

theorem invDeg_real (d : FVec Ideal S4x4096 .f32) (b : Fin 4) (n : Fin 4096) (hd : IsReal (d (ix2 b n))) :
    IsReal (invDeg d (ix2 b n)) := by
  rw [invDeg_apply, Cert.LibF32Literals.ofBits_zero, Cert.LibF32Literals.ofBits_one]
  exact hd.guardedRecip

theorem edge_real (x : FVec Ideal S4x4096x128 .f32) (y : FVec Ideal S4x4096x128 .f32)
    (hy : ∀ b v c, IsReal (y (ix3 b v c))) (b : Fin 4) (e : Fin 4096) (c : Fin 128) :
    IsReal (edge (inc x) y (ix3 b e c)) := by
  rw [edge_apply]
  exact (invDeg_real _ b e (degE_real x b e)).mul (IsReal.sum _ _ fun v _ => (inc_real x b v e).mul (hy b v c))

theorem vert_real (x : FVec Ideal S4x4096x128 .f32) (z : FVec Ideal S4x4096x128 .f32)
    (hz : ∀ b e c, IsReal (z (ix3 b e c))) (b : Fin 4) (v : Fin 4096) (c : Fin 128) :
    IsReal (vert (inc x) z (ix3 b v c)) := by
  rw [vert_apply]
  exact (invDeg_real _ b v (degV_real x b v)).mul (IsReal.sum _ _ fun e _ => (inc_real x b v e).mul (hz b e c))

/-- With real inputs the layer's output before normalisation is real at every position. -/
theorem pre_real (a0 : FVec Ideal S4x128x64x64 .f32) (a1 : FVec Ideal S128x128 .f32) (a2 : FVec Ideal S128 .f32)
    (h0 : ∀ i, IsReal (a0 i)) (h1 : ∀ i, IsReal (a1 i)) (h2 : ∀ i, IsReal (a2 i))
    (b : Fin 4) (c : Fin 128) (h w : Fin 64) : IsReal (pre a0 a1 a2 (ix4 b c h w)) := by
  rw [pre_apply]
  exact (vert_real _ _ (fun b e c => edge_real _ _ (fun b v c => xe_real a0 a1 a2 h0 h1 h2 b v c) b e c) b _ c).add
    (xf_real a0 h0 b _ c)

/-- The same at any index. -/
theorem pre_real' (a0 : FVec Ideal S4x128x64x64 .f32) (a1 : FVec Ideal S128x128 .f32) (a2 : FVec Ideal S128 .f32)
    (h0 : ∀ i, IsReal (a0 i)) (h1 : ∀ i, IsReal (a1 i)) (h2 : ∀ i, IsReal (a2 i)) (i : S4x128x64x64.Idx) :
    IsReal (pre a0 a1 a2 i) := by
  rw [eq_ix4 i]; exact pre_real a0 a1 a2 h0 h1 h2 _ _ _ _

end Real

/-! ## The variance as the mean of squares minus the square of the mean -/

section Variance
open Cert.LibRealValued

/-- For an image with every entry real: var c = (Σ_{b,h,w} p b c h w²) / 16384 − (mean c)², the divisor the
    literal's value (16384 = 4 · 64 · 64 is the number of terms). -/
theorem var_alt (p : FVec Ideal S4x128x64x64 .f32) (hp : ∀ i, IsReal (p i)) (c : Fin 128) :
    var p (ix1 c)
      = Ideal.div (∑ b : Fin 4, ∑ h : Fin 64, ∑ w : Fin 64, p (ix4 b c h w) * p (ix4 b c h w))
          (Ideal.ofBits .f32 0x46800000#32)
        - mean p (ix1 c) * mean p (ix1 c) := by
  choose r hr using hp
  have hN : (16384 : ℝ) ≠ 0 := by norm_num
  have hcard : (Fintype.card (Fin 4 × Fin 64 × Fin 64) : ℝ) = 16384 := by
    simp only [Fintype.card_prod, Fintype.card_fin]; norm_num
  have key := Cert.LibBatchVariance.variance_ereal (ι := Fin 4 × Fin 64 × Fin 64)
    (fun q => r (ix4 q.1 c q.2.1 q.2.2)) 16384 hN hcard
  simp only [Fintype.sum_prod_type] at key
  rw [Cert.ReferenceIdeal.RefConsts.var_apply', mean_apply, chanSum_apply]
  simp only [centred_apply, chanSum_apply, hr, Cert.LibF32Literals.ofBits_16384]
  exact key

end Variance

end Cert.ReferenceIdeal.RefBridge

end
-- ==== Proof.LayerCore.lean ====
/-
  The layer, arranged two ways, is one function. If an array E holds, for every hyperedge, the incidence-weighted sum
  of the vertices' transformed features scaled by the reciprocal degree; an array O holds, for every vertex, the
  incidence-weighted sum of E scaled likewise, plus the input's feature; and S1, S2 hold the per-batch column sums of
  O and of its square — then normalising O's image by the moments read off S1 and S2, with the affine map and SiLU,
  is the reference's result. The incidence entries, degrees and sums are the reference's stages read at an index; the
  sums over the 4096 positions are the sums over the 64 × 64 image; the variance is the mean of squares minus the
  square of the mean because every entry is real.
-/
import proofs.«147048_j80771154968988_2_alg».proof.Proof.KernelRefShared
import proofs.«147048_j80771154968988_2_alg».proof.Proof.RefBridge

noncomputable section

open scoped BigOperators

namespace Cert.LayerBridge

open Cert.ReferenceIdeal Cert.ReferenceIdeal.Gen Cert.ReferenceIdeal.RefRun Cert.ReferenceIdeal.RefValue
open Cert.ReferenceIdeal.RefBridge Cert.KernelIdeal.HostValue Cert.LibRealValued
open Idealize.ShloMosaic Idealize.ShloMosaic.ValueIdx

/-! ## The one-entry arithmetic of the other arrangement -/

/-- The squared distance of two feature vectors: |r|² + |s|² − 2⟨r, s⟩, the 2 the literal's value. -/
def dist2 (r s : Fin 128 → EReal) : EReal :=
  ((∑ c : Fin 128, r c * r c) + (∑ c : Fin 128, s c * s c)) - Ideal.ofBits .f32 0x40000000#32 * ∑ c : Fin 128, r c * s c

/-- One incidence entry: the bit of dist2 < 256 widened to 32 bits and read as a signed integer. -/
def incEntry (r s : Fin 128 → EReal) : EReal :=
  FloatOps.sitofp (F := Ideal) .f32 ((Ideal.cmp .olt (dist2 r s) (Ideal.ofBits .f32 0x43800000#32)).setWidth 32)

/-- The reciprocal of a degree, zero where the degree is not positive. -/
def guardRecip (z : EReal) : EReal :=
  Scalar.select (Ideal.cmp .ogt z (Ideal.ofBits .f32 0x00000000#32)) (Ideal.div (Ideal.ofBits .f32 0x3F800000#32) z)
    (Ideal.ofBits .f32 0x00000000#32)

/-- A bit widened to 32 bits and read signed is the bit read unsigned. -/
theorem sitofp_setWidth (b : BitVec 1) :
    FloatOps.sitofp (F := Ideal) .f32 (b.setWidth 32) = FloatOps.uitofp (F := Ideal) .f32 b := by
  rcases BitVec.eq_zero_or_eq_one b with rfl | rfl
  · show (((BitVec.setWidth 32 (0#1 : BitVec 1)).toInt : ℝ) : EReal) = (((0#1 : BitVec 1).toNat : ℝ) : EReal)
    rw [show (BitVec.setWidth 32 (0#1 : BitVec 1)).toInt = 0 by decide, show (0#1 : BitVec 1).toNat = 0 by decide]
    simp
  · show (((BitVec.setWidth 32 (1#1 : BitVec 1)).toInt : ℝ) : EReal) = (((1#1 : BitVec 1).toNat : ℝ) : EReal)
    rw [show (BitVec.setWidth 32 (1#1 : BitVec 1)).toInt = 1 by decide, show (1#1 : BitVec 1).toNat = 1 by decide]
    simp

/-- The entry is the reference's incidence matrix at that pair of vertices. -/
theorem inc_eq (x : FVec Ideal S4x4096x128 .f32) (b : Fin 4) (p e : Fin 4096) :
    incEntry (fun f => x (ix3 b p f)) (fun f => x (ix3 b e f)) = inc x (ix3 b p e) := by
  rw [inc_threshold, d2_apply, sq_apply, sq_apply]
  exact sitofp_setWidth _

/-- The guarded reciprocal is the reference's, entry by entry. -/
theorem guardRecip_eq (d : FVec Ideal S4x4096 .f32) (b : Fin 4) (n : Fin 4096) :
    RefRun.invDeg d (ix2 b n) = guardRecip (d (ix2 b n)) := by
  rw [invDeg_apply]; rfl

/-- A sum over the 4096 positions is the sum over the 64 rows of the sums over the 64 columns. -/
theorem sum_hw {M : Type*} [AddCommMonoid M] (f : Fin 4096 → M) :
    ∑ h : Fin 64, ∑ w : Fin 64, f ⟨h.val * 64 + w.val, by have := h.isLt; have := w.isLt; omega⟩ = ∑ p, f p := by
  have e := Equiv.sum_comp (finProdFinEquiv (m := 64) (n := 64)) (f : Fin (64 * 64) → M)
  rw [Fintype.sum_prod_type] at e
  refine Eq.trans ?_ e
  refine Finset.sum_congr rfl fun h _ => Finset.sum_congr rfl fun w _ => ?_
  exact congrArg f (Fin.ext (by show h.val * 64 + w.val = w.val + 64 * h.val; omega))

/-! ## The bridge -/

/-- The layer's output before normalisation, as [B, N, C]. -/
def preBNC (a0 : FVec Ideal S4x128x64x64 .f32) (a1 : FVec Ideal S128x128 .f32) (a2 : FVec Ideal S128 .f32) :
    FVec Ideal S4x4096x128 .f32 :=
  addf (vert (inc (xf a0)) (edge (inc (xf a0)) (xe (xf a0) a1 a2))) (xf a0)

theorem pre_eq_toImage (a0 : FVec Ideal S4x128x64x64 .f32) (a1 : FVec Ideal S128x128 .f32) (a2 : FVec Ideal S128 .f32) :
    pre a0 a1 a2 = toImage (preBNC a0 a1 a2) := rfl

/-- The normalised, activated tail over arrays in the other arrangement's closed forms is the reference's result. -/
theorem layer_eq_core (a0 : FVec Ideal S4x128x64x64 .f32) (a1 : FVec Ideal S128x128 .f32) (a2 a3 a4 : FVec Ideal S128 .f32)
    (h0 : ∀ i, IsReal (a0 i)) (h1 : ∀ i, IsReal (a1 i)) (h2 : ∀ i, IsReal (a2 i))
    (E O : FVec Ideal S4x4096x128 .f32) (S1 S2 : FVec Ideal Cert.KernelIdeal.S4x1x128 .f32)
    (hE : ∀ (b : Fin 4) (p : Fin 4096) (d : Fin 128), E (ix3 b p d)
      = (Ideal.ofBits .f32 0x00000000#32
          + ∑ e : Fin 4096, incEntry (fun f => xfK a0 (ix3 b p f)) (fun f => xfK a0 (ix3 b e f))
              * ((∑ f : Fin 128, xfK a0 (ix3 b e f) * a1 (ix2 d f)) + a2 (ix1 d)))
        * guardRecip (Ideal.ofBits .f32 0x00000000#32
            + ∑ e : Fin 4096, incEntry (fun f => xfK a0 (ix3 b p f)) (fun f => xfK a0 (ix3 b e f))))
    (hO : ∀ (b : Fin 4) (p : Fin 4096) (d : Fin 128), O (ix3 b p d)
      = (Ideal.ofBits .f32 0x00000000#32
          + ∑ e : Fin 4096, incEntry (fun f => xfK a0 (ix3 b p f)) (fun f => xfK a0 (ix3 b e f)) * E (ix3 b e d))
        * guardRecip (Ideal.ofBits .f32 0x00000000#32
            + ∑ e : Fin 4096, incEntry (fun f => xfK a0 (ix3 b p f)) (fun f => xfK a0 (ix3 b e f)))
        + xfK a0 (ix3 b p d))
    (hS1 : ∀ (b : Fin 4) (d : Fin 128), S1 (ix3 b (0 : Fin 1) d) = ∑ p : Fin 4096, O (ix3 b p d))
    (hS2 : ∀ (b : Fin 4) (d : Fin 128), S2 (ix3 b (0 : Fin 1) d) = ∑ p : Fin 4096, O (ix3 b p d) * O (ix3 b p d)) :
    tailOut O S1 S2 a3 a4 = RefRun.out a0 a1 a2 a3 a4 := by
  have hx : xfK a0 = xf a0 := (ref_xf_eq a0).symm
  have hZ : Ideal.ofBits .f32 0x00000000#32 = 0 := Cert.LibF32Literals.ofBits_zero
  simp only [hx, inc_eq, hZ, zero_add] at hE hO
  -- the hyperedge array is the reference's
  have hEe : ∀ b p d, E (ix3 b p d) = edge (inc (xf a0)) (xe (xf a0) a1 a2) (ix3 b p d) := by
    intro b p d
    rw [hE, edge_apply, guardRecip_eq, degE_eq_degV, degV_apply, mul_comm (guardRecip _)]
    refine congrArg (fun t => t * guardRecip (∑ e : Fin 4096, inc (xf a0) (ix3 b p e))) ?_
    exact Finset.sum_congr rfl fun v _ => by rw [inc_symm (xf a0) b v p, xe_apply]
  -- the vertex array is the reference's output before normalisation
  have hOe : O = preBNC a0 a1 a2 := by
    funext i
    obtain ⟨b, p, d, rfl⟩ : ∃ (b : Fin 4) (p : Fin 4096) (d : Fin 128), i = ix3 b p d := ⟨i 0, i 1, i 2, eq_ix3 i⟩
    unfold preBNC
    rw [hO, addf_apply, vert_apply, guardRecip_eq, degV_apply, mul_comm (guardRecip _)]
    refine congrArg (fun t => t * guardRecip (∑ e : Fin 4096, inc (xf a0) (ix3 b p e)) + xf a0 (ix3 b p d)) ?_
    exact Finset.sum_congr rfl fun e _ => by rw [hEe]
  have himg : imgK O = pre a0 a1 a2 := by
    rw [pre_eq_toImage, hOe]; exact (ref_toImage_eq _).symm
  -- the column sums are the channel sums of the image
  have hsum : ∀ (G : FVec Ideal S4x4096x128 .f32) (ch : Fin 128),
      (∑ b : Fin 4, ∑ p : Fin 4096, G (ix3 b p ch)) = ∑ b : Fin 4, ∑ h : Fin 64, ∑ w : Fin 64, toImage G (ix4 b ch h w) := by
    intro G ch
    refine Finset.sum_congr rfl fun b _ => ?_
    rw [← sum_hw fun p => G (ix3 b p ch)]
    exact Finset.sum_congr rfl fun h _ => Finset.sum_congr rfl fun w _ => (toImage_apply G b ch h w).symm
  have hmean : meanK S1 = mean (pre a0 a1 a2) := by
    funext i
    obtain ⟨ch, rfl⟩ : ∃ ch : Fin 128, i = ix1 ch := ⟨i 0, eq_ix1 i⟩
    rw [meanK_apply, mean_apply, chanSum_apply, pre_eq_toImage, ← hsum, ← hOe]
    simp only [hS1]
  have hvar : varK S1 S2 = var (pre a0 a1 a2) := by
    funext i
    obtain ⟨ch, rfl⟩ : ∃ ch : Fin 128, i = ix1 ch := ⟨i 0, eq_ix1 i⟩
    have hsq : (∑ b : Fin 4, S2 (ix3 b (0 : Fin 1) ch))
        = ∑ b : Fin 4, ∑ h : Fin 64, ∑ w : Fin 64, pre a0 a1 a2 (ix4 b ch h w) * pre a0 a1 a2 (ix4 b ch h w) := by
      simp only [hS2]
      have hmm := hsum (mulf O O) ch
      simp only [mulf_apply] at hmm
      rw [hmm, pre_eq_toImage, ← hOe]
      exact Finset.sum_congr rfl fun b _ => Finset.sum_congr rfl fun h _ => Finset.sum_congr rfl fun w _ => by
        rw [toImage_apply, toImage_apply, mulf_apply]
    rw [varK_apply, hmean, msqK_apply, var_alt _ (pre_real' a0 a1 a2 h0 h1 h2), hsq]
  rw [ref_out_eq, ← hvar, ← hmean, ← himg]
  rfl

end Cert.LayerBridge

end
-- ==== Proof.LayerBridge.lean ====
/-
  The layer bridge stated over the edge kernel's own one-entry definitions: they are the same functions as the ones
  the bridge is proved over, so the statement carries over word for word.
-/
import proofs.«147048_j80771154968988_2_alg».proof.Proof.LayerCore
import proofs.«147048_j80771154968988_2_alg».proof.Proof.EdgeValue

noncomputable section

open scoped BigOperators

namespace Cert.LayerBridge

open Cert.ReferenceIdeal Cert.ReferenceIdeal.RefRun Cert.KernelIdeal.HostValue Cert.LibRealValued
open Idealize.ShloMosaic Idealize.ShloMosaic.ValueIdx

theorem dist2_edge : Cert.KernelIdeal.Edge.dist2 = dist2 := rfl
theorem incEntry_edge : Cert.KernelIdeal.Edge.incEntry = incEntry := rfl
theorem invDeg_edge : Cert.KernelIdeal.Edge.invDeg = guardRecip := rfl

/-- With x the input as [B, N, C], inc b p e the incidence entry of vertices p and e, and Z the literal zero: if
    E b p d = (Z + Σ_e inc b p e · ((Σ_f x b e f · W d f) + bias d)) · invDeg (Z + Σ_e inc b p e),
    O b p d = (Z + Σ_e inc b p e · E b e d) · invDeg (Z + Σ_e inc b p e) + x b p d,
    S1 b 0 d = Σ_p O b p d and S2 b 0 d = Σ_p O b p d², with real inputs,
    then the host tail over O, S1, S2 is the reference's result. -/
theorem layer_eq (a0 : FVec Ideal S4x128x64x64 .f32) (a1 : FVec Ideal S128x128 .f32) (a2 a3 a4 : FVec Ideal S128 .f32)
    (h0 : ∀ i, IsReal (a0 i)) (h1 : ∀ i, IsReal (a1 i)) (h2 : ∀ i, IsReal (a2 i))
    (E O : FVec Ideal S4x4096x128 .f32) (S1 S2 : FVec Ideal Cert.KernelIdeal.S4x1x128 .f32)
    (hE : ∀ (b : Fin 4) (p : Fin 4096) (d : Fin 128), E (ix3 b p d)
      = (Ideal.ofBits .f32 0x00000000#32
          + ∑ e : Fin 4096, Cert.KernelIdeal.Edge.incEntry (fun f => xfK a0 (ix3 b p f)) (fun f => xfK a0 (ix3 b e f))
              * ((∑ f : Fin 128, xfK a0 (ix3 b e f) * a1 (ix2 d f)) + a2 (ix1 d)))
        * Cert.KernelIdeal.Edge.invDeg (Ideal.ofBits .f32 0x00000000#32
            + ∑ e : Fin 4096, Cert.KernelIdeal.Edge.incEntry (fun f => xfK a0 (ix3 b p f)) (fun f => xfK a0 (ix3 b e f))))
    (hO : ∀ (b : Fin 4) (p : Fin 4096) (d : Fin 128), O (ix3 b p d)
      = (Ideal.ofBits .f32 0x00000000#32
          + ∑ e : Fin 4096, Cert.KernelIdeal.Edge.incEntry (fun f => xfK a0 (ix3 b p f)) (fun f => xfK a0 (ix3 b e f))
              * E (ix3 b e d))
        * Cert.KernelIdeal.Edge.invDeg (Ideal.ofBits .f32 0x00000000#32
            + ∑ e : Fin 4096, Cert.KernelIdeal.Edge.incEntry (fun f => xfK a0 (ix3 b p f)) (fun f => xfK a0 (ix3 b e f)))
        + xfK a0 (ix3 b p d))
    (hS1 : ∀ (b : Fin 4) (d : Fin 128), S1 (ix3 b (0 : Fin 1) d) = ∑ p : Fin 4096, O (ix3 b p d))
    (hS2 : ∀ (b : Fin 4) (d : Fin 128), S2 (ix3 b (0 : Fin 1) d) = ∑ p : Fin 4096, O (ix3 b p d) * O (ix3 b p d)) :
    tailOut O S1 S2 a3 a4 = RefRun.out a0 a1 a2 a3 a4 := by
  simp only [incEntry_edge, invDeg_edge] at hE hO
  exact layer_eq_core a0 a1 a2 a3 a4 h0 h1 h2 E O S1 S2 hE hO hS1 hS2

end Cert.LayerBridge

end
-- ==== Proof.KernelValue.lean ====
/-
  The kernel program's result as a function of its arguments, at the ideal values. The host prefix lays the feature map
  out as [batch, position, channel] and the bias as a row; the edge region's output and the vertex region's three
  outputs are the closed forms of their accumulations over those; the host suffix normalises and gates. Assembled here:
  the regions' outputs restated over the arguments, in the arrangement the layer bridge takes them.
-/
import proofs.«147048_j80771154968988_2_alg».proof.Proof.KernelRun
import proofs.«147048_j80771154968988_2_alg».proof.Proof.EdgeFinal
import proofs.«147048_j80771154968988_2_alg».proof.Proof.KernelHost
import proofs.«147048_j80771154968988_2_alg».proof.Proof.VertexAcc
import proofs.«147048_j80771154968988_2_alg».proof.Proof.LayerBridge

set_option maxRecDepth 16384

noncomputable section

namespace Cert.KernelIdeal.Result

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

abbrev a0 (c : Dev nD) : S4x128x64x64.Idx → EReal := m ((c.tc : Thread nD τ).loc main_arg0)
abbrev a1 (c : Dev nD) : S128x128.Idx → EReal := m ((c.tc : Thread nD τ).loc main_arg1)
abbrev a2 (c : Dev nD) : S128.Idx → EReal := m ((c.tc : Thread nD τ).loc main_arg2)
abbrev a3 (c : Dev nD) : S128.Idx → EReal := m ((c.tc : Thread nD τ).loc main_arg3)
abbrev a4 (c : Dev nD) : S128.Idx → EReal := m ((c.tc : Thread nD τ).loc main_arg4)
/-- The feature map as [batch, position, channel]. -/
abbrev xK (c : Dev nD) : S4x4096x128.Idx → EReal := HostValue.xfK (F := Ideal) (a0 m c)
/-- The incidence of two positions of a batch. -/
abbrev incK (c : Dev nD) (b : Fin 4) (p e : Fin 4096) : EReal := Edge.incEntry (fun f => xK m c (ix3 b p f)) (fun f => xK m c (ix3 b e f))

/-! ## What the edge region finds -/

theorem feat0 (c : Dev nD) : Edge.feat (Run.In0 m) c = xK m c := HostValue.head_v1_eq (Gen.V0 m c)
theorem wts0 (c : Dev nD) : Edge.wts (Run.In0 m) c = a1 m c := Gen.V1_of m c main_arg1 (by decide)
theorem bias0 (c : Dev nD) (d : Fin 128) : Edge.biasRow (Run.In0 m) c (ix2 (0 : Fin 1) d) = a2 m c (ix1 d) :=
  HostValue.head_v2_apply (Gen.V0 m c) d

/-- The edge region's output over the arguments. -/
theorem edge_form (c : Dev nD) (b : Fin 4) (p : Fin 4096) (d : Fin 128) :
    (Run.edgeOut m c : S4x4096x128.Idx → EReal) (ix3 b p d)
      = (Edge.Z + ∑ e : Fin 4096, incK m c b p e * ((∑ f : Fin 128, xK m c (ix3 b e f) * a1 m c (ix2 d f)) + a2 m c (ix1 d)))
          * Edge.invDeg (Edge.Z + ∑ e : Fin 4096, incK m c b p e) := by
  rw [show (Run.edgeOut m c : S4x4096x128.Idx → EReal) (ix3 b p d) = _ from Edge.edgeOut_apply (Run.In0 m) c b p d]
  unfold Edge.incB Edge.rowB Edge.projB
  rw [feat0, wts0]
  simp only [bias0]

/-! ## What the vertex region finds -/

theorem feat1 (c : Dev nD) : (Run.In1 m c main_v1 : S4x4096x128.Idx → EReal) = xK m c := by
  show Run.Mid m c main_v1 = _
  unfold Run.Mid
  rw [Function.update_of_ne (StableHlo.devRef_ne_of_ne (by decide : main_v1 ≠ main_v3))]
  exact HostValue.head_v1_eq (Gen.V0 m c)
theorem edge1 (c : Dev nD) : Run.In1 m c main_v3 = Run.edgeOut m c := by
  show Run.Mid m c main_v3 = _
  unfold Run.Mid
  exact Function.update_self ..

/-- The vertex region's main output over the arguments. -/
theorem vertex_form (c : Dev nD) (b : Fin 4) (p : Fin 4096) (d : Fin 128) :
    Vertex.arrOut (Run.In1 m) c (ix3 b p d)
      = (Edge.Z + ∑ e : Fin 4096, incK m c b p e * (Run.edgeOut m c : S4x4096x128.Idx → EReal) (ix3 b e d))
          * Edge.invDeg (Edge.Z + ∑ e : Fin 4096, incK m c b p e) + xK m c (ix3 b p d) := by
  rw [Vertex.vertOut_apply]
  unfold Vertex.incB Vertex.rowB Vertex.edgeFeat Vertex.feat
  rw [feat1, edge1]

/-! ## The result -/

theorem arg3_kept (c : Dev nD) : Gen.V3 m (Run.outs m) c main_arg3 = a3 m c :=
  (Gen.V3_of m (Run.outs m) c main_arg3 (by decide)).trans <| (Gen.V2_of m (Run.outs m) c main_arg3 (by decide)).trans <| (Gen.V1_of m c main_arg3 (by decide)).trans rfl
theorem arg4_kept (c : Dev nD) : Gen.V3 m (Run.outs m) c main_arg4 = a4 m c :=
  (Gen.V3_of m (Run.outs m) c main_arg4 (by decide)).trans <| (Gen.V2_of m (Run.outs m) c main_arg4 (by decide)).trans <| (Gen.V1_of m c main_arg4 (by decide)).trans rfl

open Cert.LibRealValued in
/-- When every argument entry is a real, the kernel program's result is the reference's function of the arguments. -/
theorem kernel_value (c : Dev nD) (h0 : ∀ i, IsReal (a0 m c i)) (h1 : ∀ i, IsReal (a1 m c i)) (h2 : ∀ i, IsReal (a2 m c i)) :
    Gen.V4 m (Run.outs m) c main_v38 = Cert.ReferenceIdeal.RefRun.out (F := Ideal) (a0 m c) (a1 m c) (a2 m c) (a3 m c) (a4 m c) := by
  show StableHlo.after hostOps2 (Gen.V3 m (Run.outs m) c) main_v38 = _
  rw [HostValue.tail_eq, Run.V3_v4_0, Run.V3_v4_1, Run.V3_v4_2, arg3_kept, arg4_kept]
  exact Cert.LayerBridge.layer_eq (a0 m c) (a1 m c) (a2 m c) (a3 m c) (a4 m c) h0 h1 h2
    (Run.edgeOut m c) (Vertex.arrOut (Run.In1 m) c) (Vertex.arrSum (Run.In1 m) c) (Vertex.arrSq (Run.In1 m) c)
    (edge_form m c) (vertex_form m c) (Vertex.vertSum_apply (Run.In1 m) c) (Vertex.vertSq_apply (Run.In1 m) c)

end Cert.KernelIdeal.Result

end
-- ==== Proof.lean ====
/-
  The certificate's five claims.
  The layer is a hypergraph message-passing step over a feature map of four batches of 4096 positions and 128 channels,
  followed by batch normalisation and a gated activation: two positions of a batch are incident when their squared
  distance is below 256; features go through a linear layer, are averaged over the positions incident to each
  hyperedge and again over the hyperedges incident to each position, and are added back onto the input.
  The kernel computes the incidence blockwise in two pipelined regions (hyperedge aggregation, then vertex aggregation
  with the channel sums and squared sums of the result), thresholds the squared distance itself, takes each degree as
  a row sum, and gets the variance as the mean square minus the squared mean; the reference materialises the incidence
  matrix, thresholds the distance (the square root of the clamped squared distance) against 16, takes the hyperedge
  degree as a column sum, and centres before squaring. On the extended reals the two agree: the threshold passes through
  the square root for every extended real, the incidence matrix is symmetric, sums may be taken in any grouping, and for
  real entries the two forms of the variance are one number — that last step is where finiteness of the inputs is used.
  The three frames: each kernel region's body is run case by case (first, inner, last column tile) and the regions are
  composed with the host operations around them; the reference is a straight host program with three calls inlined.
-/
import proofs.«147048_j80771154968988_2_alg».proof.Defs
import proofs.«147048_j80771154968988_2_alg».proof.Proof.Gen.Kernel
import proofs.«147048_j80771154968988_2_alg».proof.Proof.Gen.KernelIdeal
import proofs.«147048_j80771154968988_2_alg».proof.Proof.Gen.ReferenceIdeal
import proofs.«147048_j80771154968988_2_alg».proof.Proof.Gen.Pre_finite_inputs
import proofs.«147048_j80771154968988_2_alg».proof.Proof.WKernelRun
import proofs.«147048_j80771154968988_2_alg».proof.Proof.KernelValue
import proofs.«147048_j80771154968988_2_alg».proof.Proof.RefBridge

noncomputable section

namespace Cert.Proof

open Idealize.ShloMosaic Idealize.SL.Sem

/-- The word-level kernel program runs to the end and leaves its arguments as launched. -/
theorem frame_k : Cert.frame_Kernel := fun m ρ _ => Cert.Kernel.Run.frame (F := Bits) m ρ
/-- So does the idealized kernel program. -/
theorem frame_ki : Cert.frame_KernelIdeal := fun m ρ _ => Cert.KernelIdeal.Run.frame (F := Ideal) m ρ
/-- So does the idealized reference. -/
theorem frame_ri : Cert.frame_ReferenceIdeal := Cert.ReferenceIdeal.RefRun.frame_ri
/-- The ideal pass rewrote nothing. -/
theorem preserves : Cert.preserves_Kernel_KernelIdeal := trivial

/-- From memories agreeing on the arguments, both idealized programs end with the reference's function of the arguments
    in their result arrays. -/
theorem algebraic : Cert.algebraic_KernelIdeal_ReferenceIdeal := by
  intro m ρ m' ρ' hpre hagree
  refine ⟨fun c => Cert.ReferenceIdeal.RefRun.out (F := Ideal) (Cert.KernelIdeal.Result.a0 m c) (Cert.KernelIdeal.Result.a1 m c)
    (Cert.KernelIdeal.Result.a2 m c) (Cert.KernelIdeal.Result.a3 m c) (Cert.KernelIdeal.Result.a4 m c), ?_, ?_⟩
  · refine (θ_run Cert.KernelIdeal.defs _ _).mono (fun _ h c => ⟨(h c).1.trans ?_, (h c).2⟩)
      (Cert.KernelIdeal.Run.run_result (F := Ideal) m ρ)
    obtain ⟨h0, h1, h2, -, -⟩ := Cert.ReferenceIdeal.RefBridge.real_of_pre _ _ _ _ _ (hpre c)
    exact Cert.KernelIdeal.Result.kernel_value m c h0 h1 h2
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
